-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S102400x128 : Shape := ⟨2, ![102400, 128]⟩
abbrev S2x819200 : Shape := ⟨2, ![2, 819200]⟩
abbrev S102400 : Shape := ⟨1, ![102400]⟩
abbrev S64 : Shape := ⟨1, ![64]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S5 : Shape := ⟨1, ![5]⟩
abbrev S_ : Shape := ⟨0, ![]⟩

class Facts : Prop where
  bcast_S_S102400x128 : S_.BroadcastsInDim S102400x128 (![] : Fin 0 → Fin S102400x128.rank)
  reducesTo_S102400x128_S_d0_1 : S102400x128.ReducesTo [0, 1] S_
  h_S_ : 0 < S_.numel
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg8 : FVec F S5x128 .f32) (main_arg9 : FVec F S5 .f32) (main_v13 : IVec S_ 1) (main_v16 : IVec S5x256x128 1) : IVec S_ 1 :=
  let main_c_5 : IVec S_ 1 := constantI S_ 1 1#1
  let main_v17 : IVec S_ 1 := (fun x v => Host.reduce IntOp.andi x v reducesTo_S5x256x128_S_d0_1_2 h_S_) main_v16 main_c_5
  let main_v18 : IVec S_ 1 := andi main_v13 main_v17
  let main_v19 : FVec F S5x128 .f32 := Host.absf main_arg8
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5 .f32 := Host.absf main_arg9
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  main_v28

def fn {F : FTy → Type} [FloatOps F] (main_arg0 : FVec F S102400x128 .f32) (main_arg1 : IVec S2x819200 32) (main_arg2 : IVec S102400 32) (main_arg3 : IVec S102400 32) (main_arg4 : IVec S64 32) (main_arg5 : FVec F S5x128x256 .f32) (main_arg6 : FVec F S5x256 .f32) (main_arg7 : FVec F S5x256x128 .f32) (main_arg8 : FVec F S5x128 .f32) (main_arg9 : FVec F S5 .f32) : IVec S_ 1 :=
  let main_v0 : FVec F S102400x128 .f32 := Host.absf main_arg0
  let main_cst : FVec F S_ .f32 := constant S_ .f32 0x7F800000#32
  let main_v1 : FVec F S102400x128 .f32 := broadcastInDim S102400x128 ![] bcast_S_S102400x128 main_cst
  let main_v2 : IVec S102400x128 1 := cmpf .olt main_v0 main_v1
  let main_c : IVec S_ 1 := constantI S_ 1 1#1
  let main_v3 : IVec S_ 1 := (fun x v => Host.reduce IntOp.andi x v reducesTo_S102400x128_S_d0_1 h_S_) main_v2 main_c
  let main_v4 : FVec F S5x128x256 .f32 := Host.absf main_arg5
  let main_cst_0 : FVec F S_ .f32 := constant S_ .f32 0x7F800000#32
  let main_v5 : FVec F S5x128x256 .f32 := broadcastInDim S5x128x256 ![] bcast_S_S5x128x256 main_cst_0
  let main_v6 : IVec S5x128x256 1 := cmpf .olt main_v4 main_v5
  let main_c_1 : IVec S_ 1 := constantI S_ 1 1#1
  let main_v7 : IVec S_ 1 := (fun x v => Host.reduce IntOp.andi x v reducesTo_S5x128x256_S_d0_1_2 h_S_) main_v6 main_c_1
  let main_v8 : IVec S_ 1 := andi main_v3 main_v7
  let main_v9 : FVec F S5x256 .f32 := Host.absf main_arg6
  let main_cst_2 : FVec F S_ .f32 := constant S_ .f32 0x7F800000#32
  let main_v10 : FVec F S5x256 .f32 := broadcastInDim S5x256 ![] bcast_S_S5x256 main_cst_2
  let main_v11 : IVec S5x256 1 := cmpf .olt main_v9 main_v10
  let main_c_3 : IVec S_ 1 := constantI S_ 1 1#1
  let main_v12 : IVec S_ 1 := (fun x v => Host.reduce IntOp.andi x v reducesTo_S5x256_S_d0_1 h_S_) main_v11 main_c_3
  let main_v13 : IVec S_ 1 := andi main_v8 main_v12
  let main_v14 : FVec F S5x256x128 .f32 := Host.absf main_arg7
  let main_cst_4 : FVec F S_ .f32 := constant S_ .f32 0x7F800000#32
  let main_v15 : FVec F S5x256x128 .f32 := broadcastInDim S5x256x128 ![] bcast_S_S5x256x128 main_cst_4
  let main_v16 : IVec S5x256x128 1 := cmpf .olt main_v14 main_v15
  fn_part1 (F := F) main_arg8 main_arg9 main_v13 main_v16
-- ==== Kernel.lean ====
abbrev S102400x128 : Shape := ⟨2, ![102400, 128]⟩
abbrev S2x819200 : Shape := ⟨2, ![2, 819200]⟩
abbrev S102400 : Shape := ⟨1, ![102400]⟩
abbrev S64 : Shape := ⟨1, ![64]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S5 : Shape := ⟨1, ![5]⟩
abbrev S1x819200 : Shape := ⟨2, ![1, 819200]⟩
abbrev S819200 : Shape := ⟨1, ![819200]⟩
abbrev S_ : Shape := ⟨0, ![]⟩
abbrev S819200x1 : Shape := ⟨2, ![819200, 1]⟩
abbrev S819200x128 : Shape := ⟨2, ![819200, 128]⟩
abbrev S1 : Shape := ⟨1, ![1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x1 : Shape := ⟨2, ![1, 1]⟩
abbrev S2048x128 : Shape := ⟨2, ![2048, 128]⟩
abbrev S2048x256 : Shape := ⟨2, ![2048, 256]⟩
abbrev S65 : Shape := ⟨1, ![65]⟩
abbrev S102400x1 : Shape := ⟨2, ![102400, 1]⟩
abbrev S1024 : Shape := ⟨1, ![1024]⟩
abbrev S1x1024 : Shape := ⟨2, ![1, 1024]⟩
abbrev S1024x128 : Shape := ⟨2, ![1024, 128]⟩
abbrev S1024x1 : Shape := ⟨2, ![1024, 1]⟩
abbrev S1024x1024 : Shape := ⟨2, ![1024, 1024]⟩

abbrev nBuf : Space → Nat
  | .hbm => 183
  | .vmem => 61
  | .smem => 0
  | _ => 0

abbrev hbmTy0_0 (i : Nat) : BufTy := match i % 128 with
  | 0 => ⟨S102400x128, .f32⟩
  | 1 => ⟨S2x819200, .i32⟩
  | 2 => ⟨S102400, .i32⟩
  | 3 => ⟨S102400, .i32⟩
  | 4 => ⟨S64, .i32⟩
  | 5 => ⟨S5x128x256, .f32⟩
  | 6 => ⟨S5x256, .f32⟩
  | 7 => ⟨S5x256x128, .f32⟩
  | 8 => ⟨S5x128, .f32⟩
  | 9 => ⟨S5, .f32⟩
  | 10 => ⟨S1x819200, .i32⟩
  | 11 => ⟨S819200, .i32⟩
  | 12 => ⟨S1x819200, .i32⟩
  | 13 => ⟨S819200, .i32⟩
  | 14 => ⟨S_, .f32⟩
  | 15 => ⟨S5, .f32⟩
  | 16 => ⟨S5, .f32⟩
  | 17 => ⟨S_, .i32⟩
  | 18 => ⟨S819200, .i32⟩
  | 19 => ⟨S819200, .i1⟩
  | 20 => ⟨S_, .i32⟩
  | 21 => ⟨S819200, .i32⟩
  | 22 => ⟨S819200, .i32⟩
  | 23 => ⟨S819200, .i32⟩
  | 24 => ⟨S819200x1, .i32⟩
  | 25 => ⟨S819200x128, .f32⟩
  | 26 => ⟨S_, .f32⟩
  | 27 => ⟨S102400x128, .f32⟩
  | 28 => ⟨S819200x1, .i32⟩
  | 29 => ⟨S102400x128, .f32⟩
  | 30 => ⟨S1, .f32⟩
  | 31 => ⟨S_, .f32⟩
  | 32 => ⟨S1x128x256, .f32⟩
  | 33 => ⟨S128x256, .f32⟩
  | 34 => ⟨S1x256, .f32⟩
  | 35 => ⟨S256, .f32⟩
  | 36 => ⟨S1x256x128, .f32⟩
  | 37 => ⟨S256x128, .f32⟩
  | 38 => ⟨S1x128, .f32⟩
  | 39 => ⟨S128, .f32⟩
  | 40 => ⟨S1x1, .f32⟩
  | 41 => ⟨S1x256, .f32⟩
  | 42 => ⟨S1x128, .f32⟩
  | 43 => ⟨S102400x128, .f32⟩
  | 44 => ⟨S_, .i32⟩
  | 45 => ⟨S819200, .i32⟩
  | 46 => ⟨S819200, .i1⟩
  | 47 => ⟨S_, .i32⟩
  | 48 => ⟨S819200, .i32⟩
  | 49 => ⟨S819200, .i32⟩
  | 50 => ⟨S819200, .i32⟩
  | 51 => ⟨S819200x1, .i32⟩
  | 52 => ⟨S819200x128, .f32⟩
  | 53 => ⟨S_, .f32⟩
  | 54 => ⟨S102400x128, .f32⟩
  | 55 => ⟨S819200x1, .i32⟩
  | 56 => ⟨S102400x128, .f32⟩
  | 57 => ⟨S1, .f32⟩
  | 58 => ⟨S_, .f32⟩
  | 59 => ⟨S1x128x256, .f32⟩
  | 60 => ⟨S128x256, .f32⟩
  | 61 => ⟨S1x256, .f32⟩
  | 62 => ⟨S256, .f32⟩
  | 63 => ⟨S1x256x128, .f32⟩
  | 64 => ⟨S256x128, .f32⟩
  | 65 => ⟨S1x128, .f32⟩
  | 66 => ⟨S128, .f32⟩
  | 67 => ⟨S1x1, .f32⟩
  | 68 => ⟨S1x256, .f32⟩
  | 69 => ⟨S1x128, .f32⟩
  | 70 => ⟨S102400x128, .f32⟩
  | 71 => ⟨S_, .i32⟩
  | 72 => ⟨S819200, .i32⟩
  | 73 => ⟨S819200, .i1⟩
  | 74 => ⟨S_, .i32⟩
  | 75 => ⟨S819200, .i32⟩
  | 76 => ⟨S819200, .i32⟩
  | 77 => ⟨S819200, .i32⟩
  | 78 => ⟨S819200x1, .i32⟩
  | 79 => ⟨S819200x128, .f32⟩
  | 80 => ⟨S_, .f32⟩
  | 81 => ⟨S102400x128, .f32⟩
  | 82 => ⟨S819200x1, .i32⟩
  | 83 => ⟨S102400x128, .f32⟩
  | 84 => ⟨S1, .f32⟩
  | 85 => ⟨S_, .f32⟩
  | 86 => ⟨S1x128x256, .f32⟩
  | 87 => ⟨S128x256, .f32⟩
  | 88 => ⟨S1x256, .f32⟩
  | 89 => ⟨S256, .f32⟩
  | 90 => ⟨S1x256x128, .f32⟩
  | 91 => ⟨S256x128, .f32⟩
  | 92 => ⟨S1x128, .f32⟩
  | 93 => ⟨S128, .f32⟩
  | 94 => ⟨S1x1, .f32⟩
  | 95 => ⟨S1x256, .f32⟩
  | 96 => ⟨S1x128, .f32⟩
  | 97 => ⟨S102400x128, .f32⟩
  | 98 => ⟨S_, .i32⟩
  | 99 => ⟨S819200, .i32⟩
  | 100 => ⟨S819200, .i1⟩
  | 101 => ⟨S_, .i32⟩
  | 102 => ⟨S819200, .i32⟩
  | 103 => ⟨S819200, .i32⟩
  | 104 => ⟨S819200, .i32⟩
  | 105 => ⟨S819200x1, .i32⟩
  | 106 => ⟨S819200x128, .f32⟩
  | 107 => ⟨S_, .f32⟩
  | 108 => ⟨S102400x128, .f32⟩
  | 109 => ⟨S819200x1, .i32⟩
  | 110 => ⟨S102400x128, .f32⟩
  | 111 => ⟨S1, .f32⟩
  | 112 => ⟨S_, .f32⟩
  | 113 => ⟨S1x128x256, .f32⟩
  | 114 => ⟨S128x256, .f32⟩
  | 115 => ⟨S1x256, .f32⟩
  | 116 => ⟨S256, .f32⟩
  | 117 => ⟨S1x256x128, .f32⟩
  | 118 => ⟨S256x128, .f32⟩
  | 119 => ⟨S1x128, .f32⟩
  | 120 => ⟨S128, .f32⟩
  | 121 => ⟨S1x1, .f32⟩
  | 122 => ⟨S1x256, .f32⟩
  | 123 => ⟨S1x128, .f32⟩
  | 124 => ⟨S102400x128, .f32⟩
  | 125 => ⟨S_, .i32⟩
  | 126 => ⟨S819200, .i32⟩
  | 127 => ⟨S819200, .i1⟩
  | _ => ⟨S102400x128, .f32⟩

abbrev hbmTy0_1 (i : Nat) : BufTy := match i % 128 with
  | 0 => ⟨S_, .i32⟩
  | 1 => ⟨S819200, .i32⟩
  | 2 => ⟨S819200, .i32⟩
  | 3 => ⟨S819200, .i32⟩
  | 4 => ⟨S819200x1, .i32⟩
  | 5 => ⟨S819200x128, .f32⟩
  | 6 => ⟨S_, .f32⟩
  | 7 => ⟨S102400x128, .f32⟩
  | 8 => ⟨S819200x1, .i32⟩
  | 9 => ⟨S102400x128, .f32⟩
  | 10 => ⟨S1, .f32⟩
  | 11 => ⟨S_, .f32⟩
  | 12 => ⟨S1x128x256, .f32⟩
  | 13 => ⟨S128x256, .f32⟩
  | 14 => ⟨S1x256, .f32⟩
  | 15 => ⟨S256, .f32⟩
  | 16 => ⟨S1x256x128, .f32⟩
  | 17 => ⟨S256x128, .f32⟩
  | 18 => ⟨S1x128, .f32⟩
  | 19 => ⟨S128, .f32⟩
  | 20 => ⟨S1x1, .f32⟩
  | 21 => ⟨S1x256, .f32⟩
  | 22 => ⟨S1x128, .f32⟩
  | 23 => ⟨S102400x128, .f32⟩
  | 24 => ⟨S_, .i32⟩
  | 25 => ⟨S1, .i32⟩
  | 26 => ⟨S_, .i32⟩
  | 27 => ⟨S_, .i32⟩
  | 28 => ⟨S64, .i32⟩
  | 29 => ⟨S65, .i32⟩
  | 30 => ⟨S_, .i32⟩
  | 31 => ⟨S102400, .i32⟩
  | 32 => ⟨S102400, .i1⟩
  | 33 => ⟨S_, .i32⟩
  | 34 => ⟨S102400, .i32⟩
  | 35 => ⟨S102400, .i32⟩
  | 36 => ⟨S102400, .i32⟩
  | 37 => ⟨S102400x1, .i32⟩
  | 38 => ⟨S102400, .i32⟩
  | 39 => ⟨S102400, .i32⟩
  | 40 => ⟨S102400x1, .i32⟩
  | 41 => ⟨S1024, .i32⟩
  | 42 => ⟨S1x1024, .i32⟩
  | 43 => ⟨S1024x128, .f32⟩
  | 44 => ⟨S_, .f32⟩
  | 45 => ⟨S102400x1, .f32⟩
  | 46 => ⟨S_, .f32⟩
  | 47 => ⟨S1024x1, .f32⟩
  | 48 => ⟨S102400x1, .i32⟩
  | 49 => ⟨S1024x1, .f32⟩
  | 50 => ⟨S_, .f32⟩
  | 51 => ⟨S1024x1, .f32⟩
  | 52 => ⟨S1024x1, .f32⟩
  | 53 => ⟨S1024x128, .f32⟩
  | 54 => ⟨S1024x128, .f32⟩
  | _ => ⟨S102400x128, .f32⟩

abbrev hbmTy (i : Nat) : BufTy := match i / 128 with
  | 0 => hbmTy0_0 i
  | 1 => hbmTy0_1 i
  | _ => ⟨S102400x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1, .f32⟩
  | .local _ .vmem, ⟨5, _⟩ => ⟨S128x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S1x1, .f32⟩
  | .local _ .vmem, ⟨16, _⟩ => ⟨S128x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S1x1, .f32⟩
  | .local _ .vmem, ⟨27, _⟩ => ⟨S128x256, .f32⟩
  | .local _ .vmem, ⟨28, _⟩ => ⟨S1x256, .f32⟩
  | .local _ .vmem, ⟨29, _⟩ => ⟨S256x128, .f32⟩
  | .local _ .vmem, ⟨30, _⟩ => ⟨S1x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S1x1, .f32⟩
  | .local _ .vmem, ⟨38, _⟩ => ⟨S128x256, .f32⟩
  | .local _ .vmem, ⟨39, _⟩ => ⟨S1x256, .f32⟩
  | .local _ .vmem, ⟨40, _⟩ => ⟨S256x128, .f32⟩
  | .local _ .vmem, ⟨41, _⟩ => ⟨S1x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S2048x128, .f32⟩
  | .local _ .vmem, ⟨46, _⟩ => ⟨S2048x128, .f32⟩
  | .local _ .vmem, ⟨47, _⟩ => ⟨S2048x128, .f32⟩
  | .local _ .vmem, ⟨48, _⟩ => ⟨S1x1, .f32⟩
  | .local _ .vmem, ⟨49, _⟩ => ⟨S128x256, .f32⟩
  | .local _ .vmem, ⟨50, _⟩ => ⟨S1x256, .f32⟩
  | .local _ .vmem, ⟨51, _⟩ => ⟨S256x128, .f32⟩
  | .local _ .vmem, ⟨52, _⟩ => ⟨S1x128, .f32⟩
  | .local _ .vmem, ⟨53, _⟩ => ⟨S2048x128, .f32⟩
  | .local _ .vmem, ⟨54, _⟩ => ⟨S2048x128, .f32⟩
  | .local _ .vmem, ⟨55, _⟩ => ⟨S1024x128, .f32⟩
  | .local _ .vmem, ⟨56, _⟩ => ⟨S1024x128, .f32⟩
  | .local _ .vmem, ⟨57, _⟩ => ⟨S1024x1, .i32⟩
  | .local _ .vmem, ⟨58, _⟩ => ⟨S1024x1, .i32⟩
  | .local _ .vmem, ⟨59, _⟩ => ⟨S1x1024, .i32⟩
  | .local _ .vmem, ⟨60, _⟩ => ⟨S1024x128, .f32⟩
  | _, _ => ⟨S102400x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_2 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_5 : Ref sig .tc := ⟨.hbm, 71, rfl⟩
abbrev main_v54 : Ref sig .tc := ⟨.hbm, 72, rfl⟩
abbrev main_v55 : Ref sig .tc := ⟨.hbm, 73, rfl⟩
abbrev main_c_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_8 : Ref sig .tc := ⟨.hbm, 98, rfl⟩
abbrev main_v78 : Ref sig .tc := ⟨.hbm, 99, rfl⟩
abbrev main_v79 : Ref sig .tc := ⟨.hbm, 100, rfl⟩
abbrev main_c_9 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_10 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_c_11 : Ref sig .tc := ⟨.hbm, 125, rfl⟩
abbrev main_v102 : Ref sig .tc := ⟨.hbm, 126, rfl⟩
abbrev main_v103 : Ref sig .tc := ⟨.hbm, 127, rfl⟩
abbrev main_c_12 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_13 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_c_14 : Ref sig .tc := ⟨.hbm, 152, rfl⟩
abbrev main_v126 : Ref sig .tc := ⟨.hbm, 153, rfl⟩
abbrev main_call0_call0_c : Ref sig .tc := ⟨.hbm, 154, rfl⟩
abbrev main_call0_call0_v0 : Ref sig .tc := ⟨.hbm, 155, rfl⟩
abbrev main_v127 : Ref sig .tc := ⟨.hbm, 156, rfl⟩
abbrev main_v128 : Ref sig .tc := ⟨.hbm, 157, rfl⟩
abbrev main_c_15 : Ref sig .tc := ⟨.hbm, 158, rfl⟩
abbrev main_v129 : Ref sig .tc := ⟨.hbm, 159, rfl⟩
abbrev main_v130 : Ref sig .tc := ⟨.hbm, 160, rfl⟩
abbrev main_c_16 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_17 : Ref sig .tc := ⟨.hbm, 172, rfl⟩
abbrev main_v141 : Ref sig .tc := ⟨.hbm, 173, rfl⟩
abbrev main_cst_18 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_19 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2048x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2048x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1024 .i32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x819200_S1x819200_0_0 : S2x819200.Slices ![0, 0] S1x819200
  shapeCasts_S1x819200_S819200 : S1x819200.ShapeCasts S819200
  slices_S2x819200_S1x819200_1_0 : S2x819200.Slices ![1, 0] S1x819200
  bcast_S_S5 : S_.BroadcastsInDim S5 (![] : Fin 0 → Fin S5.rank)
  bcast_S_S819200 : S_.BroadcastsInDim S819200 (![] : Fin 0 → Fin S819200.rank)
  bcast_S819200_S819200x1_0 : S819200.BroadcastsInDim S819200x1 (![0] : Fin 1 → Fin S819200x1.rank)
  bcast_S_S102400x128 : S_.BroadcastsInDim S102400x128 (![] : Fin 0 → Fin S102400x128.rank)
  slices_S5_S1_0 : S5.Slices ![0] S1
  shapeCasts_S1_S_ : S1.ShapeCasts S_
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  shapeCasts_S_S1x1 : S_.ShapeCasts S1x1
  shapeCasts_S256_S1x256 : S256.ShapeCasts S1x256
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x128_S2048x128_0_0 : ∀ a, (![0, 0] : Fin 2 → Nat) a + S2048x128.size a ≤ S2048x128.size a
  h_S2048x128 : 0 < S2048x128.numel
  broadcasts_S1x1_S2048x128 : S1x1.Broadcasts S2048x128
  shapeCasts_S2048x128_S2048x128 : S2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  concatenates_S1_S64_S65_d0 : Shape.Concatenates [S1, S64] S65 0
  bcast_S_S102400 : S_.BroadcastsInDim S102400 (![] : Fin 0 → Fin S102400.rank)
  bcast_S102400_S102400x1_0 : S102400.BroadcastsInDim S102400x1 (![0] : Fin 1 → Fin S102400x1.rank)
  shapeCasts_S102400_S102400x1 : S102400.ShapeCasts S102400x1
  shapeCasts_S1024_S1x1024 : S1024.ShapeCasts S1x1024
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  shapeCasts_S1024x128_S1024x128 : S1024x128.ShapeCasts S1024x128
  bcast_S_S102400x1 : S_.BroadcastsInDim S102400x1 (![] : Fin 0 → Fin S102400x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  gather_S102400x128_S819200x1_S819200x128_1_0_n_n_0_1_1128_wf : GatherDims.WF S102400x128 S819200x1 S819200x128 [1] [0] [] [0] [] 1 ![1, 128]
  scatter_S102400x128_S819200x1_S819200x128_1_0_0_1_wf : ScatterDims.WF S102400x128 S819200x1 S819200x128 [1] [0] [0] 1
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  gather_S65_S102400x1_S102400_n_0_n_n_0_1_1_wf : GatherDims.WF S65 S102400x1 S102400 [] [0] [] [0] [] 1 ![1]
  dot_S1024x1024_S1024x128_S1024x128_0_0_1_1_n_n_wf : DotDims.WF S1024x1024 S1024x128 S1024x128 [0] [0] [1] [1] [] []
  scatter_S1024x1_S102400x1_S102400x1_1_0_0_1_wf : ScatterDims.WF S1024x1 S102400x1 S102400x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S102400x128.size a
  hwx0_0 : ∀ i : grid0.Coords, EltTy.bits .f32 = 32 ∨ (Rect.block (s := S102400x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S102400x128.size a
  hwx0_1 : ∀ i : grid0.Coords, EltTy.bits .f32 = 32 ∨ (Rect.block (s := S102400x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S102400x128.size a
  hwx0_7 : ∀ i : grid0.Coords, EltTy.bits .f32 = 32 ∨ (Rect.block (s := S102400x128) S2048x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S102400x128.size a
  hwx1_0 : ∀ i : grid1.Coords, EltTy.bits .f32 = 32 ∨ (Rect.block (s := S102400x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S102400x128.size a
  hwx1_1 : ∀ i : grid1.Coords, EltTy.bits .f32 = 32 ∨ (Rect.block (s := S102400x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S102400x128.size a
  hwx1_7 : ∀ i : grid1.Coords, EltTy.bits .f32 = 32 ∨ (Rect.block (s := S102400x128) S2048x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S102400x128.size a
  hwx2_0 : ∀ i : grid2.Coords, EltTy.bits .f32 = 32 ∨ (Rect.block (s := S102400x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S102400x128.size a
  hwx2_1 : ∀ i : grid2.Coords, EltTy.bits .f32 = 32 ∨ (Rect.block (s := S102400x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x128.size a ≤ S102400x128.size a
  hwx2_7 : ∀ i : grid2.Coords, EltTy.bits .f32 = 32 ∨ (Rect.block (s := S102400x128) S2048x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S102400x128.size a
  hwx3_0 : ∀ i : grid3.Coords, EltTy.bits .f32 = 32 ∨ (Rect.block (s := S102400x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S102400x128.size a
  hwx3_1 : ∀ i : grid3.Coords, EltTy.bits .f32 = 32 ∨ (Rect.block (s := S102400x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x128.size a ≤ S102400x128.size a
  hwx3_7 : ∀ i : grid3.Coords, EltTy.bits .f32 = 32 ∨ (Rect.block (s := S102400x128) S2048x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S102400x128.size a
  hwx4_0 : ∀ i : grid4.Coords, EltTy.bits .f32 = 32 ∨ (Rect.block (s := S102400x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S102400x128.size a
  hwx4_1 : ∀ i : grid4.Coords, EltTy.bits .f32 = 32 ∨ (Rect.block (s := S102400x128) S2048x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .f32 = 32 ∨ (Rect.block (s := S256x128) S256x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2048x128.size a ≤ S102400x128.size a
  hwx4_7 : ∀ i : grid4.Coords, EltTy.bits .f32 = 32 ∨ (Rect.block (s := S102400x128) S2048x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S102400x128.size a
  hwx5_0 : ∀ i : grid5.Coords, EltTy.bits .f32 = 32 ∨ (Rect.block (s := S102400x128) S1024x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1.size a ≤ S102400x1.size a
  hwx5_1 : ∀ i : grid5.Coords, EltTy.bits .i32 = 32 ∨ (Rect.block (s := S102400x1) S1024x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .i32 = 32 ∨ (Rect.block (s := S1x1024) S1x1024.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S1024x128.size a
  hwx5_3 : ∀ i : grid5.Coords, EltTy.bits .f32 = 32 ∨ (Rect.block (s := S1024x128) S1024x128.size (cc5_transform_3 i) (hinb5_3 i)).WholeWords (EltTy.packing .f32)

variable [Facts₀]

def gather_S102400x128_S819200x1_S819200x128_1_0_n_n_0_1_1128 : GatherDims S102400x128 S819200x1 S819200x128 where
  offsetDims := [1]
  collapsedSliceDims := [0]
  operandBatchingDims := []
  startIndicesBatchingDims := []
  startIndexMap := [0]
  indexVectorDim := 1
  sliceSizes := ![1, 128]
  wf := gather_S102400x128_S819200x1_S819200x128_1_0_n_n_0_1_1128_wf
def scatter_S102400x128_S819200x1_S819200x128_1_0_0_1 : ScatterDims S102400x128 S819200x1 S819200x128 where
  updateWindowDims := [1]
  insertedWindowDims := [0]
  scatterDimsToOperandDims := [0]
  indexVectorDim := 1
  wf := scatter_S102400x128_S819200x1_S819200x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S65_S102400x1_S102400_n_0_n_n_0_1_1 : GatherDims S65 S102400x1 S102400 where
  offsetDims := []
  collapsedSliceDims := [0]
  operandBatchingDims := []
  startIndicesBatchingDims := []
  startIndexMap := [0]
  indexVectorDim := 1
  sliceSizes := ![1]
  wf := gather_S65_S102400x1_S102400_n_0_n_n_0_1_1_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def scatter_S1024x1_S102400x1_S102400x1_1_0_0_1 : ScatterDims S1024x1 S102400x1 S102400x1 where
  updateWindowDims := [1]
  insertedWindowDims := [0]
  scatterDimsToOperandDims := [0]
  indexVectorDim := 1
  wf := scatter_S1024x1_S102400x1_S102400x1_1_0_0_1_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v29) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v53) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v77) S2048x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v77) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v100) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v101) S2048x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v101) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v122) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v123) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v119) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v124) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v125) S2048x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v125) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v137) S1024x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v139) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v140) S1024x128.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S102400x128 : Shape := ⟨2, ![102400, 128]⟩
abbrev S2x819200 : Shape := ⟨2, ![2, 819200]⟩
abbrev S102400 : Shape := ⟨1, ![102400]⟩
abbrev S64 : Shape := ⟨1, ![64]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S5 : Shape := ⟨1, ![5]⟩
abbrev S1x819200 : Shape := ⟨2, ![1, 819200]⟩
abbrev S819200 : Shape := ⟨1, ![819200]⟩
abbrev S_ : Shape := ⟨0, ![]⟩
abbrev S819200x1 : Shape := ⟨2, ![819200, 1]⟩
abbrev S819200x128 : Shape := ⟨2, ![819200, 128]⟩
abbrev S1 : Shape := ⟨1, ![1]⟩
abbrev S1x128x256 : Shape := ⟨3, ![1, 128, 256]⟩
abbrev S128x256 : Shape := ⟨2, ![128, 256]⟩
abbrev S102400x256 : Shape := ⟨2, ![102400, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S65 : Shape := ⟨1, ![65]⟩
abbrev S102400x1 : Shape := ⟨2, ![102400, 1]⟩
abbrev S1024x128 : Shape := ⟨2, ![1024, 128]⟩
abbrev S1024x1 : Shape := ⟨2, ![1024, 1]⟩

abbrev nBuf : Space → Nat
  | .hbm => 252
  | .vmem => 0
  | .smem => 0
  | _ => 0

abbrev hbmTy0_0 (i : Nat) : BufTy := match i % 128 with
  | 0 => ⟨S102400x128, .f32⟩
  | 1 => ⟨S2x819200, .i32⟩
  | 2 => ⟨S102400, .i32⟩
  | 3 => ⟨S102400, .i32⟩
  | 4 => ⟨S64, .i32⟩
  | 5 => ⟨S5x128x256, .f32⟩
  | 6 => ⟨S5x256, .f32⟩
  | 7 => ⟨S5x256x128, .f32⟩
  | 8 => ⟨S5x128, .f32⟩
  | 9 => ⟨S5, .f32⟩
  | 10 => ⟨S1x819200, .i32⟩
  | 11 => ⟨S819200, .i32⟩
  | 12 => ⟨S1x819200, .i32⟩
  | 13 => ⟨S819200, .i32⟩
  | 14 => ⟨S_, .i32⟩
  | 15 => ⟨S819200, .i32⟩
  | 16 => ⟨S819200, .i1⟩
  | 17 => ⟨S_, .i32⟩
  | 18 => ⟨S819200, .i32⟩
  | 19 => ⟨S819200, .i32⟩
  | 20 => ⟨S819200, .i32⟩
  | 21 => ⟨S819200x1, .i32⟩
  | 22 => ⟨S819200x128, .f32⟩
  | 23 => ⟨S_, .f32⟩
  | 24 => ⟨S102400x128, .f32⟩
  | 25 => ⟨S819200x1, .i32⟩
  | 26 => ⟨S102400x128, .f32⟩
  | 27 => ⟨S1, .f32⟩
  | 28 => ⟨S_, .f32⟩
  | 29 => ⟨S_, .f32⟩
  | 30 => ⟨S_, .f32⟩
  | 31 => ⟨S102400x128, .f32⟩
  | 32 => ⟨S102400x128, .f32⟩
  | 33 => ⟨S102400x128, .f32⟩
  | 34 => ⟨S1x128x256, .f32⟩
  | 35 => ⟨S128x256, .f32⟩
  | 36 => ⟨S102400x256, .f32⟩
  | 37 => ⟨S1x256, .f32⟩
  | 38 => ⟨S256, .f32⟩
  | 39 => ⟨S1x256, .f32⟩
  | 40 => ⟨S102400x256, .f32⟩
  | 41 => ⟨S102400x256, .f32⟩
  | 42 => ⟨S_, .f32⟩
  | 43 => ⟨S102400x256, .f32⟩
  | 44 => ⟨S102400x256, .f32⟩
  | 45 => ⟨S1x256x128, .f32⟩
  | 46 => ⟨S256x128, .f32⟩
  | 47 => ⟨S102400x128, .f32⟩
  | 48 => ⟨S1x128, .f32⟩
  | 49 => ⟨S128, .f32⟩
  | 50 => ⟨S1x128, .f32⟩
  | 51 => ⟨S102400x128, .f32⟩
  | 52 => ⟨S102400x128, .f32⟩
  | 53 => ⟨S_, .f32⟩
  | 54 => ⟨S102400x128, .f32⟩
  | 55 => ⟨S102400x128, .f32⟩
  | 56 => ⟨S_, .i32⟩
  | 57 => ⟨S819200, .i32⟩
  | 58 => ⟨S819200, .i1⟩
  | 59 => ⟨S_, .i32⟩
  | 60 => ⟨S819200, .i32⟩
  | 61 => ⟨S819200, .i32⟩
  | 62 => ⟨S819200, .i32⟩
  | 63 => ⟨S819200x1, .i32⟩
  | 64 => ⟨S819200x128, .f32⟩
  | 65 => ⟨S_, .f32⟩
  | 66 => ⟨S102400x128, .f32⟩
  | 67 => ⟨S819200x1, .i32⟩
  | 68 => ⟨S102400x128, .f32⟩
  | 69 => ⟨S1, .f32⟩
  | 70 => ⟨S_, .f32⟩
  | 71 => ⟨S_, .f32⟩
  | 72 => ⟨S_, .f32⟩
  | 73 => ⟨S102400x128, .f32⟩
  | 74 => ⟨S102400x128, .f32⟩
  | 75 => ⟨S102400x128, .f32⟩
  | 76 => ⟨S1x128x256, .f32⟩
  | 77 => ⟨S128x256, .f32⟩
  | 78 => ⟨S102400x256, .f32⟩
  | 79 => ⟨S1x256, .f32⟩
  | 80 => ⟨S256, .f32⟩
  | 81 => ⟨S1x256, .f32⟩
  | 82 => ⟨S102400x256, .f32⟩
  | 83 => ⟨S102400x256, .f32⟩
  | 84 => ⟨S_, .f32⟩
  | 85 => ⟨S102400x256, .f32⟩
  | 86 => ⟨S102400x256, .f32⟩
  | 87 => ⟨S1x256x128, .f32⟩
  | 88 => ⟨S256x128, .f32⟩
  | 89 => ⟨S102400x128, .f32⟩
  | 90 => ⟨S1x128, .f32⟩
  | 91 => ⟨S128, .f32⟩
  | 92 => ⟨S1x128, .f32⟩
  | 93 => ⟨S102400x128, .f32⟩
  | 94 => ⟨S102400x128, .f32⟩
  | 95 => ⟨S_, .f32⟩
  | 96 => ⟨S102400x128, .f32⟩
  | 97 => ⟨S102400x128, .f32⟩
  | 98 => ⟨S_, .i32⟩
  | 99 => ⟨S819200, .i32⟩
  | 100 => ⟨S819200, .i1⟩
  | 101 => ⟨S_, .i32⟩
  | 102 => ⟨S819200, .i32⟩
  | 103 => ⟨S819200, .i32⟩
  | 104 => ⟨S819200, .i32⟩
  | 105 => ⟨S819200x1, .i32⟩
  | 106 => ⟨S819200x128, .f32⟩
  | 107 => ⟨S_, .f32⟩
  | 108 => ⟨S102400x128, .f32⟩
  | 109 => ⟨S819200x1, .i32⟩
  | 110 => ⟨S102400x128, .f32⟩
  | 111 => ⟨S1, .f32⟩
  | 112 => ⟨S_, .f32⟩
  | 113 => ⟨S_, .f32⟩
  | 114 => ⟨S_, .f32⟩
  | 115 => ⟨S102400x128, .f32⟩
  | 116 => ⟨S102400x128, .f32⟩
  | 117 => ⟨S102400x128, .f32⟩
  | 118 => ⟨S1x128x256, .f32⟩
  | 119 => ⟨S128x256, .f32⟩
  | 120 => ⟨S102400x256, .f32⟩
  | 121 => ⟨S1x256, .f32⟩
  | 122 => ⟨S256, .f32⟩
  | 123 => ⟨S1x256, .f32⟩
  | 124 => ⟨S102400x256, .f32⟩
  | 125 => ⟨S102400x256, .f32⟩
  | 126 => ⟨S_, .f32⟩
  | 127 => ⟨S102400x256, .f32⟩
  | _ => ⟨S102400x128, .f32⟩

abbrev hbmTy0_1 (i : Nat) : BufTy := match i % 128 with
  | 0 => ⟨S102400x256, .f32⟩
  | 1 => ⟨S1x256x128, .f32⟩
  | 2 => ⟨S256x128, .f32⟩
  | 3 => ⟨S102400x128, .f32⟩
  | 4 => ⟨S1x128, .f32⟩
  | 5 => ⟨S128, .f32⟩
  | 6 => ⟨S1x128, .f32⟩
  | 7 => ⟨S102400x128, .f32⟩
  | 8 => ⟨S102400x128, .f32⟩
  | 9 => ⟨S_, .f32⟩
  | 10 => ⟨S102400x128, .f32⟩
  | 11 => ⟨S102400x128, .f32⟩
  | 12 => ⟨S_, .i32⟩
  | 13 => ⟨S819200, .i32⟩
  | 14 => ⟨S819200, .i1⟩
  | 15 => ⟨S_, .i32⟩
  | 16 => ⟨S819200, .i32⟩
  | 17 => ⟨S819200, .i32⟩
  | 18 => ⟨S819200, .i32⟩
  | 19 => ⟨S819200x1, .i32⟩
  | 20 => ⟨S819200x128, .f32⟩
  | 21 => ⟨S_, .f32⟩
  | 22 => ⟨S102400x128, .f32⟩
  | 23 => ⟨S819200x1, .i32⟩
  | 24 => ⟨S102400x128, .f32⟩
  | 25 => ⟨S1, .f32⟩
  | 26 => ⟨S_, .f32⟩
  | 27 => ⟨S_, .f32⟩
  | 28 => ⟨S_, .f32⟩
  | 29 => ⟨S102400x128, .f32⟩
  | 30 => ⟨S102400x128, .f32⟩
  | 31 => ⟨S102400x128, .f32⟩
  | 32 => ⟨S1x128x256, .f32⟩
  | 33 => ⟨S128x256, .f32⟩
  | 34 => ⟨S102400x256, .f32⟩
  | 35 => ⟨S1x256, .f32⟩
  | 36 => ⟨S256, .f32⟩
  | 37 => ⟨S1x256, .f32⟩
  | 38 => ⟨S102400x256, .f32⟩
  | 39 => ⟨S102400x256, .f32⟩
  | 40 => ⟨S_, .f32⟩
  | 41 => ⟨S102400x256, .f32⟩
  | 42 => ⟨S102400x256, .f32⟩
  | 43 => ⟨S1x256x128, .f32⟩
  | 44 => ⟨S256x128, .f32⟩
  | 45 => ⟨S102400x128, .f32⟩
  | 46 => ⟨S1x128, .f32⟩
  | 47 => ⟨S128, .f32⟩
  | 48 => ⟨S1x128, .f32⟩
  | 49 => ⟨S102400x128, .f32⟩
  | 50 => ⟨S102400x128, .f32⟩
  | 51 => ⟨S_, .f32⟩
  | 52 => ⟨S102400x128, .f32⟩
  | 53 => ⟨S102400x128, .f32⟩
  | 54 => ⟨S_, .i32⟩
  | 55 => ⟨S819200, .i32⟩
  | 56 => ⟨S819200, .i1⟩
  | 57 => ⟨S_, .i32⟩
  | 58 => ⟨S819200, .i32⟩
  | 59 => ⟨S819200, .i32⟩
  | 60 => ⟨S819200, .i32⟩
  | 61 => ⟨S819200x1, .i32⟩
  | 62 => ⟨S819200x128, .f32⟩
  | 63 => ⟨S_, .f32⟩
  | 64 => ⟨S102400x128, .f32⟩
  | 65 => ⟨S819200x1, .i32⟩
  | 66 => ⟨S102400x128, .f32⟩
  | 67 => ⟨S1, .f32⟩
  | 68 => ⟨S_, .f32⟩
  | 69 => ⟨S_, .f32⟩
  | 70 => ⟨S_, .f32⟩
  | 71 => ⟨S102400x128, .f32⟩
  | 72 => ⟨S102400x128, .f32⟩
  | 73 => ⟨S102400x128, .f32⟩
  | 74 => ⟨S1x128x256, .f32⟩
  | 75 => ⟨S128x256, .f32⟩
  | 76 => ⟨S102400x256, .f32⟩
  | 77 => ⟨S1x256, .f32⟩
  | 78 => ⟨S256, .f32⟩
  | 79 => ⟨S1x256, .f32⟩
  | 80 => ⟨S102400x256, .f32⟩
  | 81 => ⟨S102400x256, .f32⟩
  | 82 => ⟨S_, .f32⟩
  | 83 => ⟨S102400x256, .f32⟩
  | 84 => ⟨S102400x256, .f32⟩
  | 85 => ⟨S1x256x128, .f32⟩
  | 86 => ⟨S256x128, .f32⟩
  | 87 => ⟨S102400x128, .f32⟩
  | 88 => ⟨S1x128, .f32⟩
  | 89 => ⟨S128, .f32⟩
  | 90 => ⟨S1x128, .f32⟩
  | 91 => ⟨S102400x128, .f32⟩
  | 92 => ⟨S102400x128, .f32⟩
  | 93 => ⟨S_, .i32⟩
  | 94 => ⟨S1, .i32⟩
  | 95 => ⟨S_, .i32⟩
  | 96 => ⟨S_, .i32⟩
  | 97 => ⟨S64, .i32⟩
  | 98 => ⟨S65, .i32⟩
  | 99 => ⟨S_, .i32⟩
  | 100 => ⟨S102400, .i32⟩
  | 101 => ⟨S102400, .i1⟩
  | 102 => ⟨S_, .i32⟩
  | 103 => ⟨S102400, .i32⟩
  | 104 => ⟨S102400, .i32⟩
  | 105 => ⟨S102400, .i32⟩
  | 106 => ⟨S102400x1, .i32⟩
  | 107 => ⟨S102400, .i32⟩
  | 108 => ⟨S102400, .i32⟩
  | 109 => ⟨S_, .f32⟩
  | 110 => ⟨S1024x128, .f32⟩
  | 111 => ⟨S102400x1, .i32⟩
  | 112 => ⟨S1024x128, .f32⟩
  | 113 => ⟨S_, .f32⟩
  | 114 => ⟨S102400x1, .f32⟩
  | 115 => ⟨S_, .f32⟩
  | 116 => ⟨S1024x1, .f32⟩
  | 117 => ⟨S102400x1, .i32⟩
  | 118 => ⟨S1024x1, .f32⟩
  | 119 => ⟨S_, .f32⟩
  | 120 => ⟨S1024x1, .f32⟩
  | 121 => ⟨S1024x1, .f32⟩
  | 122 => ⟨S1024x128, .f32⟩
  | 123 => ⟨S1024x128, .f32⟩
  | _ => ⟨S102400x128, .f32⟩

abbrev hbmTy (i : Nat) : BufTy := match i / 128 with
  | 0 => hbmTy0_0 i
  | 1 => hbmTy0_1 i
  | _ => ⟨S102400x128, .f32⟩

abbrev bufTy : (tb : Table) → Fin (tcTables nBuf tb) → BufTy
  | .hbm, ⟨i, _⟩ => hbmTy i
  | _, _ => ⟨S102400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩
abbrev main_c_2 : Ref sig .tc := ⟨.hbm, 56, rfl⟩
abbrev main_v38 : Ref sig .tc := ⟨.hbm, 57, rfl⟩
abbrev main_v39 : Ref sig .tc := ⟨.hbm, 58, rfl⟩
abbrev main_c_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call2_cst : Ref sig .tc := ⟨.hbm, 84, rfl⟩
abbrev main_call2_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call3_cst : Ref sig .tc := ⟨.hbm, 95, rfl⟩
abbrev main_call3_v0 : Ref sig .tc := ⟨.hbm, 96, rfl⟩
abbrev main_v71 : Ref sig .tc := ⟨.hbm, 97, rfl⟩
abbrev main_c_6 : Ref sig .tc := ⟨.hbm, 98, rfl⟩
abbrev main_v72 : Ref sig .tc := ⟨.hbm, 99, rfl⟩
abbrev main_v73 : Ref sig .tc := ⟨.hbm, 100, rfl⟩
abbrev main_c_7 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_8 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call4_cst : Ref sig .tc := ⟨.hbm, 126, rfl⟩
abbrev main_call4_v0 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_call5_cst : Ref sig .tc := ⟨.hbm, 137, rfl⟩
abbrev main_call5_v0 : Ref sig .tc := ⟨.hbm, 138, rfl⟩
abbrev main_v105 : Ref sig .tc := ⟨.hbm, 139, rfl⟩
abbrev main_c_10 : Ref sig .tc := ⟨.hbm, 140, rfl⟩
abbrev main_v106 : Ref sig .tc := ⟨.hbm, 141, rfl⟩
abbrev main_v107 : Ref sig .tc := ⟨.hbm, 142, rfl⟩
abbrev main_c_11 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_12 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_13 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_call6_cst : Ref sig .tc := ⟨.hbm, 168, rfl⟩
abbrev main_call6_v0 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_call7_cst : Ref sig .tc := ⟨.hbm, 179, rfl⟩
abbrev main_call7_v0 : Ref sig .tc := ⟨.hbm, 180, rfl⟩
abbrev main_v139 : Ref sig .tc := ⟨.hbm, 181, rfl⟩
abbrev main_c_14 : Ref sig .tc := ⟨.hbm, 182, rfl⟩
abbrev main_v140 : Ref sig .tc := ⟨.hbm, 183, rfl⟩
abbrev main_v141 : Ref sig .tc := ⟨.hbm, 184, rfl⟩
abbrev main_c_15 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_16 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_17 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_call8_cst : Ref sig .tc := ⟨.hbm, 210, rfl⟩
abbrev main_call8_v0 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_c_18 : Ref sig .tc := ⟨.hbm, 221, rfl⟩
abbrev main_v173 : Ref sig .tc := ⟨.hbm, 222, rfl⟩
abbrev main_call9_call0_c : Ref sig .tc := ⟨.hbm, 223, rfl⟩
abbrev main_call9_call0_v0 : Ref sig .tc := ⟨.hbm, 224, rfl⟩
abbrev main_v174 : Ref sig .tc := ⟨.hbm, 225, rfl⟩
abbrev main_v175 : Ref sig .tc := ⟨.hbm, 226, rfl⟩
abbrev main_c_19 : Ref sig .tc := ⟨.hbm, 227, rfl⟩
abbrev main_v176 : Ref sig .tc := ⟨.hbm, 228, rfl⟩
abbrev main_v177 : Ref sig .tc := ⟨.hbm, 229, rfl⟩
abbrev main_c_20 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_21 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_22 : Ref sig .tc := ⟨.hbm, 241, rfl⟩
abbrev main_v187 : Ref sig .tc := ⟨.hbm, 242, rfl⟩
abbrev main_cst_23 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_cst_24 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩

abbrev nD : Nat := 1
abbrev τ : Topo := Topo.v7x

variable {F : FTy → Type} [FloatOps F]

class Facts₀ : Prop where
  slices_S2x819200_S1x819200_0_0 : S2x819200.Slices ![0, 0] S1x819200
  shapeCasts_S1x819200_S819200 : S1x819200.ShapeCasts S819200
  slices_S2x819200_S1x819200_1_0 : S2x819200.Slices ![1, 0] S1x819200
  bcast_S_S819200 : S_.BroadcastsInDim S819200 (![] : Fin 0 → Fin S819200.rank)
  bcast_S819200_S819200x1_0 : S819200.BroadcastsInDim S819200x1 (![0] : Fin 1 → Fin S819200x1.rank)
  bcast_S_S102400x128 : S_.BroadcastsInDim S102400x128 (![] : Fin 0 → Fin S102400x128.rank)
  slices_S5_S1_0 : S5.Slices ![0] S1
  shapeCasts_S1_S_ : S1.ShapeCasts S_
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S102400x256_0_1 : S1x256.BroadcastsInDim S102400x256 (![0, 1] : Fin 2 → Fin S102400x256.rank)
  bcast_S_S102400x256 : S_.BroadcastsInDim S102400x256 (![] : Fin 0 → Fin S102400x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S102400x128_0_1 : S1x128.BroadcastsInDim S102400x128 (![0, 1] : Fin 2 → Fin S102400x128.rank)
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  bcast_S_S1 : S_.BroadcastsInDim S1 (![] : Fin 0 → Fin S1.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  concatenates_S1_S64_S65_d0 : Shape.Concatenates [S1, S64] S65 0
  bcast_S_S102400 : S_.BroadcastsInDim S102400 (![] : Fin 0 → Fin S102400.rank)
  bcast_S102400_S102400x1_0 : S102400.BroadcastsInDim S102400x1 (![0] : Fin 1 → Fin S102400x1.rank)
  bcast_S_S1024x128 : S_.BroadcastsInDim S1024x128 (![] : Fin 0 → Fin S1024x128.rank)
  bcast_S_S102400x1 : S_.BroadcastsInDim S102400x1 (![] : Fin 0 → Fin S102400x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  gather_S102400x128_S819200x1_S819200x128_1_0_n_n_0_1_1128_wf : GatherDims.WF S102400x128 S819200x1 S819200x128 [1] [0] [] [0] [] 1 ![1, 128]
  scatter_S102400x128_S819200x1_S819200x128_1_0_0_1_wf : ScatterDims.WF S102400x128 S819200x1 S819200x128 [1] [0] [0] 1
  dot_S102400x128_S128x256_S102400x256_1_0_0_1_n_n_wf : DotDims.WF S102400x128 S128x256 S102400x256 [1] [0] [0] [1] [] []
  dot_S102400x256_S256x128_S102400x128_1_0_0_1_n_n_wf : DotDims.WF S102400x256 S256x128 S102400x128 [1] [0] [0] [1] [] []
  gather_S65_S102400x1_S102400_n_0_n_n_0_1_1_wf : GatherDims.WF S65 S102400x1 S102400 [] [0] [] [0] [] 1 ![1]
  scatter_S1024x128_S102400x1_S102400x128_1_0_0_1_wf : ScatterDims.WF S1024x128 S102400x1 S102400x128 [1] [0] [0] 1
  scatter_S1024x1_S102400x1_S102400x1_1_0_0_1_wf : ScatterDims.WF S1024x1 S102400x1 S102400x1 [1] [0] [0] 1

variable [Facts₀]

def gather_S102400x128_S819200x1_S819200x128_1_0_n_n_0_1_1128 : GatherDims S102400x128 S819200x1 S819200x128 where
  offsetDims := [1]
  collapsedSliceDims := [0]
  operandBatchingDims := []
  startIndicesBatchingDims := []
  startIndexMap := [0]
  indexVectorDim := 1
  sliceSizes := ![1, 128]
  wf := gather_S102400x128_S819200x1_S819200x128_1_0_n_n_0_1_1128_wf
def scatter_S102400x128_S819200x1_S819200x128_1_0_0_1 : ScatterDims S102400x128 S819200x1 S819200x128 where
  updateWindowDims := [1]
  insertedWindowDims := [0]
  scatterDimsToOperandDims := [0]
  indexVectorDim := 1
  wf := scatter_S102400x128_S819200x1_S819200x128_1_0_0_1_wf
def dot_S102400x128_S128x256_S102400x256_1_0_0_1_n_n : DotDims S102400x128 S128x256 S102400x256 where
  lhsContracting := [1]
  rhsContracting := [0]
  lhsNonContracting := [0]
  rhsNonContracting := [1]
  lhsBatch := []
  rhsBatch := []
  wf := dot_S102400x128_S128x256_S102400x256_1_0_0_1_n_n_wf
def dot_S102400x256_S256x128_S102400x128_1_0_0_1_n_n : DotDims S102400x256 S256x128 S102400x128 where
  lhsContracting := [1]
  rhsContracting := [0]
  lhsNonContracting := [0]
  rhsNonContracting := [1]
  lhsBatch := []
  rhsBatch := []
  wf := dot_S102400x256_S256x128_S102400x128_1_0_0_1_n_n_wf
def gather_S65_S102400x1_S102400_n_0_n_n_0_1_1 : GatherDims S65 S102400x1 S102400 where
  offsetDims := []
  collapsedSliceDims := [0]
  operandBatchingDims := []
  startIndicesBatchingDims := []
  startIndexMap := [0]
  indexVectorDim := 1
  sliceSizes := ![1]
  wf := gather_S65_S102400x1_S102400_n_0_n_n_0_1_1_wf
def scatter_S1024x128_S102400x1_S102400x128_1_0_0_1 : ScatterDims S1024x128 S102400x1 S102400x128 where
  updateWindowDims := [1]
  insertedWindowDims := [0]
  scatterDimsToOperandDims := [0]
  indexVectorDim := 1
  wf := scatter_S1024x128_S102400x1_S102400x128_1_0_0_1_wf
def scatter_S1024x1_S102400x1_S102400x1_1_0_0_1 : ScatterDims S1024x1 S102400x1 S102400x1 where
  updateWindowDims := [1]
  insertedWindowDims := [0]
  scatterDimsToOperandDims := [0]
  indexVectorDim := 1
  wf := scatter_S1024x1_S102400x1_S102400x1_1_0_0_1_wf

class Facts : Prop extends Facts₀ where

variable [Facts]
-- ==== Proof.KRun.lean ====
/-
  The idealized kernel's run with its result named.

  Every weakly fair execution of the program terminates without a fault; at the end each argument array holds what it
  was launched with, and the result buffer holds what the last stretch of host operations leaves there, started from
  the contents the pooling region's write-back left: the fold `W15` of the program's fifteen segments over the launch
  memory, read at the result buffer.
-/
import proofs.«175996_j627065225439_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last fold's contents, the arguments as launched. -/
theorem run_named : θ_run defs (onTc (τ := τ) (main (F := F))) ⟨m, fun _ => 0, ρ⟩ (fun r => ∀ c : Dev nD,
      r.2.mem ((c.tc : Thread nD τ).loc main_v148) = W15 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v148 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.KValue

end
-- ==== Proof.KDefs.lean ====
/-
  The host side of the idealized kernel, as functions of the argument arrays.

  Between its six pallas_calls the program prepares each layer's operands on the host: the source and target rows of
  the edge list; the aggregation of a feature array over the edges (gather the source rows, add them into the target
  rows of a zero array); the scales 1 + eps as a vector of five; the r-th slice of each parameter array, reshaped to a
  matrix, a row or a 1 × 1 array; the bin word of every node (an offset looked up by graph, plus the node's local
  bin); and, after the pooling, the division of the pooled sums by the bin counts clamped below at 1. Each definition
  below is one of those, spelled with the program's own operations.
-/
import proofs.«175996_j627065225439_1_alg».proof.Proof.Gen.KernelIdeal.Frame
import Idealize.ShloMosaic.Lib.StableHlo.Run
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

/-- The edge list's source row. -/
def src (e : IVec S2x819200 32) : IVec S819200 32 :=
  shapeCast S819200 (extractStridedSlice S1x819200 ![0, 0] e slices_S2x819200_S1x819200_0_0) shapeCasts_S1x819200_S819200
/-- The edge list's target row. -/
def dst (e : IVec S2x819200 32) : IVec S819200 32 :=
  shapeCast S819200 (extractStridedSlice S1x819200 ![1, 0] e slices_S2x819200_S1x819200_1_0) shapeCasts_S1x819200_S819200

/-- The aggregation over the edges: row `s k` of `h` (a negative word wrapped once) added into row `d k` of zeros. -/
def aggOf (s d : IVec S819200 32) (h : FVec Ideal S102400x128 .f32) : FVec Ideal S102400x128 .f32 :=
  Host.scatterAdd scatter_S102400x128_S819200x1_S819200x128_1_0_0_1
    (broadcastInDim S102400x128 ![] bcast_S_S102400x128 (constant S_ .f32 0x00000000#32))
    (broadcastInDim S819200x1 ![0] bcast_S819200_S819200x1_0 d)
    (Host.gather gather_S102400x128_S819200x1_S819200x128_1_0_n_n_0_1_1128 h
      (broadcastInDim S819200x1 ![0] bcast_S819200_S819200x1_0
        (select (cmpi .slt s (broadcastInDim S819200 ![] bcast_S_S819200 (constantI S_ 32 0#32)))
          (addi s (broadcastInDim S819200 ![] bcast_S_S819200 (constantI S_ 32 102400#32))) s)))

/-- The five scales 1 + eps. -/
def scales (eps : FVec Ideal S5 .f32) : FVec Ideal S5 .f32 :=
  addf (broadcastInDim S5 ![] bcast_S_S5 (constant S_ .f32 0x3F800000#32)) eps

/-- Layer 0's scale, as a scalar array (from the vector of scales). -/
def sc0 (sv : FVec Ideal S5 .f32) : FVec Ideal S_ .f32 :=
  shapeCast S_ (extractStridedSlice S1 ![0] sv slices_S5_S1_0) shapeCasts_S1_S_
/-- Layer 0's first matrix. -/
def w1_0 (p : FVec Ideal S5x128x256 .f32) : FVec Ideal S128x256 .f32 :=
  shapeCast S128x256 (extractStridedSlice S1x128x256 ![0, 0, 0] p slices_S5x128x256_S1x128x256_0_0_0) shapeCasts_S1x128x256_S128x256
/-- Layer 0's first bias vector. -/
def bv1_0 (p : FVec Ideal S5x256 .f32) : FVec Ideal S256 .f32 :=
  shapeCast S256 (extractStridedSlice S1x256 ![0, 0] p slices_S5x256_S1x256_0_0) shapeCasts_S1x256_S256
/-- Layer 0's second matrix. -/
def w2_0 (p : FVec Ideal S5x256x128 .f32) : FVec Ideal S256x128 .f32 :=
  shapeCast S256x128 (extractStridedSlice S1x256x128 ![0, 0, 0] p slices_S5x256x128_S1x256x128_0_0_0) shapeCasts_S1x256x128_S256x128
/-- Layer 0's second bias vector. -/
def bv2_0 (p : FVec Ideal S5x128 .f32) : FVec Ideal S128 .f32 :=
  shapeCast S128 (extractStridedSlice S1x128 ![0, 0] p slices_S5x128_S1x128_0_0) shapeCasts_S1x128_S128

/-- Layer 1's scale, as a scalar array (from the vector of scales). -/
def sc1 (sv : FVec Ideal S5 .f32) : FVec Ideal S_ .f32 :=
  shapeCast S_ (extractStridedSlice S1 ![1] sv slices_S5_S1_1) shapeCasts_S1_S_
/-- Layer 1's first matrix. -/
def w1_1 (p : FVec Ideal S5x128x256 .f32) : FVec Ideal S128x256 .f32 :=
  shapeCast S128x256 (extractStridedSlice S1x128x256 ![1, 0, 0] p slices_S5x128x256_S1x128x256_1_0_0) shapeCasts_S1x128x256_S128x256
/-- Layer 1's first bias vector. -/
def bv1_1 (p : FVec Ideal S5x256 .f32) : FVec Ideal S256 .f32 :=
  shapeCast S256 (extractStridedSlice S1x256 ![1, 0] p slices_S5x256_S1x256_1_0) shapeCasts_S1x256_S256
/-- Layer 1's second matrix. -/
def w2_1 (p : FVec Ideal S5x256x128 .f32) : FVec Ideal S256x128 .f32 :=
  shapeCast S256x128 (extractStridedSlice S1x256x128 ![1, 0, 0] p slices_S5x256x128_S1x256x128_1_0_0) shapeCasts_S1x256x128_S256x128
/-- Layer 1's second bias vector. -/
def bv2_1 (p : FVec Ideal S5x128 .f32) : FVec Ideal S128 .f32 :=
  shapeCast S128 (extractStridedSlice S1x128 ![1, 0] p slices_S5x128_S1x128_1_0) shapeCasts_S1x128_S128

/-- Layer 2's scale, as a scalar array (from the vector of scales). -/
def sc2 (sv : FVec Ideal S5 .f32) : FVec Ideal S_ .f32 :=
  shapeCast S_ (extractStridedSlice S1 ![2] sv slices_S5_S1_2) shapeCasts_S1_S_
/-- Layer 2's first matrix. -/
def w1_2 (p : FVec Ideal S5x128x256 .f32) : FVec Ideal S128x256 .f32 :=
  shapeCast S128x256 (extractStridedSlice S1x128x256 ![2, 0, 0] p slices_S5x128x256_S1x128x256_2_0_0) shapeCasts_S1x128x256_S128x256
/-- Layer 2's first bias vector. -/
def bv1_2 (p : FVec Ideal S5x256 .f32) : FVec Ideal S256 .f32 :=
  shapeCast S256 (extractStridedSlice S1x256 ![2, 0] p slices_S5x256_S1x256_2_0) shapeCasts_S1x256_S256
/-- Layer 2's second matrix. -/
def w2_2 (p : FVec Ideal S5x256x128 .f32) : FVec Ideal S256x128 .f32 :=
  shapeCast S256x128 (extractStridedSlice S1x256x128 ![2, 0, 0] p slices_S5x256x128_S1x256x128_2_0_0) shapeCasts_S1x256x128_S256x128
/-- Layer 2's second bias vector. -/
def bv2_2 (p : FVec Ideal S5x128 .f32) : FVec Ideal S128 .f32 :=
  shapeCast S128 (extractStridedSlice S1x128 ![2, 0] p slices_S5x128_S1x128_2_0) shapeCasts_S1x128_S128

/-- Layer 3's scale, as a scalar array (from the vector of scales). -/
def sc3 (sv : FVec Ideal S5 .f32) : FVec Ideal S_ .f32 :=
  shapeCast S_ (extractStridedSlice S1 ![3] sv slices_S5_S1_3) shapeCasts_S1_S_
/-- Layer 3's first matrix. -/
def w1_3 (p : FVec Ideal S5x128x256 .f32) : FVec Ideal S128x256 .f32 :=
  shapeCast S128x256 (extractStridedSlice S1x128x256 ![3, 0, 0] p slices_S5x128x256_S1x128x256_3_0_0) shapeCasts_S1x128x256_S128x256
/-- Layer 3's first bias vector. -/
def bv1_3 (p : FVec Ideal S5x256 .f32) : FVec Ideal S256 .f32 :=
  shapeCast S256 (extractStridedSlice S1x256 ![3, 0] p slices_S5x256_S1x256_3_0) shapeCasts_S1x256_S256
/-- Layer 3's second matrix. -/
def w2_3 (p : FVec Ideal S5x256x128 .f32) : FVec Ideal S256x128 .f32 :=
  shapeCast S256x128 (extractStridedSlice S1x256x128 ![3, 0, 0] p slices_S5x256x128_S1x256x128_3_0_0) shapeCasts_S1x256x128_S256x128
/-- Layer 3's second bias vector. -/
def bv2_3 (p : FVec Ideal S5x128 .f32) : FVec Ideal S128 .f32 :=
  shapeCast S128 (extractStridedSlice S1x128 ![3, 0] p slices_S5x128_S1x128_3_0) shapeCasts_S1x128_S128

/-- Layer 4's scale, as a scalar array (from the vector of scales). -/
def sc4 (sv : FVec Ideal S5 .f32) : FVec Ideal S_ .f32 :=
  shapeCast S_ (extractStridedSlice S1 ![4] sv slices_S5_S1_4) shapeCasts_S1_S_
/-- Layer 4's first matrix. -/
def w1_4 (p : FVec Ideal S5x128x256 .f32) : FVec Ideal S128x256 .f32 :=
  shapeCast S128x256 (extractStridedSlice S1x128x256 ![4, 0, 0] p slices_S5x128x256_S1x128x256_4_0_0) shapeCasts_S1x128x256_S128x256
/-- Layer 4's first bias vector. -/
def bv1_4 (p : FVec Ideal S5x256 .f32) : FVec Ideal S256 .f32 :=
  shapeCast S256 (extractStridedSlice S1x256 ![4, 0] p slices_S5x256_S1x256_4_0) shapeCasts_S1x256_S256
/-- Layer 4's second matrix. -/
def w2_4 (p : FVec Ideal S5x256x128 .f32) : FVec Ideal S256x128 .f32 :=
  shapeCast S256x128 (extractStridedSlice S1x256x128 ![4, 0, 0] p slices_S5x256x128_S1x256x128_4_0_0) shapeCasts_S1x256x128_S256x128
/-- Layer 4's second bias vector. -/
def bv2_4 (p : FVec Ideal S5x128 .f32) : FVec Ideal S128 .f32 :=
  shapeCast S128 (extractStridedSlice S1x128 ![4, 0] p slices_S5x128_S1x128_4_0) shapeCasts_S1x128_S128

/-- A scalar array as a 1 × 1 array. -/
def as1x1 (v : FVec Ideal S_ .f32) : FVec Ideal S1x1 .f32 := shapeCast S1x1 v shapeCasts_S_S1x1
/-- A vector of 256 as a 1 × 256 row. -/
def asRow256 (v : FVec Ideal S256 .f32) : FVec Ideal S1x256 .f32 := shapeCast S1x256 v shapeCasts_S256_S1x256
/-- A vector of 128 as a 1 × 128 row. -/
def asRow128 (v : FVec Ideal S128 .f32) : FVec Ideal S1x128 .f32 := shapeCast S1x128 v shapeCasts_S128_S1x128

end Cert.KernelIdeal.KValue

end
-- ==== Proof.KHost0.lean ====
/-
  The host operations before pallas_call 0, read one result at a time.

  From any contents W of the buffers, the stretch leaves: the layer's input untouched; the aggregation of that input
  over the edge list; the layer's scale as a 1 × 1 array; the layer's slices of the four parameter arrays as two
  matrices and two rows; and every buffer a later stretch reads (the edge rows, the vector of scales, the arguments)
  as it was — or, for the edge rows and the scales, which this first stretch computes, at their values.
-/
import proofs.«175996_j627065225439_1_alg».proof.Proof.KDefs

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

variable (W : Valuation τ sig (Elt Ideal))

theorem s0_h : after (hostOps0 (F := Ideal)) W (Proc.devRef .tc main_arg0) = W (Proc.devRef .tc main_arg0) := by after_results_simp
theorem s0_agg : after (hostOps0 (F := Ideal)) W (Proc.devRef .tc main_v15) = aggOf (src (W (Proc.devRef .tc main_arg1))) (dst (W (Proc.devRef .tc main_arg1))) (W (Proc.devRef .tc main_arg0)) := by after_results_simp; rfl
theorem s0_s : after (hostOps0 (F := Ideal)) W (Proc.devRef .tc main_v26) = as1x1 (sc0 (scales (W (Proc.devRef .tc main_arg9)))) := by after_results_simp; rfl
theorem s0_w1 : after (hostOps0 (F := Ideal)) W (Proc.devRef .tc main_v19) = w1_0 (W (Proc.devRef .tc main_arg5)) := by after_results_simp; rfl
theorem s0_b1 : after (hostOps0 (F := Ideal)) W (Proc.devRef .tc main_v27) = asRow256 (bv1_0 (W (Proc.devRef .tc main_arg6))) := by after_results_simp; rfl
theorem s0_w2 : after (hostOps0 (F := Ideal)) W (Proc.devRef .tc main_v23) = w2_0 (W (Proc.devRef .tc main_arg7)) := by after_results_simp; rfl
theorem s0_b2 : after (hostOps0 (F := Ideal)) W (Proc.devRef .tc main_v28) = asRow128 (bv2_0 (W (Proc.devRef .tc main_arg8))) := by after_results_simp; rfl
theorem s0_keep_v1 : after (hostOps0 (F := Ideal)) W (Proc.devRef .tc main_v1) = src (W (Proc.devRef .tc main_arg1)) := by after_results_simp; rfl
theorem s0_keep_v3 : after (hostOps0 (F := Ideal)) W (Proc.devRef .tc main_v3) = dst (W (Proc.devRef .tc main_arg1)) := by after_results_simp; rfl
theorem s0_keep_v5 : after (hostOps0 (F := Ideal)) W (Proc.devRef .tc main_v5) = scales (W (Proc.devRef .tc main_arg9)) := by after_results_simp; rfl
theorem s0_keep_arg2 : after (hostOps0 (F := Ideal)) W (Proc.devRef .tc main_arg2) = W (Proc.devRef .tc main_arg2) := by after_results_simp
theorem s0_keep_arg3 : after (hostOps0 (F := Ideal)) W (Proc.devRef .tc main_arg3) = W (Proc.devRef .tc main_arg3) := by after_results_simp
theorem s0_keep_arg4 : after (hostOps0 (F := Ideal)) W (Proc.devRef .tc main_arg4) = W (Proc.devRef .tc main_arg4) := by after_results_simp
theorem s0_keep_arg5 : after (hostOps0 (F := Ideal)) W (Proc.devRef .tc main_arg5) = W (Proc.devRef .tc main_arg5) := by after_results_simp
theorem s0_keep_arg6 : after (hostOps0 (F := Ideal)) W (Proc.devRef .tc main_arg6) = W (Proc.devRef .tc main_arg6) := by after_results_simp
theorem s0_keep_arg7 : after (hostOps0 (F := Ideal)) W (Proc.devRef .tc main_arg7) = W (Proc.devRef .tc main_arg7) := by after_results_simp
theorem s0_keep_arg8 : after (hostOps0 (F := Ideal)) W (Proc.devRef .tc main_arg8) = W (Proc.devRef .tc main_arg8) := by after_results_simp

end Cert.KernelIdeal.KValue

end
-- ==== Proof.KHost1.lean ====
/-
  The host operations before pallas_call 1, read one result at a time.

  From any contents W of the buffers, the stretch leaves: the layer's input untouched; the aggregation of that input
  over the edge list; the layer's scale as a 1 × 1 array; the layer's slices of the four parameter arrays as two
  matrices and two rows; and every buffer a later stretch reads (the edge rows, the vector of scales, the arguments)
  as it was.
-/
import proofs.«175996_j627065225439_1_alg».proof.Proof.KDefs

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

variable (W : Valuation τ sig (Elt Ideal))

theorem s1_h : after (hostOps1 (F := Ideal)) W (Proc.devRef .tc main_v29) = W (Proc.devRef .tc main_v29) := by after_results_simp
theorem s1_agg : after (hostOps1 (F := Ideal)) W (Proc.devRef .tc main_v39) = aggOf (W (Proc.devRef .tc main_v1)) (W (Proc.devRef .tc main_v3)) (W (Proc.devRef .tc main_v29)) := by after_results_simp; rfl
theorem s1_s : after (hostOps1 (F := Ideal)) W (Proc.devRef .tc main_v50) = as1x1 (sc1 (W (Proc.devRef .tc main_v5))) := by after_results_simp; rfl
theorem s1_w1 : after (hostOps1 (F := Ideal)) W (Proc.devRef .tc main_v43) = w1_1 (W (Proc.devRef .tc main_arg5)) := by after_results_simp; rfl
theorem s1_b1 : after (hostOps1 (F := Ideal)) W (Proc.devRef .tc main_v51) = asRow256 (bv1_1 (W (Proc.devRef .tc main_arg6))) := by after_results_simp; rfl
theorem s1_w2 : after (hostOps1 (F := Ideal)) W (Proc.devRef .tc main_v47) = w2_1 (W (Proc.devRef .tc main_arg7)) := by after_results_simp; rfl
theorem s1_b2 : after (hostOps1 (F := Ideal)) W (Proc.devRef .tc main_v52) = asRow128 (bv2_1 (W (Proc.devRef .tc main_arg8))) := by after_results_simp; rfl
theorem s1_keep_v1 : after (hostOps1 (F := Ideal)) W (Proc.devRef .tc main_v1) = W (Proc.devRef .tc main_v1) := by after_results_simp
theorem s1_keep_v3 : after (hostOps1 (F := Ideal)) W (Proc.devRef .tc main_v3) = W (Proc.devRef .tc main_v3) := by after_results_simp
theorem s1_keep_v5 : after (hostOps1 (F := Ideal)) W (Proc.devRef .tc main_v5) = W (Proc.devRef .tc main_v5) := by after_results_simp
theorem s1_keep_arg2 : after (hostOps1 (F := Ideal)) W (Proc.devRef .tc main_arg2) = W (Proc.devRef .tc main_arg2) := by after_results_simp
theorem s1_keep_arg3 : after (hostOps1 (F := Ideal)) W (Proc.devRef .tc main_arg3) = W (Proc.devRef .tc main_arg3) := by after_results_simp
theorem s1_keep_arg4 : after (hostOps1 (F := Ideal)) W (Proc.devRef .tc main_arg4) = W (Proc.devRef .tc main_arg4) := by after_results_simp
theorem s1_keep_arg5 : after (hostOps1 (F := Ideal)) W (Proc.devRef .tc main_arg5) = W (Proc.devRef .tc main_arg5) := by after_results_simp
theorem s1_keep_arg6 : after (hostOps1 (F := Ideal)) W (Proc.devRef .tc main_arg6) = W (Proc.devRef .tc main_arg6) := by after_results_simp
theorem s1_keep_arg7 : after (hostOps1 (F := Ideal)) W (Proc.devRef .tc main_arg7) = W (Proc.devRef .tc main_arg7) := by after_results_simp
theorem s1_keep_arg8 : after (hostOps1 (F := Ideal)) W (Proc.devRef .tc main_arg8) = W (Proc.devRef .tc main_arg8) := by after_results_simp

end Cert.KernelIdeal.KValue

end
-- ==== Proof.KHost2.lean ====
/-
  The host operations before pallas_call 2, read one result at a time.

  From any contents W of the buffers, the stretch leaves: the layer's input untouched; the aggregation of that input
  over the edge list; the layer's scale as a 1 × 1 array; the layer's slices of the four parameter arrays as two
  matrices and two rows; and every buffer a later stretch reads (the edge rows, the vector of scales, the arguments)
  as it was.
-/
import proofs.«175996_j627065225439_1_alg».proof.Proof.KDefs

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

variable (W : Valuation τ sig (Elt Ideal))

theorem s2_h : after (hostOps2 (F := Ideal)) W (Proc.devRef .tc main_v53) = W (Proc.devRef .tc main_v53) := by after_results_simp
theorem s2_agg : after (hostOps2 (F := Ideal)) W (Proc.devRef .tc main_v63) = aggOf (W (Proc.devRef .tc main_v1)) (W (Proc.devRef .tc main_v3)) (W (Proc.devRef .tc main_v53)) := by after_results_simp; rfl
theorem s2_s : after (hostOps2 (F := Ideal)) W (Proc.devRef .tc main_v74) = as1x1 (sc2 (W (Proc.devRef .tc main_v5))) := by after_results_simp; rfl
theorem s2_w1 : after (hostOps2 (F := Ideal)) W (Proc.devRef .tc main_v67) = w1_2 (W (Proc.devRef .tc main_arg5)) := by after_results_simp; rfl
theorem s2_b1 : after (hostOps2 (F := Ideal)) W (Proc.devRef .tc main_v75) = asRow256 (bv1_2 (W (Proc.devRef .tc main_arg6))) := by after_results_simp; rfl
theorem s2_w2 : after (hostOps2 (F := Ideal)) W (Proc.devRef .tc main_v71) = w2_2 (W (Proc.devRef .tc main_arg7)) := by after_results_simp; rfl
theorem s2_b2 : after (hostOps2 (F := Ideal)) W (Proc.devRef .tc main_v76) = asRow128 (bv2_2 (W (Proc.devRef .tc main_arg8))) := by after_results_simp; rfl
theorem s2_keep_v1 : after (hostOps2 (F := Ideal)) W (Proc.devRef .tc main_v1) = W (Proc.devRef .tc main_v1) := by after_results_simp
theorem s2_keep_v3 : after (hostOps2 (F := Ideal)) W (Proc.devRef .tc main_v3) = W (Proc.devRef .tc main_v3) := by after_results_simp
theorem s2_keep_v5 : after (hostOps2 (F := Ideal)) W (Proc.devRef .tc main_v5) = W (Proc.devRef .tc main_v5) := by after_results_simp
theorem s2_keep_arg2 : after (hostOps2 (F := Ideal)) W (Proc.devRef .tc main_arg2) = W (Proc.devRef .tc main_arg2) := by after_results_simp
theorem s2_keep_arg3 : after (hostOps2 (F := Ideal)) W (Proc.devRef .tc main_arg3) = W (Proc.devRef .tc main_arg3) := by after_results_simp
theorem s2_keep_arg4 : after (hostOps2 (F := Ideal)) W (Proc.devRef .tc main_arg4) = W (Proc.devRef .tc main_arg4) := by after_results_simp
theorem s2_keep_arg5 : after (hostOps2 (F := Ideal)) W (Proc.devRef .tc main_arg5) = W (Proc.devRef .tc main_arg5) := by after_results_simp
theorem s2_keep_arg6 : after (hostOps2 (F := Ideal)) W (Proc.devRef .tc main_arg6) = W (Proc.devRef .tc main_arg6) := by after_results_simp
theorem s2_keep_arg7 : after (hostOps2 (F := Ideal)) W (Proc.devRef .tc main_arg7) = W (Proc.devRef .tc main_arg7) := by after_results_simp
theorem s2_keep_arg8 : after (hostOps2 (F := Ideal)) W (Proc.devRef .tc main_arg8) = W (Proc.devRef .tc main_arg8) := by after_results_simp

end Cert.KernelIdeal.KValue

end
-- ==== Proof.KHost3.lean ====
/-
  The host operations before pallas_call 3, read one result at a time.

  From any contents W of the buffers, the stretch leaves: the layer's input untouched; the aggregation of that input
  over the edge list; the layer's scale as a 1 × 1 array; the layer's slices of the four parameter arrays as two
  matrices and two rows; and every buffer a later stretch reads (the edge rows, the vector of scales, the arguments)
  as it was.
-/
import proofs.«175996_j627065225439_1_alg».proof.Proof.KDefs

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

variable (W : Valuation τ sig (Elt Ideal))

theorem s3_h : after (hostOps3 (F := Ideal)) W (Proc.devRef .tc main_v77) = W (Proc.devRef .tc main_v77) := by after_results_simp
theorem s3_agg : after (hostOps3 (F := Ideal)) W (Proc.devRef .tc main_v87) = aggOf (W (Proc.devRef .tc main_v1)) (W (Proc.devRef .tc main_v3)) (W (Proc.devRef .tc main_v77)) := by after_results_simp; rfl
theorem s3_s : after (hostOps3 (F := Ideal)) W (Proc.devRef .tc main_v98) = as1x1 (sc3 (W (Proc.devRef .tc main_v5))) := by after_results_simp; rfl
theorem s3_w1 : after (hostOps3 (F := Ideal)) W (Proc.devRef .tc main_v91) = w1_3 (W (Proc.devRef .tc main_arg5)) := by after_results_simp; rfl
theorem s3_b1 : after (hostOps3 (F := Ideal)) W (Proc.devRef .tc main_v99) = asRow256 (bv1_3 (W (Proc.devRef .tc main_arg6))) := by after_results_simp; rfl
theorem s3_w2 : after (hostOps3 (F := Ideal)) W (Proc.devRef .tc main_v95) = w2_3 (W (Proc.devRef .tc main_arg7)) := by after_results_simp; rfl
theorem s3_b2 : after (hostOps3 (F := Ideal)) W (Proc.devRef .tc main_v100) = asRow128 (bv2_3 (W (Proc.devRef .tc main_arg8))) := by after_results_simp; rfl
theorem s3_keep_v1 : after (hostOps3 (F := Ideal)) W (Proc.devRef .tc main_v1) = W (Proc.devRef .tc main_v1) := by after_results_simp
theorem s3_keep_v3 : after (hostOps3 (F := Ideal)) W (Proc.devRef .tc main_v3) = W (Proc.devRef .tc main_v3) := by after_results_simp
theorem s3_keep_v5 : after (hostOps3 (F := Ideal)) W (Proc.devRef .tc main_v5) = W (Proc.devRef .tc main_v5) := by after_results_simp
theorem s3_keep_arg2 : after (hostOps3 (F := Ideal)) W (Proc.devRef .tc main_arg2) = W (Proc.devRef .tc main_arg2) := by after_results_simp
theorem s3_keep_arg3 : after (hostOps3 (F := Ideal)) W (Proc.devRef .tc main_arg3) = W (Proc.devRef .tc main_arg3) := by after_results_simp
theorem s3_keep_arg4 : after (hostOps3 (F := Ideal)) W (Proc.devRef .tc main_arg4) = W (Proc.devRef .tc main_arg4) := by after_results_simp
theorem s3_keep_arg5 : after (hostOps3 (F := Ideal)) W (Proc.devRef .tc main_arg5) = W (Proc.devRef .tc main_arg5) := by after_results_simp
theorem s3_keep_arg6 : after (hostOps3 (F := Ideal)) W (Proc.devRef .tc main_arg6) = W (Proc.devRef .tc main_arg6) := by after_results_simp
theorem s3_keep_arg7 : after (hostOps3 (F := Ideal)) W (Proc.devRef .tc main_arg7) = W (Proc.devRef .tc main_arg7) := by after_results_simp
theorem s3_keep_arg8 : after (hostOps3 (F := Ideal)) W (Proc.devRef .tc main_arg8) = W (Proc.devRef .tc main_arg8) := by after_results_simp

end Cert.KernelIdeal.KValue

end
-- ==== Proof.KHost4.lean ====
/-
  The host operations before pallas_call 4, read one result at a time.

  From any contents W of the buffers, the stretch leaves: the layer's input untouched; the aggregation of that input
  over the edge list; the layer's scale as a 1 × 1 array; the layer's slices of the four parameter arrays as two
  matrices and two rows; and every buffer a later stretch reads (the edge rows, the vector of scales, the arguments)
  as it was.
-/
import proofs.«175996_j627065225439_1_alg».proof.Proof.KDefs

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

variable (W : Valuation τ sig (Elt Ideal))

theorem s4_h : after (hostOps4 (F := Ideal)) W (Proc.devRef .tc main_v101) = W (Proc.devRef .tc main_v101) := by after_results_simp
theorem s4_agg : after (hostOps4 (F := Ideal)) W (Proc.devRef .tc main_v111) = aggOf (W (Proc.devRef .tc main_v1)) (W (Proc.devRef .tc main_v3)) (W (Proc.devRef .tc main_v101)) := by after_results_simp; rfl
theorem s4_s : after (hostOps4 (F := Ideal)) W (Proc.devRef .tc main_v122) = as1x1 (sc4 (W (Proc.devRef .tc main_v5))) := by after_results_simp; rfl
theorem s4_w1 : after (hostOps4 (F := Ideal)) W (Proc.devRef .tc main_v115) = w1_4 (W (Proc.devRef .tc main_arg5)) := by after_results_simp; rfl
theorem s4_b1 : after (hostOps4 (F := Ideal)) W (Proc.devRef .tc main_v123) = asRow256 (bv1_4 (W (Proc.devRef .tc main_arg6))) := by after_results_simp; rfl
theorem s4_w2 : after (hostOps4 (F := Ideal)) W (Proc.devRef .tc main_v119) = w2_4 (W (Proc.devRef .tc main_arg7)) := by after_results_simp; rfl
theorem s4_b2 : after (hostOps4 (F := Ideal)) W (Proc.devRef .tc main_v124) = asRow128 (bv2_4 (W (Proc.devRef .tc main_arg8))) := by after_results_simp; rfl
theorem s4_keep_v1 : after (hostOps4 (F := Ideal)) W (Proc.devRef .tc main_v1) = W (Proc.devRef .tc main_v1) := by after_results_simp
theorem s4_keep_v3 : after (hostOps4 (F := Ideal)) W (Proc.devRef .tc main_v3) = W (Proc.devRef .tc main_v3) := by after_results_simp
theorem s4_keep_v5 : after (hostOps4 (F := Ideal)) W (Proc.devRef .tc main_v5) = W (Proc.devRef .tc main_v5) := by after_results_simp
theorem s4_keep_arg2 : after (hostOps4 (F := Ideal)) W (Proc.devRef .tc main_arg2) = W (Proc.devRef .tc main_arg2) := by after_results_simp
theorem s4_keep_arg3 : after (hostOps4 (F := Ideal)) W (Proc.devRef .tc main_arg3) = W (Proc.devRef .tc main_arg3) := by after_results_simp
theorem s4_keep_arg4 : after (hostOps4 (F := Ideal)) W (Proc.devRef .tc main_arg4) = W (Proc.devRef .tc main_arg4) := by after_results_simp
theorem s4_keep_arg5 : after (hostOps4 (F := Ideal)) W (Proc.devRef .tc main_arg5) = W (Proc.devRef .tc main_arg5) := by after_results_simp
theorem s4_keep_arg6 : after (hostOps4 (F := Ideal)) W (Proc.devRef .tc main_arg6) = W (Proc.devRef .tc main_arg6) := by after_results_simp
theorem s4_keep_arg7 : after (hostOps4 (F := Ideal)) W (Proc.devRef .tc main_arg7) = W (Proc.devRef .tc main_arg7) := by after_results_simp
theorem s4_keep_arg8 : after (hostOps4 (F := Ideal)) W (Proc.devRef .tc main_arg8) = W (Proc.devRef .tc main_arg8) := by after_results_simp

end Cert.KernelIdeal.KValue

end
-- ==== Proof.KCarry.lean ====
/-
  What later stretches still read, carried through the program.

  After the first stretch of host operations the edge rows, the vector of scales and the arguments that later stretches
  read hold their values; no later stretch before the pooling writes any of them, and a pallas_call's write-back changes
  only its own result array. So the same ten facts hold of the buffer contents at every segment boundary up to the
  pooling's entry.
-/
import proofs.«175996_j627065225439_1_alg».proof.Proof.KHost0
import proofs.«175996_j627065225439_1_alg».proof.Proof.KHost1
import proofs.«175996_j627065225439_1_alg».proof.Proof.KHost2
import proofs.«175996_j627065225439_1_alg».proof.Proof.KHost3
import proofs.«175996_j627065225439_1_alg».proof.Proof.KHost4

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

/-- The ten carried facts, of contents `W`. -/
structure Carry (e : IVec S2x819200 32) (eps : FVec Ideal S5 .f32) (a2 a3 : IVec S102400 32) (a4 : IVec S64 32)
    (p5 : FVec Ideal S5x128x256 .f32) (p6 : FVec Ideal S5x256 .f32) (p7 : FVec Ideal S5x256x128 .f32) (p8 : FVec Ideal S5x128 .f32)
    (W : Valuation τ sig (Elt Ideal)) : Prop where
  v1 : W (Proc.devRef .tc main_v1) = src e
  v3 : W (Proc.devRef .tc main_v3) = dst e
  v5 : W (Proc.devRef .tc main_v5) = scales eps
  a2 : W (Proc.devRef .tc main_arg2) = a2
  a3 : W (Proc.devRef .tc main_arg3) = a3
  a4 : W (Proc.devRef .tc main_arg4) = a4
  a5 : W (Proc.devRef .tc main_arg5) = p5
  a6 : W (Proc.devRef .tc main_arg6) = p6
  a7 : W (Proc.devRef .tc main_arg7) = p7
  a8 : W (Proc.devRef .tc main_arg8) = p8

variable {e : IVec S2x819200 32} {eps : FVec Ideal S5 .f32} {a2 a3 : IVec S102400 32} {a4 : IVec S64 32}
  {p5 : FVec Ideal S5x128x256 .f32} {p6 : FVec Ideal S5x256 .f32} {p7 : FVec Ideal S5x256x128 .f32} {p8 : FVec Ideal S5x128 .f32}

/-- The first stretch establishes them, from contents holding the arguments. -/
theorem carry_host0 (W : Valuation τ sig (Elt Ideal)) (h1 : W (Proc.devRef .tc main_arg1) = e) (h9 : W (Proc.devRef .tc main_arg9) = eps)
    (h2 : W (Proc.devRef .tc main_arg2) = a2) (h3 : W (Proc.devRef .tc main_arg3) = a3) (h4 : W (Proc.devRef .tc main_arg4) = a4)
    (h5 : W (Proc.devRef .tc main_arg5) = p5) (h6 : W (Proc.devRef .tc main_arg6) = p6) (h7 : W (Proc.devRef .tc main_arg7) = p7) (h8 : W (Proc.devRef .tc main_arg8) = p8) :
    Carry e eps a2 a3 a4 p5 p6 p7 p8 (after (hostOps0 (F := Ideal)) W) :=
  ⟨(s0_keep_v1 W).trans (by rw [h1]), (s0_keep_v3 W).trans (by rw [h1]), (s0_keep_v5 W).trans (by rw [h9]),
   (s0_keep_arg2 W).trans h2, (s0_keep_arg3 W).trans h3, (s0_keep_arg4 W).trans h4, (s0_keep_arg5 W).trans h5,
   (s0_keep_arg6 W).trans h6, (s0_keep_arg7 W).trans h7, (s0_keep_arg8 W).trans h8⟩

/-- Stretch 1 keeps them. -/
theorem carry_host1 (W : Valuation τ sig (Elt Ideal)) (h : Carry e eps a2 a3 a4 p5 p6 p7 p8 W) :
    Carry e eps a2 a3 a4 p5 p6 p7 p8 (after (hostOps1 (F := Ideal)) W) :=
  ⟨(s1_keep_v1 W).trans h.v1,
   (s1_keep_v3 W).trans h.v3,
   (s1_keep_v5 W).trans h.v5,
   (s1_keep_arg2 W).trans h.a2,
   (s1_keep_arg3 W).trans h.a3,
   (s1_keep_arg4 W).trans h.a4,
   (s1_keep_arg5 W).trans h.a5,
   (s1_keep_arg6 W).trans h.a6,
   (s1_keep_arg7 W).trans h.a7,
   (s1_keep_arg8 W).trans h.a8⟩

/-- Stretch 2 keeps them. -/
theorem carry_host2 (W : Valuation τ sig (Elt Ideal)) (h : Carry e eps a2 a3 a4 p5 p6 p7 p8 W) :
    Carry e eps a2 a3 a4 p5 p6 p7 p8 (after (hostOps2 (F := Ideal)) W) :=
  ⟨(s2_keep_v1 W).trans h.v1,
   (s2_keep_v3 W).trans h.v3,
   (s2_keep_v5 W).trans h.v5,
   (s2_keep_arg2 W).trans h.a2,
   (s2_keep_arg3 W).trans h.a3,
   (s2_keep_arg4 W).trans h.a4,
   (s2_keep_arg5 W).trans h.a5,
   (s2_keep_arg6 W).trans h.a6,
   (s2_keep_arg7 W).trans h.a7,
   (s2_keep_arg8 W).trans h.a8⟩

/-- Stretch 3 keeps them. -/
theorem carry_host3 (W : Valuation τ sig (Elt Ideal)) (h : Carry e eps a2 a3 a4 p5 p6 p7 p8 W) :
    Carry e eps a2 a3 a4 p5 p6 p7 p8 (after (hostOps3 (F := Ideal)) W) :=
  ⟨(s3_keep_v1 W).trans h.v1,
   (s3_keep_v3 W).trans h.v3,
   (s3_keep_v5 W).trans h.v5,
   (s3_keep_arg2 W).trans h.a2,
   (s3_keep_arg3 W).trans h.a3,
   (s3_keep_arg4 W).trans h.a4,
   (s3_keep_arg5 W).trans h.a5,
   (s3_keep_arg6 W).trans h.a6,
   (s3_keep_arg7 W).trans h.a7,
   (s3_keep_arg8 W).trans h.a8⟩

/-- Stretch 4 keeps them. -/
theorem carry_host4 (W : Valuation τ sig (Elt Ideal)) (h : Carry e eps a2 a3 a4 p5 p6 p7 p8 W) :
    Carry e eps a2 a3 a4 p5 p6 p7 p8 (after (hostOps4 (F := Ideal)) W) :=
  ⟨(s4_keep_v1 W).trans h.v1,
   (s4_keep_v3 W).trans h.v3,
   (s4_keep_v5 W).trans h.v5,
   (s4_keep_arg2 W).trans h.a2,
   (s4_keep_arg3 W).trans h.a3,
   (s4_keep_arg4 W).trans h.a4,
   (s4_keep_arg5 W).trans h.a5,
   (s4_keep_arg6 W).trans h.a6,
   (s4_keep_arg7 W).trans h.a7,
   (s4_keep_arg8 W).trans h.a8⟩

variable (m : (ℓ : Loc nD τ sig) → Buf (Elt Ideal) ℓ) (ρ : Dev nD → PrngReg) (c : Dev nD)

/-- Pallas_call 0's write-back keeps them. -/
theorem carry_reg0 (h : Carry e eps a2 a3 a4 p5 p6 p7 p8 (W1 m ρ c)) : Carry e eps a2 a3 a4 p5 p6 p7 p8 (W2 m ρ c) :=
  ⟨(W2_of_ne m ρ c main_v1 (by decide)).trans h.v1,
   (W2_of_ne m ρ c main_v3 (by decide)).trans h.v3,
   (W2_of_ne m ρ c main_v5 (by decide)).trans h.v5,
   (W2_of_ne m ρ c main_arg2 (by decide)).trans h.a2,
   (W2_of_ne m ρ c main_arg3 (by decide)).trans h.a3,
   (W2_of_ne m ρ c main_arg4 (by decide)).trans h.a4,
   (W2_of_ne m ρ c main_arg5 (by decide)).trans h.a5,
   (W2_of_ne m ρ c main_arg6 (by decide)).trans h.a6,
   (W2_of_ne m ρ c main_arg7 (by decide)).trans h.a7,
   (W2_of_ne m ρ c main_arg8 (by decide)).trans h.a8⟩

/-- Pallas_call 1's write-back keeps them. -/
theorem carry_reg1 (h : Carry e eps a2 a3 a4 p5 p6 p7 p8 (W3 m ρ c)) : Carry e eps a2 a3 a4 p5 p6 p7 p8 (W4 m ρ c) :=
  ⟨(W4_of_ne m ρ c main_v1 (by decide)).trans h.v1,
   (W4_of_ne m ρ c main_v3 (by decide)).trans h.v3,
   (W4_of_ne m ρ c main_v5 (by decide)).trans h.v5,
   (W4_of_ne m ρ c main_arg2 (by decide)).trans h.a2,
   (W4_of_ne m ρ c main_arg3 (by decide)).trans h.a3,
   (W4_of_ne m ρ c main_arg4 (by decide)).trans h.a4,
   (W4_of_ne m ρ c main_arg5 (by decide)).trans h.a5,
   (W4_of_ne m ρ c main_arg6 (by decide)).trans h.a6,
   (W4_of_ne m ρ c main_arg7 (by decide)).trans h.a7,
   (W4_of_ne m ρ c main_arg8 (by decide)).trans h.a8⟩

/-- Pallas_call 2's write-back keeps them. -/
theorem carry_reg2 (h : Carry e eps a2 a3 a4 p5 p6 p7 p8 (W5 m ρ c)) : Carry e eps a2 a3 a4 p5 p6 p7 p8 (W6 m ρ c) :=
  ⟨(W6_of_ne m ρ c main_v1 (by decide)).trans h.v1,
   (W6_of_ne m ρ c main_v3 (by decide)).trans h.v3,
   (W6_of_ne m ρ c main_v5 (by decide)).trans h.v5,
   (W6_of_ne m ρ c main_arg2 (by decide)).trans h.a2,
   (W6_of_ne m ρ c main_arg3 (by decide)).trans h.a3,
   (W6_of_ne m ρ c main_arg4 (by decide)).trans h.a4,
   (W6_of_ne m ρ c main_arg5 (by decide)).trans h.a5,
   (W6_of_ne m ρ c main_arg6 (by decide)).trans h.a6,
   (W6_of_ne m ρ c main_arg7 (by decide)).trans h.a7,
   (W6_of_ne m ρ c main_arg8 (by decide)).trans h.a8⟩

/-- Pallas_call 3's write-back keeps them. -/
theorem carry_reg3 (h : Carry e eps a2 a3 a4 p5 p6 p7 p8 (W7 m ρ c)) : Carry e eps a2 a3 a4 p5 p6 p7 p8 (W8 m ρ c) :=
  ⟨(W8_of_ne m ρ c main_v1 (by decide)).trans h.v1,
   (W8_of_ne m ρ c main_v3 (by decide)).trans h.v3,
   (W8_of_ne m ρ c main_v5 (by decide)).trans h.v5,
   (W8_of_ne m ρ c main_arg2 (by decide)).trans h.a2,
   (W8_of_ne m ρ c main_arg3 (by decide)).trans h.a3,
   (W8_of_ne m ρ c main_arg4 (by decide)).trans h.a4,
   (W8_of_ne m ρ c main_arg5 (by decide)).trans h.a5,
   (W8_of_ne m ρ c main_arg6 (by decide)).trans h.a6,
   (W8_of_ne m ρ c main_arg7 (by decide)).trans h.a7,
   (W8_of_ne m ρ c main_arg8 (by decide)).trans h.a8⟩

/-- Pallas_call 4's write-back keeps them. -/
theorem carry_reg4 (h : Carry e eps a2 a3 a4 p5 p6 p7 p8 (W9 m ρ c)) : Carry e eps a2 a3 a4 p5 p6 p7 p8 (W10 m ρ c) :=
  ⟨(W10_of_ne m ρ c main_v1 (by decide)).trans h.v1,
   (W10_of_ne m ρ c main_v3 (by decide)).trans h.v3,
   (W10_of_ne m ρ c main_v5 (by decide)).trans h.v5,
   (W10_of_ne m ρ c main_arg2 (by decide)).trans h.a2,
   (W10_of_ne m ρ c main_arg3 (by decide)).trans h.a3,
   (W10_of_ne m ρ c main_arg4 (by decide)).trans h.a4,
   (W10_of_ne m ρ c main_arg5 (by decide)).trans h.a5,
   (W10_of_ne m ρ c main_arg6 (by decide)).trans h.a6,
   (W10_of_ne m ρ c main_arg7 (by decide)).trans h.a7,
   (W10_of_ne m ρ c main_arg8 (by decide)).trans h.a8⟩

end Cert.KernelIdeal.KValue

end
-- ==== Proof.KTail.lean ====
/-
  The host operations around the pooling pallas_call, read one result at a time.

  Before it: the running sum of the per-graph bin counts with a leading zero (65 offsets), the offset of each node's
  graph (a negative graph word wrapped once) plus the node's local bin — the node's bin word —, that vector as a
  column, and the row 0, 1, …, 1023 of bin numbers. After it: the number of nodes per bin (ones added into a zero
  column at the bin words), clamped below at 1, broadcast across the features, dividing the pooled sums.
-/
import proofs.«175996_j627065225439_1_alg».proof.Proof.KDefs

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

/-- The bin word of every node, from the graph words, the local bins and the per-graph counts. -/
def binWords (bt sb : IVec S102400 32) (ns : IVec S64 32) : IVec S102400 32 :=
  addi (Host.gather gather_S65_S102400x1_S102400_n_0_n_n_0_1_1
      (concatenate S65 0 [⟨S1, broadcastInDim S1 ![] bcast_S_S1 (constantI S_ 32 0#32)⟩,
        ⟨S64, Host.reduceWindow IntOp.addi ![64] ![1] ![63] ![0] ns (broadcastInDim S_ ![] bcast_S_S_ (constantI S_ 32 0#32)) reduceWindows_S64_S64_w64s1p63_0 h_S_⟩] concatenates_S1_S64_S65_d0)
      (broadcastInDim S102400x1 ![0] bcast_S102400_S102400x1_0
        (select (cmpi .slt bt (broadcastInDim S102400 ![] bcast_S_S102400 (constantI S_ 32 0#32)))
          (addi bt (broadcastInDim S102400 ![] bcast_S_S102400 (constantI S_ 32 65#32))) bt))) sb

/-- The pooled sums divided by the bin counts clamped below at 1. -/
def tail (w : IVec S102400 32) (sums : FVec Ideal S1024x128 .f32) : FVec Ideal S1024x128 .f32 :=
  Host.divf sums (broadcastInDim S1024x128 ![0, 1] bcast_S1024x1_S1024x128_0_1
    (maximumf (Host.scatterAdd scatter_S1024x1_S102400x1_S102400x1_1_0_0_1
        (broadcastInDim S1024x1 ![] bcast_S_S1024x1 (constant S_ .f32 0x00000000#32))
        (broadcastInDim S102400x1 ![0] bcast_S102400_S102400x1_0 w)
        (broadcastInDim S102400x1 ![] bcast_S_S102400x1 (constant S_ .f32 0x3F800000#32)))
      (broadcastInDim S1024x1 ![] bcast_S_S1024x1 (constant S_ .f32 0x3F800000#32))))

variable (W : Valuation τ sig (Elt Ideal))

/-- The three stretches before the pooling call, as one line. -/
abbrev preOps : List (HloOp τ sig (Elt Ideal)) := hostOps5 ++ (hostOps5_1 ++ hostOps5_2)

theorem pre_h : after preOps W (Proc.devRef .tc main_v125) = W (Proc.devRef .tc main_v125) := by
  dsimp only [preOps, hostOps5, hostOps5_1, hostOps5_2, List.cons_append, List.nil_append]
  after_results_simp
theorem pre_words : after preOps W (Proc.devRef .tc main_v136) = binWords (W (Proc.devRef .tc main_arg2)) (W (Proc.devRef .tc main_arg3)) (W (Proc.devRef .tc main_arg4)) := by
  dsimp only [preOps, hostOps5, hostOps5_1, hostOps5_2, List.cons_append, List.nil_append]
  after_results_simp; rfl
theorem pre_col : after preOps W (Proc.devRef .tc main_v137) = (shapeCast S102400x1 (binWords (W (Proc.devRef .tc main_arg2)) (W (Proc.devRef .tc main_arg3)) (W (Proc.devRef .tc main_arg4))) shapeCasts_S102400_S102400x1 : IVec S102400x1 32) := by
  dsimp only [preOps, hostOps5, hostOps5_1, hostOps5_2, List.cons_append, List.nil_append]
  after_results_simp; rfl
theorem pre_iota : after preOps W (Proc.devRef .tc main_v139) = (shapeCast S1x1024 (iotaInDim S1024 32 0) shapeCasts_S1024_S1x1024 : IVec S1x1024 32) := by
  dsimp only [preOps, hostOps5, hostOps5_1, hostOps5_2, List.cons_append, List.nil_append]
  after_results_simp; rfl

theorem post_out : after (hostOps6 (F := Ideal)) W (Proc.devRef .tc main_v148) = tail (W (Proc.devRef .tc main_v136)) (W (Proc.devRef .tc main_v140)) := by
  after_results_simp; rfl

end Cert.KernelIdeal.KValue

end
-- ==== Proof.KNorm.lean ====
/-
  Small readings at an index: a scalar viewed as a 1 × 1 array, a vector viewed as a row or as a column, the r-th entry
  of the vector of scales, the row of bin numbers.
-/
import proofs.«175996_j627065225439_1_alg».proof.Proof.KTail
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

open Idealize.ShloMosaic.ValueIdx

/-- A scalar viewed as a 1 × 1 array holds the scalar. -/
theorem as1x1_apply (v : FVec Ideal S_ .f32) : as1x1 v (ix2 (0 : Fin 1) (0 : Fin 1)) = v ix0 :=
  shapeCast_apply v shapeCasts_S_S1x1 _ _ (by rw [Shape.rowMajor_val_two]; rfl)

/-- A vector of 256 viewed as a row reads the vector. -/
theorem asRow256_apply (v : FVec Ideal S256 .f32) (q : Fin 256) : asRow256 v (ix2 (0 : Fin 1) q) = v (ix1 q) :=
  shapeCast_apply v shapeCasts_S256_S1x256 _ _ (by
    rw [Shape.rowMajor_val_two, Shape.rowMajor_val_one]
    show q.val = 0 * 256 + q.val
    omega)

/-- A vector of 128 viewed as a row reads the vector. -/
theorem asRow128_apply (v : FVec Ideal S128 .f32) (q : Fin 128) : asRow128 v (ix2 (0 : Fin 1) q) = v (ix1 q) :=
  shapeCast_apply v shapeCasts_S128_S1x128 _ _ (by
    rw [Shape.rowMajor_val_two, Shape.rowMajor_val_one]
    show q.val = 0 * 128 + q.val
    omega)

/-- The bin words viewed as a column read the words. -/
theorem col_apply (w : IVec S102400 32) (n : Fin 102400) :
    (shapeCast S102400x1 w shapeCasts_S102400_S102400x1 : IVec S102400x1 32) (ix2 n (0 : Fin 1)) = w (ix1 n) :=
  shapeCast_apply w shapeCasts_S102400_S102400x1 _ _ (by
    rw [Shape.rowMajor_val_two, Shape.rowMajor_val_one]
    show n.val = n.val * 1 + 0
    omega)

/-- The row of bin numbers holds s at position s. -/
theorem iota_apply (s : Fin 1024) :
    (shapeCast S1x1024 (iotaInDim S1024 32 0) shapeCasts_S1024_S1x1024 : IVec S1x1024 32) (ix2 (0 : Fin 1) s) = BitVec.ofNat 32 s.val :=
  (shapeCast_apply (iotaInDim S1024 32 0) shapeCasts_S1024_S1x1024 _ (ix1 s) (by
    rw [Shape.rowMajor_val_two, Shape.rowMajor_val_one]
    show s.val = 0 * 1024 + s.val
    omega)).trans rfl

/-- The r-th scale is 1 + eps r. -/
theorem scales_apply (eps : FVec Ideal S5 .f32) (r : Fin 5) :
    scales eps (ix1 r) = Ideal.ofBits .f32 0x3F800000#32 + eps (ix1 r) := by
  unfold scales
  rw [addf_apply]
  congr 1

theorem sc0_apply (sv : FVec Ideal S5 .f32) : sc0 sv ix0 = sv (ix1 (0 : Fin 5)) := by
  unfold sc0
  refine (shapeCast_apply _ shapeCasts_S1_S_ ix0 (ix1 (0 : Fin 1)) (by rw [Shape.rowMajor_val_one]; rfl)).trans ?_
  exact extractStridedSlice_apply ![0] sv slices_S5_S1_0 (ix1 (0 : Fin 1)) (ix1 (0 : Fin 5)) (fun a => by
    match a with
    | ⟨0, _⟩ => rfl)

theorem sc1_apply (sv : FVec Ideal S5 .f32) : sc1 sv ix0 = sv (ix1 (1 : Fin 5)) := by
  unfold sc1
  refine (shapeCast_apply _ shapeCasts_S1_S_ ix0 (ix1 (0 : Fin 1)) (by rw [Shape.rowMajor_val_one]; rfl)).trans ?_
  exact extractStridedSlice_apply ![1] sv slices_S5_S1_1 (ix1 (0 : Fin 1)) (ix1 (1 : Fin 5)) (fun a => by
    match a with
    | ⟨0, _⟩ => rfl)

theorem sc2_apply (sv : FVec Ideal S5 .f32) : sc2 sv ix0 = sv (ix1 (2 : Fin 5)) := by
  unfold sc2
  refine (shapeCast_apply _ shapeCasts_S1_S_ ix0 (ix1 (0 : Fin 1)) (by rw [Shape.rowMajor_val_one]; rfl)).trans ?_
  exact extractStridedSlice_apply ![2] sv slices_S5_S1_2 (ix1 (0 : Fin 1)) (ix1 (2 : Fin 5)) (fun a => by
    match a with
    | ⟨0, _⟩ => rfl)

theorem sc3_apply (sv : FVec Ideal S5 .f32) : sc3 sv ix0 = sv (ix1 (3 : Fin 5)) := by
  unfold sc3
  refine (shapeCast_apply _ shapeCasts_S1_S_ ix0 (ix1 (0 : Fin 1)) (by rw [Shape.rowMajor_val_one]; rfl)).trans ?_
  exact extractStridedSlice_apply ![3] sv slices_S5_S1_3 (ix1 (0 : Fin 1)) (ix1 (3 : Fin 5)) (fun a => by
    match a with
    | ⟨0, _⟩ => rfl)

theorem sc4_apply (sv : FVec Ideal S5 .f32) : sc4 sv ix0 = sv (ix1 (4 : Fin 5)) := by
  unfold sc4
  refine (shapeCast_apply _ shapeCasts_S1_S_ ix0 (ix1 (0 : Fin 1)) (by rw [Shape.rowMajor_val_one]; rfl)).trans ?_
  exact extractStridedSlice_apply ![4] sv slices_S5_S1_4 (ix1 (0 : Fin 1)) (ix1 (4 : Fin 5)) (fun a => by
    match a with
    | ⟨0, _⟩ => rfl)

end Cert.KernelIdeal.KValue

end
-- ==== Proof.Spec.lean ====
/-
  The mathematics both programs compute, index by index on the extended reals.

  One message-passing layer takes the node features h (102400 nodes, 128 features each) and the aggregated
  messages agg of the same shape, and produces, at node n and feature d,

      act ( ∑ q < 256,  max( ∑ j < 128, (s · h(n, j) + agg(n, j)) · W1(j, q)  +  b1(q),  0 ) · W2(q, d)  +  b2(d) )

  where s is the layer's scale 1 + eps, W1, b1, W2, b2 its two affine maps, and act is max(·, 0) on every layer but the
  last, where it is the identity. The network is five such layers, each fed the previous layer's output and the
  aggregation of that output over the edge list; the aggregation enters only as a function A from feature arrays to
  feature arrays, the same on both sides.

  The pooling sums, for each of the 1024 bins s and each feature d, the rows whose bin word equals s:

      pool h idx (s, d) = ∑ n < 102400, if idx n = s then h(n, d) else 0.
-/
import Idealize.ShloMosaic.PureOps.Ideal
import Idealize.ShloMosaic.Lib.ValueIdx

noncomputable section

namespace Cert.Spec

open Idealize.ShloMosaic Idealize.ShloMosaic.ValueIdx
open scoped BigOperators

/-- Node features: 102400 nodes by 128 features. -/
abbrev SH : Shape := ⟨2, ![102400, 128]⟩
/-- The first affine map's matrix: 128 by 256. -/
abbrev SW1 : Shape := ⟨2, ![128, 256]⟩
/-- The second affine map's matrix: 256 by 128. -/
abbrev SW2 : Shape := ⟨2, ![256, 128]⟩
/-- The pooled result: 1024 bins by 128 features. -/
abbrev SP : Shape := ⟨2, ![1024, 128]⟩

/-- The zero both programs compare against in their rectifiers, as the float word's value. -/
abbrev zeroF : EReal := Ideal.ofBits .f32 0x00000000#32

/-- The activation after a layer: the rectifier, or nothing on the last layer. -/
def act (relu : Bool) (y : EReal) : EReal := if relu then max y zeroF else y

/-- The hidden unit q of node n: the rectified first affine map of s · h + agg. -/
def hidden (s : EReal) (h agg : SH.Idx → EReal) (W1 : SW1.Idx → EReal) (b1 : Fin 256 → EReal)
    (n : Fin 102400) (q : Fin 256) : EReal :=
  max ((∑ j : Fin 128, (s * h (ix2 n j) + agg (ix2 n j)) * W1 (ix2 j q)) + b1 q) zeroF

/-- One layer at node n and feature d. -/
def ginAt (relu : Bool) (s : EReal) (h agg : SH.Idx → EReal) (W1 : SW1.Idx → EReal) (b1 : Fin 256 → EReal)
    (W2 : SW2.Idx → EReal) (b2 : Fin 128 → EReal) (n : Fin 102400) (d : Fin 128) : EReal :=
  act relu ((∑ q : Fin 256, hidden s h agg W1 b1 n q * W2 (ix2 q d)) + b2 d)

/-- One layer as a whole array. -/
def gin (relu : Bool) (s : EReal) (h agg : SH.Idx → EReal) (W1 : SW1.Idx → EReal) (b1 : Fin 256 → EReal)
    (W2 : SW2.Idx → EReal) (b2 : Fin 128 → EReal) : SH.Idx → EReal :=
  fun i => ginAt relu s h agg W1 b1 W2 b2 (i 0) (i 1)

theorem gin_ix2 (relu : Bool) (s : EReal) (h agg : SH.Idx → EReal) (W1 : SW1.Idx → EReal) (b1 : Fin 256 → EReal)
    (W2 : SW2.Idx → EReal) (b2 : Fin 128 → EReal) (n : Fin 102400) (d : Fin 128) :
    gin relu s h agg W1 b1 W2 b2 (ix2 n d) = ginAt relu s h agg W1 b1 W2 b2 n d := rfl

/-- The five layers: layer r uses the r-th scale and affine maps, and aggregates its own input by A; every layer but
    the last is followed by the rectifier. -/
def net (A : (SH.Idx → EReal) → (SH.Idx → EReal)) (s : Fin 5 → EReal) (W1 : Fin 5 → SW1.Idx → EReal)
    (b1 : Fin 5 → Fin 256 → EReal) (W2 : Fin 5 → SW2.Idx → EReal) (b2 : Fin 5 → Fin 128 → EReal)
    (x : SH.Idx → EReal) : SH.Idx → EReal :=
  let h1 := gin true (s 0) x (A x) (W1 0) (b1 0) (W2 0) (b2 0)
  let h2 := gin true (s 1) h1 (A h1) (W1 1) (b1 1) (W2 1) (b2 1)
  let h3 := gin true (s 2) h2 (A h2) (W1 2) (b1 2) (W2 2) (b2 2)
  let h4 := gin true (s 3) h3 (A h3) (W1 3) (b1 3) (W2 3) (b2 3)
  gin false (s 4) h4 (A h4) (W1 4) (b1 4) (W2 4) (b2 4)

/-- The pooled sums at bin s and feature d: the rows whose bin word is s. -/
def poolAt (h : SH.Idx → EReal) (idx : Fin 102400 → BitVec 32) (s : Fin 1024) (d : Fin 128) : EReal :=
  ∑ n : Fin 102400, if idx n = BitVec.ofNat 32 s.val then h (ix2 n d) else 0

/-- The pooled sums as a whole array. -/
def pool (h : SH.Idx → EReal) (idx : Fin 102400 → BitVec 32) : SP.Idx → EReal :=
  fun i => poolAt h idx (i 0) (i 1)

theorem pool_ix2 (h : SH.Idx → EReal) (idx : Fin 102400 → BitVec 32) (s : Fin 1024) (d : Fin 128) :
    pool h idx (ix2 s d) = poolAt h idx s d := rfl

end Cert.Spec

end
-- ==== Proof.KOut.lean ====
/-
  The idealized kernel's result, and its normal form.

  Each pallas_call delivers one layer of the network with its scale read off a 1 × 1 array and its biases off 1 × n
  rows; read at an index these are the r-th scale 1 + eps r and the bias vectors themselves, so the five layers are the
  network of the specification over the host's aggregation and parameter slices, and the result is the pooled network
  output over the clamped bin counts.
-/
import proofs.«175996_j627065225439_1_alg».proof.Proof.KNorm
import proofs.«175996_j627065225439_1_alg».proof.Proof.Spec

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

open Idealize.ShloMosaic.ValueIdx

/-- Layer 0 as pallas_call 0 delivers it: the scale read off its 1 × 1 array, the biases off their rows. -/
def klayer0 (e : IVec S2x819200 32) (eps : FVec Ideal S5 .f32) (p5 : FVec Ideal S5x128x256 .f32) (p6 : FVec Ideal S5x256 .f32)
    (p7 : FVec Ideal S5x256x128 .f32) (p8 : FVec Ideal S5x128 .f32) (h : FVec Ideal S102400x128 .f32) : FVec Ideal S102400x128 .f32 :=
  Cert.Spec.gin true (as1x1 (sc0 (scales eps)) (ix2 (0 : Fin 1) (0 : Fin 1))) h (aggOf (src e) (dst e) h) (w1_0 p5)
    (fun q => asRow256 (bv1_0 p6) (ix2 (0 : Fin 1) q)) (w2_0 p7) (fun d => asRow128 (bv2_0 p8) (ix2 (0 : Fin 1) d))

/-- Layer 1 as pallas_call 1 delivers it: the scale read off its 1 × 1 array, the biases off their rows. -/
def klayer1 (e : IVec S2x819200 32) (eps : FVec Ideal S5 .f32) (p5 : FVec Ideal S5x128x256 .f32) (p6 : FVec Ideal S5x256 .f32)
    (p7 : FVec Ideal S5x256x128 .f32) (p8 : FVec Ideal S5x128 .f32) (h : FVec Ideal S102400x128 .f32) : FVec Ideal S102400x128 .f32 :=
  Cert.Spec.gin true (as1x1 (sc1 (scales eps)) (ix2 (0 : Fin 1) (0 : Fin 1))) h (aggOf (src e) (dst e) h) (w1_1 p5)
    (fun q => asRow256 (bv1_1 p6) (ix2 (0 : Fin 1) q)) (w2_1 p7) (fun d => asRow128 (bv2_1 p8) (ix2 (0 : Fin 1) d))

/-- Layer 2 as pallas_call 2 delivers it: the scale read off its 1 × 1 array, the biases off their rows. -/
def klayer2 (e : IVec S2x819200 32) (eps : FVec Ideal S5 .f32) (p5 : FVec Ideal S5x128x256 .f32) (p6 : FVec Ideal S5x256 .f32)
    (p7 : FVec Ideal S5x256x128 .f32) (p8 : FVec Ideal S5x128 .f32) (h : FVec Ideal S102400x128 .f32) : FVec Ideal S102400x128 .f32 :=
  Cert.Spec.gin true (as1x1 (sc2 (scales eps)) (ix2 (0 : Fin 1) (0 : Fin 1))) h (aggOf (src e) (dst e) h) (w1_2 p5)
    (fun q => asRow256 (bv1_2 p6) (ix2 (0 : Fin 1) q)) (w2_2 p7) (fun d => asRow128 (bv2_2 p8) (ix2 (0 : Fin 1) d))

/-- Layer 3 as pallas_call 3 delivers it: the scale read off its 1 × 1 array, the biases off their rows. -/
def klayer3 (e : IVec S2x819200 32) (eps : FVec Ideal S5 .f32) (p5 : FVec Ideal S5x128x256 .f32) (p6 : FVec Ideal S5x256 .f32)
    (p7 : FVec Ideal S5x256x128 .f32) (p8 : FVec Ideal S5x128 .f32) (h : FVec Ideal S102400x128 .f32) : FVec Ideal S102400x128 .f32 :=
  Cert.Spec.gin true (as1x1 (sc3 (scales eps)) (ix2 (0 : Fin 1) (0 : Fin 1))) h (aggOf (src e) (dst e) h) (w1_3 p5)
    (fun q => asRow256 (bv1_3 p6) (ix2 (0 : Fin 1) q)) (w2_3 p7) (fun d => asRow128 (bv2_3 p8) (ix2 (0 : Fin 1) d))

/-- Layer 4 as pallas_call 4 delivers it: the scale read off its 1 × 1 array, the biases off their rows. -/
def klayer4 (e : IVec S2x819200 32) (eps : FVec Ideal S5 .f32) (p5 : FVec Ideal S5x128x256 .f32) (p6 : FVec Ideal S5x256 .f32)
    (p7 : FVec Ideal S5x256x128 .f32) (p8 : FVec Ideal S5x128 .f32) (h : FVec Ideal S102400x128 .f32) : FVec Ideal S102400x128 .f32 :=
  Cert.Spec.gin false (as1x1 (sc4 (scales eps)) (ix2 (0 : Fin 1) (0 : Fin 1))) h (aggOf (src e) (dst e) h) (w1_4 p5)
    (fun q => asRow256 (bv1_4 p6) (ix2 (0 : Fin 1) q)) (w2_4 p7) (fun d => asRow128 (bv2_4 p8) (ix2 (0 : Fin 1) d))

/-- The kernel's result as a function of the argument arrays. -/
def kout (x : FVec Ideal S102400x128 .f32) (e : IVec S2x819200 32) (a2 a3 : IVec S102400 32) (a4 : IVec S64 32)
    (p5 : FVec Ideal S5x128x256 .f32) (p6 : FVec Ideal S5x256 .f32) (p7 : FVec Ideal S5x256x128 .f32) (p8 : FVec Ideal S5x128 .f32)
    (eps : FVec Ideal S5 .f32) : FVec Ideal S1024x128 .f32 :=
  tail (binWords a2 a3 a4) (Cert.Spec.pool
    (klayer4 e eps p5 p6 p7 p8 (klayer3 e eps p5 p6 p7 p8 (klayer2 e eps p5 p6 p7 p8 (klayer1 e eps p5 p6 p7 p8 (klayer0 e eps p5 p6 p7 p8 x)))))
    (fun n => binWords a2 a3 a4 (ix1 n)))

/-- The kernel's result in normal form. -/
theorem kout_eq (x : FVec Ideal S102400x128 .f32) (e : IVec S2x819200 32) (a2 a3 : IVec S102400 32) (a4 : IVec S64 32)
    (p5 : FVec Ideal S5x128x256 .f32) (p6 : FVec Ideal S5x256 .f32) (p7 : FVec Ideal S5x256x128 .f32) (p8 : FVec Ideal S5x128 .f32)
    (eps : FVec Ideal S5 .f32) :
    kout x e a2 a3 a4 p5 p6 p7 p8 eps
      = tail (binWords a2 a3 a4) (Cert.Spec.pool
          (Cert.Spec.net (aggOf (src e) (dst e)) (fun r => Ideal.ofBits .f32 0x3F800000#32 + eps (ix1 r))
            ![w1_0 p5, w1_1 p5, w1_2 p5, w1_3 p5, w1_4 p5]
            ![fun q => bv1_0 p6 (ix1 q), fun q => bv1_1 p6 (ix1 q), fun q => bv1_2 p6 (ix1 q), fun q => bv1_3 p6 (ix1 q), fun q => bv1_4 p6 (ix1 q)]
            ![w2_0 p7, w2_1 p7, w2_2 p7, w2_3 p7, w2_4 p7]
            ![fun d => bv2_0 p8 (ix1 d), fun d => bv2_1 p8 (ix1 d), fun d => bv2_2 p8 (ix1 d), fun d => bv2_3 p8 (ix1 d), fun d => bv2_4 p8 (ix1 d)] x)
          (fun n => binWords a2 a3 a4 (ix1 n))) := by
  unfold kout klayer0 klayer1 klayer2 klayer3 klayer4
  simp only [as1x1_apply, sc0_apply, sc1_apply, sc2_apply, sc3_apply, sc4_apply, scales_apply, asRow256_apply, asRow128_apply]
  rfl

end Cert.KernelIdeal.KValue

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.GinBody.lean ====
/-
  One layer's arithmetic on a block of 2048 rows, read at an index.

  The body of a layer takes the block's rows of the node features h and of the aggregated messages agg, the scale s
  as a 1 × 1 array, and the two affine maps W1, b1 (a 1 × 256 row), W2, b2 (a 1 × 128 row). It forms s · h + agg,
  multiplies by W1 into a zero accumulator, adds the row b1 to every row, rectifies, multiplies by W2 into a zero
  accumulator, adds the row b2 and (on every layer but the last) rectifies again. The roundings to the 16-bit format
  on the way into the two products are the identity on the extended reals, and a cast to the same shape is the
  identity. So at row p and feature d of the block the result is

      act ( ∑ q < 256, max( ∑ j < 128, (s · h(p, j) + agg(p, j)) · W1(j, q) + b1(q), 0 ) · W2(q, d) + b2(d) ),

  the specification's one-layer formula with the block's row in place of the node.
-/
import proofs.«175996_j627065225439_1_alg».proof.Proof.Gen.KernelIdeal.Skeleton
import proofs.«175996_j627065225439_1_alg».proof.Proof.Spec
import proofs.«175996_j627065225439_1_alg».proof.Proof.LibPlainDot
import proofs.«175996_j627065225439_1_alg».proof.Proof.LibRowBroadcasts
import Idealize.ShloMosaic.Lib.Pipeline.Value

noncomputable section

namespace Cert.KernelIdeal.GinBody

open Cert.KernelIdeal Cert.KernelIdeal.Gen Idealize.ShloMosaic Idealize.ShloMosaic.ValueIdx
open scoped BigOperators

/-- A 1 × 1 array broadcast to a × b reads its one entry everywhere. -/
theorem bcastOne_apply {a b : Nat} {α : Type} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ =>
    show (0 : Nat) = if (1 : Nat) = 1 then 0 else p.val
    rw [if_pos rfl]
  | ⟨1, _⟩ =>
    show (0 : Nat) = if (1 : Nat) = 1 then 0 else q.val
    rw [if_pos rfl]

/-- The first product of a layer, into a zero accumulator, at (p, q). -/
theorem firstProduct_apply (A : FVec Ideal S2048x128 .bf16) (B : FVec Ideal S128x256 .bf16) (p : Fin 2048) (q : Fin 256) :
    matmul dot_S2048x128_S128x256_S2048x256_1_0_0_1_n_n none A B (constant S2048x256 .f32 0x00000000#32) (ix2 p q)
      = ∑ j : Fin 128, A (ix2 p j) * B (ix2 j q) :=
  Cert.Lib.PlainDot.matmul_zero_apply dot_S2048x128_S128x256_S2048x256_1_0_0_1_n_n_wf none A B p q

/-- The second product of a layer, into a zero accumulator, at (p, d). -/
theorem secondProduct_apply (A : FVec Ideal S2048x256 .bf16) (B : FVec Ideal S256x128 .bf16) (p : Fin 2048) (d : Fin 128) :
    matmul dot_S2048x256_S256x128_S2048x128_1_0_0_1_n_n none A B (constant S2048x128 .f32 0x00000000#32) (ix2 p d)
      = ∑ q : Fin 256, A (ix2 p q) * B (ix2 q d) :=
  Cert.Lib.PlainDot.matmul_zero_apply dot_S2048x256_S256x128_S2048x128_1_0_0_1_n_n_wf none A B p d

variable (s : FVec Ideal S1x1 .f32) (h agg : FVec Ideal S2048x128 .f32) (W1 : FVec Ideal S128x256 .f32)
  (b1 : FVec Ideal S1x256 .f32) (W2 : FVec Ideal S256x128 .f32) (b2 : FVec Ideal S1x128 .f32)

/-- The hidden units of the block's rows as the body forms them: the rectified first affine map of s · h + agg. -/
def hiddenBlock : FVec Ideal S2048x256 .bf16 :=
  truncf .bf16
    (maximumf
      (addf
        (matmul dot_S2048x128_S128x256_S2048x256_1_0_0_1_n_n none
          (truncf .bf16
            (addf (mulf (broadcastTo S2048x128 (shapeCast S1x1 s shapeCasts_S1x1_S1x1) broadcasts_S1x1_S2048x128) h)
              (shapeCast S2048x128 agg shapeCasts_S2048x128_S2048x128))
            bitsLt_bf16_f32)
          (truncf .bf16 (shapeCast S128x256 W1 shapeCasts_S128x256_S128x256) bitsLt_bf16_f32)
          (constant S2048x256 .f32 0x00000000#32))
        (broadcastTo S2048x256 (shapeCast S1x256 b1 shapeCasts_S1x256_S1x256) broadcasts_S1x256_S2048x256))
      (broadcast S2048x256 (Scalar.ofBits .f32 0x00000000#32)))
    bitsLt_bf16_f32

/-- The second affine map of the hidden units, before the layer's activation. -/
def affineBlock : FVec Ideal S2048x128 .f32 :=
  addf
    (matmul dot_S2048x256_S256x128_S2048x128_1_0_0_1_n_n none (hiddenBlock s h agg W1 b1)
      (truncf .bf16 (shapeCast S256x128 W2 shapeCasts_S256x128_S256x128) bitsLt_bf16_f32)
      (constant S2048x128 .f32 0x00000000#32))
    (broadcastTo S2048x128 (shapeCast S1x128 b2 shapeCasts_S1x128_S1x128) broadcasts_S1x128_S2048x128)

/-- The hidden unit q of the block's row p, as a formula. -/
def hiddenAt (p : Fin 2048) (q : Fin 256) : EReal :=
  max ((∑ j : Fin 128, (s (ix2 0 0) * h (ix2 p j) + agg (ix2 p j)) * W1 (ix2 j q)) + b1 (ix2 0 q)) Cert.Spec.zeroF

/-- One layer at the block's row p and feature d, as a formula. -/
def layerAt (relu : Bool) (p : Fin 2048) (d : Fin 128) : EReal :=
  Cert.Spec.act relu ((∑ q : Fin 256, hiddenAt s h agg W1 b1 p q * W2 (ix2 q d)) + b2 (ix2 0 d))

/-- The hidden units the body forms are the formula. -/
theorem hiddenBlock_apply (p : Fin 2048) (q : Fin 256) :
    hiddenBlock s h agg W1 b1 (ix2 p q) = hiddenAt s h agg W1 b1 p q := by
  unfold hiddenBlock hiddenAt
  rw [shapeCast_self, shapeCast_self, shapeCast_self, shapeCast_self]
  show max (matmul dot_S2048x128_S128x256_S2048x256_1_0_0_1_n_n none _ _ _ (ix2 p q)
      + broadcastTo S2048x256 b1 broadcasts_S1x256_S2048x256 (ix2 p q)) (Ideal.ofBits .f32 0x00000000#32) = _
  rw [firstProduct_apply, Cert.Lib.Rows.bcastRow_apply]
  refine congrArg (fun x => max (x + b1 (ix2 0 q)) Cert.Spec.zeroF) (Finset.sum_congr rfl fun j _ => ?_)
  show (broadcastTo S2048x128 s broadcasts_S1x1_S2048x128 (ix2 p j) * h (ix2 p j) + agg (ix2 p j)) * W1 (ix2 j q) = _
  rw [bcastOne_apply]

/-- The second affine map at row p and feature d. -/
theorem affineBlock_apply (p : Fin 2048) (d : Fin 128) :
    affineBlock s h agg W1 b1 W2 b2 (ix2 p d)
      = (∑ q : Fin 256, hiddenAt s h agg W1 b1 p q * W2 (ix2 q d)) + b2 (ix2 0 d) := by
  unfold affineBlock
  rw [shapeCast_self, shapeCast_self]
  show matmul dot_S2048x256_S256x128_S2048x128_1_0_0_1_n_n none _ _ _ (ix2 p d)
      + broadcastTo S2048x128 b2 broadcasts_S1x128_S2048x128 (ix2 p d) = _
  rw [secondProduct_apply, Cert.Lib.Rows.bcastRow_apply]
  refine congrArg (fun x => x + b2 (ix2 0 d)) (Finset.sum_congr rfl fun q _ => ?_)
  show hiddenBlock s h agg W1 b1 (ix2 p q) * W2 (ix2 q d) = _
  rw [hiddenBlock_apply]

/-- A layer followed by the rectifier, at row p and feature d. -/
theorem rectified_apply (p : Fin 2048) (d : Fin 128) :
    maximumf (affineBlock s h agg W1 b1 W2 b2) (broadcast S2048x128 (Scalar.ofBits .f32 0x00000000#32)) (ix2 p d)
      = layerAt s h agg W1 b1 W2 b2 true p d := by
  show max (affineBlock s h agg W1 b1 W2 b2 (ix2 p d)) (Ideal.ofBits .f32 0x00000000#32) = _
  rw [affineBlock_apply]
  rfl

/-- The last layer, with no rectifier after it, at row p and feature d. -/
theorem plain_apply (p : Fin 2048) (d : Fin 128) :
    affineBlock s h agg W1 b1 W2 b2 (ix2 p d) = layerAt s h agg W1 b1 W2 b2 false p d := by
  rw [affineBlock_apply]
  rfl

/-- The five bodies' stored values: four rectified layers and a plain one. The bodies of the later four layers cast
    their feature block to its own shape first, which changes nothing. -/
theorem pay0_eq : k0_pay1 (F := Ideal) s h agg W1 b1 W2 b2
    = maximumf (affineBlock s h agg W1 b1 W2 b2) (broadcast S2048x128 (Scalar.ofBits .f32 0x00000000#32)) := rfl
theorem pay1_eq : k1_pay1 (F := Ideal) s h agg W1 b1 W2 b2
    = maximumf (affineBlock s (shapeCast S2048x128 h shapeCasts_S2048x128_S2048x128) agg W1 b1 W2 b2)
        (broadcast S2048x128 (Scalar.ofBits .f32 0x00000000#32)) := rfl
theorem pay2_eq : k2_pay1 (F := Ideal) s h agg W1 b1 W2 b2
    = maximumf (affineBlock s (shapeCast S2048x128 h shapeCasts_S2048x128_S2048x128) agg W1 b1 W2 b2)
        (broadcast S2048x128 (Scalar.ofBits .f32 0x00000000#32)) := rfl
theorem pay3_eq : k3_pay1 (F := Ideal) s h agg W1 b1 W2 b2
    = maximumf (affineBlock s (shapeCast S2048x128 h shapeCasts_S2048x128_S2048x128) agg W1 b1 W2 b2)
        (broadcast S2048x128 (Scalar.ofBits .f32 0x00000000#32)) := rfl
theorem pay4_eq : k4_pay1 (F := Ideal) s h agg W1 b1 W2 b2
    = affineBlock s (shapeCast S2048x128 h shapeCasts_S2048x128_S2048x128) agg W1 b1 W2 b2 := rfl

/-- The first layer's stored value at row p and feature d. -/
theorem pay0_layerAt (p : Fin 2048) (d : Fin 128) :
    k0_pay1 (F := Ideal) s h agg W1 b1 W2 b2 (ix2 p d) = layerAt s h agg W1 b1 W2 b2 true p d :=
  (congrFun (pay0_eq s h agg W1 b1 W2 b2) (ix2 p d)).trans (rectified_apply s h agg W1 b1 W2 b2 p d)
/-- The second layer's. -/
theorem pay1_layerAt (p : Fin 2048) (d : Fin 128) :
    k1_pay1 (F := Ideal) s h agg W1 b1 W2 b2 (ix2 p d) = layerAt s h agg W1 b1 W2 b2 true p d := by
  rw [pay1_eq, shapeCast_self]
  exact rectified_apply s h agg W1 b1 W2 b2 p d
/-- The third layer's. -/
theorem pay2_layerAt (p : Fin 2048) (d : Fin 128) :
    k2_pay1 (F := Ideal) s h agg W1 b1 W2 b2 (ix2 p d) = layerAt s h agg W1 b1 W2 b2 true p d := by
  rw [pay2_eq, shapeCast_self]
  exact rectified_apply s h agg W1 b1 W2 b2 p d
/-- The fourth layer's. -/
theorem pay3_layerAt (p : Fin 2048) (d : Fin 128) :
    k3_pay1 (F := Ideal) s h agg W1 b1 W2 b2 (ix2 p d) = layerAt s h agg W1 b1 W2 b2 true p d := by
  rw [pay3_eq, shapeCast_self]
  exact rectified_apply s h agg W1 b1 W2 b2 p d
/-- The last layer's, with no rectifier after it. -/
theorem pay4_layerAt (p : Fin 2048) (d : Fin 128) :
    k4_pay1 (F := Ideal) s h agg W1 b1 W2 b2 (ix2 p d) = layerAt s h agg W1 b1 W2 b2 false p d := by
  rw [pay4_eq, shapeCast_self]
  exact plain_apply s h agg W1 b1 W2 b2 p d

/-- A block whose rows of h and agg are rows of whole arrays H and A at node n, and whose other operands are whole
    arrays, computes the specification's layer at node n: the row enters the formula only through its entries. -/
theorem layer_of_rows (relu : Bool) (S : FVec Ideal S1x1 .f32) (x0 x1 : FVec Ideal S2048x128 .f32)
    (M1 : FVec Ideal S128x256 .f32) (B1 : FVec Ideal S1x256 .f32) (M2 : FVec Ideal S256x128 .f32)
    (B2 : FVec Ideal S1x128 .f32) (H A : FVec Ideal S102400x128 .f32) (p : Fin 2048) (d : Fin 128) (n : Fin 102400)
    (h0 : ∀ j : Fin 128, x0 (ix2 p j) = H (ix2 n j)) (h1 : ∀ j : Fin 128, x1 (ix2 p j) = A (ix2 n j))
    (h2 : s = S) (h3 : W1 = M1) (h4 : b1 = B1) (h5 : W2 = M2) (h6 : b2 = B2) :
    layerAt s x0 x1 W1 b1 W2 b2 relu p d
      = Cert.Spec.ginAt relu (S (ix2 0 0)) H A M1 (fun q => B1 (ix2 0 q)) M2 (fun e => B2 (ix2 0 e)) n d := by
  subst h2 h3 h4 h5 h6
  unfold layerAt hiddenAt Cert.Spec.ginAt Cert.Spec.hidden
  simp only [h0, h1]

/-- The zero offsets of a whole-block access, as a constant function. -/
theorem zeroOffsets : (![0, 0] : Fin 2 → Nat) = fun _ => 0 := funext fun a => by fin_cases a <;> rfl

/-! ## The five stored values, written out -/

/-- The first layer's stored value at row p and feature d, written out. -/
theorem pay0_apply (s : Vec Ideal S1x1 .f32) (h agg : Vec Ideal S2048x128 .f32) (W1 : Vec Ideal S128x256 .f32)
    (b1 : Vec Ideal S1x256 .f32) (W2 : Vec Ideal S256x128 .f32) (b2 : Vec Ideal S1x128 .f32) (p : Fin 2048) (d : Fin 128) :
    k0_pay1 (F := Ideal) s h agg W1 b1 W2 b2 (ix2 p d)
      = Cert.Spec.act true ((∑ q : Fin 256, max ((∑ j : Fin 128, (s (ix2 (0 : Fin 1) (0 : Fin 1)) * h (ix2 p j)
          + agg (ix2 p j)) * W1 (ix2 j q)) + b1 (ix2 (0 : Fin 1) q)) Cert.Spec.zeroF * W2 (ix2 q d))
          + b2 (ix2 (0 : Fin 1) d)) :=
  pay0_layerAt s h agg W1 b1 W2 b2 p d

/-- The second layer's stored value at row p and feature d, written out. -/
theorem pay1_apply (s : Vec Ideal S1x1 .f32) (h agg : Vec Ideal S2048x128 .f32) (W1 : Vec Ideal S128x256 .f32)
    (b1 : Vec Ideal S1x256 .f32) (W2 : Vec Ideal S256x128 .f32) (b2 : Vec Ideal S1x128 .f32) (p : Fin 2048) (d : Fin 128) :
    k1_pay1 (F := Ideal) s h agg W1 b1 W2 b2 (ix2 p d)
      = Cert.Spec.act true ((∑ q : Fin 256, max ((∑ j : Fin 128, (s (ix2 (0 : Fin 1) (0 : Fin 1)) * h (ix2 p j)
          + agg (ix2 p j)) * W1 (ix2 j q)) + b1 (ix2 (0 : Fin 1) q)) Cert.Spec.zeroF * W2 (ix2 q d))
          + b2 (ix2 (0 : Fin 1) d)) :=
  pay1_layerAt s h agg W1 b1 W2 b2 p d

/-- The third layer's stored value at row p and feature d, written out. -/
theorem pay2_apply (s : Vec Ideal S1x1 .f32) (h agg : Vec Ideal S2048x128 .f32) (W1 : Vec Ideal S128x256 .f32)
    (b1 : Vec Ideal S1x256 .f32) (W2 : Vec Ideal S256x128 .f32) (b2 : Vec Ideal S1x128 .f32) (p : Fin 2048) (d : Fin 128) :
    k2_pay1 (F := Ideal) s h agg W1 b1 W2 b2 (ix2 p d)
      = Cert.Spec.act true ((∑ q : Fin 256, max ((∑ j : Fin 128, (s (ix2 (0 : Fin 1) (0 : Fin 1)) * h (ix2 p j)
          + agg (ix2 p j)) * W1 (ix2 j q)) + b1 (ix2 (0 : Fin 1) q)) Cert.Spec.zeroF * W2 (ix2 q d))
          + b2 (ix2 (0 : Fin 1) d)) :=
  pay2_layerAt s h agg W1 b1 W2 b2 p d

/-- The fourth layer's stored value at row p and feature d, written out. -/
theorem pay3_apply (s : Vec Ideal S1x1 .f32) (h agg : Vec Ideal S2048x128 .f32) (W1 : Vec Ideal S128x256 .f32)
    (b1 : Vec Ideal S1x256 .f32) (W2 : Vec Ideal S256x128 .f32) (b2 : Vec Ideal S1x128 .f32) (p : Fin 2048) (d : Fin 128) :
    k3_pay1 (F := Ideal) s h agg W1 b1 W2 b2 (ix2 p d)
      = Cert.Spec.act true ((∑ q : Fin 256, max ((∑ j : Fin 128, (s (ix2 (0 : Fin 1) (0 : Fin 1)) * h (ix2 p j)
          + agg (ix2 p j)) * W1 (ix2 j q)) + b1 (ix2 (0 : Fin 1) q)) Cert.Spec.zeroF * W2 (ix2 q d))
          + b2 (ix2 (0 : Fin 1) d)) :=
  pay3_layerAt s h agg W1 b1 W2 b2 p d

/-- The last layer's stored value at row p and feature d, written out. -/
theorem pay4_apply (s : Vec Ideal S1x1 .f32) (h agg : Vec Ideal S2048x128 .f32) (W1 : Vec Ideal S128x256 .f32)
    (b1 : Vec Ideal S1x256 .f32) (W2 : Vec Ideal S256x128 .f32) (b2 : Vec Ideal S1x128 .f32) (p : Fin 2048) (d : Fin 128) :
    k4_pay1 (F := Ideal) s h agg W1 b1 W2 b2 (ix2 p d)
      = Cert.Spec.act false ((∑ q : Fin 256, max ((∑ j : Fin 128, (s (ix2 (0 : Fin 1) (0 : Fin 1)) * h (ix2 p j)
          + agg (ix2 p j)) * W1 (ix2 j q)) + b1 (ix2 (0 : Fin 1) q)) Cert.Spec.zeroF * W2 (ix2 q d))
          + b2 (ix2 (0 : Fin 1) d)) :=
  pay4_layerAt s h agg W1 b1 W2 b2 p d

end Cert.KernelIdeal.GinBody

end
-- ==== Proof.GinRegion0.lean ====
/-
  The first layer's region as a whole array.

  The region runs the layer's body at 50 points. Point t stages rows 2048 t … 2048 t + 2047 of the node features and
  of the aggregated messages, the whole of the scale, of the two matrices and of the two bias rows, and writes the
  body's block back to the same rows of the result. Row p of the block at point t is node 2048 t + p, the body's
  value there is the layer's formula at that node, and every node lies in the block of the point n / 2048: so the
  result array is the layer applied to the arrays the region finds.
-/
import proofs.«175996_j627065225439_1_alg».proof.Proof.Gen.KernelIdeal.Frame
import proofs.«175996_j627065225439_1_alg».proof.Proof.GinBody
import Idealize.ShloMosaic.Lib.Pipeline.Value

noncomputable section

namespace Cert.KernelIdeal.GinValue

open Cert.KernelIdeal Cert.KernelIdeal.Gen Idealize.ShloMosaic Idealize.ShloMosaic.ValueIdx Idealize.ShloMosaic.TcCoe
open Idealize.SL.Sem
open Cert.KernelIdeal.GinBody
open Idealize.ShloMosaic.Pipeline (Dat)

variable (V : (c : Dev nD) → (b : Ref sig .tc) → Buf (Elt Ideal) ((c : Thread nD τ).loc b)) (c : Dev nD)

/-- The layer applied to the arrays the region finds: the result the region is shown to leave. -/
abbrev layer0 : S102400x128.Idx → EReal :=
  Cert.Spec.gin true ((V c main_v26 : S1x1.Idx → EReal) (ix2 0 0)) (V c main_arg0) (V c main_v15) (V c main_v19)
    (fun q => (V c main_v27 : S1x256.Idx → EReal) (ix2 0 q)) (V c main_v23)
    (fun d => (V c main_v28 : S1x128.Idx → EReal) (ix2 0 d))

/-- The block index of every window at every point, decided over the 50 points: the features, the messages and the
    result move down one block of rows per point; the other operands stay at their one block. -/
theorem blockIndex0 : ∀ t : Fin cfg0.N,
      win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- Window 0's block at point t holds rows 2048 t … of its array. -/
theorem rows0_0 (t : Fin cfg0.N) (x : S2048x128.Idx) (k : S102400x128.Idx)
    (hk0 : (k 0).val = 2048 * t.val + (x 0).val) (hk1 : (k 1).val = (x 1).val) :
    (iblk0 V c 0 t : FVec Ideal S2048x128 .f32) x = (V c main_arg0 : FVec Ideal S102400x128 .f32) k := by
  obtain ⟨e0, e1, -, -, -, -, -, -, -, -, -, -, -, -, -, -⟩ := blockIndex0 t
  unfold iblk0
  rw [View.read_apply]
  show V c main_arg0 _ = V c main_arg0 _
  refine congrArg _ (funext fun a => Fin.ext ?_)
  match a with
  | ⟨0, _⟩ => show win0_0.index t (0 : Fin 2) * 2048 + 1 * (x 0).val = (k 0).val; omega
  | ⟨1, _⟩ => show win0_0.index t (1 : Fin 2) * 128 + 1 * (x 1).val = (k 1).val; omega

/-- Window 1's block at point t holds rows 2048 t … of its array. -/
theorem rows0_1 (t : Fin cfg0.N) (x : S2048x128.Idx) (k : S102400x128.Idx)
    (hk0 : (k 0).val = 2048 * t.val + (x 0).val) (hk1 : (k 1).val = (x 1).val) :
    (iblk0 V c 1 t : FVec Ideal S2048x128 .f32) x = (V c main_v15 : FVec Ideal S102400x128 .f32) k := by
  obtain ⟨-, -, e0, e1, -, -, -, -, -, -, -, -, -, -, -, -⟩ := blockIndex0 t
  unfold iblk0
  rw [View.read_apply]
  show V c main_v15 _ = V c main_v15 _
  refine congrArg _ (funext fun a => Fin.ext ?_)
  match a with
  | ⟨0, _⟩ => show win0_1.index t (0 : Fin 2) * 2048 + 1 * (x 0).val = (k 0).val; omega
  | ⟨1, _⟩ => show win0_1.index t (1 : Fin 2) * 128 + 1 * (x 1).val = (k 1).val; omega

/-- Window 2's block at every point is its whole array. -/
theorem whole0_2 (t : Fin cfg0.N) :
    (iblk0 V c 2 t : FVec Ideal S1x1 .f32) = (V c main_v26 : FVec Ideal S1x1 .f32) := by
  obtain ⟨-, -, -, -, e0, e1, -, -, -, -, -, -, -, -, -, -⟩ := blockIndex0 t
  funext x
  unfold iblk0
  rw [View.read_apply]
  show V c main_v26 _ = V c main_v26 _
  refine congrArg _ (funext fun a => Fin.ext ?_)
  match a with
  | ⟨0, _⟩ => show win0_2.index t (0 : Fin 2) * 1 + 1 * (x 0).val = (x 0).val; omega
  | ⟨1, _⟩ => show win0_2.index t (1 : Fin 2) * 1 + 1 * (x 1).val = (x 1).val; omega

/-- Window 3's block at every point is its whole array. -/
theorem whole0_3 (t : Fin cfg0.N) :
    (iblk0 V c 3 t : FVec Ideal S128x256 .f32) = (V c main_v19 : FVec Ideal S128x256 .f32) := by
  obtain ⟨-, -, -, -, -, -, e0, e1, -, -, -, -, -, -, -, -⟩ := blockIndex0 t
  funext x
  unfold iblk0
  rw [View.read_apply]
  show V c main_v19 _ = V c main_v19 _
  refine congrArg _ (funext fun a => Fin.ext ?_)
  match a with
  | ⟨0, _⟩ => show win0_3.index t (0 : Fin 2) * 128 + 1 * (x 0).val = (x 0).val; omega
  | ⟨1, _⟩ => show win0_3.index t (1 : Fin 2) * 256 + 1 * (x 1).val = (x 1).val; omega

/-- Window 4's block at every point is its whole array. -/
theorem whole0_4 (t : Fin cfg0.N) :
    (iblk0 V c 4 t : FVec Ideal S1x256 .f32) = (V c main_v27 : FVec Ideal S1x256 .f32) := by
  obtain ⟨-, -, -, -, -, -, -, -, e0, e1, -, -, -, -, -, -⟩ := blockIndex0 t
  funext x
  unfold iblk0
  rw [View.read_apply]
  show V c main_v27 _ = V c main_v27 _
  refine congrArg _ (funext fun a => Fin.ext ?_)
  match a with
  | ⟨0, _⟩ => show win0_4.index t (0 : Fin 2) * 1 + 1 * (x 0).val = (x 0).val; omega
  | ⟨1, _⟩ => show win0_4.index t (1 : Fin 2) * 256 + 1 * (x 1).val = (x 1).val; omega

/-- Window 5's block at every point is its whole array. -/
theorem whole0_5 (t : Fin cfg0.N) :
    (iblk0 V c 5 t : FVec Ideal S256x128 .f32) = (V c main_v23 : FVec Ideal S256x128 .f32) := by
  obtain ⟨-, -, -, -, -, -, -, -, -, -, e0, e1, -, -, -, -⟩ := blockIndex0 t
  funext x
  unfold iblk0
  rw [View.read_apply]
  show V c main_v23 _ = V c main_v23 _
  refine congrArg _ (funext fun a => Fin.ext ?_)
  match a with
  | ⟨0, _⟩ => show win0_5.index t (0 : Fin 2) * 256 + 1 * (x 0).val = (x 0).val; omega
  | ⟨1, _⟩ => show win0_5.index t (1 : Fin 2) * 128 + 1 * (x 1).val = (x 1).val; omega

/-- Window 6's block at every point is its whole array. -/
theorem whole0_6 (t : Fin cfg0.N) :
    (iblk0 V c 6 t : FVec Ideal S1x128 .f32) = (V c main_v28 : FVec Ideal S1x128 .f32) := by
  obtain ⟨-, -, -, -, -, -, -, -, -, -, -, -, e0, e1, -, -⟩ := blockIndex0 t
  funext x
  unfold iblk0
  rw [View.read_apply]
  show V c main_v28 _ = V c main_v28 _
  refine congrArg _ (funext fun a => Fin.ext ?_)
  match a with
  | ⟨0, _⟩ => show win0_6.index t (0 : Fin 2) * 1 + 1 * (x 0).val = (x 0).val; omega
  | ⟨1, _⟩ => show win0_6.index t (1 : Fin 2) * 128 + 1 * (x 1).val = (x 1).val; omega

/-- The layer's formula on the blocks at point t, at row p and feature d, is the layer at any index of the array whose
    node is 2048 t + p and whose feature is d. -/
theorem node0 (t : Fin cfg0.N) (p : Fin 2048) (d : Fin 128) (i : S102400x128.Idx)
    (hi0 : (i 0).val = 2048 * t.val + p.val) (hi1 : (i 1).val = d.val) :
    layerAt (iblk0 V c 2 t) (iblk0 V c 0 t) (iblk0 V c 1 t) (iblk0 V c 3 t) (iblk0 V c 4 t) (iblk0 V c 5 t) (iblk0 V c 6 t) true p d = layer0 V c i := by
  obtain ⟨n, e, rfl⟩ : ∃ (n : Fin 102400) (e : Fin 128), i = ix2 n e := ⟨i 0, i 1, eq_ix2 i⟩
  obtain rfl : e = d := Fin.ext hi1
  exact layer_of_rows (s := iblk0 V c 2 t) (W1 := iblk0 V c 3 t) (b1 := iblk0 V c 4 t) (W2 := iblk0 V c 5 t)
    (b2 := iblk0 V c 6 t) true (V c main_v26) (iblk0 V c 0 t) (iblk0 V c 1 t) (V c main_v19) (V c main_v27) (V c main_v23)
    (V c main_v28) (V c main_arg0) (V c main_v15) p e n
    (fun j => rows0_0 V c t (ix2 p j) (ix2 n j) hi0 rfl) (fun j => rows0_1 V c t (ix2 p j) (ix2 n j) hi0 rfl)
    (whole0_2 V c t) (whole0_3 V c t) (whole0_4 V c t) (whole0_5 V c t) (whole0_6 V c t)

/-- What point t writes back is its block of the layer's array. -/
theorem flushed0_eq (t : Fin cfg0.N) :
    (dat0 (F := Ideal) V c).flushed 7 t = ((cfg0.win 7).blk t).view.read (Elt Ideal) (layer0 V c) := by
  show (cfg0.win 7).cut (grid0.coords t) ((dat0 V c).after 7 t) = _
  rw [after0_7]
  unfold out0_7
  rw [View.canon_unit_zero zeroOffsets]
  simp only [View.ld_unit_zero (S := S2048x128) zeroOffsets, View.ld_unit_zero (S := S1x1) zeroOffsets,
    View.ld_unit_zero (S := S128x256) zeroOffsets, View.ld_unit_zero (S := S1x256) zeroOffsets,
    View.ld_unit_zero (S := S256x128) zeroOffsets, View.ld_unit_zero (S := S1x128) zeroOffsets]
  obtain ⟨-, -, -, -, -, -, -, -, -, -, -, -, -, -, e0, e1⟩ := blockIndex0 t
  refine funext fun (j : S2048x128.Idx) => ?_
  obtain ⟨p, d, rfl⟩ : ∃ (p : Fin 2048) (d : Fin 128), j = ix2 p d := ⟨j 0, j 1, eq_ix2 j⟩
  show k0_pay1 (F := Ideal) (iblk0 V c 2 t) (iblk0 V c 0 t) (iblk0 V c 1 t) (iblk0 V c 3 t) (iblk0 V c 4 t) (iblk0 V c 5 t) (iblk0 V c 6 t) (ix2 p d) = layer0 V c (((cfg0.win 7).blk t).view.emb (ix2 p d))
  refine (pay0_layerAt (iblk0 V c 2 t) (iblk0 V c 0 t) (iblk0 V c 1 t) (iblk0 V c 3 t) (iblk0 V c 4 t) (iblk0 V c 5 t) (iblk0 V c 6 t) p d).trans ?_
  refine node0 V c t p d _ ?_ ?_
  · show win0_7.index t (0 : Fin 2) * 2048 + 1 * p.val = 2048 * t.val + p.val; omega
  · show win0_7.index t (1 : Fin 2) * 128 + 1 * d.val = d.val; omega

/-- An index of the result array is in point t's block iff each coordinate is in the block's range on its axis. -/
theorem mem_block0 (t : Fin cfg0.N) (i : S102400x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v29).slice (win0_7.rect t)).set ↔ _
  rw [View.set_slice_whole, Rect.mem_set_unit]
  exact Iff.rfl

/-- Every index of the result array is in the block of the point its node's row block names. -/
theorem covered0 (i : S102400x128.Idx) :
    ∃ t : Fin cfg0.N, (cfg0.win 7).flush t = true ∧ i ∈ ((cfg0.win 7).blk t).view.set := by
  have hi0 : (i 0).val < 102400 := (i 0).isLt
  have hi1 : (i 1).val < 128 := (i 1).isLt
  obtain ⟨t, ht⟩ : ∃ t : Fin cfg0.N, t.val = (i 0).val / 2048 :=
    ⟨⟨(i 0).val / 2048, by rw [show cfg0.N = 50 from N_0]; omega⟩, rfl⟩
  obtain ⟨-, -, -, -, -, -, -, -, -, -, -, -, -, -, e0, e1⟩ := blockIndex0 t
  refine ⟨t, flush0_7 t, ?_⟩
  rw [mem_block0]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 128 ≤ (i 1).val ∧ (i 1).val < win0_7.index t (1 : Fin 2) * 128 + 128
    omega

/-- The region's result array is the layer applied to the arrays the region finds. -/
theorem region0 : (dat0 (F := Ideal) V c).arrAt 7 cfg0.N
    = Cert.Spec.gin true ((V c main_v26 : S1x1.Idx → EReal) (ix2 0 0)) (V c main_arg0) (V c main_v15) (V c main_v19)
        (fun q => (V c main_v27 : S1x256.Idx → EReal) (ix2 0 q)) (V c main_v23)
        (fun d => (V c main_v28 : S1x128.Idx → EReal) (ix2 0 d)) :=
  (dat0 V c).arrAt_eq_of_cover 7 (layer0 V c) (fun t _ => flushed0_eq V c t) (covered0)

end Cert.KernelIdeal.GinValue

end
-- ==== Proof.GinRegion1.lean ====
/-
  The second layer's region as a whole array.

  The region runs the layer's body at 50 points. Point t stages rows 2048 t … 2048 t + 2047 of the node features and
  of the aggregated messages, the whole of the scale, of the two matrices and of the two bias rows, and writes the
  body's block back to the same rows of the result. Row p of the block at point t is node 2048 t + p, the body's
  value there is the layer's formula at that node, and every node lies in the block of the point n / 2048: so the
  result array is the layer applied to the arrays the region finds.
-/
import proofs.«175996_j627065225439_1_alg».proof.Proof.Gen.KernelIdeal.Frame
import proofs.«175996_j627065225439_1_alg».proof.Proof.GinBody
import Idealize.ShloMosaic.Lib.Pipeline.Value

noncomputable section

namespace Cert.KernelIdeal.GinValue

open Cert.KernelIdeal Cert.KernelIdeal.Gen Idealize.ShloMosaic Idealize.ShloMosaic.ValueIdx Idealize.ShloMosaic.TcCoe
open Idealize.SL.Sem
open Cert.KernelIdeal.GinBody
open Idealize.ShloMosaic.Pipeline (Dat)

variable (V : (c : Dev nD) → (b : Ref sig .tc) → Buf (Elt Ideal) ((c : Thread nD τ).loc b)) (c : Dev nD)

/-- The layer applied to the arrays the region finds: the result the region is shown to leave. -/
abbrev layer1 : S102400x128.Idx → EReal :=
  Cert.Spec.gin true ((V c main_v50 : S1x1.Idx → EReal) (ix2 0 0)) (V c main_v29) (V c main_v39) (V c main_v43)
    (fun q => (V c main_v51 : S1x256.Idx → EReal) (ix2 0 q)) (V c main_v47)
    (fun d => (V c main_v52 : S1x128.Idx → EReal) (ix2 0 d))

/-- The block index of every window at every point, decided over the 50 points: the features, the messages and the
    result move down one block of rows per point; the other operands stay at their one block. -/
theorem blockIndex1 : ∀ t : Fin cfg1.N,
      win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- Window 0's block at point t holds rows 2048 t … of its array. -/
theorem rows1_0 (t : Fin cfg1.N) (x : S2048x128.Idx) (k : S102400x128.Idx)
    (hk0 : (k 0).val = 2048 * t.val + (x 0).val) (hk1 : (k 1).val = (x 1).val) :
    (iblk1 V c 0 t : FVec Ideal S2048x128 .f32) x = (V c main_v29 : FVec Ideal S102400x128 .f32) k := by
  obtain ⟨e0, e1, -, -, -, -, -, -, -, -, -, -, -, -, -, -⟩ := blockIndex1 t
  unfold iblk1
  rw [View.read_apply]
  show V c main_v29 _ = V c main_v29 _
  refine congrArg _ (funext fun a => Fin.ext ?_)
  match a with
  | ⟨0, _⟩ => show win1_0.index t (0 : Fin 2) * 2048 + 1 * (x 0).val = (k 0).val; omega
  | ⟨1, _⟩ => show win1_0.index t (1 : Fin 2) * 128 + 1 * (x 1).val = (k 1).val; omega

/-- Window 1's block at point t holds rows 2048 t … of its array. -/
theorem rows1_1 (t : Fin cfg1.N) (x : S2048x128.Idx) (k : S102400x128.Idx)
    (hk0 : (k 0).val = 2048 * t.val + (x 0).val) (hk1 : (k 1).val = (x 1).val) :
    (iblk1 V c 1 t : FVec Ideal S2048x128 .f32) x = (V c main_v39 : FVec Ideal S102400x128 .f32) k := by
  obtain ⟨-, -, e0, e1, -, -, -, -, -, -, -, -, -, -, -, -⟩ := blockIndex1 t
  unfold iblk1
  rw [View.read_apply]
  show V c main_v39 _ = V c main_v39 _
  refine congrArg _ (funext fun a => Fin.ext ?_)
  match a with
  | ⟨0, _⟩ => show win1_1.index t (0 : Fin 2) * 2048 + 1 * (x 0).val = (k 0).val; omega
  | ⟨1, _⟩ => show win1_1.index t (1 : Fin 2) * 128 + 1 * (x 1).val = (k 1).val; omega

/-- Window 2's block at every point is its whole array. -/
theorem whole1_2 (t : Fin cfg1.N) :
    (iblk1 V c 2 t : FVec Ideal S1x1 .f32) = (V c main_v50 : FVec Ideal S1x1 .f32) := by
  obtain ⟨-, -, -, -, e0, e1, -, -, -, -, -, -, -, -, -, -⟩ := blockIndex1 t
  funext x
  unfold iblk1
  rw [View.read_apply]
  show V c main_v50 _ = V c main_v50 _
  refine congrArg _ (funext fun a => Fin.ext ?_)
  match a with
  | ⟨0, _⟩ => show win1_2.index t (0 : Fin 2) * 1 + 1 * (x 0).val = (x 0).val; omega
  | ⟨1, _⟩ => show win1_2.index t (1 : Fin 2) * 1 + 1 * (x 1).val = (x 1).val; omega

/-- Window 3's block at every point is its whole array. -/
theorem whole1_3 (t : Fin cfg1.N) :
    (iblk1 V c 3 t : FVec Ideal S128x256 .f32) = (V c main_v43 : FVec Ideal S128x256 .f32) := by
  obtain ⟨-, -, -, -, -, -, e0, e1, -, -, -, -, -, -, -, -⟩ := blockIndex1 t
  funext x
  unfold iblk1
  rw [View.read_apply]
  show V c main_v43 _ = V c main_v43 _
  refine congrArg _ (funext fun a => Fin.ext ?_)
  match a with
  | ⟨0, _⟩ => show win1_3.index t (0 : Fin 2) * 128 + 1 * (x 0).val = (x 0).val; omega
  | ⟨1, _⟩ => show win1_3.index t (1 : Fin 2) * 256 + 1 * (x 1).val = (x 1).val; omega

/-- Window 4's block at every point is its whole array. -/
theorem whole1_4 (t : Fin cfg1.N) :
    (iblk1 V c 4 t : FVec Ideal S1x256 .f32) = (V c main_v51 : FVec Ideal S1x256 .f32) := by
  obtain ⟨-, -, -, -, -, -, -, -, e0, e1, -, -, -, -, -, -⟩ := blockIndex1 t
  funext x
  unfold iblk1
  rw [View.read_apply]
  show V c main_v51 _ = V c main_v51 _
  refine congrArg _ (funext fun a => Fin.ext ?_)
  match a with
  | ⟨0, _⟩ => show win1_4.index t (0 : Fin 2) * 1 + 1 * (x 0).val = (x 0).val; omega
  | ⟨1, _⟩ => show win1_4.index t (1 : Fin 2) * 256 + 1 * (x 1).val = (x 1).val; omega

/-- Window 5's block at every point is its whole array. -/
theorem whole1_5 (t : Fin cfg1.N) :
    (iblk1 V c 5 t : FVec Ideal S256x128 .f32) = (V c main_v47 : FVec Ideal S256x128 .f32) := by
  obtain ⟨-, -, -, -, -, -, -, -, -, -, e0, e1, -, -, -, -⟩ := blockIndex1 t
  funext x
  unfold iblk1
  rw [View.read_apply]
  show V c main_v47 _ = V c main_v47 _
  refine congrArg _ (funext fun a => Fin.ext ?_)
  match a with
  | ⟨0, _⟩ => show win1_5.index t (0 : Fin 2) * 256 + 1 * (x 0).val = (x 0).val; omega
  | ⟨1, _⟩ => show win1_5.index t (1 : Fin 2) * 128 + 1 * (x 1).val = (x 1).val; omega

/-- Window 6's block at every point is its whole array. -/
theorem whole1_6 (t : Fin cfg1.N) :
    (iblk1 V c 6 t : FVec Ideal S1x128 .f32) = (V c main_v52 : FVec Ideal S1x128 .f32) := by
  obtain ⟨-, -, -, -, -, -, -, -, -, -, -, -, e0, e1, -, -⟩ := blockIndex1 t
  funext x
  unfold iblk1
  rw [View.read_apply]
  show V c main_v52 _ = V c main_v52 _
  refine congrArg _ (funext fun a => Fin.ext ?_)
  match a with
  | ⟨0, _⟩ => show win1_6.index t (0 : Fin 2) * 1 + 1 * (x 0).val = (x 0).val; omega
  | ⟨1, _⟩ => show win1_6.index t (1 : Fin 2) * 128 + 1 * (x 1).val = (x 1).val; omega

/-- The layer's formula on the blocks at point t, at row p and feature d, is the layer at any index of the array whose
    node is 2048 t + p and whose feature is d. -/
theorem node1 (t : Fin cfg1.N) (p : Fin 2048) (d : Fin 128) (i : S102400x128.Idx)
    (hi0 : (i 0).val = 2048 * t.val + p.val) (hi1 : (i 1).val = d.val) :
    layerAt (iblk1 V c 2 t) (iblk1 V c 0 t) (iblk1 V c 1 t) (iblk1 V c 3 t) (iblk1 V c 4 t) (iblk1 V c 5 t) (iblk1 V c 6 t) true p d = layer1 V c i := by
  obtain ⟨n, e, rfl⟩ : ∃ (n : Fin 102400) (e : Fin 128), i = ix2 n e := ⟨i 0, i 1, eq_ix2 i⟩
  obtain rfl : e = d := Fin.ext hi1
  exact layer_of_rows (s := iblk1 V c 2 t) (W1 := iblk1 V c 3 t) (b1 := iblk1 V c 4 t) (W2 := iblk1 V c 5 t)
    (b2 := iblk1 V c 6 t) true (V c main_v50) (iblk1 V c 0 t) (iblk1 V c 1 t) (V c main_v43) (V c main_v51) (V c main_v47)
    (V c main_v52) (V c main_v29) (V c main_v39) p e n
    (fun j => rows1_0 V c t (ix2 p j) (ix2 n j) hi0 rfl) (fun j => rows1_1 V c t (ix2 p j) (ix2 n j) hi0 rfl)
    (whole1_2 V c t) (whole1_3 V c t) (whole1_4 V c t) (whole1_5 V c t) (whole1_6 V c t)

/-- What point t writes back is its block of the layer's array. -/
theorem flushed1_eq (t : Fin cfg1.N) :
    (dat1 (F := Ideal) V c).flushed 7 t = ((cfg1.win 7).blk t).view.read (Elt Ideal) (layer1 V c) := by
  show (cfg1.win 7).cut (grid1.coords t) ((dat1 V c).after 7 t) = _
  rw [after1_7]
  unfold out1_7
  rw [View.canon_unit_zero zeroOffsets]
  simp only [View.ld_unit_zero (S := S2048x128) zeroOffsets, View.ld_unit_zero (S := S1x1) zeroOffsets,
    View.ld_unit_zero (S := S128x256) zeroOffsets, View.ld_unit_zero (S := S1x256) zeroOffsets,
    View.ld_unit_zero (S := S256x128) zeroOffsets, View.ld_unit_zero (S := S1x128) zeroOffsets]
  obtain ⟨-, -, -, -, -, -, -, -, -, -, -, -, -, -, e0, e1⟩ := blockIndex1 t
  refine funext fun (j : S2048x128.Idx) => ?_
  obtain ⟨p, d, rfl⟩ : ∃ (p : Fin 2048) (d : Fin 128), j = ix2 p d := ⟨j 0, j 1, eq_ix2 j⟩
  show k1_pay1 (F := Ideal) (iblk1 V c 2 t) (iblk1 V c 0 t) (iblk1 V c 1 t) (iblk1 V c 3 t) (iblk1 V c 4 t) (iblk1 V c 5 t) (iblk1 V c 6 t) (ix2 p d) = layer1 V c (((cfg1.win 7).blk t).view.emb (ix2 p d))
  refine (pay1_layerAt (iblk1 V c 2 t) (iblk1 V c 0 t) (iblk1 V c 1 t) (iblk1 V c 3 t) (iblk1 V c 4 t) (iblk1 V c 5 t) (iblk1 V c 6 t) p d).trans ?_
  refine node1 V c t p d _ ?_ ?_
  · show win1_7.index t (0 : Fin 2) * 2048 + 1 * p.val = 2048 * t.val + p.val; omega
  · show win1_7.index t (1 : Fin 2) * 128 + 1 * d.val = d.val; omega

/-- An index of the result array is in point t's block iff each coordinate is in the block's range on its axis. -/
theorem mem_block1 (t : Fin cfg1.N) (i : S102400x128.Idx) :
    i ∈ ((cfg1.win 7).blk t).view.set ↔ ∀ a : Fin 2, win1_7.index t a * S2048x128.size a ≤ (i a).val
      ∧ (i a).val < win1_7.index t a * S2048x128.size a + S2048x128.size a := by
  show i ∈ ((View.whole main_v53).slice (win1_7.rect t)).set ↔ _
  rw [View.set_slice_whole, Rect.mem_set_unit]
  exact Iff.rfl

/-- Every index of the result array is in the block of the point its node's row block names. -/
theorem covered1 (i : S102400x128.Idx) :
    ∃ t : Fin cfg1.N, (cfg1.win 7).flush t = true ∧ i ∈ ((cfg1.win 7).blk t).view.set := by
  have hi0 : (i 0).val < 102400 := (i 0).isLt
  have hi1 : (i 1).val < 128 := (i 1).isLt
  obtain ⟨t, ht⟩ : ∃ t : Fin cfg1.N, t.val = (i 0).val / 2048 :=
    ⟨⟨(i 0).val / 2048, by rw [show cfg1.N = 50 from N_1]; omega⟩, rfl⟩
  obtain ⟨-, -, -, -, -, -, -, -, -, -, -, -, -, -, e0, e1⟩ := blockIndex1 t
  refine ⟨t, flush1_7 t, ?_⟩
  rw [mem_block1]
  intro a
  match a with
  | ⟨0, _⟩ =>
    show win1_7.index t (0 : Fin 2) * 2048 ≤ (i 0).val ∧ (i 0).val < win1_7.index t (0 : Fin 2) * 2048 + 2048
    omega
  | ⟨1, _⟩ =>
    show win1_7.index t (1 : Fin 2) * 128 ≤ (i 1).val ∧ (i 1).val < win1_7.index t (1 : Fin 2) * 128 + 128
    omega

/-- The region's result array is the layer applied to the arrays the region finds. -/
theorem region1 : (dat1 (F := Ideal) V c).arrAt 7 cfg1.N
    = Cert.Spec.gin true ((V c main_v50 : S1x1.Idx → EReal) (ix2 0 0)) (V c main_v29) (V c main_v39) (V c main_v43)
        (fun q => (V c main_v51 : S1x256.Idx → EReal) (ix2 0 q)) (V c main_v47)
        (fun d => (V c main_v52 : S1x128.Idx → EReal) (ix2 0 d)) :=
  (dat1 V c).arrAt_eq_of_cover 7 (layer1 V c) (fun t _ => flushed1_eq V c t) (covered1)

end Cert.KernelIdeal.GinValue

end
-- ==== Proof.GinRegion2.lean ====
/-
  The third layer's region as a whole array.

  The region runs the layer's body at 50 points. Point t stages rows 2048 t … 2048 t + 2047 of the node features and
  of the aggregated messages, the whole of the scale, of the two matrices and of the two bias rows, and writes the
  body's block back to the same rows of the result. Row p of the block at point t is node 2048 t + p, the body's
  value there is the layer's formula at that node, and every node lies in the block of the point n / 2048: so the
  result array is the layer applied to the arrays the region finds.
-/
import proofs.«175996_j627065225439_1_alg».proof.Proof.Gen.KernelIdeal.Frame
import proofs.«175996_j627065225439_1_alg».proof.Proof.GinBody
import Idealize.ShloMosaic.Lib.Pipeline.Value

noncomputable section

namespace Cert.KernelIdeal.GinValue

open Cert.KernelIdeal Cert.KernelIdeal.Gen Idealize.ShloMosaic Idealize.ShloMosaic.ValueIdx Idealize.ShloMosaic.TcCoe
open Idealize.SL.Sem
open Cert.KernelIdeal.GinBody
open Idealize.ShloMosaic.Pipeline (Dat)

variable (V : (c : Dev nD) → (b : Ref sig .tc) → Buf (Elt Ideal) ((c : Thread nD τ).loc b)) (c : Dev nD)

/-- The layer applied to the arrays the region finds: the result the region is shown to leave. -/
abbrev layer2 : S102400x128.Idx → EReal :=
  Cert.Spec.gin true ((V c main_v74 : S1x1.Idx → EReal) (ix2 0 0)) (V c main_v53) (V c main_v63) (V c main_v67)
    (fun q => (V c main_v75 : S1x256.Idx → EReal) (ix2 0 q)) (V c main_v71)
    (fun d => (V c main_v76 : S1x128.Idx → EReal) (ix2 0 d))

/-- The block index of every window at every point, decided over the 50 points: the features, the messages and the
    result move down one block of rows per point; the other operands stay at their one block. -/
theorem blockIndex2 : ∀ t : Fin cfg2.N,
      win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- Window 0's block at point t holds rows 2048 t … of its array. -/
theorem rows2_0 (t : Fin cfg2.N) (x : S2048x128.Idx) (k : S102400x128.Idx)
    (hk0 : (k 0).val = 2048 * t.val + (x 0).val) (hk1 : (k 1).val = (x 1).val) :
    (iblk2 V c 0 t : FVec Ideal S2048x128 .f32) x = (V c main_v53 : FVec Ideal S102400x128 .f32) k := by
  obtain ⟨e0, e1, -, -, -, -, -, -, -, -, -, -, -, -, -, -⟩ := blockIndex2 t
  unfold iblk2
  rw [View.read_apply]
  show V c main_v53 _ = V c main_v53 _
  refine congrArg _ (funext fun a => Fin.ext ?_)
  match a with
  | ⟨0, _⟩ => show win2_0.index t (0 : Fin 2) * 2048 + 1 * (x 0).val = (k 0).val; omega
  | ⟨1, _⟩ => show win2_0.index t (1 : Fin 2) * 128 + 1 * (x 1).val = (k 1).val; omega

/-- Window 1's block at point t holds rows 2048 t … of its array. -/
theorem rows2_1 (t : Fin cfg2.N) (x : S2048x128.Idx) (k : S102400x128.Idx)
    (hk0 : (k 0).val = 2048 * t.val + (x 0).val) (hk1 : (k 1).val = (x 1).val) :
    (iblk2 V c 1 t : FVec Ideal S2048x128 .f32) x = (V c main_v63 : FVec Ideal S102400x128 .f32) k := by
  obtain ⟨-, -, e0, e1, -, -, -, -, -, -, -, -, -, -, -, -⟩ := blockIndex2 t
  unfold iblk2
  rw [View.read_apply]
  show V c main_v63 _ = V c main_v63 _
  refine congrArg _ (funext fun a => Fin.ext ?_)
  match a with
  | ⟨0, _⟩ => show win2_1.index t (0 : Fin 2) * 2048 + 1 * (x 0).val = (k 0).val; omega
  | ⟨1, _⟩ => show win2_1.index t (1 : Fin 2) * 128 + 1 * (x 1).val = (k 1).val; omega

/-- Window 2's block at every point is its whole array. -/
theorem whole2_2 (t : Fin cfg2.N) :
    (iblk2 V c 2 t : FVec Ideal S1x1 .f32) = (V c main_v74 : FVec Ideal S1x1 .f32) := by
  obtain ⟨-, -, -, -, e0, e1, -, -, -, -, -, -, -, -, -, -⟩ := blockIndex2 t
  funext x
  unfold iblk2
  rw [View.read_apply]
  show V c main_v74 _ = V c main_v74 _
  refine congrArg _ (funext fun a => Fin.ext ?_)
  match a with
  | ⟨0, _⟩ => show win2_2.index t (0 : Fin 2) * 1 + 1 * (x 0).val = (x 0).val; omega
  | ⟨1, _⟩ => show win2_2.index t (1 : Fin 2) * 1 + 1 * (x 1).val = (x 1).val; omega

/-- Window 3's block at every point is its whole array. -/
theorem whole2_3 (t : Fin cfg2.N) :
    (iblk2 V c 3 t : FVec Ideal S128x256 .f32) = (V c main_v67 : FVec Ideal S128x256 .f32) := by
  obtain ⟨-, -, -, -, -, -, e0, e1, -, -, -, -, -, -, -, -⟩ := blockIndex2 t
  funext x
  unfold iblk2
  rw [View.read_apply]
  show V c main_v67 _ = V c main_v67 _
  refine congrArg _ (funext fun a => Fin.ext ?_)
  match a with
  | ⟨0, _⟩ => show win2_3.index t (0 : Fin 2) * 128 + 1 * (x 0).val = (x 0).val; omega
  | ⟨1, _⟩ => show win2_3.index t (1 : Fin 2) * 256 + 1 * (x 1).val = (x 1).val; omega

/-- Window 4's block at every point is its whole array. -/
theorem whole2_4 (t : Fin cfg2.N) :
    (iblk2 V c 4 t : FVec Ideal S1x256 .f32) = (V c main_v75 : FVec Ideal S1x256 .f32) := by
  obtain ⟨-, -, -, -, -, -, -, -, e0, e1, -, -, -, -, -, -⟩ := blockIndex2 t
  funext x
  unfold iblk2
  rw [View.read_apply]
  show V c main_v75 _ = V c main_v75 _
  refine congrArg _ (funext fun a => Fin.ext ?_)
  match a with
  | ⟨0, _⟩ => show win2_4.index t (0 : Fin 2) * 1 + 1 * (x 0).val = (x 0).val; omega
  | ⟨1, _⟩ => show win2_4.index t (1 : Fin 2) * 256 + 1 * (x 1).val = (x 1).val; omega

/-- Window 5's block at every point is its whole array. -/
theorem whole2_5 (t : Fin cfg2.N) :
    (iblk2 V c 5 t : FVec Ideal S256x128 .f32) = (V c main_v71 : FVec Ideal S256x128 .f32) := by
  obtain ⟨-, -, -, -, -, -, -, -, -, -, e0, e1, -, -, -, -⟩ := blockIndex2 t
  funext x
  unfold iblk2
  rw [View.read_apply]
  show V c main_v71 _ = V c main_v71 _
  refine congrArg _ (funext fun a => Fin.ext ?_)
  match a with
  | ⟨0, _⟩ => show win2_5.index t (0 : Fin 2) * 256 + 1 * (x 0).val = (x 0).val; omega
  | ⟨1, _⟩ => show win2_5.index t (1 : Fin 2) * 128 + 1 * (x 1).val = (x 1).val; omega

/-- Window 6's block at every point is its whole array. -/
theorem whole2_6 (t : Fin cfg2.N) :
    (iblk2 V c 6 t : FVec Ideal S1x128 .f32) = (V c main_v76 : FVec Ideal S1x128 .f32) := by
  obtain ⟨-, -, -, -, -, -, -, -, -, -, -, -, e0, e1, -, -⟩ := blockIndex2 t
  funext x
  unfold iblk2
  rw [View.read_apply]
  show V c main_v76 _ = V c main_v76 _
  refine congrArg _ (funext fun a => Fin.ext ?_)
  match a with
  | ⟨0, _⟩ => show win2_6.index t (0 : Fin 2) * 1 + 1 * (x 0).val = (x 0).val; omega
  | ⟨1, _⟩ => show win2_6.index t (1 : Fin 2) * 128 + 1 * (x 1).val = (x 1).val; omega

/-- The layer's formula on the blocks at point t, at row p and feature d, is the layer at any index of the array whose
    node is 2048 t + p and whose feature is d. -/
theorem node2 (t : Fin cfg2.N) (p : Fin 2048) (d : Fin 128) (i : S102400x128.Idx)
    (hi0 : (i 0).val = 2048 * t.val + p.val) (hi1 : (i 1).val = d.val) :
    layerAt (iblk2 V c 2 t) (iblk2 V c 0 t) (iblk2 V c 1 t) (iblk2 V c 3 t) (iblk2 V c 4 t) (iblk2 V c 5 t) (iblk2 V c 6 t) true p d = layer2 V c i := by
  obtain ⟨n, e, rfl⟩ : ∃ (n : Fin 102400) (e : Fin 128), i = ix2 n e := ⟨i 0, i 1, eq_ix2 i⟩
  obtain rfl : e = d := Fin.ext hi1
  exact layer_of_rows (s := iblk2 V c 2 t) (W1 := iblk2 V c 3 t) (b1 := iblk2 V c 4 t) (W2 := iblk2 V c 5 t)
    (b2 := iblk2 V c 6 t) true (V c main_v74) (iblk2 V c 0 t) (iblk2 V c 1 t) (V c main_v67) (V c main_v75) (V c main_v71)
    (V c main_v76) (V c main_v53) (V c main_v63) p e n
    (fun j => rows2_0 V c t (ix2 p j) (ix2 n j) hi0 rfl) (fun j => rows2_1 V c t (ix2 p j) (ix2 n j) hi0 rfl)
    (whole2_2 V c t) (whole2_3 V c t) (whole2_4 V c t) (whole2_5 V c t) (whole2_6 V c t)

/-- What point t writes back is its block of the layer's array. -/
theorem flushed2_eq (t : Fin cfg2.N) :
    (dat2 (F := Ideal) V c).flushed 7 t = ((cfg2.win 7).blk t).view.read (Elt Ideal) (layer2 V c) := by
  show (cfg2.win 7).cut (grid2.coords t) ((dat2 V c).after 7 t) = _
  rw [after2_7]
  unfold out2_7
  rw [View.canon_unit_zero zeroOffsets]
  simp only [View.ld_unit_zero (S := S2048x128) zeroOffsets, View.ld_unit_zero (S := S1x1) zeroOffsets,
    View.ld_unit_zero (S := S128x256) zeroOffsets, View.ld_unit_zero (S := S1x256) zeroOffsets,
    View.ld_unit_zero (S := S256x128) zeroOffsets, View.ld_unit_zero (S := S1x128) zeroOffsets]
  obtain ⟨-, -, -, -, -, -, -, -, -, -, -, -, -, -, e0, e1⟩ := blockIndex2 t
  refine funext fun (j : S2048x128.Idx) => ?_
  obtain ⟨p, d, rfl⟩ : ∃ (p : Fin 2048) (d : Fin 128), j = ix2 p d := ⟨j 0, j 1, eq_ix2 j⟩
  show k2_pay1 (F := Ideal) (iblk2 V c 2 t) (iblk2 V c 0 t) (iblk2 V c 1 t) (iblk2 V c 3 t) (iblk2 V c 4 t) (iblk2 V c 5 t) (iblk2 V c 6 t) (ix2 p d) = layer2 V c (((cfg2.win 7).blk t).view.emb (ix2 p d))
  refine (pay2_layerAt (iblk2 V c 2 t) (iblk2 V c 0 t) (iblk2 V c 1 t) (iblk2 V c 3 t) (iblk2 V c 4 t) (iblk2 V c 5 t) (iblk2 V c 6 t) p d).trans ?_
  refine node2 V c t p d _ ?_ ?_
  · show win2_7.index t (0 : Fin 2) * 2048 + 1 * p.val = 2048 * t.val + p.val; omega
  · show win2_7.index t (1 : Fin 2) * 128 + 1 * d.val = d.val; omega

/-- An index of the result array is in point t's block iff each coordinate is in the block's range on its axis. -/
theorem mem_block2 (t : Fin cfg2.N) (i : S102400x128.Idx) :
    i ∈ ((cfg2.win 7).blk t).view.set ↔ ∀ a : Fin 2, win2_7.index t a * S2048x128.size a ≤ (i a).val
      ∧ (i a).val < win2_7.index t a * S2048x128.size a + S2048x128.size a := by
  show i ∈ ((View.whole main_v77).slice (win2_7.rect t)).set ↔ _
  rw [View.set_slice_whole, Rect.mem_set_unit]
  exact Iff.rfl

/-- Every index of the result array is in the block of the point its node's row block names. -/
theorem covered2 (i : S102400x128.Idx) :
    ∃ t : Fin cfg2.N, (cfg2.win 7).flush t = true ∧ i ∈ ((cfg2.win 7).blk t).view.set := by
  have hi0 : (i 0).val < 102400 := (i 0).isLt
  have hi1 : (i 1).val < 128 := (i 1).isLt
  obtain ⟨t, ht⟩ : ∃ t : Fin cfg2.N, t.val = (i 0).val / 2048 :=
    ⟨⟨(i 0).val / 2048, by rw [show cfg2.N = 50 from N_2]; omega⟩, rfl⟩
  obtain ⟨-, -, -, -, -, -, -, -, -, -, -, -, -, -, e0, e1⟩ := blockIndex2 t
  refine ⟨t, flush2_7 t, ?_⟩
  rw [mem_block2]
  intro a
  match a with
  | ⟨0, _⟩ =>
    show win2_7.index t (0 : Fin 2) * 2048 ≤ (i 0).val ∧ (i 0).val < win2_7.index t (0 : Fin 2) * 2048 + 2048
    omega
  | ⟨1, _⟩ =>
    show win2_7.index t (1 : Fin 2) * 128 ≤ (i 1).val ∧ (i 1).val < win2_7.index t (1 : Fin 2) * 128 + 128
    omega

/-- The region's result array is the layer applied to the arrays the region finds. -/
theorem region2 : (dat2 (F := Ideal) V c).arrAt 7 cfg2.N
    = Cert.Spec.gin true ((V c main_v74 : S1x1.Idx → EReal) (ix2 0 0)) (V c main_v53) (V c main_v63) (V c main_v67)
        (fun q => (V c main_v75 : S1x256.Idx → EReal) (ix2 0 q)) (V c main_v71)
        (fun d => (V c main_v76 : S1x128.Idx → EReal) (ix2 0 d)) :=
  (dat2 V c).arrAt_eq_of_cover 7 (layer2 V c) (fun t _ => flushed2_eq V c t) (covered2)

end Cert.KernelIdeal.GinValue

end
-- ==== Proof.GinRegion3.lean ====
/-
  The fourth layer's region as a whole array.

  The region runs the layer's body at 50 points. Point t stages rows 2048 t … 2048 t + 2047 of the node features and
  of the aggregated messages, the whole of the scale, of the two matrices and of the two bias rows, and writes the
  body's block back to the same rows of the result. Row p of the block at point t is node 2048 t + p, the body's
  value there is the layer's formula at that node, and every node n lies in the block of the point n / 2048: so the
  result array is the layer applied to the arrays the region finds.
-/
import proofs.«175996_j627065225439_1_alg».proof.Proof.Gen.KernelIdeal.Frame
import proofs.«175996_j627065225439_1_alg».proof.Proof.GinBody
import Idealize.ShloMosaic.Lib.Pipeline.Value

noncomputable section

namespace Cert.KernelIdeal.GinValue

open Cert.KernelIdeal Cert.KernelIdeal.Gen Cert.KernelIdeal.GinBody
open Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b)) (c : Dev nD)

/-- The layer applied to the arrays the region finds: the result the region is shown to leave. -/
abbrev layer3 : S102400x128.Idx → EReal :=
  Cert.Spec.gin true ((V c main_v98 : S1x1.Idx → EReal) (ix2 0 0)) (V c main_v77) (V c main_v87) (V c main_v91)
    (fun q => (V c main_v99 : S1x256.Idx → EReal) (ix2 0 q)) (V c main_v95)
    (fun d => (V c main_v100 : S1x128.Idx → EReal) (ix2 0 d))

/-- The block index of every window at every point, over the 50 points: the features, the messages and the result move
    down one block of rows per point; the other operands stay at their one block. -/
theorem blockIndex3 : ∀ t : Fin cfg3.N,
      win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0 :=
  (by decide +kernel : ∀ t : Fin grid3.N, _)

/-- Window 0's block at point t holds rows 2048 t … 2048 t + 2047 of its array. -/
theorem rows3_0 (t : Fin cfg3.N) (x : S2048x128.Idx) (k : S102400x128.Idx)
    (hk0 : (k 0).val = 2048 * t.val + (x 0).val) (hk1 : (k 1).val = (x 1).val) :
    (iblk3 V c 0 t : FVec Ideal S2048x128 .f32) x = (V c main_v77 : FVec Ideal S102400x128 .f32) k := by
  obtain ⟨e0, e1, -, -, -, -, -, -, -, -, -, -, -, -, -, -⟩ := blockIndex3 t
  unfold iblk3
  rw [View.read_apply]
  show V c main_v77 _ = V c main_v77 _
  refine congrArg _ (funext fun a => Fin.ext ?_)
  match a with
  | ⟨0, _⟩ => show win3_0.index t (0 : Fin 2) * 2048 + 1 * (x 0).val = (k 0).val; omega
  | ⟨1, _⟩ => show win3_0.index t (1 : Fin 2) * 128 + 1 * (x 1).val = (k 1).val; omega

/-- Window 1's block at point t holds rows 2048 t … 2048 t + 2047 of its array. -/
theorem rows3_1 (t : Fin cfg3.N) (x : S2048x128.Idx) (k : S102400x128.Idx)
    (hk0 : (k 0).val = 2048 * t.val + (x 0).val) (hk1 : (k 1).val = (x 1).val) :
    (iblk3 V c 1 t : FVec Ideal S2048x128 .f32) x = (V c main_v87 : FVec Ideal S102400x128 .f32) k := by
  obtain ⟨-, -, e0, e1, -, -, -, -, -, -, -, -, -, -, -, -⟩ := blockIndex3 t
  unfold iblk3
  rw [View.read_apply]
  show V c main_v87 _ = V c main_v87 _
  refine congrArg _ (funext fun a => Fin.ext ?_)
  match a with
  | ⟨0, _⟩ => show win3_1.index t (0 : Fin 2) * 2048 + 1 * (x 0).val = (k 0).val; omega
  | ⟨1, _⟩ => show win3_1.index t (1 : Fin 2) * 128 + 1 * (x 1).val = (k 1).val; omega

/-- Window 2's block at every point is its whole array. -/
theorem whole3_2 (t : Fin cfg3.N) :
    (iblk3 V c 2 t : FVec Ideal S1x1 .f32) = (V c main_v98 : FVec Ideal S1x1 .f32) := by
  obtain ⟨-, -, -, -, e0, e1, -, -, -, -, -, -, -, -, -, -⟩ := blockIndex3 t
  funext x
  unfold iblk3
  rw [View.read_apply]
  show V c main_v98 _ = V c main_v98 _
  refine congrArg _ (funext fun a => Fin.ext ?_)
  match a with
  | ⟨0, _⟩ => show win3_2.index t (0 : Fin 2) * 1 + 1 * (x 0).val = (x 0).val; omega
  | ⟨1, _⟩ => show win3_2.index t (1 : Fin 2) * 1 + 1 * (x 1).val = (x 1).val; omega

/-- Window 3's block at every point is its whole array. -/
theorem whole3_3 (t : Fin cfg3.N) :
    (iblk3 V c 3 t : FVec Ideal S128x256 .f32) = (V c main_v91 : FVec Ideal S128x256 .f32) := by
  obtain ⟨-, -, -, -, -, -, e0, e1, -, -, -, -, -, -, -, -⟩ := blockIndex3 t
  funext x
  unfold iblk3
  rw [View.read_apply]
  show V c main_v91 _ = V c main_v91 _
  refine congrArg _ (funext fun a => Fin.ext ?_)
  match a with
  | ⟨0, _⟩ => show win3_3.index t (0 : Fin 2) * 128 + 1 * (x 0).val = (x 0).val; omega
  | ⟨1, _⟩ => show win3_3.index t (1 : Fin 2) * 256 + 1 * (x 1).val = (x 1).val; omega

/-- Window 4's block at every point is its whole array. -/
theorem whole3_4 (t : Fin cfg3.N) :
    (iblk3 V c 4 t : FVec Ideal S1x256 .f32) = (V c main_v99 : FVec Ideal S1x256 .f32) := by
  obtain ⟨-, -, -, -, -, -, -, -, e0, e1, -, -, -, -, -, -⟩ := blockIndex3 t
  funext x
  unfold iblk3
  rw [View.read_apply]
  show V c main_v99 _ = V c main_v99 _
  refine congrArg _ (funext fun a => Fin.ext ?_)
  match a with
  | ⟨0, _⟩ => show win3_4.index t (0 : Fin 2) * 1 + 1 * (x 0).val = (x 0).val; omega
  | ⟨1, _⟩ => show win3_4.index t (1 : Fin 2) * 256 + 1 * (x 1).val = (x 1).val; omega

/-- Window 5's block at every point is its whole array. -/
theorem whole3_5 (t : Fin cfg3.N) :
    (iblk3 V c 5 t : FVec Ideal S256x128 .f32) = (V c main_v95 : FVec Ideal S256x128 .f32) := by
  obtain ⟨-, -, -, -, -, -, -, -, -, -, e0, e1, -, -, -, -⟩ := blockIndex3 t
  funext x
  unfold iblk3
  rw [View.read_apply]
  show V c main_v95 _ = V c main_v95 _
  refine congrArg _ (funext fun a => Fin.ext ?_)
  match a with
  | ⟨0, _⟩ => show win3_5.index t (0 : Fin 2) * 256 + 1 * (x 0).val = (x 0).val; omega
  | ⟨1, _⟩ => show win3_5.index t (1 : Fin 2) * 128 + 1 * (x 1).val = (x 1).val; omega

/-- Window 6's block at every point is its whole array. -/
theorem whole3_6 (t : Fin cfg3.N) :
    (iblk3 V c 6 t : FVec Ideal S1x128 .f32) = (V c main_v100 : FVec Ideal S1x128 .f32) := by
  obtain ⟨-, -, -, -, -, -, -, -, -, -, -, -, e0, e1, -, -⟩ := blockIndex3 t
  funext x
  unfold iblk3
  rw [View.read_apply]
  show V c main_v100 _ = V c main_v100 _
  refine congrArg _ (funext fun a => Fin.ext ?_)
  match a with
  | ⟨0, _⟩ => show win3_6.index t (0 : Fin 2) * 1 + 1 * (x 0).val = (x 0).val; omega
  | ⟨1, _⟩ => show win3_6.index t (1 : Fin 2) * 128 + 1 * (x 1).val = (x 1).val; omega

/-- The layer's formula on the blocks at point t, at row p and feature d, is the layer at any index of the array whose
    node is 2048 t + p and whose feature is d. -/
theorem node3 (t : Fin cfg3.N) (p : Fin 2048) (d : Fin 128) (i : S102400x128.Idx)
    (hi0 : (i 0).val = 2048 * t.val + p.val) (hi1 : (i 1).val = d.val) :
    layerAt (iblk3 V c 2 t) (iblk3 V c 0 t) (iblk3 V c 1 t) (iblk3 V c 3 t) (iblk3 V c 4 t) (iblk3 V c 5 t) (iblk3 V c 6 t) true p d = layer3 V c i := by
  obtain ⟨n, e, rfl⟩ : ∃ (n : Fin 102400) (e : Fin 128), i = ix2 n e := ⟨i 0, i 1, eq_ix2 i⟩
  obtain rfl : e = d := Fin.ext hi1
  exact layer_of_rows (s := iblk3 V c 2 t) (W1 := iblk3 V c 3 t) (b1 := iblk3 V c 4 t) (W2 := iblk3 V c 5 t)
    (b2 := iblk3 V c 6 t) true (V c main_v98) (iblk3 V c 0 t) (iblk3 V c 1 t) (V c main_v91) (V c main_v99) (V c main_v95)
    (V c main_v100) (V c main_v77) (V c main_v87) p e n
    (fun j => rows3_0 V c t (ix2 p j) (ix2 n j) hi0 rfl) (fun j => rows3_1 V c t (ix2 p j) (ix2 n j) hi0 rfl)
    (whole3_2 V c t) (whole3_3 V c t) (whole3_4 V c t) (whole3_5 V c t) (whole3_6 V c t)

/-- What point t writes back is its block of the layer's array. -/
theorem flushed3_eq (t : Fin cfg3.N) :
    (dat3 (F := Ideal) V c).flushed 7 t = ((cfg3.win 7).blk t).view.read (Elt Ideal) (layer3 V c) := by
  show (cfg3.win 7).cut (grid3.coords t) ((dat3 V c).after 7 t) = _
  rw [after3_7]
  unfold out3_7
  rw [View.canon_unit_zero zeroOffsets]
  simp only [View.ld_unit_zero (S := S2048x128) zeroOffsets, View.ld_unit_zero (S := S1x1) zeroOffsets,
    View.ld_unit_zero (S := S128x256) zeroOffsets, View.ld_unit_zero (S := S1x256) zeroOffsets,
    View.ld_unit_zero (S := S256x128) zeroOffsets, View.ld_unit_zero (S := S1x128) zeroOffsets]
  obtain ⟨-, -, -, -, -, -, -, -, -, -, -, -, -, -, e0, e1⟩ := blockIndex3 t
  refine funext fun (j : S2048x128.Idx) => ?_
  obtain ⟨p, d, rfl⟩ : ∃ (p : Fin 2048) (d : Fin 128), j = ix2 p d := ⟨j 0, j 1, eq_ix2 j⟩
  show k3_pay1 (F := Ideal) (iblk3 V c 2 t) (iblk3 V c 0 t) (iblk3 V c 1 t) (iblk3 V c 3 t) (iblk3 V c 4 t) (iblk3 V c 5 t) (iblk3 V c 6 t) (ix2 p d) = layer3 V c (((cfg3.win 7).blk t).view.emb (ix2 p d))
  refine (pay3_layerAt (iblk3 V c 2 t) (iblk3 V c 0 t) (iblk3 V c 1 t) (iblk3 V c 3 t) (iblk3 V c 4 t) (iblk3 V c 5 t) (iblk3 V c 6 t) p d).trans ?_
  refine node3 V c t p d _ ?_ ?_
  · show win3_7.index t (0 : Fin 2) * 2048 + 1 * p.val = 2048 * t.val + p.val; omega
  · show win3_7.index t (1 : Fin 2) * 128 + 1 * d.val = d.val; omega

/-- An index of the result array is in point t's block iff each coordinate is in the block's range on its axis. -/
theorem mem_block3 (t : Fin cfg3.N) (i : S102400x128.Idx) :
    i ∈ ((cfg3.win 7).blk t).view.set ↔ ∀ a : Fin 2, win3_7.index t a * S2048x128.size a ≤ (i a).val
      ∧ (i a).val < win3_7.index t a * S2048x128.size a + S2048x128.size a := by
  show i ∈ ((View.whole main_v101).slice (win3_7.rect t)).set ↔ _
  rw [View.set_slice_whole, Rect.mem_set_unit]
  exact Iff.rfl

/-- Every index of the result array is in the block of the point its node's block of rows names. -/
theorem covered3 (i : S102400x128.Idx) :
    ∃ t : Fin cfg3.N, (cfg3.win 7).flush t = true ∧ i ∈ ((cfg3.win 7).blk t).view.set := by
  have hi0 : (i 0).val < 102400 := (i 0).isLt
  have hi1 : (i 1).val < 128 := (i 1).isLt
  obtain ⟨t, ht⟩ : ∃ t : Fin cfg3.N, t.val = (i 0).val / 2048 :=
    ⟨⟨(i 0).val / 2048, by rw [show cfg3.N = 50 from N_3]; omega⟩, rfl⟩
  obtain ⟨-, -, -, -, -, -, -, -, -, -, -, -, -, -, e0, e1⟩ := blockIndex3 t
  refine ⟨t, flush3_7 t, ?_⟩
  rw [mem_block3]
  intro a
  match a with
  | ⟨0, _⟩ =>
    show win3_7.index t (0 : Fin 2) * 2048 ≤ (i 0).val ∧ (i 0).val < win3_7.index t (0 : Fin 2) * 2048 + 2048
    omega
  | ⟨1, _⟩ =>
    show win3_7.index t (1 : Fin 2) * 128 ≤ (i 1).val ∧ (i 1).val < win3_7.index t (1 : Fin 2) * 128 + 128
    omega

/-- THE REGION'S RESULT: the result array is the layer applied to the arrays the region finds. -/
theorem region3 : (dat3 (F := Ideal) V c).arrAt 7 cfg3.N
    = Cert.Spec.gin true ((V c main_v98 : S1x1.Idx → EReal) (ix2 0 0)) (V c main_v77) (V c main_v87) (V c main_v91)
        (fun q => (V c main_v99 : S1x256.Idx → EReal) (ix2 0 q)) (V c main_v95)
        (fun d => (V c main_v100 : S1x128.Idx → EReal) (ix2 0 d)) :=
  (dat3 (F := Ideal) V c).arrAt_eq_of_cover 7 (layer3 V c) (fun t _ => flushed3_eq V c t) (covered3)

end Cert.KernelIdeal.GinValue

end
-- ==== Proof.GinRegion4.lean ====
/-
  The last layer's region as a whole array.

  The region runs the layer's body at 50 points. Point t stages rows 2048 t … 2048 t + 2047 of the node features and
  of the aggregated messages, the whole of the scale, of the two matrices and of the two bias rows, and writes the
  body's block back to the same rows of the result. Row p of the block at point t is node 2048 t + p, the body's
  value there is the layer's formula at that node, and every node n lies in the block of the point n / 2048: so the
  result array is the layer applied to the arrays the region finds.
-/
import proofs.«175996_j627065225439_1_alg».proof.Proof.Gen.KernelIdeal.Frame
import proofs.«175996_j627065225439_1_alg».proof.Proof.GinBody
import Idealize.ShloMosaic.Lib.Pipeline.Value

noncomputable section

namespace Cert.KernelIdeal.GinValue

open Cert.KernelIdeal Cert.KernelIdeal.Gen Cert.KernelIdeal.GinBody
open Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b)) (c : Dev nD)

/-- The layer applied to the arrays the region finds: the result the region is shown to leave. -/
abbrev layer4 : S102400x128.Idx → EReal :=
  Cert.Spec.gin false ((V c main_v122 : S1x1.Idx → EReal) (ix2 0 0)) (V c main_v101) (V c main_v111) (V c main_v115)
    (fun q => (V c main_v123 : S1x256.Idx → EReal) (ix2 0 q)) (V c main_v119)
    (fun d => (V c main_v124 : S1x128.Idx → EReal) (ix2 0 d))

/-- The block index of every window at every point, over the 50 points: the features, the messages and the result move
    down one block of rows per point; the other operands stay at their one block. -/
theorem blockIndex4 : ∀ t : Fin cfg4.N,
      win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = t.val
    ∧ win4_7.index t (1 : Fin 2) = 0 :=
  (by decide +kernel : ∀ t : Fin grid4.N, _)

/-- Window 0's block at point t holds rows 2048 t … 2048 t + 2047 of its array. -/
theorem rows4_0 (t : Fin cfg4.N) (x : S2048x128.Idx) (k : S102400x128.Idx)
    (hk0 : (k 0).val = 2048 * t.val + (x 0).val) (hk1 : (k 1).val = (x 1).val) :
    (iblk4 V c 0 t : FVec Ideal S2048x128 .f32) x = (V c main_v101 : FVec Ideal S102400x128 .f32) k := by
  obtain ⟨e0, e1, -, -, -, -, -, -, -, -, -, -, -, -, -, -⟩ := blockIndex4 t
  unfold iblk4
  rw [View.read_apply]
  show V c main_v101 _ = V c main_v101 _
  refine congrArg _ (funext fun a => Fin.ext ?_)
  match a with
  | ⟨0, _⟩ => show win4_0.index t (0 : Fin 2) * 2048 + 1 * (x 0).val = (k 0).val; omega
  | ⟨1, _⟩ => show win4_0.index t (1 : Fin 2) * 128 + 1 * (x 1).val = (k 1).val; omega

/-- Window 1's block at point t holds rows 2048 t … 2048 t + 2047 of its array. -/
theorem rows4_1 (t : Fin cfg4.N) (x : S2048x128.Idx) (k : S102400x128.Idx)
    (hk0 : (k 0).val = 2048 * t.val + (x 0).val) (hk1 : (k 1).val = (x 1).val) :
    (iblk4 V c 1 t : FVec Ideal S2048x128 .f32) x = (V c main_v111 : FVec Ideal S102400x128 .f32) k := by
  obtain ⟨-, -, e0, e1, -, -, -, -, -, -, -, -, -, -, -, -⟩ := blockIndex4 t
  unfold iblk4
  rw [View.read_apply]
  show V c main_v111 _ = V c main_v111 _
  refine congrArg _ (funext fun a => Fin.ext ?_)
  match a with
  | ⟨0, _⟩ => show win4_1.index t (0 : Fin 2) * 2048 + 1 * (x 0).val = (k 0).val; omega
  | ⟨1, _⟩ => show win4_1.index t (1 : Fin 2) * 128 + 1 * (x 1).val = (k 1).val; omega

/-- Window 2's block at every point is its whole array. -/
theorem whole4_2 (t : Fin cfg4.N) :
    (iblk4 V c 2 t : FVec Ideal S1x1 .f32) = (V c main_v122 : FVec Ideal S1x1 .f32) := by
  obtain ⟨-, -, -, -, e0, e1, -, -, -, -, -, -, -, -, -, -⟩ := blockIndex4 t
  funext x
  unfold iblk4
  rw [View.read_apply]
  show V c main_v122 _ = V c main_v122 _
  refine congrArg _ (funext fun a => Fin.ext ?_)
  match a with
  | ⟨0, _⟩ => show win4_2.index t (0 : Fin 2) * 1 + 1 * (x 0).val = (x 0).val; omega
  | ⟨1, _⟩ => show win4_2.index t (1 : Fin 2) * 1 + 1 * (x 1).val = (x 1).val; omega

/-- Window 3's block at every point is its whole array. -/
theorem whole4_3 (t : Fin cfg4.N) :
    (iblk4 V c 3 t : FVec Ideal S128x256 .f32) = (V c main_v115 : FVec Ideal S128x256 .f32) := by
  obtain ⟨-, -, -, -, -, -, e0, e1, -, -, -, -, -, -, -, -⟩ := blockIndex4 t
  funext x
  unfold iblk4
  rw [View.read_apply]
  show V c main_v115 _ = V c main_v115 _
  refine congrArg _ (funext fun a => Fin.ext ?_)
  match a with
  | ⟨0, _⟩ => show win4_3.index t (0 : Fin 2) * 128 + 1 * (x 0).val = (x 0).val; omega
  | ⟨1, _⟩ => show win4_3.index t (1 : Fin 2) * 256 + 1 * (x 1).val = (x 1).val; omega

/-- Window 4's block at every point is its whole array. -/
theorem whole4_4 (t : Fin cfg4.N) :
    (iblk4 V c 4 t : FVec Ideal S1x256 .f32) = (V c main_v123 : FVec Ideal S1x256 .f32) := by
  obtain ⟨-, -, -, -, -, -, -, -, e0, e1, -, -, -, -, -, -⟩ := blockIndex4 t
  funext x
  unfold iblk4
  rw [View.read_apply]
  show V c main_v123 _ = V c main_v123 _
  refine congrArg _ (funext fun a => Fin.ext ?_)
  match a with
  | ⟨0, _⟩ => show win4_4.index t (0 : Fin 2) * 1 + 1 * (x 0).val = (x 0).val; omega
  | ⟨1, _⟩ => show win4_4.index t (1 : Fin 2) * 256 + 1 * (x 1).val = (x 1).val; omega

/-- Window 5's block at every point is its whole array. -/
theorem whole4_5 (t : Fin cfg4.N) :
    (iblk4 V c 5 t : FVec Ideal S256x128 .f32) = (V c main_v119 : FVec Ideal S256x128 .f32) := by
  obtain ⟨-, -, -, -, -, -, -, -, -, -, e0, e1, -, -, -, -⟩ := blockIndex4 t
  funext x
  unfold iblk4
  rw [View.read_apply]
  show V c main_v119 _ = V c main_v119 _
  refine congrArg _ (funext fun a => Fin.ext ?_)
  match a with
  | ⟨0, _⟩ => show win4_5.index t (0 : Fin 2) * 256 + 1 * (x 0).val = (x 0).val; omega
  | ⟨1, _⟩ => show win4_5.index t (1 : Fin 2) * 128 + 1 * (x 1).val = (x 1).val; omega

/-- Window 6's block at every point is its whole array. -/
theorem whole4_6 (t : Fin cfg4.N) :
    (iblk4 V c 6 t : FVec Ideal S1x128 .f32) = (V c main_v124 : FVec Ideal S1x128 .f32) := by
  obtain ⟨-, -, -, -, -, -, -, -, -, -, -, -, e0, e1, -, -⟩ := blockIndex4 t
  funext x
  unfold iblk4
  rw [View.read_apply]
  show V c main_v124 _ = V c main_v124 _
  refine congrArg _ (funext fun a => Fin.ext ?_)
  match a with
  | ⟨0, _⟩ => show win4_6.index t (0 : Fin 2) * 1 + 1 * (x 0).val = (x 0).val; omega
  | ⟨1, _⟩ => show win4_6.index t (1 : Fin 2) * 128 + 1 * (x 1).val = (x 1).val; omega

/-- The layer's formula on the blocks at point t, at row p and feature d, is the layer at any index of the array whose
    node is 2048 t + p and whose feature is d. -/
theorem node4 (t : Fin cfg4.N) (p : Fin 2048) (d : Fin 128) (i : S102400x128.Idx)
    (hi0 : (i 0).val = 2048 * t.val + p.val) (hi1 : (i 1).val = d.val) :
    layerAt (iblk4 V c 2 t) (iblk4 V c 0 t) (iblk4 V c 1 t) (iblk4 V c 3 t) (iblk4 V c 4 t) (iblk4 V c 5 t) (iblk4 V c 6 t) false p d = layer4 V c i := by
  obtain ⟨n, e, rfl⟩ : ∃ (n : Fin 102400) (e : Fin 128), i = ix2 n e := ⟨i 0, i 1, eq_ix2 i⟩
  obtain rfl : e = d := Fin.ext hi1
  exact layer_of_rows (s := iblk4 V c 2 t) (W1 := iblk4 V c 3 t) (b1 := iblk4 V c 4 t) (W2 := iblk4 V c 5 t)
    (b2 := iblk4 V c 6 t) false (V c main_v122) (iblk4 V c 0 t) (iblk4 V c 1 t) (V c main_v115) (V c main_v123) (V c main_v119)
    (V c main_v124) (V c main_v101) (V c main_v111) p e n
    (fun j => rows4_0 V c t (ix2 p j) (ix2 n j) hi0 rfl) (fun j => rows4_1 V c t (ix2 p j) (ix2 n j) hi0 rfl)
    (whole4_2 V c t) (whole4_3 V c t) (whole4_4 V c t) (whole4_5 V c t) (whole4_6 V c t)

/-- What point t writes back is its block of the layer's array. -/
theorem flushed4_eq (t : Fin cfg4.N) :
    (dat4 (F := Ideal) V c).flushed 7 t = ((cfg4.win 7).blk t).view.read (Elt Ideal) (layer4 V c) := by
  show (cfg4.win 7).cut (grid4.coords t) ((dat4 V c).after 7 t) = _
  rw [after4_7]
  unfold out4_7
  rw [View.canon_unit_zero zeroOffsets]
  simp only [View.ld_unit_zero (S := S2048x128) zeroOffsets, View.ld_unit_zero (S := S1x1) zeroOffsets,
    View.ld_unit_zero (S := S128x256) zeroOffsets, View.ld_unit_zero (S := S1x256) zeroOffsets,
    View.ld_unit_zero (S := S256x128) zeroOffsets, View.ld_unit_zero (S := S1x128) zeroOffsets]
  obtain ⟨-, -, -, -, -, -, -, -, -, -, -, -, -, -, e0, e1⟩ := blockIndex4 t
  refine funext fun (j : S2048x128.Idx) => ?_
  obtain ⟨p, d, rfl⟩ : ∃ (p : Fin 2048) (d : Fin 128), j = ix2 p d := ⟨j 0, j 1, eq_ix2 j⟩
  show k4_pay1 (F := Ideal) (iblk4 V c 2 t) (iblk4 V c 0 t) (iblk4 V c 1 t) (iblk4 V c 3 t) (iblk4 V c 4 t) (iblk4 V c 5 t) (iblk4 V c 6 t) (ix2 p d) = layer4 V c (((cfg4.win 7).blk t).view.emb (ix2 p d))
  refine (pay4_layerAt (iblk4 V c 2 t) (iblk4 V c 0 t) (iblk4 V c 1 t) (iblk4 V c 3 t) (iblk4 V c 4 t) (iblk4 V c 5 t) (iblk4 V c 6 t) p d).trans ?_
  refine node4 V c t p d _ ?_ ?_
  · show win4_7.index t (0 : Fin 2) * 2048 + 1 * p.val = 2048 * t.val + p.val; omega
  · show win4_7.index t (1 : Fin 2) * 128 + 1 * d.val = d.val; omega

/-- An index of the result array is in point t's block iff each coordinate is in the block's range on its axis. -/
theorem mem_block4 (t : Fin cfg4.N) (i : S102400x128.Idx) :
    i ∈ ((cfg4.win 7).blk t).view.set ↔ ∀ a : Fin 2, win4_7.index t a * S2048x128.size a ≤ (i a).val
      ∧ (i a).val < win4_7.index t a * S2048x128.size a + S2048x128.size a := by
  show i ∈ ((View.whole main_v125).slice (win4_7.rect t)).set ↔ _
  rw [View.set_slice_whole, Rect.mem_set_unit]
  exact Iff.rfl

/-- Every index of the result array is in the block of the point its node's block of rows names. -/
theorem covered4 (i : S102400x128.Idx) :
    ∃ t : Fin cfg4.N, (cfg4.win 7).flush t = true ∧ i ∈ ((cfg4.win 7).blk t).view.set := by
  have hi0 : (i 0).val < 102400 := (i 0).isLt
  have hi1 : (i 1).val < 128 := (i 1).isLt
  obtain ⟨t, ht⟩ : ∃ t : Fin cfg4.N, t.val = (i 0).val / 2048 :=
    ⟨⟨(i 0).val / 2048, by rw [show cfg4.N = 50 from N_4]; omega⟩, rfl⟩
  obtain ⟨-, -, -, -, -, -, -, -, -, -, -, -, -, -, e0, e1⟩ := blockIndex4 t
  refine ⟨t, flush4_7 t, ?_⟩
  rw [mem_block4]
  intro a
  match a with
  | ⟨0, _⟩ =>
    show win4_7.index t (0 : Fin 2) * 2048 ≤ (i 0).val ∧ (i 0).val < win4_7.index t (0 : Fin 2) * 2048 + 2048
    omega
  | ⟨1, _⟩ =>
    show win4_7.index t (1 : Fin 2) * 128 ≤ (i 1).val ∧ (i 1).val < win4_7.index t (1 : Fin 2) * 128 + 128
    omega

/-- THE REGION'S RESULT: the result array is the layer applied to the arrays the region finds. -/
theorem region4 : (dat4 (F := Ideal) V c).arrAt 7 cfg4.N
    = Cert.Spec.gin false ((V c main_v122 : S1x1.Idx → EReal) (ix2 0 0)) (V c main_v101) (V c main_v111) (V c main_v115)
        (fun q => (V c main_v123 : S1x256.Idx → EReal) (ix2 0 q)) (V c main_v119)
        (fun d => (V c main_v124 : S1x128.Idx → EReal) (ix2 0 d)) :=
  (dat4 (F := Ideal) V c).arrAt_eq_of_cover 7 (layer4 V c) (fun t _ => flushed4_eq V c t) (covered4)

end Cert.KernelIdeal.GinValue

end
-- ==== Proof.LibColDot.lean ====
/-
  A matrix product that contracts the leading axis of both operands, read at an index.

  The dimension numbers of a [c, a] × [c, b] → [a, b] product contract the left operand's axis 0 with the right
  operand's axis 0 and have no batch axis: the left operand enters transposed. At result index (p, q) and contraction
  position k the left operand is read at (k, p) and the right operand at (k, q), so the sum over the contraction
  shape's one-axis index set is the sum over k : Fin c of lhs (k, p) * rhs (k, q) — in any commutative additive monoid
  with a product, the extended reals included. The statement is over variable extents; a printed record with these six
  lists is this one by reflexivity.
-/
import Idealize.ShloMosaic.Lib.ValueIdx
import Idealize.ShloMosaic.PureOps.Ideal.Laws

noncomputable section

namespace Cert.Lib.ColDot

open Idealize.ShloMosaic Idealize.ShloMosaic.ValueIdx
open scoped BigOperators

variable {a c b : Nat}

/-- The dimension numbers of the product [c, a] × [c, b] → [a, b] contracting the leading axes. -/
abbrev dims (wf : DotDims.WF ⟨2, ![c, a]⟩ ⟨2, ![c, b]⟩ ⟨2, ![a, b]⟩ [0] [0] [1] [1] [] []) :
    DotDims ⟨2, ![c, a]⟩ ⟨2, ![c, b]⟩ ⟨2, ![a, b]⟩ where
  lhsContracting := [0]
  rhsContracting := [0]
  lhsNonContracting := [1]
  rhsNonContracting := [1]
  lhsBatch := []
  rhsBatch := []
  wf := wf

variable (wf : DotDims.WF ⟨2, ![c, a]⟩ ⟨2, ![c, b]⟩ ⟨2, ![a, b]⟩ [0] [0] [1] [1] [] [])

/-- The left operand's row is the contraction position. -/
theorem lhs_row (i : (⟨2, ![a, b]⟩ : Shape).Idx) (k : (dims wf).contr.Idx) :
    ((dims wf).lhsIdx i k 0).val = (k ⟨0, Nat.one_pos⟩).val :=
  (dims wf).lhsIdx_val_of_single rfl i k

/-- The left operand's column is the result's row. -/
theorem lhs_col (i : (⟨2, ![a, b]⟩ : Shape).Idx) (k : (dims wf).contr.Idx) :
    ((dims wf).lhsIdx i k 1).val = (i 0).val := by
  unfold DotDims.lhsIdx
  rw [dif_neg (show ¬(1 : Fin 2) ∈ (dims wf).lhsBatch from List.not_mem_nil),
    dif_pos (show (1 : Fin 2) ∈ (dims wf).lhsNonContracting from List.mem_singleton.mpr rfl)]
  rfl

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (k, p) times the right operand at (k, q). -/
theorem sum_apply {M : Type*} [AddCommMonoid M] [Mul M] (lhs : (⟨2, ![c, a]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 k p) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 k p :=
    funext fun ax => Fin.ext (by
      match ax with
      | ⟨0, _⟩ => exact (lhs_row wf _ _).trans hk
      | ⟨1, _⟩ => exact lhs_col wf _ _)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![c, a]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 k p) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![c, a]⟩ φ₁)
    (rhs : FVec Ideal ⟨2, ![c, b]⟩ φ₂) (p : Fin a) (q : Fin b) :
    Host.dotGeneral (dims wf) prec lhs rhs (ix2 p q) = ∑ k : Fin c, lhs (ix2 k p) * rhs (ix2 k q) :=
  (Ideal.dotGeneral_apply (dims wf) prec _ lhs rhs (ix2 p q)).trans (sum_apply wf lhs rhs p q)

end Cert.Lib.ColDot

end
-- ==== Proof.PoolBody.lean ====
/-
  The pooling body's two stored values, read at an index on the extended reals.

  The body first compares the block's column of 1024 bin words against the row of the 1024 bin numbers: entry (r, s)
  of the comparison is the bit "word r equals number s", widened to a 32-bit word and converted to a float, so it is 1
  when the words agree and 0 otherwise. It then multiplies the transpose of that 1024 × 1024 one-hot matrix into the
  block of 1024 rows of node features (the product contracts the row axis of both operands) and adds the result to the
  accumulator. At bin s and feature d the stored value is therefore

      acc (s, d) + ∑ r < 1024, (if word r = number s then 1 else 0) · x (r, d)
        = acc (s, d) + ∑ r < 1024, if word r = number s then x (r, d) else 0,

  because 1 · y = y and 0 · y = 0 for every extended real y, the infinite ones included. The reset value is the zero
  block.
-/
import proofs.«175996_j627065225439_1_alg».proof.Proof.Gen.KernelIdeal.Skeleton
import proofs.«175996_j627065225439_1_alg».proof.Proof.LibColDot
import proofs.«175996_j627065225439_1_alg».proof.Proof.LibRowBroadcasts
import Idealize.ShloMosaic.Lib.ValueIdx
import Idealize.ShloMosaic.Lib.Pipeline.Value
import Idealize.ShloMosaic.PureOps.Ideal.Laws

noncomputable section

open scoped BigOperators

namespace Cert.KernelIdeal.PoolBody

open Idealize.ShloMosaic Idealize.ShloMosaic.ValueIdx
open Cert.KernelIdeal Cert.KernelIdeal.Gen

/-- The comparison bit of two words, widened and converted to a float, is 1 when they agree and 0 otherwise. -/
theorem onehot_word (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h
    rw [if_pos rfl]
    have e : IntOp.cmpi .eq x x = 1#1 := by
      show BitVec.ofBool (x == x) = 1#1
      rw [beq_self_eq_true]; rfl
    rw [e]
    have e' : ((1#1 : BitVec 1).setWidth 32).toInt = 1 := by decide
    rw [e']
    simp
  · rw [if_neg h]
    have e : IntOp.cmpi .eq x y = 0#1 := by
      show BitVec.ofBool (x == y) = 0#1
      rw [beq_eq_false_iff_ne.mpr h]; rfl
    rw [e]
    have e' : ((0#1 : BitVec 1).setWidth 32).toInt = 0 := by decide
    rw [e']
    simp

/-- An a × 1 column broadcast across c columns reads, at (p, q), the column at p. -/
theorem bcastCol_apply {a c : Nat} {α : Type} (v : (⟨2, ![a, 1]⟩ : Shape).Idx → α)
    (h : (⟨2, ![a, 1]⟩ : Shape).Broadcasts ⟨2, ![a, c]⟩) (p : Fin a) (q : Fin c) :
    broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- The reset value is the zero block. -/
theorem pay1_apply (s : Fin 1024) (d : Fin 128) : k5_pay1 (F := Ideal) (ix2 s d) = 0 :=
  (show k5_pay1 (F := Ideal) (ix2 s d) = Ideal.ofBits .f32 0x00000000#32 from rfl).trans Ideal.ofBits_zero_f32

/-- THE ACCUMULATED VALUE at bin s and feature d: the accumulator's entry plus the block's rows whose bin word is the
    s-th bin number. -/
theorem pay2_apply (v3 : S1024x1.Idx → BitVec 32) (v5 : S1x1024.Idx → BitVec 32)
    (v13 v17 : S1024x128.Idx → EReal) (s : Fin 1024) (d : Fin 128) :
    k5_pay2 (F := Ideal) v3 v5 v13 v17 (ix2 s d)
      = v17 (ix2 s d)
        + ∑ r : Fin 1024, if v3 (ix2 r (0 : Fin 1)) = v5 (ix2 (0 : Fin 1) s) then v13 (ix2 r d) else 0 := by
  unfold k5_pay2
  simp only [shapeCast_self]
  refine (addf_apply _ _ _).trans ?_
  refine congrArg (v17 (ix2 s d) + ·) ?_
  refine (Cert.Lib.ColDot.matmul_zero_apply (a := 1024) (c := 1024) (b := 128)
    dot_S1024x1024_S1024x128_S1024x128_0_0_1_1_n_n_wf none _ _ s d).trans ?_
  refine Finset.sum_congr rfl fun r _ => ?_
  show (FloatOps.sitofp (F := Ideal) .f32
        ((IntOp.cmpi .eq (broadcastTo S1024x1024 v3 broadcasts_S1024x1_S1024x1024 (ix2 r s))
          (broadcastTo S1024x1024 v5 broadcasts_S1x1024_S1024x1024 (ix2 r s))).setWidth 32) : EReal)
      * v13 (ix2 r d) = _
  rw [bcastCol_apply v3 broadcasts_S1024x1_S1024x1024 r s,
    Cert.Lib.Rows.bcastRow_apply v5 broadcasts_S1x1024_S1024x1024 r s, onehot_word]
  by_cases h : v3 (ix2 r (0 : Fin 1)) = v5 (ix2 (0 : Fin 1) s)
  · rw [if_pos h, if_pos h, one_mul]
  · rw [if_neg h, if_neg h, zero_mul]

end Cert.KernelIdeal.PoolBody

end
-- ==== Proof.PoolSum.lean ====
/-
  A sum over the 102400 rows as 100 blocks of 1024 rows, and its partial sums block by block.

  Row r of block u is row 1024 · u + r. A sum over all rows in any commutative additive monoid is the sum over the
  blocks of the sums inside each block; the partial sum through block t starts at block 0's sum, grows by block
  t + 1's sum at each step, and through the last block, 99, is the whole sum.
-/
import Mathlib.Algebra.BigOperators.Fin
import Mathlib.Logic.Equiv.Fin.Basic

open scoped BigOperators

namespace Cert.PoolSum

variable {M : Type*} [AddCommMonoid M]

/-- Row r of block u among the 102400 rows. -/
def row (u : Fin 100) (r : Fin 1024) : Fin 102400 := ⟨1024 * u.val + r.val, by omega⟩

theorem row_val (u : Fin 100) (r : Fin 1024) : (row u r).val = 1024 * u.val + r.val := rfl

/-- The sum over all rows is the sum over the blocks of the sums over each block's rows. -/
theorem sum_blocks (f : Fin 102400 → M) : ∑ n : Fin 102400, f n = ∑ u : Fin 100, ∑ r : Fin 1024, f (row u r) := by
  have e : 100 * 1024 = 102400 := rfl
  rw [← Equiv.sum_comp ((finProdFinEquiv (m := 100) (n := 1024)).trans (finCongr e)) f, Fintype.sum_prod_type]
  refine Finset.sum_congr rfl fun u _ => Finset.sum_congr rfl fun r _ => congrArg f (Fin.ext ?_)
  show r.val + 1024 * u.val = 1024 * u.val + r.val
  omega

/-- Block u's sum, zero past the last block. -/
def blockTerm (f : Fin 102400 → M) (u : Nat) : M := if h : u < 100 then ∑ r : Fin 1024, f (row ⟨u, h⟩ r) else 0

/-- The sum of the blocks 0, …, t. -/
def partialSum (f : Fin 102400 → M) (t : Nat) : M := ∑ u ∈ Finset.range (t + 1), blockTerm f u

theorem partialSum_zero (f : Fin 102400 → M) : partialSum f 0 = ∑ r : Fin 1024, f (row 0 r) := by
  unfold partialSum
  rw [Finset.sum_range_one]
  unfold blockTerm
  rw [dif_pos (by omega)]
  rfl

theorem partialSum_succ (f : Fin 102400 → M) (t : Nat) (h : t + 1 < 100) :
    partialSum f (t + 1) = partialSum f t + ∑ r : Fin 1024, f (row ⟨t + 1, h⟩ r) := by
  unfold partialSum
  rw [Finset.sum_range_succ _ (t + 1)]
  congr 1
  unfold blockTerm
  rw [dif_pos h]

theorem partialSum_last (f : Fin 102400 → M) : partialSum f 99 = ∑ n : Fin 102400, f n := by
  unfold partialSum
  rw [sum_blocks, Finset.sum_range]
  refine Finset.sum_congr rfl fun u _ => ?_
  unfold blockTerm
  rw [dif_pos u.isLt]

end Cert.PoolSum
-- ==== Proof.PoolRegion.lean ====
/-
  The pooling region as a whole array.

  The region visits 100 points. At point t the body holds block t of the node features (rows 1024·t … 1024·t + 1023),
  block t of the column of bin words, the whole row of the 1024 bin numbers, and one output block of 1024 bins by 128
  features that stays in place across the points and is written back after the last one. Point 0 stores the zero
  block, reads it back and adds block 0's contribution; every later point adds its block's contribution to what the
  point before left. The contribution of block t at bin s and feature d is the sum of the features (n, d) over the
  block's rows n whose bin word is the s-th bin number, and the s-th bin number is the word of s. By induction on the
  point, after point t the output block holds the sum over the rows below 1024·(t + 1); after point 99 that is every
  row: the pooled sums. Only that addition on the extended reals is a commutative monoid is used.
-/
import proofs.«175996_j627065225439_1_alg».proof.Proof.Gen.KernelIdeal.Frame
import proofs.«175996_j627065225439_1_alg».proof.Proof.Spec
import proofs.«175996_j627065225439_1_alg».proof.Proof.PoolBody
import proofs.«175996_j627065225439_1_alg».proof.Proof.PoolSum
import Idealize.ShloMosaic.Lib.Pipeline.Value
import Idealize.ShloMosaic.Lib.Tactic

noncomputable section

open scoped BigOperators

namespace Cert.KernelIdeal.PoolValue

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

section Pieces
variable {F : FTy → Type} [FloatOps F]

/-- A later point leaves the accumulated value of its three input blocks and of what the output block held. -/
theorem out_B (c : Dev nD) (i : grid5.Coords) (a1 : Memref sig .tc .vmem S1024x128 .f32) (h1 : a1.IsWhole)
    (a2 : Memref sig .tc .vmem S1024x1 .i32) (h2 : a2.IsWhole) (a3 : Memref sig .tc .vmem S1x1024 .i32) (h3 : a3.IsWhole)
    (a4 : Memref sig .tc .vmem S1024x128 .f32) (h4 : a4.IsWhole) (hc : ¬cond5_0 i)
    (x0 : Vec F S1024x128 .f32) (x1 : Vec F S1024x1 .i32) (x2 : Vec F S1x1024 .i32) (xo : Vec F S1024x128 .f32) :
    out5_B_3 c i a1 h1 a2 h2 a3 h3 a4 h4 hc x0 x1 x2 xo = k5_pay2 x1 x2 x0 xo := by
  unfold out5_B_3
  rw [View.read_writes_eq_canon _ _ _ (cover5_B_3 c i a1 h1 a2 h2 a3 h3 a4 h4 hc x0 x1 x2 xo)]
  unfold kernelRun5_B
  dsimp only
  rw [View.canon_unit_zero (S := S1024x128) hz]
  simp only [View.readAt_eq_ld, h1.read_unread, h2.read_unread, h3.read_unread, h4.read_unread,
    View.ld_unit_zero (S := S1024x128) hz, View.ld_unit_zero (S := S1024x1) hz, View.ld_unit_zero (S := S1x1024) hz]

/-- The first point stores the zero block, reads it back, and leaves the accumulated value over it. -/
theorem out_A (c : Dev nD) (i : grid5.Coords) (a1 : Memref sig .tc .vmem S1024x128 .f32) (h1 : a1.IsWhole)
    (a2 : Memref sig .tc .vmem S1024x1 .i32) (h2 : a2.IsWhole) (a3 : Memref sig .tc .vmem S1x1024 .i32) (h3 : a3.IsWhole)
    (a4 : Memref sig .tc .vmem S1024x128 .f32) (h4 : a4.IsWhole) (hc : cond5_0 i)
    (x0 : Vec F S1024x128 .f32) (x1 : Vec F S1024x1 .i32) (x2 : Vec F S1x1024 .i32) :
    out5_A_3 c i a1 h1 a2 h2 a3 h3 a4 h4 hc x0 x1 x2 = k5_pay2 x1 x2 x0 (k5_pay1 (F := F)) := by
  unfold out5_A_3
  rw [View.read_writes_eq_canon _ _ _ (cover5_A_3 c i a1 h1 a2 h2 a3 h3 a4 h4 hc x0 x1 x2)]
  unfold kernelRun5_A
  dsimp only
  sl_unfold_words
  rw [View.canon_cons_unit_zero (S := S1024x128) hz, View.readCov_unit_zero (S := S1024x128) _ hz]
  simp only [View.readAt_eq_ld, h1.read_unread, h2.read_unread, h3.read_unread,
    View.ld_unit_zero (S := S1024x128) hz, View.ld_unit_zero (S := S1024x1) hz, View.ld_unit_zero (S := S1x1024) hz]

end Pieces

section AtIdeal
variable (V : (c : Dev nD) → (b : Ref sig .tc) → Buf (Elt Ideal) ((c : Thread nD τ).loc b)) (c : Dev nD)

/-- The windows' index maps at every point of the grid: the feature block and the bin-word block of point t are block t,
    the row of bin numbers and the output block do not move. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- A point of the grid as a block number. -/
def pt (t : Fin cfg5.N) : Fin 100 := ⟨t.val, lt_of_lt_of_eq t.isLt (show cfg5.N = 100 from N_5)⟩

/-- The feature block of point t at (r, d) is the node features at row 1024·t + r. -/
theorem iblk0_apply (t : Fin cfg5.N) (r : Fin 1024) (d : Fin 128) :
    (iblk5 V c 0 t : S1024x128.Idx → EReal) (ix2 r d)
      = (V c main_v125 : S102400x128.Idx → EReal) (ix2 (Cert.PoolSum.row (pt t) r) d) := by
  obtain ⟨e0, e1, -⟩ := idx_facts t
  unfold iblk5
  rw [View.read_apply]
  show (V c main_v125 : S102400x128.Idx → EReal) (((cfg5.win 0).blk t).view.emb (ix2 r d)) = _
  refine congrArg (V c main_v125 : S102400x128.Idx → EReal) (funext fun a => Fin.ext ?_)
  match a with
  | ⟨0, _⟩ => show win5_0.index t (0 : Fin 2) * 1024 + 1 * r.val = 1024 * t.val + r.val; rw [e0]; omega
  | ⟨1, _⟩ => show win5_0.index t (1 : Fin 2) * 128 + 1 * d.val = d.val; rw [e1]; omega

/-- The bin-word block of point t at (r, 0) is the bin word of row 1024·t + r. -/
theorem iblk1_apply (t : Fin cfg5.N) (r : Fin 1024) :
    (iblk5 V c 1 t : S1024x1.Idx → BitVec 32) (ix2 r (0 : Fin 1))
      = (V c main_v137 : S102400x1.Idx → BitVec 32) (ix2 (Cert.PoolSum.row (pt t) r) (0 : Fin 1)) := by
  obtain ⟨-, -, e0, e1, -⟩ := idx_facts t
  unfold iblk5
  rw [View.read_apply]
  show (V c main_v137 : S102400x1.Idx → BitVec 32) (((cfg5.win 1).blk t).view.emb (ix2 r (0 : Fin 1))) = _
  refine congrArg (V c main_v137 : S102400x1.Idx → BitVec 32) (funext fun a => Fin.ext ?_)
  match a with
  | ⟨0, _⟩ => show win5_1.index t (0 : Fin 2) * 1024 + 1 * r.val = 1024 * t.val + r.val; rw [e0]; omega
  | ⟨1, _⟩ => show win5_1.index t (1 : Fin 2) * 1 + 1 * (0 : Nat) = (0 : Nat); rw [e1]

/-- The row of bin numbers is read whole at every point. -/
theorem iblk2_apply (t : Fin cfg5.N) (s : Fin 1024) :
    (iblk5 V c 2 t : S1x1024.Idx → BitVec 32) (ix2 (0 : Fin 1) s)
      = (V c main_v139 : S1x1024.Idx → BitVec 32) (ix2 (0 : Fin 1) s) := by
  obtain ⟨-, -, -, -, e0, e1, -⟩ := idx_facts t
  unfold iblk5
  rw [View.read_apply]
  show (V c main_v139 : S1x1024.Idx → BitVec 32) (((cfg5.win 2).blk t).view.emb (ix2 (0 : Fin 1) s)) = _
  refine congrArg (V c main_v139 : S1x1024.Idx → BitVec 32) (funext fun a => Fin.ext ?_)
  match a with
  | ⟨0, _⟩ => show win5_2.index t (0 : Fin 2) * 1 + 1 * (0 : Nat) = (0 : Nat); rw [e0]
  | ⟨1, _⟩ => show win5_2.index t (1 : Fin 2) * 1024 + 1 * s.val = s.val; rw [e1]; omega

/-- Row n's contribution to bin s at feature d: its feature when its bin word is the word of s. -/
def term (s : Fin 1024) (d : Fin 128) : Fin 102400 → EReal := fun n =>
  if (V c main_v137 : S102400x1.Idx → BitVec 32) (ix2 n (0 : Fin 1)) = BitVec.ofNat 32 s.val
  then (V c main_v125 : S102400x128.Idx → EReal) (ix2 n d) else 0

/-- What the accumulation adds at point t: block t's contributions. -/
theorem contrib (hiota : ∀ s : Fin 1024, (V c main_v139 : S1x1024.Idx → BitVec 32) (ix2 0 s) = BitVec.ofNat 32 s.val)
    (t : Fin cfg5.N) (acc : S1024x128.Idx → EReal) (s : Fin 1024) (d : Fin 128) :
    k5_pay2 (F := Ideal) (iblk5 V c 1 t) (iblk5 V c 2 t) (iblk5 V c 0 t) acc (ix2 s d)
      = acc (ix2 s d) + ∑ r : Fin 1024, term V c s d (Cert.PoolSum.row (pt t) r) := by
  refine (Cert.KernelIdeal.PoolBody.pay2_apply (iblk5 V c 1 t) (iblk5 V c 2 t) (iblk5 V c 0 t) acc s d).trans ?_
  refine congrArg (acc (ix2 s d) + ·) (Finset.sum_congr rfl fun r _ => ?_)
  rw [iblk1_apply V c t r, iblk2_apply V c t s, iblk0_apply V c t r d, hiota s]
  rfl

end AtIdeal

section Result
variable (V : (c : Dev nD) → (b : Ref sig .tc) → Buf (Elt Ideal) ((c : Thread nD τ).loc b)) (c : Dev nD)

/-- After the first point: the accumulated value over the zero block. -/
theorem outs_first (t : Fin cfg5.N) (h0 : t.val % 100 = 0) :
    outsAt5 (F := Ideal) V c t.val t.isLt
      = k5_pay2 (F := Ideal) (iblk5 V c 1 t) (iblk5 V c 2 t) (iblk5 V c 0 t) (k5_pay1 (F := Ideal)) :=
  (outsAt5_A V c t h0).trans
    (out_A (F := Ideal) c (grid5.coords t) (ms5_0 t) (hs5_0 t) (ms5_1 t) (hs5_1 t) (ms5_2 t) (hs5_2 t) (ms5_3 t) (hs5_3 t)
      ((hcond5_0 t).mpr h0) (iblk5 V c 0 t) (iblk5 V c 1 t) (iblk5 V c 2 t))

/-- After a later point: the accumulated value over what the point before left. -/
theorem outs_later (t : Fin cfg5.N) (h0 : ¬t.val % 100 = 0) :
    outsAt5 (F := Ideal) V c t.val t.isLt
      = k5_pay2 (F := Ideal) (iblk5 V c 1 t) (iblk5 V c 2 t) (iblk5 V c 0 t)
          (outsAt5 (F := Ideal) V c (t.val - 1) (Nat.lt_of_le_of_lt (Nat.sub_le _ _) t.isLt)) :=
  (outsAt5_B V c t h0).trans
    (out_B (F := Ideal) c (grid5.coords t) (ms5_0 t) (hs5_0 t) (ms5_1 t) (hs5_1 t) (ms5_2 t) (hs5_2 t) (ms5_3 t) (hs5_3 t)
      (fun h => h0 ((hcond5_0 t).mp h)) (iblk5 V c 0 t) (iblk5 V c 1 t) (iblk5 V c 2 t)
      (outsAt5 (F := Ideal) V c (t.val - 1) (Nat.lt_of_le_of_lt (Nat.sub_le _ _) t.isLt)))

/-- THE INVARIANT: after point n the output block holds, at bin s and feature d, the contributions of the blocks
    0, …, n — by induction on the point. -/
theorem outsAt_eq (hiota : ∀ s : Fin 1024, (V c main_v139 : S1x1024.Idx → BitVec 32) (ix2 0 s) = BitVec.ofNat 32 s.val) :
    ∀ (n : ℕ) (hn : n < cfg5.N) (s : Fin 1024) (d : Fin 128),
      (outsAt5 (F := Ideal) V c n hn : S1024x128.Idx → EReal) (ix2 s d) = Cert.PoolSum.partialSum (term V c s d) n
  | 0, hn, s, d => by
    refine (congrFun (outs_first V c ⟨0, hn⟩ rfl) (ix2 s d)).trans ?_
    refine (contrib V c hiota ⟨0, hn⟩ (k5_pay1 (F := Ideal)) s d).trans ?_
    rw [Cert.KernelIdeal.PoolBody.pay1_apply, zero_add, Cert.PoolSum.partialSum_zero]
    rfl
  | n + 1, hn, s, d => by
    have hN : n + 1 < 100 := lt_of_lt_of_eq hn (show cfg5.N = 100 from N_5)
    have hB : ¬(⟨n + 1, hn⟩ : Fin cfg5.N).val % 100 = 0 := by dsimp only; omega
    refine (congrFun (outs_later V c ⟨n + 1, hn⟩ hB) (ix2 s d)).trans ?_
    refine (contrib V c hiota ⟨n + 1, hn⟩ _ s d).trans ?_
    rw [Cert.PoolSum.partialSum_succ _ n hN]
    refine congrArg₂ (· + ·) ?_ rfl
    exact outsAt_eq hiota n (Nat.lt_of_succ_lt hn) s d

/-- After the last point the output block holds the pooled sums. -/
theorem outs_last (hiota : ∀ s : Fin 1024, (V c main_v139 : S1x1024.Idx → BitVec 32) (ix2 0 s) = BitVec.ofNat 32 s.val)
    (h99 : 99 < cfg5.N) :
    (outsAt5 (F := Ideal) V c 99 h99 : S1024x128.Idx → EReal)
      = Cert.Spec.pool (V c main_v125) (fun n => (V c main_v137 : S102400x1.Idx → BitVec 32) (ix2 n 0)) := by
  funext i
  obtain ⟨s, d, rfl⟩ : ∃ (s : Fin 1024) (d : Fin 128), i = ix2 s d := ⟨i 0, i 1, eq_ix2 i⟩
  rw [outsAt_eq V c hiota 99 h99 s d, Cert.PoolSum.partialSum_last, Cert.Spec.pool_ix2]
  rfl

/-- The last point of the grid. -/
abbrev tLast : Fin cfg5.N := ⟨99, by rw [show cfg5.N = 100 from N_5]; decide⟩

/-- The one write-back, after the last point, writes the pooled sums: the output's one block is the whole array. -/
theorem flushed_eq (hiota : ∀ s : Fin 1024, (V c main_v139 : S1x1024.Idx → BitVec 32) (ix2 0 s) = BitVec.ofNat 32 s.val)
    (t : Fin cfg5.N) (hf : (cfg5.win 3).flush t = true) :
    (dat5 (F := Ideal) V c).flushed 3 t = ((cfg5.win 3).blk t).view.read (Elt Ideal)
      (Cert.Spec.pool (V c main_v125) (fun n => (V c main_v137 : S102400x1.Idx → BitVec 32) (ix2 n 0))) := by
  have hN : t.val < 100 := lt_of_lt_of_eq t.isLt (show cfg5.N = 100 from N_5)
  have h99 : t.val = 99 := by have := (flush5_3 t).mp hf; omega
  obtain rfl : t = tLast := Fin.ext h99
  show (cfg5.win 3).cut (grid5.coords tLast) ((dat5 (F := Ideal) V c).after 3 tLast) = _
  rw [after5_3, outs_last V c hiota]
  have hz' : (fun a => win5_3.index tLast a * main_v140.ty.shape.size a) = fun _ => 0 :=
    funext fun a => by fin_cases a <;> decide +kernel
  exact (Memref.read_access_unit_zero (Elt Ideal) main_v140 hz' (fun a => by rw [congrFun hz' a]; simp) _).symm

/-- THE REGION'S RESULT: the output array ends holding the pooled sums of the node features over the bin words, provided
    the row of bin numbers lists 0, 1, …, 1023. -/
theorem region5 (hiota : ∀ s : Fin 1024, (V c main_v139 : S1x1024.Idx → BitVec 32) (ix2 0 s) = BitVec.ofNat 32 s.val) :
    (dat5 (F := Ideal) V c).arrAt 3 cfg5.N
      = Cert.Spec.pool (V c main_v125) (fun n => (V c main_v137 : S102400x1.Idx → BitVec 32) (ix2 n 0)) :=
  (dat5 (F := Ideal) V c).arrAt_eq_of_cover 3 _ (flushed_eq V c hiota) fun i =>
    ⟨tLast, (flush5_3 tLast).mpr rfl, by
      show i ∈ ((View.whole main_v140).slice (win5_3.rect tLast)).set
      rw [View.set_slice_whole, Rect.mem_set_unit]
      intro a
      have h0 : (i 0 : Nat) < 1024 := (i 0).isLt
      have h1 : (i 1 : Nat) < 128 := (i 1).isLt
      match a with
      | ⟨0, _⟩ =>
        show win5_3.index tLast 0 * win5_3.size 0 ≤ (i 0 : Nat)
          ∧ (i 0 : Nat) < win5_3.index tLast 0 * win5_3.size 0 + win5_3.xsize (grid5.coords tLast) 0
        rw [show win5_3.index tLast 0 * win5_3.size 0 = 0 from by decide +kernel,
          show win5_3.xsize (grid5.coords tLast) 0 = 1024 from by decide +kernel]
        omega
      | ⟨1, _⟩ =>
        show win5_3.index tLast 1 * win5_3.size 1 ≤ (i 1 : Nat)
          ∧ (i 1 : Nat) < win5_3.index tLast 1 * win5_3.size 1 + win5_3.xsize (grid5.coords tLast) 1
        rw [show win5_3.index tLast 1 * win5_3.size 1 = 0 from by decide +kernel,
          show win5_3.xsize (grid5.coords tLast) 1 = 128 from by decide +kernel]
        omega⟩

end Result

end Cert.KernelIdeal.PoolValue

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.KChain.lean ====
/-
  The idealized kernel's result as a function of its arguments.

  The program's buffer contents at its sixteen segment boundaries are a fold from the launch memory: a stretch of host
  operations rewrites the buffers it computes, a pallas_call's write-back replaces its result array by what the
  pipeline leaves. Reading the fold back from the result buffer: the last stretch divides the pooled sums by the
  clamped bin counts; the pooled sums are what the pooling pallas_call leaves, the sum of the last layer's rows by bin
  word; each layer's output is what its pallas_call leaves, one layer of the network applied to the previous output and
  its aggregation over the edges, with the layer's scale and parameter slices prepared by the stretch before it.
-/
import proofs.«175996_j627065225439_1_alg».proof.Proof.KCarry
import proofs.«175996_j627065225439_1_alg».proof.Proof.KOut
import proofs.«175996_j627065225439_1_alg».proof.Proof.GinRegion0
import proofs.«175996_j627065225439_1_alg».proof.Proof.GinRegion1
import proofs.«175996_j627065225439_1_alg».proof.Proof.GinRegion2
import proofs.«175996_j627065225439_1_alg».proof.Proof.GinRegion3
import proofs.«175996_j627065225439_1_alg».proof.Proof.GinRegion4
import proofs.«175996_j627065225439_1_alg».proof.Proof.PoolRegion
import proofs.«175996_j627065225439_1_alg».proof.Proof.LibAfterAppend

set_option maxRecDepth 16384

noncomputable section

namespace Cert.KernelIdeal.KValue

open Cert.KernelIdeal Cert.KernelIdeal.Gen Idealize.ShloMosaic Idealize.ShloMosaic.TcCoe Idealize.ShloMosaic.StableHlo Idealize.SL.Sem

open Idealize.ShloMosaic.ValueIdx

variable {e : IVec S2x819200 32} {eps : FVec Ideal S5 .f32} {a2 a3 : IVec S102400 32} {a4 : IVec S64 32}
  {p5 : FVec Ideal S5x128x256 .f32} {p6 : FVec Ideal S5x256 .f32} {p7 : FVec Ideal S5x256x128 .f32} {p8 : FVec Ideal S5x128 .f32}
variable (m : (ℓ : Loc nD τ sig) → Buf (Elt Ideal) ℓ) (ρ : Dev nD → PrngReg) (c : Dev nD)

/-- What pallas_call 0 leaves in its result array. -/
theorem out0 (h1 : W0 m ρ c (Proc.devRef .tc main_arg1) = e) (h9 : W0 m ρ c (Proc.devRef .tc main_arg9) = eps)
    (h5 : W0 m ρ c (Proc.devRef .tc main_arg5) = p5) (h6 : W0 m ρ c (Proc.devRef .tc main_arg6) = p6) (h7 : W0 m ρ c (Proc.devRef .tc main_arg7) = p7) (h8 : W0 m ρ c (Proc.devRef .tc main_arg8) = p8)
    {h : FVec Ideal S102400x128 .f32} (hh : W0 m ρ c (Proc.devRef .tc main_arg0) = h) :
    W2 m ρ c (Proc.devRef .tc main_v29) = klayer0 e eps p5 p6 p7 p8 h := by
  refine (W2_arr m ρ c 7).trans ?_
  have e_h : V1 m ρ c main_arg0 = h := (s0_h (W0 m ρ c)).trans hh
  have e_agg : V1 m ρ c main_v15 = aggOf (src e) (dst e) h := (s0_agg (W0 m ρ c)).trans (by rw [h1, hh])
  have e_s : V1 m ρ c main_v26 = as1x1 (sc0 (scales eps)) := (s0_s (W0 m ρ c)).trans (by rw [h9])
  have e_w1 : V1 m ρ c main_v19 = w1_0 p5 := (s0_w1 (W0 m ρ c)).trans (by rw [h5])
  have e_b1 : V1 m ρ c main_v27 = asRow256 (bv1_0 p6) := (s0_b1 (W0 m ρ c)).trans (by rw [h6])
  have e_w2 : V1 m ρ c main_v23 = w2_0 p7 := (s0_w2 (W0 m ρ c)).trans (by rw [h7])
  have e_b2 : V1 m ρ c main_v28 = asRow128 (bv2_0 p8) := (s0_b2 (W0 m ρ c)).trans (by rw [h8])
  rw [Cert.KernelIdeal.GinValue.region0 (V1 m ρ) c, e_h, e_agg, e_s, e_w1, e_b1, e_w2, e_b2]
  rfl

/-- What pallas_call 1 leaves in its result array. -/
theorem out1 (hc : Carry e eps a2 a3 a4 p5 p6 p7 p8 (W2 m ρ c)) {h : FVec Ideal S102400x128 .f32}
    (hh : W2 m ρ c (Proc.devRef .tc main_v29) = h) :
    W4 m ρ c (Proc.devRef .tc main_v53) = klayer1 e eps p5 p6 p7 p8 h := by
  refine (W4_arr m ρ c 7).trans ?_
  have e_h : V3 m ρ c main_v29 = h := (s1_h (W2 m ρ c)).trans hh
  have e_agg : V3 m ρ c main_v39 = aggOf (src e) (dst e) h := (s1_agg (W2 m ρ c)).trans (by rw [hc.v1, hc.v3, hh])
  have e_s : V3 m ρ c main_v50 = as1x1 (sc1 (scales eps)) := (s1_s (W2 m ρ c)).trans (by rw [hc.v5])
  have e_w1 : V3 m ρ c main_v43 = w1_1 p5 := (s1_w1 (W2 m ρ c)).trans (by rw [hc.a5])
  have e_b1 : V3 m ρ c main_v51 = asRow256 (bv1_1 p6) := (s1_b1 (W2 m ρ c)).trans (by rw [hc.a6])
  have e_w2 : V3 m ρ c main_v47 = w2_1 p7 := (s1_w2 (W2 m ρ c)).trans (by rw [hc.a7])
  have e_b2 : V3 m ρ c main_v52 = asRow128 (bv2_1 p8) := (s1_b2 (W2 m ρ c)).trans (by rw [hc.a8])
  rw [Cert.KernelIdeal.GinValue.region1 (V3 m ρ) c, e_h, e_agg, e_s, e_w1, e_b1, e_w2, e_b2]
  rfl

/-- What pallas_call 2 leaves in its result array. -/
theorem out2 (hc : Carry e eps a2 a3 a4 p5 p6 p7 p8 (W4 m ρ c)) {h : FVec Ideal S102400x128 .f32}
    (hh : W4 m ρ c (Proc.devRef .tc main_v53) = h) :
    W6 m ρ c (Proc.devRef .tc main_v77) = klayer2 e eps p5 p6 p7 p8 h := by
  refine (W6_arr m ρ c 7).trans ?_
  have e_h : V5 m ρ c main_v53 = h := (s2_h (W4 m ρ c)).trans hh
  have e_agg : V5 m ρ c main_v63 = aggOf (src e) (dst e) h := (s2_agg (W4 m ρ c)).trans (by rw [hc.v1, hc.v3, hh])
  have e_s : V5 m ρ c main_v74 = as1x1 (sc2 (scales eps)) := (s2_s (W4 m ρ c)).trans (by rw [hc.v5])
  have e_w1 : V5 m ρ c main_v67 = w1_2 p5 := (s2_w1 (W4 m ρ c)).trans (by rw [hc.a5])
  have e_b1 : V5 m ρ c main_v75 = asRow256 (bv1_2 p6) := (s2_b1 (W4 m ρ c)).trans (by rw [hc.a6])
  have e_w2 : V5 m ρ c main_v71 = w2_2 p7 := (s2_w2 (W4 m ρ c)).trans (by rw [hc.a7])
  have e_b2 : V5 m ρ c main_v76 = asRow128 (bv2_2 p8) := (s2_b2 (W4 m ρ c)).trans (by rw [hc.a8])
  rw [Cert.KernelIdeal.GinValue.region2 (V5 m ρ) c, e_h, e_agg, e_s, e_w1, e_b1, e_w2, e_b2]
  rfl

/-- What pallas_call 3 leaves in its result array. -/
theorem out3 (hc : Carry e eps a2 a3 a4 p5 p6 p7 p8 (W6 m ρ c)) {h : FVec Ideal S102400x128 .f32}
    (hh : W6 m ρ c (Proc.devRef .tc main_v77) = h) :
    W8 m ρ c (Proc.devRef .tc main_v101) = klayer3 e eps p5 p6 p7 p8 h := by
  refine (W8_arr m ρ c 7).trans ?_
  have e_h : V7 m ρ c main_v77 = h := (s3_h (W6 m ρ c)).trans hh
  have e_agg : V7 m ρ c main_v87 = aggOf (src e) (dst e) h := (s3_agg (W6 m ρ c)).trans (by rw [hc.v1, hc.v3, hh])
  have e_s : V7 m ρ c main_v98 = as1x1 (sc3 (scales eps)) := (s3_s (W6 m ρ c)).trans (by rw [hc.v5])
  have e_w1 : V7 m ρ c main_v91 = w1_3 p5 := (s3_w1 (W6 m ρ c)).trans (by rw [hc.a5])
  have e_b1 : V7 m ρ c main_v99 = asRow256 (bv1_3 p6) := (s3_b1 (W6 m ρ c)).trans (by rw [hc.a6])
  have e_w2 : V7 m ρ c main_v95 = w2_3 p7 := (s3_w2 (W6 m ρ c)).trans (by rw [hc.a7])
  have e_b2 : V7 m ρ c main_v100 = asRow128 (bv2_3 p8) := (s3_b2 (W6 m ρ c)).trans (by rw [hc.a8])
  rw [Cert.KernelIdeal.GinValue.region3 (V7 m ρ) c, e_h, e_agg, e_s, e_w1, e_b1, e_w2, e_b2]
  rfl

/-- What pallas_call 4 leaves in its result array. -/
theorem out4 (hc : Carry e eps a2 a3 a4 p5 p6 p7 p8 (W8 m ρ c)) {h : FVec Ideal S102400x128 .f32}
    (hh : W8 m ρ c (Proc.devRef .tc main_v101) = h) :
    W10 m ρ c (Proc.devRef .tc main_v125) = klayer4 e eps p5 p6 p7 p8 h := by
  refine (W10_arr m ρ c 7).trans ?_
  have e_h : V9 m ρ c main_v101 = h := (s4_h (W8 m ρ c)).trans hh
  have e_agg : V9 m ρ c main_v111 = aggOf (src e) (dst e) h := (s4_agg (W8 m ρ c)).trans (by rw [hc.v1, hc.v3, hh])
  have e_s : V9 m ρ c main_v122 = as1x1 (sc4 (scales eps)) := (s4_s (W8 m ρ c)).trans (by rw [hc.v5])
  have e_w1 : V9 m ρ c main_v115 = w1_4 p5 := (s4_w1 (W8 m ρ c)).trans (by rw [hc.a5])
  have e_b1 : V9 m ρ c main_v123 = asRow256 (bv1_4 p6) := (s4_b1 (W8 m ρ c)).trans (by rw [hc.a6])
  have e_w2 : V9 m ρ c main_v119 = w2_4 p7 := (s4_w2 (W8 m ρ c)).trans (by rw [hc.a7])
  have e_b2 : V9 m ρ c main_v124 = asRow128 (bv2_4 p8) := (s4_b2 (W8 m ρ c)).trans (by rw [hc.a8])
  rw [Cert.KernelIdeal.GinValue.region4 (V9 m ρ) c, e_h, e_agg, e_s, e_w1, e_b1, e_w2, e_b2]
  rfl

/-- The three stretches before the pooling, as one line from pallas_call 4's exit. -/
theorem W13_eq : W13 m ρ c = after preOps (W10 m ρ c) := by
  show after hostOps5_2 (after hostOps5_1 (after hostOps5 (W10 m ρ c))) = after (hostOps5 ++ (hostOps5_1 ++ hostOps5_2)) (W10 m ρ c)
  rw [Cert.Lib.AfterAppend.after_append, Cert.Lib.AfterAppend.after_append]

/-- What the pooling pallas_call leaves: the last layer's rows summed by bin word. -/
theorem pooled (hc : Carry e eps a2 a3 a4 p5 p6 p7 p8 (W10 m ρ c)) {h : FVec Ideal S102400x128 .f32}
    (hh : W10 m ρ c (Proc.devRef .tc main_v125) = h) :
    W14 m ρ c (Proc.devRef .tc main_v140) = Cert.Spec.pool h (fun n => binWords a2 a3 a4 (ix1 n)) := by
  refine (W14_arr m ρ c 3).trans ?_
  have e_h : V13 m ρ c main_v125 = h := by
    show W13 m ρ c (Proc.devRef .tc main_v125) = h
    rw [W13_eq]; exact (pre_h _).trans hh
  have e_col : V13 m ρ c main_v137 = (shapeCast S102400x1 (binWords a2 a3 a4) shapeCasts_S102400_S102400x1 : IVec S102400x1 32) := by
    show W13 m ρ c (Proc.devRef .tc main_v137) = _
    rw [W13_eq]; exact (pre_col _).trans (by rw [hc.a2, hc.a3, hc.a4])
  have e_iota : V13 m ρ c main_v139 = (shapeCast S1x1024 (iotaInDim S1024 32 0) shapeCasts_S1024_S1x1024 : IVec S1x1024 32) := by
    show W13 m ρ c (Proc.devRef .tc main_v139) = _
    rw [W13_eq]; exact pre_iota _
  rw [Cert.KernelIdeal.PoolValue.region5 (V13 m ρ) c (fun s => by rw [e_iota]; exact iota_apply s), e_h, e_col]
  exact congrArg (Cert.Spec.pool h) (funext fun n => col_apply _ n)

/-- The result buffer: the pooled sums over the clamped bin counts. -/
theorem result_eq (hc : Carry e eps a2 a3 a4 p5 p6 p7 p8 (W10 m ρ c)) {h : FVec Ideal S102400x128 .f32}
    (hh : W10 m ρ c (Proc.devRef .tc main_v125) = h) :
    W15 m ρ c (Proc.devRef .tc main_v148)
      = tail (binWords a2 a3 a4) (Cert.Spec.pool h (fun n => binWords a2 a3 a4 (ix1 n))) := by
  refine (post_out (W14 m ρ c)).trans ?_
  have e_w : W14 m ρ c (Proc.devRef .tc main_v136) = binWords a2 a3 a4 := by
    refine (W14_of_ne m ρ c main_v136 (by decide)).trans ?_
    rw [W13_eq]; exact (pre_words _).trans (by rw [hc.a2, hc.a3, hc.a4])
  rw [e_w, pooled m ρ c hc hh]

/-- The fold read at the result buffer is that function of the launch memory's arguments. -/
theorem kvalue :
    W15 m ρ c (Proc.devRef .tc main_v148)
      = kout (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  have c1 := carry_host0 (e := m ((c : Thread nD τ).loc main_arg1)) (eps := m ((c : Thread nD τ).loc main_arg9))
    (a2 := m ((c : Thread nD τ).loc main_arg2)) (a3 := m ((c : Thread nD τ).loc main_arg3)) (a4 := m ((c : Thread nD τ).loc main_arg4))
    (p5 := m ((c : Thread nD τ).loc main_arg5)) (p6 := m ((c : Thread nD τ).loc main_arg6)) (p7 := m ((c : Thread nD τ).loc main_arg7))
    (p8 := m ((c : Thread nD τ).loc main_arg8)) (W0 m ρ c) rfl rfl rfl rfl rfl rfl rfl rfl rfl
  have c2 := carry_reg0 m ρ c c1
  have o0 := out0 m ρ c (e := m ((c : Thread nD τ).loc main_arg1)) (eps := m ((c : Thread nD τ).loc main_arg9))
    (p5 := m ((c : Thread nD τ).loc main_arg5)) (p6 := m ((c : Thread nD τ).loc main_arg6)) (p7 := m ((c : Thread nD τ).loc main_arg7))
    (p8 := m ((c : Thread nD τ).loc main_arg8)) rfl rfl rfl rfl rfl rfl (h := m ((c : Thread nD τ).loc main_arg0)) rfl
  have c4 := carry_reg1 m ρ c (carry_host1 _ c2)
  have o1 := out1 m ρ c c2 o0
  have c6 := carry_reg2 m ρ c (carry_host2 _ c4)
  have o2 := out2 m ρ c c4 o1
  have c8 := carry_reg3 m ρ c (carry_host3 _ c6)
  have o3 := out3 m ρ c c6 o2
  have c10 := carry_reg4 m ρ c (carry_host4 _ c8)
  have o4 := out4 m ρ c c8 o3
  exact result_eq m ρ c c10 o4

end Cert.KernelIdeal.KValue

end
-- ==== Proof.RefOps.lean ====
/-
  The reference's @main as a table of host operations, and its run read back as a fold.

  @main is a straight line: each statement writes one buffer from buffers written before it. The table lists the
  statements in order; where @main calls a function the callee's operations stand in the call's place, written over
  the buffers the call names for the callee's values (a rectifier is a zero, its broadcast, and the maximum; the
  running sum is a zero, its scalar broadcast, and the windowed sum). The table is cut into ten consecutive pieces:
  the two index rows of the edge list; then each of the five layers (a layer that straddles two printed windows is two
  pieces); then the pooling tail. Run from any memory, every weakly fair execution of @main ends with every buffer
  at the fold of the table over the launch contents.
-/
import proofs.«175996_j627065225439_1_alg».proof.Proof.Gen.ReferenceIdeal
import proofs.«175996_j627065225439_1_alg».proof.Proof.LibAfterAppend
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- Operations 1 … 4 of the table. -/
abbrev q0 : List (HloOp τ sig (Elt F)) :=
  [ StableHlo.unary main_arg1 main_v0 ((extractStridedSlice S1x819200 ![0, 0] · slices_S2x819200_S1x819200_0_0) : (⟨S2x819200, .i32⟩ : BufTy).Contents (Elt F) → (⟨S1x819200, .i32⟩ : BufTy).Contents (Elt F)),
    StableHlo.reshape main_v0 main_v1 rfl shapeCasts_S1x819200_S819200,
    StableHlo.unary main_arg1 main_v2 ((extractStridedSlice S1x819200 ![1, 0] · slices_S2x819200_S1x819200_1_0) : (⟨S2x819200, .i32⟩ : BufTy).Contents (Elt F) → (⟨S1x819200, .i32⟩ : BufTy).Contents (Elt F)),
    StableHlo.reshape main_v2 main_v3 rfl shapeCasts_S1x819200_S819200 ]

/-- Operations 5 … 46 of the table. -/
abbrev q1 : List (HloOp τ sig (Elt F)) :=
  [ StableHlo.nullary main_c (constantI S_ 32 0#32),
    StableHlo.unary main_c main_v4 (broadcastInDim S819200 ![] bcast_S_S819200 : (⟨S_, .i32⟩ : BufTy).Contents (Elt F) → (⟨S819200, .i32⟩ : BufTy).Contents (Elt F)),
    StableHlo.binary main_v1 main_v4 main_v5 (cmpi .slt : (⟨S819200, .i32⟩ : BufTy).Contents (Elt F) → (⟨S819200, .i32⟩ : BufTy).Contents (Elt F) → (⟨S819200, .i1⟩ : BufTy).Contents (Elt F)),
    StableHlo.nullary main_c_0 (constantI S_ 32 102400#32),
    StableHlo.unary main_c_0 main_v6 (broadcastInDim S819200 ![] bcast_S_S819200 : (⟨S_, .i32⟩ : BufTy).Contents (Elt F) → (⟨S819200, .i32⟩ : BufTy).Contents (Elt F)),
    StableHlo.binary main_v1 main_v6 main_v7 (addi : (⟨S819200, .i32⟩ : BufTy).Contents (Elt F) → (⟨S819200, .i32⟩ : BufTy).Contents (Elt F) → (⟨S819200, .i32⟩ : BufTy).Contents (Elt F)),
    StableHlo.ternary main_v5 main_v7 main_v1 main_v8 (select : (⟨S819200, .i1⟩ : BufTy).Contents (Elt F) → (⟨S819200, .i32⟩ : BufTy).Contents (Elt F) → (⟨S819200, .i32⟩ : BufTy).Contents (Elt F) → (⟨S819200, .i32⟩ : BufTy).Contents (Elt F)),
    StableHlo.unary main_v8 main_v9 (broadcastInDim S819200x1 ![0] bcast_S819200_S819200x1_0 : (⟨S819200, .i32⟩ : BufTy).Contents (Elt F) → (⟨S819200x1, .i32⟩ : BufTy).Contents (Elt F)),
    StableHlo.binary main_arg0 main_v9 main_v10 ((fun x i => Host.gather gather_S102400x128_S819200x1_S819200x128_1_0_n_n_0_1_1128 x i) : (⟨S102400x128, .f32⟩ : BufTy).Contents (Elt F) → (⟨S819200x1, .i32⟩ : BufTy).Contents (Elt F) → (⟨S819200x128, .f32⟩ : BufTy).Contents (Elt F)),
    StableHlo.nullary main_cst (constant S_ .f32 0x00000000#32),
    StableHlo.unary main_cst main_v11 (broadcastInDim S102400x128 ![] bcast_S_S102400x128 : (⟨S_, .f32⟩ : BufTy).Contents (Elt F) → (⟨S102400x128, .f32⟩ : BufTy).Contents (Elt F)),
    StableHlo.unary main_v3 main_v12 (broadcastInDim S819200x1 ![0] bcast_S819200_S819200x1_0 : (⟨S819200, .i32⟩ : BufTy).Contents (Elt F) → (⟨S819200x1, .i32⟩ : BufTy).Contents (Elt F)),
    StableHlo.ternary main_v11 main_v12 main_v10 main_v13 ((fun x i u => Host.scatterAdd scatter_S102400x128_S819200x1_S819200x128_1_0_0_1 x i u) : (⟨S102400x128, .f32⟩ : BufTy).Contents (Elt F) → (⟨S819200x1, .i32⟩ : BufTy).Contents (Elt F) → (⟨S819200x128, .f32⟩ : BufTy).Contents (Elt F) → (⟨S102400x128, .f32⟩ : BufTy).Contents (Elt F)),
    StableHlo.unary main_arg9 main_v14 ((extractStridedSlice S1 ![0] · slices_S5_S1_0) : (⟨S5, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S102400x128 ![] bcast_S_S102400x128 : (⟨S_, .f32⟩ : BufTy).Contents (Elt F) → (⟨S102400x128, .f32⟩ : BufTy).Contents (Elt F)),
    StableHlo.binary main_v17 main_arg0 main_v18 (mulf : (⟨S102400x128, .f32⟩ : BufTy).Contents (Elt F) → (⟨S102400x128, .f32⟩ : BufTy).Contents (Elt F) → (⟨S102400x128, .f32⟩ : BufTy).Contents (Elt F)),
    StableHlo.binary main_v18 main_v13 main_v19 (addf : (⟨S102400x128, .f32⟩ : BufTy).Contents (Elt F) → (⟨S102400x128, .f32⟩ : BufTy).Contents (Elt F) → (⟨S102400x128, .f32⟩ : BufTy).Contents (Elt F)),
    StableHlo.unary main_arg5 main_v20 ((extractStridedSlice S1x128x256 ![0, 0, 0] · slices_S5x128x256_S1x128x256_0_0_0) : (⟨S5x128x256, .f32⟩ : BufTy).Contents (Elt F) → (⟨S1x128x256, .f32⟩ : BufTy).Contents (Elt F)),
    StableHlo.reshape main_v20 main_v21 rfl shapeCasts_S1x128x256_S128x256,
    StableHlo.binary main_v19 main_v21 main_v22 ((fun l r => Host.dotGeneral dot_S102400x128_S128x256_S102400x256_1_0_0_1_n_n none l r) : (⟨S102400x128, .f32⟩ : BufTy).Contents (Elt F) → (⟨S128x256, .f32⟩ : BufTy).Contents (Elt F) → (⟨S102400x256, .f32⟩ : BufTy).Contents (Elt F)),
    StableHlo.unary main_arg6 main_v23 ((extractStridedSlice S1x256 ![0, 0] · slices_S5x256_S1x256_0_0) : (⟨S5x256, .f32⟩ : BufTy).Contents (Elt F) → (⟨S1x256, .f32⟩ : BufTy).Contents (Elt F)),
    StableHlo.reshape main_v23 main_v24 rfl shapeCasts_S1x256_S256,
    StableHlo.unary main_v24 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S102400x256 ![0, 1] bcast_S1x256_S102400x256_0_1 : (⟨S1x256, .f32⟩ : BufTy).Contents (Elt F) → (⟨S102400x256, .f32⟩ : BufTy).Contents (Elt F)),
    StableHlo.binary main_v22 main_v26 main_v27 (addf : (⟨S102400x256, .f32⟩ : BufTy).Contents (Elt F) → (⟨S102400x256, .f32⟩ : BufTy).Contents (Elt F) → (⟨S102400x256, .f32⟩ : BufTy).Contents (Elt F)),
    StableHlo.nullary main_call0_cst (constant S_ .f32 0x00000000#32),
    StableHlo.unary main_call0_cst main_call0_v0 (broadcastInDim S102400x256 ![] bcast_S_S102400x256 : (⟨S_, .f32⟩ : BufTy).Contents (Elt F) → (⟨S102400x256, .f32⟩ : BufTy).Contents (Elt F)),
    StableHlo.binary main_v27 main_call0_v0 main_v28 (maximumf : (⟨S102400x256, .f32⟩ : BufTy).Contents (Elt F) → (⟨S102400x256, .f32⟩ : BufTy).Contents (Elt F) → (⟨S102400x256, .f32⟩ : BufTy).Contents (Elt F)),
    StableHlo.unary main_arg7 main_v29 ((extractStridedSlice S1x256x128 ![0, 0, 0] · slices_S5x256x128_S1x256x128_0_0_0) : (⟨S5x256x128, .f32⟩ : BufTy).Contents (Elt F) → (⟨S1x256x128, .f32⟩ : BufTy).Contents (Elt F)),
    StableHlo.reshape main_v29 main_v30 rfl shapeCasts_S1x256x128_S256x128,
    StableHlo.binary main_v28 main_v30 main_v31 ((fun l r => Host.dotGeneral dot_S102400x256_S256x128_S102400x128_1_0_0_1_n_n none l r) : (⟨S102400x256, .f32⟩ : BufTy).Contents (Elt F) → (⟨S256x128, .f32⟩ : BufTy).Contents (Elt F) → (⟨S102400x128, .f32⟩ : BufTy).Contents (Elt F)),
    StableHlo.unary main_arg8 main_v32 ((extractStridedSlice S1x128 ![0, 0] · slices_S5x128_S1x128_0_0) : (⟨S5x128, .f32⟩ : BufTy).Contents (Elt F) → (⟨S1x128, .f32⟩ : BufTy).Contents (Elt F)),
    StableHlo.reshape main_v32 main_v33 rfl shapeCasts_S1x128_S128,
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S102400x128 ![0, 1] bcast_S1x128_S102400x128_0_1 : (⟨S1x128, .f32⟩ : BufTy).Contents (Elt F) → (⟨S102400x128, .f32⟩ : BufTy).Contents (Elt F)),
    StableHlo.binary main_v31 main_v35 main_v36 (addf : (⟨S102400x128, .f32⟩ : BufTy).Contents (Elt F) → (⟨S102400x128, .f32⟩ : BufTy).Contents (Elt F) → (⟨S102400x128, .f32⟩ : BufTy).Contents (Elt F)),
    StableHlo.nullary main_call1_cst (constant S_ .f32 0x00000000#32),
    StableHlo.unary main_call1_cst main_call1_v0 (broadcastInDim S102400x128 ![] bcast_S_S102400x128 : (⟨S_, .f32⟩ : BufTy).Contents (Elt F) → (⟨S102400x128, .f32⟩ : BufTy).Contents (Elt F)),
    StableHlo.binary main_v36 main_call1_v0 main_v37 (maximumf : (⟨S102400x128, .f32⟩ : BufTy).Contents (Elt F) → (⟨S102400x128, .f32⟩ : BufTy).Contents (Elt F) → (⟨S102400x128, .f32⟩ : BufTy).Contents (Elt F)) ]

/-- Operations 47 … 64 of the table. -/
abbrev q2 : List (HloOp τ sig (Elt F)) :=
  [ StableHlo.nullary main_c_2 (constantI S_ 32 0#32),
    StableHlo.unary main_c_2 main_v38 (broadcastInDim S819200 ![] bcast_S_S819200 : (⟨S_, .i32⟩ : BufTy).Contents (Elt F) → (⟨S819200, .i32⟩ : BufTy).Contents (Elt F)),
    StableHlo.binary main_v1 main_v38 main_v39 (cmpi .slt : (⟨S819200, .i32⟩ : BufTy).Contents (Elt F) → (⟨S819200, .i32⟩ : BufTy).Contents (Elt F) → (⟨S819200, .i1⟩ : BufTy).Contents (Elt F)),
    StableHlo.nullary main_c_3 (constantI S_ 32 102400#32),
    StableHlo.unary main_c_3 main_v40 (broadcastInDim S819200 ![] bcast_S_S819200 : (⟨S_, .i32⟩ : BufTy).Contents (Elt F) → (⟨S819200, .i32⟩ : BufTy).Contents (Elt F)),
    StableHlo.binary main_v1 main_v40 main_v41 (addi : (⟨S819200, .i32⟩ : BufTy).Contents (Elt F) → (⟨S819200, .i32⟩ : BufTy).Contents (Elt F) → (⟨S819200, .i32⟩ : BufTy).Contents (Elt F)),
    StableHlo.ternary main_v39 main_v41 main_v1 main_v42 (select : (⟨S819200, .i1⟩ : BufTy).Contents (Elt F) → (⟨S819200, .i32⟩ : BufTy).Contents (Elt F) → (⟨S819200, .i32⟩ : BufTy).Contents (Elt F) → (⟨S819200, .i32⟩ : BufTy).Contents (Elt F)),
    StableHlo.unary main_v42 main_v43 (broadcastInDim S819200x1 ![0] bcast_S819200_S819200x1_0 : (⟨S819200, .i32⟩ : BufTy).Contents (Elt F) → (⟨S819200x1, .i32⟩ : BufTy).Contents (Elt F)),
    StableHlo.binary main_v37 main_v43 main_v44 ((fun x i => Host.gather gather_S102400x128_S819200x1_S819200x128_1_0_n_n_0_1_1128 x i) : (⟨S102400x128, .f32⟩ : BufTy).Contents (Elt F) → (⟨S819200x1, .i32⟩ : BufTy).Contents (Elt F) → (⟨S819200x128, .f32⟩ : BufTy).Contents (Elt F)),
    StableHlo.nullary main_cst_4 (constant S_ .f32 0x00000000#32),
    StableHlo.unary main_cst_4 main_v45 (broadcastInDim S102400x128 ![] bcast_S_S102400x128 : (⟨S_, .f32⟩ : BufTy).Contents (Elt F) → (⟨S102400x128, .f32⟩ : BufTy).Contents (Elt F)),
    StableHlo.unary main_v3 main_v46 (broadcastInDim S819200x1 ![0] bcast_S819200_S819200x1_0 : (⟨S819200, .i32⟩ : BufTy).Contents (Elt F) → (⟨S819200x1, .i32⟩ : BufTy).Contents (Elt F)),
    StableHlo.ternary main_v45 main_v46 main_v44 main_v47 ((fun x i u => Host.scatterAdd scatter_S102400x128_S819200x1_S819200x128_1_0_0_1 x i u) : (⟨S102400x128, .f32⟩ : BufTy).Contents (Elt F) → (⟨S819200x1, .i32⟩ : BufTy).Contents (Elt F) → (⟨S819200x128, .f32⟩ : BufTy).Contents (Elt F) → (⟨S102400x128, .f32⟩ : BufTy).Contents (Elt F)),
    StableHlo.unary main_arg9 main_v48 ((extractStridedSlice S1 ![1] · slices_S5_S1_1) : (⟨S5, .f32⟩ : BufTy).Contents (Elt F) → (⟨S1, .f32⟩ : BufTy).Contents (Elt F)),
    StableHlo.reshape main_v48 main_v49 rfl shapeCasts_S1_S_,
    StableHlo.nullary main_cst_5 (constant S_ .f32 0x3F800000#32),
    StableHlo.binary main_cst_5 main_v49 main_v50 (addf : (⟨S_, .f32⟩ : BufTy).Contents (Elt F) → (⟨S_, .f32⟩ : BufTy).Contents (Elt F) → (⟨S_, .f32⟩ : BufTy).Contents (Elt F)),
    StableHlo.unary main_v50 main_v51 (broadcastInDim S102400x128 ![] bcast_S_S102400x128 : (⟨S_, .f32⟩ : BufTy).Contents (Elt F) → (⟨S102400x128, .f32⟩ : BufTy).Contents (Elt F)) ]

/-- Operations 65 … 88 of the table. -/
abbrev q3 : List (HloOp τ sig (Elt F)) :=
  [ StableHlo.binary main_v51 main_v37 main_v52 (mulf : (⟨S102400x128, .f32⟩ : BufTy).Contents (Elt F) → (⟨S102400x128, .f32⟩ : BufTy).Contents (Elt F) → (⟨S102400x128, .f32⟩ : BufTy).Contents (Elt F)),
    StableHlo.binary main_v52 main_v47 main_v53 (addf : (⟨S102400x128, .f32⟩ : BufTy).Contents (Elt F) → (⟨S102400x128, .f32⟩ : BufTy).Contents (Elt F) → (⟨S102400x128, .f32⟩ : BufTy).Contents (Elt F)),
    StableHlo.unary main_arg5 main_v54 ((extractStridedSlice S1x128x256 ![1, 0, 0] · slices_S5x128x256_S1x128x256_1_0_0) : (⟨S5x128x256, .f32⟩ : BufTy).Contents (Elt F) → (⟨S1x128x256, .f32⟩ : BufTy).Contents (Elt F)),
    StableHlo.reshape main_v54 main_v55 rfl shapeCasts_S1x128x256_S128x256,
    StableHlo.binary main_v53 main_v55 main_v56 ((fun l r => Host.dotGeneral dot_S102400x128_S128x256_S102400x256_1_0_0_1_n_n none l r) : (⟨S102400x128, .f32⟩ : BufTy).Contents (Elt F) → (⟨S128x256, .f32⟩ : BufTy).Contents (Elt F) → (⟨S102400x256, .f32⟩ : BufTy).Contents (Elt F)),
    StableHlo.unary main_arg6 main_v57 ((extractStridedSlice S1x256 ![1, 0] · slices_S5x256_S1x256_1_0) : (⟨S5x256, .f32⟩ : BufTy).Contents (Elt F) → (⟨S1x256, .f32⟩ : BufTy).Contents (Elt F)),
    StableHlo.reshape main_v57 main_v58 rfl shapeCasts_S1x256_S256,
    StableHlo.unary main_v58 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S102400x256 ![0, 1] bcast_S1x256_S102400x256_0_1 : (⟨S1x256, .f32⟩ : BufTy).Contents (Elt F) → (⟨S102400x256, .f32⟩ : BufTy).Contents (Elt F)),
    StableHlo.binary main_v56 main_v60 main_v61 (addf : (⟨S102400x256, .f32⟩ : BufTy).Contents (Elt F) → (⟨S102400x256, .f32⟩ : BufTy).Contents (Elt F) → (⟨S102400x256, .f32⟩ : BufTy).Contents (Elt F)),
    StableHlo.nullary main_call2_cst (constant S_ .f32 0x00000000#32),
    StableHlo.unary main_call2_cst main_call2_v0 (broadcastInDim S102400x256 ![] bcast_S_S102400x256 : (⟨S_, .f32⟩ : BufTy).Contents (Elt F) → (⟨S102400x256, .f32⟩ : BufTy).Contents (Elt F)),
    StableHlo.binary main_v61 main_call2_v0 main_v62 (maximumf : (⟨S102400x256, .f32⟩ : BufTy).Contents (Elt F) → (⟨S102400x256, .f32⟩ : BufTy).Contents (Elt F) → (⟨S102400x256, .f32⟩ : BufTy).Contents (Elt F)),
    StableHlo.unary main_arg7 main_v63 ((extractStridedSlice S1x256x128 ![1, 0, 0] · slices_S5x256x128_S1x256x128_1_0_0) : (⟨S5x256x128, .f32⟩ : BufTy).Contents (Elt F) → (⟨S1x256x128, .f32⟩ : BufTy).Contents (Elt F)),
    StableHlo.reshape main_v63 main_v64 rfl shapeCasts_S1x256x128_S256x128,
    StableHlo.binary main_v62 main_v64 main_v65 ((fun l r => Host.dotGeneral dot_S102400x256_S256x128_S102400x128_1_0_0_1_n_n none l r) : (⟨S102400x256, .f32⟩ : BufTy).Contents (Elt F) → (⟨S256x128, .f32⟩ : BufTy).Contents (Elt F) → (⟨S102400x128, .f32⟩ : BufTy).Contents (Elt F)),
    StableHlo.unary main_arg8 main_v66 ((extractStridedSlice S1x128 ![1, 0] · slices_S5x128_S1x128_1_0) : (⟨S5x128, .f32⟩ : BufTy).Contents (Elt F) → (⟨S1x128, .f32⟩ : BufTy).Contents (Elt F)),
    StableHlo.reshape main_v66 main_v67 rfl shapeCasts_S1x128_S128,
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S102400x128 ![0, 1] bcast_S1x128_S102400x128_0_1 : (⟨S1x128, .f32⟩ : BufTy).Contents (Elt F) → (⟨S102400x128, .f32⟩ : BufTy).Contents (Elt F)),
    StableHlo.binary main_v65 main_v69 main_v70 (addf : (⟨S102400x128, .f32⟩ : BufTy).Contents (Elt F) → (⟨S102400x128, .f32⟩ : BufTy).Contents (Elt F) → (⟨S102400x128, .f32⟩ : BufTy).Contents (Elt F)),
    StableHlo.nullary main_call3_cst (constant S_ .f32 0x00000000#32),
    StableHlo.unary main_call3_cst main_call3_v0 (broadcastInDim S102400x128 ![] bcast_S_S102400x128 : (⟨S_, .f32⟩ : BufTy).Contents (Elt F) → (⟨S102400x128, .f32⟩ : BufTy).Contents (Elt F)),
    StableHlo.binary main_v70 main_call3_v0 main_v71 (maximumf : (⟨S102400x128, .f32⟩ : BufTy).Contents (Elt F) → (⟨S102400x128, .f32⟩ : BufTy).Contents (Elt F) → (⟨S102400x128, .f32⟩ : BufTy).Contents (Elt F)) ]

/-- Operations 89 … 130 of the table. -/
abbrev q4 : List (HloOp τ sig (Elt F)) :=
  [ StableHlo.nullary main_c_6 (constantI S_ 32 0#32),
    StableHlo.unary main_c_6 main_v72 (broadcastInDim S819200 ![] bcast_S_S819200 : (⟨S_, .i32⟩ : BufTy).Contents (Elt F) → (⟨S819200, .i32⟩ : BufTy).Contents (Elt F)),
    StableHlo.binary main_v1 main_v72 main_v73 (cmpi .slt : (⟨S819200, .i32⟩ : BufTy).Contents (Elt F) → (⟨S819200, .i32⟩ : BufTy).Contents (Elt F) → (⟨S819200, .i1⟩ : BufTy).Contents (Elt F)),
    StableHlo.nullary main_c_7 (constantI S_ 32 102400#32),
    StableHlo.unary main_c_7 main_v74 (broadcastInDim S819200 ![] bcast_S_S819200 : (⟨S_, .i32⟩ : BufTy).Contents (Elt F) → (⟨S819200, .i32⟩ : BufTy).Contents (Elt F)),
    StableHlo.binary main_v1 main_v74 main_v75 (addi : (⟨S819200, .i32⟩ : BufTy).Contents (Elt F) → (⟨S819200, .i32⟩ : BufTy).Contents (Elt F) → (⟨S819200, .i32⟩ : BufTy).Contents (Elt F)),
    StableHlo.ternary main_v73 main_v75 main_v1 main_v76 (select : (⟨S819200, .i1⟩ : BufTy).Contents (Elt F) → (⟨S819200, .i32⟩ : BufTy).Contents (Elt F) → (⟨S819200, .i32⟩ : BufTy).Contents (Elt F) → (⟨S819200, .i32⟩ : BufTy).Contents (Elt F)),
    StableHlo.unary main_v76 main_v77 (broadcastInDim S819200x1 ![0] bcast_S819200_S819200x1_0 : (⟨S819200, .i32⟩ : BufTy).Contents (Elt F) → (⟨S819200x1, .i32⟩ : BufTy).Contents (Elt F)),
    StableHlo.binary main_v71 main_v77 main_v78 ((fun x i => Host.gather gather_S102400x128_S819200x1_S819200x128_1_0_n_n_0_1_1128 x i) : (⟨S102400x128, .f32⟩ : BufTy).Contents (Elt F) → (⟨S819200x1, .i32⟩ : BufTy).Contents (Elt F) → (⟨S819200x128, .f32⟩ : BufTy).Contents (Elt F)),
    StableHlo.nullary main_cst_8 (constant S_ .f32 0x00000000#32),
    StableHlo.unary main_cst_8 main_v79 (broadcastInDim S102400x128 ![] bcast_S_S102400x128 : (⟨S_, .f32⟩ : BufTy).Contents (Elt F) → (⟨S102400x128, .f32⟩ : BufTy).Contents (Elt F)),
    StableHlo.unary main_v3 main_v80 (broadcastInDim S819200x1 ![0] bcast_S819200_S819200x1_0 : (⟨S819200, .i32⟩ : BufTy).Contents (Elt F) → (⟨S819200x1, .i32⟩ : BufTy).Contents (Elt F)),
    StableHlo.ternary main_v79 main_v80 main_v78 main_v81 ((fun x i u => Host.scatterAdd scatter_S102400x128_S819200x1_S819200x128_1_0_0_1 x i u) : (⟨S102400x128, .f32⟩ : BufTy).Contents (Elt F) → (⟨S819200x1, .i32⟩ : BufTy).Contents (Elt F) → (⟨S819200x128, .f32⟩ : BufTy).Contents (Elt F) → (⟨S102400x128, .f32⟩ : BufTy).Contents (Elt F)),
    StableHlo.unary main_arg9 main_v82 ((extractStridedSlice S1 ![2] · slices_S5_S1_2) : (⟨S5, .f32⟩ : BufTy).Contents (Elt F) → (⟨S1, .f32⟩ : BufTy).Contents (Elt F)),
    StableHlo.reshape main_v82 main_v83 rfl shapeCasts_S1_S_,
    StableHlo.nullary main_cst_9 (constant S_ .f32 0x3F800000#32),
    StableHlo.binary main_cst_9 main_v83 main_v84 (addf : (⟨S_, .f32⟩ : BufTy).Contents (Elt F) → (⟨S_, .f32⟩ : BufTy).Contents (Elt F) → (⟨S_, .f32⟩ : BufTy).Contents (Elt F)),
    StableHlo.unary main_v84 main_v85 (broadcastInDim S102400x128 ![] bcast_S_S102400x128 : (⟨S_, .f32⟩ : BufTy).Contents (Elt F) → (⟨S102400x128, .f32⟩ : BufTy).Contents (Elt F)),
    StableHlo.binary main_v85 main_v71 main_v86 (mulf : (⟨S102400x128, .f32⟩ : BufTy).Contents (Elt F) → (⟨S102400x128, .f32⟩ : BufTy).Contents (Elt F) → (⟨S102400x128, .f32⟩ : BufTy).Contents (Elt F)),
    StableHlo.binary main_v86 main_v81 main_v87 (addf : (⟨S102400x128, .f32⟩ : BufTy).Contents (Elt F) → (⟨S102400x128, .f32⟩ : BufTy).Contents (Elt F) → (⟨S102400x128, .f32⟩ : BufTy).Contents (Elt F)),
    StableHlo.unary main_arg5 main_v88 ((extractStridedSlice S1x128x256 ![2, 0, 0] · slices_S5x128x256_S1x128x256_2_0_0) : (⟨S5x128x256, .f32⟩ : BufTy).Contents (Elt F) → (⟨S1x128x256, .f32⟩ : BufTy).Contents (Elt F)),
    StableHlo.reshape main_v88 main_v89 rfl shapeCasts_S1x128x256_S128x256,
    StableHlo.binary main_v87 main_v89 main_v90 ((fun l r => Host.dotGeneral dot_S102400x128_S128x256_S102400x256_1_0_0_1_n_n none l r) : (⟨S102400x128, .f32⟩ : BufTy).Contents (Elt F) → (⟨S128x256, .f32⟩ : BufTy).Contents (Elt F) → (⟨S102400x256, .f32⟩ : BufTy).Contents (Elt F)),
    StableHlo.unary main_arg6 main_v91 ((extractStridedSlice S1x256 ![2, 0] · slices_S5x256_S1x256_2_0) : (⟨S5x256, .f32⟩ : BufTy).Contents (Elt F) → (⟨S1x256, .f32⟩ : BufTy).Contents (Elt F)),
    StableHlo.reshape main_v91 main_v92 rfl shapeCasts_S1x256_S256,
    StableHlo.unary main_v92 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S102400x256 ![0, 1] bcast_S1x256_S102400x256_0_1 : (⟨S1x256, .f32⟩ : BufTy).Contents (Elt F) → (⟨S102400x256, .f32⟩ : BufTy).Contents (Elt F)),
    StableHlo.binary main_v90 main_v94 main_v95 (addf : (⟨S102400x256, .f32⟩ : BufTy).Contents (Elt F) → (⟨S102400x256, .f32⟩ : BufTy).Contents (Elt F) → (⟨S102400x256, .f32⟩ : BufTy).Contents (Elt F)),
    StableHlo.nullary main_call4_cst (constant S_ .f32 0x00000000#32),
    StableHlo.unary main_call4_cst main_call4_v0 (broadcastInDim S102400x256 ![] bcast_S_S102400x256 : (⟨S_, .f32⟩ : BufTy).Contents (Elt F) → (⟨S102400x256, .f32⟩ : BufTy).Contents (Elt F)),
    StableHlo.binary main_v95 main_call4_v0 main_v96 (maximumf : (⟨S102400x256, .f32⟩ : BufTy).Contents (Elt F) → (⟨S102400x256, .f32⟩ : BufTy).Contents (Elt F) → (⟨S102400x256, .f32⟩ : BufTy).Contents (Elt F)),
    StableHlo.unary main_arg7 main_v97 ((extractStridedSlice S1x256x128 ![2, 0, 0] · slices_S5x256x128_S1x256x128_2_0_0) : (⟨S5x256x128, .f32⟩ : BufTy).Contents (Elt F) → (⟨S1x256x128, .f32⟩ : BufTy).Contents (Elt F)),
    StableHlo.reshape main_v97 main_v98 rfl shapeCasts_S1x256x128_S256x128,
    StableHlo.binary main_v96 main_v98 main_v99 ((fun l r => Host.dotGeneral dot_S102400x256_S256x128_S102400x128_1_0_0_1_n_n none l r) : (⟨S102400x256, .f32⟩ : BufTy).Contents (Elt F) → (⟨S256x128, .f32⟩ : BufTy).Contents (Elt F) → (⟨S102400x128, .f32⟩ : BufTy).Contents (Elt F)),
    StableHlo.unary main_arg8 main_v100 ((extractStridedSlice S1x128 ![2, 0] · slices_S5x128_S1x128_2_0) : (⟨S5x128, .f32⟩ : BufTy).Contents (Elt F) → (⟨S1x128, .f32⟩ : BufTy).Contents (Elt F)),
    StableHlo.reshape main_v100 main_v101 rfl shapeCasts_S1x128_S128,
    StableHlo.unary main_v101 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S102400x128 ![0, 1] bcast_S1x128_S102400x128_0_1 : (⟨S1x128, .f32⟩ : BufTy).Contents (Elt F) → (⟨S102400x128, .f32⟩ : BufTy).Contents (Elt F)),
    StableHlo.binary main_v99 main_v103 main_v104 (addf : (⟨S102400x128, .f32⟩ : BufTy).Contents (Elt F) → (⟨S102400x128, .f32⟩ : BufTy).Contents (Elt F) → (⟨S102400x128, .f32⟩ : BufTy).Contents (Elt F)),
    StableHlo.nullary main_call5_cst (constant S_ .f32 0x00000000#32),
    StableHlo.unary main_call5_cst main_call5_v0 (broadcastInDim S102400x128 ![] bcast_S_S102400x128 : (⟨S_, .f32⟩ : BufTy).Contents (Elt F) → (⟨S102400x128, .f32⟩ : BufTy).Contents (Elt F)),
    StableHlo.binary main_v104 main_call5_v0 main_v105 (maximumf : (⟨S102400x128, .f32⟩ : BufTy).Contents (Elt F) → (⟨S102400x128, .f32⟩ : BufTy).Contents (Elt F) → (⟨S102400x128, .f32⟩ : BufTy).Contents (Elt F)) ]

/-- Operations 131 … 132 of the table. -/
abbrev q5 : List (HloOp τ sig (Elt F)) :=
  [ StableHlo.nullary main_c_10 (constantI S_ 32 0#32),
    StableHlo.unary main_c_10 main_v106 (broadcastInDim S819200 ![] bcast_S_S819200 : (⟨S_, .i32⟩ : BufTy).Contents (Elt F) → (⟨S819200, .i32⟩ : BufTy).Contents (Elt F)) ]

/-- Operations 133 … 172 of the table. -/
abbrev q6 : List (HloOp τ sig (Elt F)) :=
  [ StableHlo.binary main_v1 main_v106 main_v107 (cmpi .slt : (⟨S819200, .i32⟩ : BufTy).Contents (Elt F) → (⟨S819200, .i32⟩ : BufTy).Contents (Elt F) → (⟨S819200, .i1⟩ : BufTy).Contents (Elt F)),
    StableHlo.nullary main_c_11 (constantI S_ 32 102400#32),
    StableHlo.unary main_c_11 main_v108 (broadcastInDim S819200 ![] bcast_S_S819200 : (⟨S_, .i32⟩ : BufTy).Contents (Elt F) → (⟨S819200, .i32⟩ : BufTy).Contents (Elt F)),
    StableHlo.binary main_v1 main_v108 main_v109 (addi : (⟨S819200, .i32⟩ : BufTy).Contents (Elt F) → (⟨S819200, .i32⟩ : BufTy).Contents (Elt F) → (⟨S819200, .i32⟩ : BufTy).Contents (Elt F)),
    StableHlo.ternary main_v107 main_v109 main_v1 main_v110 (select : (⟨S819200, .i1⟩ : BufTy).Contents (Elt F) → (⟨S819200, .i32⟩ : BufTy).Contents (Elt F) → (⟨S819200, .i32⟩ : BufTy).Contents (Elt F) → (⟨S819200, .i32⟩ : BufTy).Contents (Elt F)),
    StableHlo.unary main_v110 main_v111 (broadcastInDim S819200x1 ![0] bcast_S819200_S819200x1_0 : (⟨S819200, .i32⟩ : BufTy).Contents (Elt F) → (⟨S819200x1, .i32⟩ : BufTy).Contents (Elt F)),
    StableHlo.binary main_v105 main_v111 main_v112 ((fun x i => Host.gather gather_S102400x128_S819200x1_S819200x128_1_0_n_n_0_1_1128 x i) : (⟨S102400x128, .f32⟩ : BufTy).Contents (Elt F) → (⟨S819200x1, .i32⟩ : BufTy).Contents (Elt F) → (⟨S819200x128, .f32⟩ : BufTy).Contents (Elt F)),
    StableHlo.nullary main_cst_12 (constant S_ .f32 0x00000000#32),
    StableHlo.unary main_cst_12 main_v113 (broadcastInDim S102400x128 ![] bcast_S_S102400x128 : (⟨S_, .f32⟩ : BufTy).Contents (Elt F) → (⟨S102400x128, .f32⟩ : BufTy).Contents (Elt F)),
    StableHlo.unary main_v3 main_v114 (broadcastInDim S819200x1 ![0] bcast_S819200_S819200x1_0 : (⟨S819200, .i32⟩ : BufTy).Contents (Elt F) → (⟨S819200x1, .i32⟩ : BufTy).Contents (Elt F)),
    StableHlo.ternary main_v113 main_v114 main_v112 main_v115 ((fun x i u => Host.scatterAdd scatter_S102400x128_S819200x1_S819200x128_1_0_0_1 x i u) : (⟨S102400x128, .f32⟩ : BufTy).Contents (Elt F) → (⟨S819200x1, .i32⟩ : BufTy).Contents (Elt F) → (⟨S819200x128, .f32⟩ : BufTy).Contents (Elt F) → (⟨S102400x128, .f32⟩ : BufTy).Contents (Elt F)),
    StableHlo.unary main_arg9 main_v116 ((extractStridedSlice S1 ![3] · slices_S5_S1_3) : (⟨S5, .f32⟩ : BufTy).Contents (Elt F) → (⟨S1, .f32⟩ : BufTy).Contents (Elt F)),
    StableHlo.reshape main_v116 main_v117 rfl shapeCasts_S1_S_,
    StableHlo.nullary main_cst_13 (constant S_ .f32 0x3F800000#32),
    StableHlo.binary main_cst_13 main_v117 main_v118 (addf : (⟨S_, .f32⟩ : BufTy).Contents (Elt F) → (⟨S_, .f32⟩ : BufTy).Contents (Elt F) → (⟨S_, .f32⟩ : BufTy).Contents (Elt F)),
    StableHlo.unary main_v118 main_v119 (broadcastInDim S102400x128 ![] bcast_S_S102400x128 : (⟨S_, .f32⟩ : BufTy).Contents (Elt F) → (⟨S102400x128, .f32⟩ : BufTy).Contents (Elt F)),
    StableHlo.binary main_v119 main_v105 main_v120 (mulf : (⟨S102400x128, .f32⟩ : BufTy).Contents (Elt F) → (⟨S102400x128, .f32⟩ : BufTy).Contents (Elt F) → (⟨S102400x128, .f32⟩ : BufTy).Contents (Elt F)),
    StableHlo.binary main_v120 main_v115 main_v121 (addf : (⟨S102400x128, .f32⟩ : BufTy).Contents (Elt F) → (⟨S102400x128, .f32⟩ : BufTy).Contents (Elt F) → (⟨S102400x128, .f32⟩ : BufTy).Contents (Elt F)),
    StableHlo.unary main_arg5 main_v122 ((extractStridedSlice S1x128x256 ![3, 0, 0] · slices_S5x128x256_S1x128x256_3_0_0) : (⟨S5x128x256, .f32⟩ : BufTy).Contents (Elt F) → (⟨S1x128x256, .f32⟩ : BufTy).Contents (Elt F)),
    StableHlo.reshape main_v122 main_v123 rfl shapeCasts_S1x128x256_S128x256,
    StableHlo.binary main_v121 main_v123 main_v124 ((fun l r => Host.dotGeneral dot_S102400x128_S128x256_S102400x256_1_0_0_1_n_n none l r) : (⟨S102400x128, .f32⟩ : BufTy).Contents (Elt F) → (⟨S128x256, .f32⟩ : BufTy).Contents (Elt F) → (⟨S102400x256, .f32⟩ : BufTy).Contents (Elt F)),
    StableHlo.unary main_arg6 main_v125 ((extractStridedSlice S1x256 ![3, 0] · slices_S5x256_S1x256_3_0) : (⟨S5x256, .f32⟩ : BufTy).Contents (Elt F) → (⟨S1x256, .f32⟩ : BufTy).Contents (Elt F)),
    StableHlo.reshape main_v125 main_v126 rfl shapeCasts_S1x256_S256,
    StableHlo.unary main_v126 main_v127 (broadcastInDim S1x256 ![1] bcast_S256_S1x256_1 : (⟨S256, .f32⟩ : BufTy).Contents (Elt F) → (⟨S1x256, .f32⟩ : BufTy).Contents (Elt F)),
    StableHlo.unary main_v127 main_v128 (broadcastInDim S102400x256 ![0, 1] bcast_S1x256_S102400x256_0_1 : (⟨S1x256, .f32⟩ : BufTy).Contents (Elt F) → (⟨S102400x256, .f32⟩ : BufTy).Contents (Elt F)),
    StableHlo.binary main_v124 main_v128 main_v129 (addf : (⟨S102400x256, .f32⟩ : BufTy).Contents (Elt F) → (⟨S102400x256, .f32⟩ : BufTy).Contents (Elt F) → (⟨S102400x256, .f32⟩ : BufTy).Contents (Elt F)),
    StableHlo.nullary main_call6_cst (constant S_ .f32 0x00000000#32),
    StableHlo.unary main_call6_cst main_call6_v0 (broadcastInDim S102400x256 ![] bcast_S_S102400x256 : (⟨S_, .f32⟩ : BufTy).Contents (Elt F) → (⟨S102400x256, .f32⟩ : BufTy).Contents (Elt F)),
    StableHlo.binary main_v129 main_call6_v0 main_v130 (maximumf : (⟨S102400x256, .f32⟩ : BufTy).Contents (Elt F) → (⟨S102400x256, .f32⟩ : BufTy).Contents (Elt F) → (⟨S102400x256, .f32⟩ : BufTy).Contents (Elt F)),
    StableHlo.unary main_arg7 main_v131 ((extractStridedSlice S1x256x128 ![3, 0, 0] · slices_S5x256x128_S1x256x128_3_0_0) : (⟨S5x256x128, .f32⟩ : BufTy).Contents (Elt F) → (⟨S1x256x128, .f32⟩ : BufTy).Contents (Elt F)),
    StableHlo.reshape main_v131 main_v132 rfl shapeCasts_S1x256x128_S256x128,
    StableHlo.binary main_v130 main_v132 main_v133 ((fun l r => Host.dotGeneral dot_S102400x256_S256x128_S102400x128_1_0_0_1_n_n none l r) : (⟨S102400x256, .f32⟩ : BufTy).Contents (Elt F) → (⟨S256x128, .f32⟩ : BufTy).Contents (Elt F) → (⟨S102400x128, .f32⟩ : BufTy).Contents (Elt F)),
    StableHlo.unary main_arg8 main_v134 ((extractStridedSlice S1x128 ![3, 0] · slices_S5x128_S1x128_3_0) : (⟨S5x128, .f32⟩ : BufTy).Contents (Elt F) → (⟨S1x128, .f32⟩ : BufTy).Contents (Elt F)),
    StableHlo.reshape main_v134 main_v135 rfl shapeCasts_S1x128_S128,
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S102400x128 ![0, 1] bcast_S1x128_S102400x128_0_1 : (⟨S1x128, .f32⟩ : BufTy).Contents (Elt F) → (⟨S102400x128, .f32⟩ : BufTy).Contents (Elt F)),
    StableHlo.binary main_v133 main_v137 main_v138 (addf : (⟨S102400x128, .f32⟩ : BufTy).Contents (Elt F) → (⟨S102400x128, .f32⟩ : BufTy).Contents (Elt F) → (⟨S102400x128, .f32⟩ : BufTy).Contents (Elt F)),
    StableHlo.nullary main_call7_cst (constant S_ .f32 0x00000000#32),
    StableHlo.unary main_call7_cst main_call7_v0 (broadcastInDim S102400x128 ![] bcast_S_S102400x128 : (⟨S_, .f32⟩ : BufTy).Contents (Elt F) → (⟨S102400x128, .f32⟩ : BufTy).Contents (Elt F)),
    StableHlo.binary main_v138 main_call7_v0 main_v139 (maximumf : (⟨S102400x128, .f32⟩ : BufTy).Contents (Elt F) → (⟨S102400x128, .f32⟩ : BufTy).Contents (Elt F) → (⟨S102400x128, .f32⟩ : BufTy).Contents (Elt F)) ]

/-- Operations 173 … 196 of the table. -/
abbrev q7 : List (HloOp τ sig (Elt F)) :=
  [ StableHlo.nullary main_c_14 (constantI S_ 32 0#32),
    StableHlo.unary main_c_14 main_v140 (broadcastInDim S819200 ![] bcast_S_S819200 : (⟨S_, .i32⟩ : BufTy).Contents (Elt F) → (⟨S819200, .i32⟩ : BufTy).Contents (Elt F)),
    StableHlo.binary main_v1 main_v140 main_v141 (cmpi .slt : (⟨S819200, .i32⟩ : BufTy).Contents (Elt F) → (⟨S819200, .i32⟩ : BufTy).Contents (Elt F) → (⟨S819200, .i1⟩ : BufTy).Contents (Elt F)),
    StableHlo.nullary main_c_15 (constantI S_ 32 102400#32),
    StableHlo.unary main_c_15 main_v142 (broadcastInDim S819200 ![] bcast_S_S819200 : (⟨S_, .i32⟩ : BufTy).Contents (Elt F) → (⟨S819200, .i32⟩ : BufTy).Contents (Elt F)),
    StableHlo.binary main_v1 main_v142 main_v143 (addi : (⟨S819200, .i32⟩ : BufTy).Contents (Elt F) → (⟨S819200, .i32⟩ : BufTy).Contents (Elt F) → (⟨S819200, .i32⟩ : BufTy).Contents (Elt F)),
    StableHlo.ternary main_v141 main_v143 main_v1 main_v144 (select : (⟨S819200, .i1⟩ : BufTy).Contents (Elt F) → (⟨S819200, .i32⟩ : BufTy).Contents (Elt F) → (⟨S819200, .i32⟩ : BufTy).Contents (Elt F) → (⟨S819200, .i32⟩ : BufTy).Contents (Elt F)),
    StableHlo.unary main_v144 main_v145 (broadcastInDim S819200x1 ![0] bcast_S819200_S819200x1_0 : (⟨S819200, .i32⟩ : BufTy).Contents (Elt F) → (⟨S819200x1, .i32⟩ : BufTy).Contents (Elt F)),
    StableHlo.binary main_v139 main_v145 main_v146 ((fun x i => Host.gather gather_S102400x128_S819200x1_S819200x128_1_0_n_n_0_1_1128 x i) : (⟨S102400x128, .f32⟩ : BufTy).Contents (Elt F) → (⟨S819200x1, .i32⟩ : BufTy).Contents (Elt F) → (⟨S819200x128, .f32⟩ : BufTy).Contents (Elt F)),
    StableHlo.nullary main_cst_16 (constant S_ .f32 0x00000000#32),
    StableHlo.unary main_cst_16 main_v147 (broadcastInDim S102400x128 ![] bcast_S_S102400x128 : (⟨S_, .f32⟩ : BufTy).Contents (Elt F) → (⟨S102400x128, .f32⟩ : BufTy).Contents (Elt F)),
    StableHlo.unary main_v3 main_v148 (broadcastInDim S819200x1 ![0] bcast_S819200_S819200x1_0 : (⟨S819200, .i32⟩ : BufTy).Contents (Elt F) → (⟨S819200x1, .i32⟩ : BufTy).Contents (Elt F)),
    StableHlo.ternary main_v147 main_v148 main_v146 main_v149 ((fun x i u => Host.scatterAdd scatter_S102400x128_S819200x1_S819200x128_1_0_0_1 x i u) : (⟨S102400x128, .f32⟩ : BufTy).Contents (Elt F) → (⟨S819200x1, .i32⟩ : BufTy).Contents (Elt F) → (⟨S819200x128, .f32⟩ : BufTy).Contents (Elt F) → (⟨S102400x128, .f32⟩ : BufTy).Contents (Elt F)),
    StableHlo.unary main_arg9 main_v150 ((extractStridedSlice S1 ![4] · slices_S5_S1_4) : (⟨S5, .f32⟩ : BufTy).Contents (Elt F) → (⟨S1, .f32⟩ : BufTy).Contents (Elt F)),
    StableHlo.reshape main_v150 main_v151 rfl shapeCasts_S1_S_,
    StableHlo.nullary main_cst_17 (constant S_ .f32 0x3F800000#32),
    StableHlo.binary main_cst_17 main_v151 main_v152 (addf : (⟨S_, .f32⟩ : BufTy).Contents (Elt F) → (⟨S_, .f32⟩ : BufTy).Contents (Elt F) → (⟨S_, .f32⟩ : BufTy).Contents (Elt F)),
    StableHlo.unary main_v152 main_v153 (broadcastInDim S102400x128 ![] bcast_S_S102400x128 : (⟨S_, .f32⟩ : BufTy).Contents (Elt F) → (⟨S102400x128, .f32⟩ : BufTy).Contents (Elt F)),
    StableHlo.binary main_v153 main_v139 main_v154 (mulf : (⟨S102400x128, .f32⟩ : BufTy).Contents (Elt F) → (⟨S102400x128, .f32⟩ : BufTy).Contents (Elt F) → (⟨S102400x128, .f32⟩ : BufTy).Contents (Elt F)),
    StableHlo.binary main_v154 main_v149 main_v155 (addf : (⟨S102400x128, .f32⟩ : BufTy).Contents (Elt F) → (⟨S102400x128, .f32⟩ : BufTy).Contents (Elt F) → (⟨S102400x128, .f32⟩ : BufTy).Contents (Elt F)),
    StableHlo.unary main_arg5 main_v156 ((extractStridedSlice S1x128x256 ![4, 0, 0] · slices_S5x128x256_S1x128x256_4_0_0) : (⟨S5x128x256, .f32⟩ : BufTy).Contents (Elt F) → (⟨S1x128x256, .f32⟩ : BufTy).Contents (Elt F)),
    StableHlo.reshape main_v156 main_v157 rfl shapeCasts_S1x128x256_S128x256,
    StableHlo.binary main_v155 main_v157 main_v158 ((fun l r => Host.dotGeneral dot_S102400x128_S128x256_S102400x256_1_0_0_1_n_n none l r) : (⟨S102400x128, .f32⟩ : BufTy).Contents (Elt F) → (⟨S128x256, .f32⟩ : BufTy).Contents (Elt F) → (⟨S102400x256, .f32⟩ : BufTy).Contents (Elt F)),
    StableHlo.unary main_arg6 main_v159 ((extractStridedSlice S1x256 ![4, 0] · slices_S5x256_S1x256_4_0) : (⟨S5x256, .f32⟩ : BufTy).Contents (Elt F) → (⟨S1x256, .f32⟩ : BufTy).Contents (Elt F)) ]

/-- Operations 197 … 211 of the table. -/
abbrev q8 : List (HloOp τ sig (Elt F)) :=
  [ StableHlo.reshape main_v159 main_v160 rfl shapeCasts_S1x256_S256,
    StableHlo.unary main_v160 main_v161 (broadcastInDim S1x256 ![1] bcast_S256_S1x256_1 : (⟨S256, .f32⟩ : BufTy).Contents (Elt F) → (⟨S1x256, .f32⟩ : BufTy).Contents (Elt F)),
    StableHlo.unary main_v161 main_v162 (broadcastInDim S102400x256 ![0, 1] bcast_S1x256_S102400x256_0_1 : (⟨S1x256, .f32⟩ : BufTy).Contents (Elt F) → (⟨S102400x256, .f32⟩ : BufTy).Contents (Elt F)),
    StableHlo.binary main_v158 main_v162 main_v163 (addf : (⟨S102400x256, .f32⟩ : BufTy).Contents (Elt F) → (⟨S102400x256, .f32⟩ : BufTy).Contents (Elt F) → (⟨S102400x256, .f32⟩ : BufTy).Contents (Elt F)),
    StableHlo.nullary main_call8_cst (constant S_ .f32 0x00000000#32),
    StableHlo.unary main_call8_cst main_call8_v0 (broadcastInDim S102400x256 ![] bcast_S_S102400x256 : (⟨S_, .f32⟩ : BufTy).Contents (Elt F) → (⟨S102400x256, .f32⟩ : BufTy).Contents (Elt F)),
    StableHlo.binary main_v163 main_call8_v0 main_v164 (maximumf : (⟨S102400x256, .f32⟩ : BufTy).Contents (Elt F) → (⟨S102400x256, .f32⟩ : BufTy).Contents (Elt F) → (⟨S102400x256, .f32⟩ : BufTy).Contents (Elt F)),
    StableHlo.unary main_arg7 main_v165 ((extractStridedSlice S1x256x128 ![4, 0, 0] · slices_S5x256x128_S1x256x128_4_0_0) : (⟨S5x256x128, .f32⟩ : BufTy).Contents (Elt F) → (⟨S1x256x128, .f32⟩ : BufTy).Contents (Elt F)),
    StableHlo.reshape main_v165 main_v166 rfl shapeCasts_S1x256x128_S256x128,
    StableHlo.binary main_v164 main_v166 main_v167 ((fun l r => Host.dotGeneral dot_S102400x256_S256x128_S102400x128_1_0_0_1_n_n none l r) : (⟨S102400x256, .f32⟩ : BufTy).Contents (Elt F) → (⟨S256x128, .f32⟩ : BufTy).Contents (Elt F) → (⟨S102400x128, .f32⟩ : BufTy).Contents (Elt F)),
    StableHlo.unary main_arg8 main_v168 ((extractStridedSlice S1x128 ![4, 0] · slices_S5x128_S1x128_4_0) : (⟨S5x128, .f32⟩ : BufTy).Contents (Elt F) → (⟨S1x128, .f32⟩ : BufTy).Contents (Elt F)),
    StableHlo.reshape main_v168 main_v169 rfl shapeCasts_S1x128_S128,
    StableHlo.unary main_v169 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S102400x128 ![0, 1] bcast_S1x128_S102400x128_0_1 : (⟨S1x128, .f32⟩ : BufTy).Contents (Elt F) → (⟨S102400x128, .f32⟩ : BufTy).Contents (Elt F)),
    StableHlo.binary main_v167 main_v171 main_v172 (addf : (⟨S102400x128, .f32⟩ : BufTy).Contents (Elt F) → (⟨S102400x128, .f32⟩ : BufTy).Contents (Elt F) → (⟨S102400x128, .f32⟩ : BufTy).Contents (Elt F)) ]

/-- Operations 212 … 242 of the table. -/
abbrev q9 : List (HloOp τ sig (Elt F)) :=
  [ StableHlo.nullary main_c_18 (constantI S_ 32 0#32),
    StableHlo.unary main_c_18 main_v173 (broadcastInDim S1 ![] bcast_S_S1 : (⟨S_, .i32⟩ : BufTy).Contents (Elt F) → (⟨S1, .i32⟩ : BufTy).Contents (Elt F)),
    StableHlo.nullary main_call9_call0_c (constantI S_ 32 0#32),
    StableHlo.unary main_call9_call0_c main_call9_call0_v0 (broadcastInDim S_ ![] bcast_S_S_ : (⟨S_, .i32⟩ : BufTy).Contents (Elt F) → (⟨S_, .i32⟩ : BufTy).Contents (Elt F)),
    StableHlo.binary main_arg4 main_call9_call0_v0 main_v174 ((fun x v => Host.reduceWindow IntOp.addi ![64] ![1] ![63] ![0] x v reduceWindows_S64_S64_w64s1p63_0 h_S_) : (⟨S64, .i32⟩ : BufTy).Contents (Elt F) → (⟨S_, .i32⟩ : BufTy).Contents (Elt F) → (⟨S64, .i32⟩ : BufTy).Contents (Elt F)),
    StableHlo.binary main_v173 main_v174 main_v175 ((fun a b => concatenate S65 0 [⟨S1, a⟩, ⟨S64, b⟩] concatenates_S1_S64_S65_d0) : (⟨S1, .i32⟩ : BufTy).Contents (Elt F) → (⟨S64, .i32⟩ : BufTy).Contents (Elt F) → (⟨S65, .i32⟩ : BufTy).Contents (Elt F)),
    StableHlo.nullary main_c_19 (constantI S_ 32 0#32),
    StableHlo.unary main_c_19 main_v176 (broadcastInDim S102400 ![] bcast_S_S102400 : (⟨S_, .i32⟩ : BufTy).Contents (Elt F) → (⟨S102400, .i32⟩ : BufTy).Contents (Elt F)),
    StableHlo.binary main_arg2 main_v176 main_v177 (cmpi .slt : (⟨S102400, .i32⟩ : BufTy).Contents (Elt F) → (⟨S102400, .i32⟩ : BufTy).Contents (Elt F) → (⟨S102400, .i1⟩ : BufTy).Contents (Elt F)),
    StableHlo.nullary main_c_20 (constantI S_ 32 65#32),
    StableHlo.unary main_c_20 main_v178 (broadcastInDim S102400 ![] bcast_S_S102400 : (⟨S_, .i32⟩ : BufTy).Contents (Elt F) → (⟨S102400, .i32⟩ : BufTy).Contents (Elt F)),
    StableHlo.binary main_arg2 main_v178 main_v179 (addi : (⟨S102400, .i32⟩ : BufTy).Contents (Elt F) → (⟨S102400, .i32⟩ : BufTy).Contents (Elt F) → (⟨S102400, .i32⟩ : BufTy).Contents (Elt F)),
    StableHlo.ternary main_v177 main_v179 main_arg2 main_v180 (select : (⟨S102400, .i1⟩ : BufTy).Contents (Elt F) → (⟨S102400, .i32⟩ : BufTy).Contents (Elt F) → (⟨S102400, .i32⟩ : BufTy).Contents (Elt F) → (⟨S102400, .i32⟩ : BufTy).Contents (Elt F)),
    StableHlo.unary main_v180 main_v181 (broadcastInDim S102400x1 ![0] bcast_S102400_S102400x1_0 : (⟨S102400, .i32⟩ : BufTy).Contents (Elt F) → (⟨S102400x1, .i32⟩ : BufTy).Contents (Elt F)),
    StableHlo.binary main_v175 main_v181 main_v182 ((fun x i => Host.gather gather_S65_S102400x1_S102400_n_0_n_n_0_1_1 x i) : (⟨S65, .i32⟩ : BufTy).Contents (Elt F) → (⟨S102400x1, .i32⟩ : BufTy).Contents (Elt F) → (⟨S102400, .i32⟩ : BufTy).Contents (Elt F)),
    StableHlo.binary main_v182 main_arg3 main_v183 (addi : (⟨S102400, .i32⟩ : BufTy).Contents (Elt F) → (⟨S102400, .i32⟩ : BufTy).Contents (Elt F) → (⟨S102400, .i32⟩ : BufTy).Contents (Elt F)),
    StableHlo.nullary main_cst_21 (constant S_ .f32 0x00000000#32),
    StableHlo.unary main_cst_21 main_v184 (broadcastInDim S1024x128 ![] bcast_S_S1024x128 : (⟨S_, .f32⟩ : BufTy).Contents (Elt F) → (⟨S1024x128, .f32⟩ : BufTy).Contents (Elt F)),
    StableHlo.unary main_v183 main_v185 (broadcastInDim S102400x1 ![0] bcast_S102400_S102400x1_0 : (⟨S102400, .i32⟩ : BufTy).Contents (Elt F) → (⟨S102400x1, .i32⟩ : BufTy).Contents (Elt F)),
    StableHlo.ternary main_v184 main_v185 main_v172 main_v186 ((fun x i u => Host.scatterAdd scatter_S1024x128_S102400x1_S102400x128_1_0_0_1 x i u) : (⟨S1024x128, .f32⟩ : BufTy).Contents (Elt F) → (⟨S102400x1, .i32⟩ : BufTy).Contents (Elt F) → (⟨S102400x128, .f32⟩ : BufTy).Contents (Elt F) → (⟨S1024x128, .f32⟩ : BufTy).Contents (Elt F)),
    StableHlo.nullary main_cst_22 (constant S_ .f32 0x3F800000#32),
    StableHlo.unary main_cst_22 main_v187 (broadcastInDim S102400x1 ![] bcast_S_S102400x1 : (⟨S_, .f32⟩ : BufTy).Contents (Elt F) → (⟨S102400x1, .f32⟩ : BufTy).Contents (Elt F)),
    StableHlo.nullary main_cst_23 (constant S_ .f32 0x00000000#32),
    StableHlo.unary main_cst_23 main_v188 (broadcastInDim S1024x1 ![] bcast_S_S1024x1 : (⟨S_, .f32⟩ : BufTy).Contents (Elt F) → (⟨S1024x1, .f32⟩ : BufTy).Contents (Elt F)),
    StableHlo.unary main_v183 main_v189 (broadcastInDim S102400x1 ![0] bcast_S102400_S102400x1_0 : (⟨S102400, .i32⟩ : BufTy).Contents (Elt F) → (⟨S102400x1, .i32⟩ : BufTy).Contents (Elt F)),
    StableHlo.ternary main_v188 main_v189 main_v187 main_v190 ((fun x i u => Host.scatterAdd scatter_S1024x1_S102400x1_S102400x1_1_0_0_1 x i u) : (⟨S1024x1, .f32⟩ : BufTy).Contents (Elt F) → (⟨S102400x1, .i32⟩ : BufTy).Contents (Elt F) → (⟨S102400x1, .f32⟩ : BufTy).Contents (Elt F) → (⟨S1024x1, .f32⟩ : BufTy).Contents (Elt F)),
    StableHlo.nullary main_cst_24 (constant S_ .f32 0x3F800000#32),
    StableHlo.unary main_cst_24 main_v191 (broadcastInDim S1024x1 ![] bcast_S_S1024x1 : (⟨S_, .f32⟩ : BufTy).Contents (Elt F) → (⟨S1024x1, .f32⟩ : BufTy).Contents (Elt F)),
    StableHlo.binary main_v190 main_v191 main_v192 (maximumf : (⟨S1024x1, .f32⟩ : BufTy).Contents (Elt F) → (⟨S1024x1, .f32⟩ : BufTy).Contents (Elt F) → (⟨S1024x1, .f32⟩ : BufTy).Contents (Elt F)),
    StableHlo.unary main_v192 main_v193 (broadcastInDim S1024x128 ![0, 1] bcast_S1024x1_S1024x128_0_1 : (⟨S1024x1, .f32⟩ : BufTy).Contents (Elt F) → (⟨S1024x128, .f32⟩ : BufTy).Contents (Elt F)),
    StableHlo.binary main_v186 main_v193 main_v194 (Host.divf : (⟨S1024x128, .f32⟩ : BufTy).Contents (Elt F) → (⟨S1024x128, .f32⟩ : BufTy).Contents (Elt F) → (⟨S1024x128, .f32⟩ : BufTy).Contents (Elt F)) ]

/-- The whole table: the pieces in order. -/
abbrev ops : List (HloOp τ sig (Elt F)) :=
  q0 ++ (q1 ++ (q2 ++ (q3 ++ (q4 ++ (q5 ++ (q6 ++ (q7 ++ (q8 ++ (q9)))))))))

/-- The fold of the table is the folds of its pieces, one after the other. -/
theorem after_ops (V : Valuation τ sig (Elt F)) :
    after ops V = after q9 (after q8 (after q7 (after q6 (after q5 (after q4 (after q3 (after q2 (after q1 (after q0 (V)))))))))) := by
  simp only [ops, Cert.Lib.AfterAppend.after_append]

end Cert.ReferenceIdeal.RefValue

end
-- ==== Proof.RefOpsMain0.lean ====
/-
  The first printed window of the reference's @main is its pieces of the table run in order.

  The window is a straight line of operations and two calls of the rectifier; a call unfolds to its callee's three
  operations over the buffers the call names, so the window is the run of the table's first three pieces.
-/
import proofs.«175996_j627065225439_1_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

set_option maxRecDepth 8192 in
set_option maxHeartbeats 4000000 in
/-- The printed window 0 is its pieces of the table run in order: the calls unfold to their callees' operations. -/
theorem main_part0_eq (c : Dev nD) : main_part0 (F := F) c = seq (q0 ++ (q1 ++ (q2))) := rfl

end Cert.ReferenceIdeal.RefValue

end
-- ==== Proof.RefOpsMain1.lean ====
/-
  The reference's printed window 1 is its pieces of the table of operations, run in order.

  The window is a straight line of operations and calls; a call unfolds to its callee's operations written over the
  buffers the call names, which is how the table spells them, so the two sides are the same chain of steps.
-/
import proofs.«175996_j627065225439_1_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

set_option maxRecDepth 8192 in
set_option maxHeartbeats 4000000 in
/-- The printed window 1 is pieces 3, 4 and 5 of the table run in order: the four calls unfold to their callees' operations. -/
theorem main_part1_eq (c : Dev nD) : main_part1 (F := F) c = seq (q3 ++ (q4 ++ (q5))) := rfl

end Cert.ReferenceIdeal.RefValue

end
-- ==== Proof.RefOpsMain2.lean ====
/-
  The reference's printed window 2 is its pieces of the table of operations, run in order.

  The window is a straight line of operations and calls; a call unfolds to its callee's operations written over the
  buffers the call names, which is how the table spells them, so the two sides are the same chain of steps.
-/
import proofs.«175996_j627065225439_1_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

set_option maxRecDepth 8192 in
set_option maxHeartbeats 4000000 in
/-- The printed window 2 is pieces 6 and 7 of the table run in order: the two calls unfold to their callees' operations. -/
theorem main_part2_eq (c : Dev nD) : main_part2 (F := F) c = seq (q6 ++ (q7)) := rfl

end Cert.ReferenceIdeal.RefValue

end
-- ==== Proof.RefOpsMain3.lean ====
/-
  The last printed window of the reference's @main is its pieces of the table run in order.

  The window is a straight line of operations, one call of the rectifier and one call of the running sum, which itself
  calls the windowed sum and returns; each call unfolds to its callee's operations over the buffers the call names, so
  the window is the run of the table's last two pieces.
-/
import proofs.«175996_j627065225439_1_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

attribute [local irreducible] Host.reduceWindow Host.gather Host.scatterAdd concatenate in
set_option maxRecDepth 8192 in
set_option maxHeartbeats 1000000 in
/-- The printed window 3 is its pieces of the table run in order: the calls unfold to their callees' operations. -/
theorem main_part3_eq (c : Dev nD) : main_part3 (F := F) c = seq (q8 ++ (q9)) := rfl

end Cert.ReferenceIdeal.RefValue

end
-- ==== Proof.RefOpsMain.lean ====
/-
  The reference's @main is its table of operations run in order.

  @main runs four printed windows one after the other. Each window is its pieces of the table run in order, and
  running two lists one after the other is running their concatenation: so @main is the whole table run in order.
-/
import proofs.«175996_j627065225439_1_alg».proof.Proof.RefOpsMain0
import proofs.«175996_j627065225439_1_alg».proof.Proof.RefOpsMain1
import proofs.«175996_j627065225439_1_alg».proof.Proof.RefOpsMain2
import proofs.«175996_j627065225439_1_alg».proof.Proof.RefOpsMain3

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- @main runs the four printed windows in order, and the table is their pieces in the same order. -/
theorem main_eq (c : Dev nD) : main (F := F) c = seq ops := by
  show (main_part0 c >>= fun _ => main_part1 c >>= fun _ => main_part2 c >>= fun _ => main_part3 c) = _
  rw [main_part0_eq c, main_part1_eq c, main_part2_eq c, main_part3_eq c]
  simp only [ops, seq_append, bind_assoc]

end Cert.ReferenceIdeal.RefValue

end
-- ==== Proof.RefOpsLists.lean ====
/-
  The side facts the run of the reference's table needs.

  The signature scopes no buffer and no semaphore; every operation of the table reads and writes TensorCore buffers
  only; and every operation determines what it writes.
-/
import proofs.«175996_j627065225439_1_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

theorem q0_sub : (q0 : List (HloOp τ sig (Elt F))).Forall fun op => op.bufs ⊆ tcRefs τ sig :=
  ⟨unary_bufs_sub .., reshape_bufs_sub .., unary_bufs_sub .., reshape_bufs_sub ..⟩
theorem q1_sub : (q1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem q2_sub : (q2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub ..⟩
theorem q3_sub : (q3 : List (HloOp τ sig (Elt F))).Forall fun op => op.bufs ⊆ tcRefs τ sig :=
  ⟨binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem q4_sub : (q4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem q5_sub : (q5 : List (HloOp τ sig (Elt F))).Forall fun op => op.bufs ⊆ tcRefs τ sig :=
  ⟨nullary_bufs_sub .., unary_bufs_sub ..⟩
theorem q6_sub : (q6 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem q7_sub : (q7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub ..⟩
theorem q8_sub : (q8 : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem q9_sub : (q9 : List (HloOp τ sig (Elt F))).Forall fun op => op.bufs ⊆ tcRefs τ sig :=
  ⟨nullary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

/-- Every operation of the table touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp q0_sub op h, List.forall_iff_forall_mem.mp q1_sub op h, List.forall_iff_forall_mem.mp q2_sub op h, List.forall_iff_forall_mem.mp q3_sub op h, List.forall_iff_forall_mem.mp q4_sub op h, List.forall_iff_forall_mem.mp q5_sub op h, List.forall_iff_forall_mem.mp q6_sub op h, List.forall_iff_forall_mem.mp q7_sub op h, List.forall_iff_forall_mem.mp q8_sub op h, List.forall_iff_forall_mem.mp q9_sub op h]

theorem q0_fresh : ∀ op ∈ (q0 : List (HloOp τ sig (Elt F))), op.fresh = ∅ :=
  List.forall_iff_forall_mem.mp (show (q0 : List (HloOp τ sig (Elt F))).Forall fun op => op.fresh = ∅ from ⟨rfl, rfl, rfl, rfl⟩)
theorem q1_fresh : ∀ op ∈ (q1 : List (HloOp τ sig (Elt F))), op.fresh = ∅ :=
  List.forall_iff_forall_mem.mp (show (q1 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
theorem q2_fresh : ∀ op ∈ (q2 : List (HloOp τ sig (Elt F))), op.fresh = ∅ :=
  List.forall_iff_forall_mem.mp (show (q2 : List (HloOp τ sig (Elt F))).Forall fun op => op.fresh = ∅ from ⟨rfl, rfl, rfl, rfl, rfl, rfl, rfl, rfl, rfl, rfl, rfl, rfl, rfl, rfl, rfl, rfl, rfl, rfl⟩)
theorem q3_fresh : ∀ op ∈ (q3 : List (HloOp τ sig (Elt F))), op.fresh = ∅ :=
  List.forall_iff_forall_mem.mp (show (q3 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl⟩)
theorem q4_fresh : ∀ op ∈ (q4 : List (HloOp τ sig (Elt F))), op.fresh = ∅ :=
  List.forall_iff_forall_mem.mp (show (q4 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
theorem q5_fresh : ∀ op ∈ (q5 : List (HloOp τ sig (Elt F))), op.fresh = ∅ :=
  List.forall_iff_forall_mem.mp (show (q5 : List (HloOp τ sig (Elt F))).Forall fun op => op.fresh = ∅ from ⟨rfl, rfl⟩)
theorem q6_fresh : ∀ op ∈ (q6 : List (HloOp τ sig (Elt F))), op.fresh = ∅ :=
  List.forall_iff_forall_mem.mp (show (q6 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)
theorem q7_fresh : ∀ op ∈ (q7 : List (HloOp τ sig (Elt F))), op.fresh = ∅ :=
  List.forall_iff_forall_mem.mp (show (q7 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl⟩)
theorem q8_fresh : ∀ op ∈ (q8 : List (HloOp τ sig (Elt F))), op.fresh = ∅ :=
  List.forall_iff_forall_mem.mp (show (q8 : List (HloOp τ sig (Elt F))).Forall fun op => op.fresh = ∅ from ⟨rfl, rfl, rfl, rfl, rfl, rfl, rfl, rfl, rfl, rfl, rfl, rfl, rfl, rfl, rfl⟩)
theorem q9_fresh : ∀ op ∈ (q9 : List (HloOp τ sig (Elt F))), op.fresh = ∅ :=
  List.forall_iff_forall_mem.mp (show (q9 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- Every operation of the table determines what it writes. -/
theorem ops_fresh : ∀ op ∈ (ops : List (HloOp τ sig (Elt F))), op.fresh = ∅ := by
  intro op h
  simp only [ops, List.mem_append] at h
  rcases h with h | h | h | h | h | h | h | h | h | h
  exacts [q0_fresh op h, q1_fresh op h, q2_fresh op h, q3_fresh op h, q4_fresh op h, q5_fresh op h, q6_fresh op h, q7_fresh op h, q8_fresh op h, q9_fresh op h]

end Cert.ReferenceIdeal.RefValue

end
-- ==== Proof.RefLayer.lean ====
/-
  One layer of the reference, as a function of whole arrays, and its value index by index.

  The reference computes a layer with whole-array operations: the scale, a scalar, is broadcast to every entry
  and multiplied with the node features; the aggregated messages are added; the sum is multiplied by the first
  matrix and the first bias, a vector made a one-row matrix and broadcast down the rows, is added; the result is
  compared entrywise with a broadcast zero; the second matrix and bias follow in the same way; and on every layer
  but the last the result is again compared with zero. Read at node n and feature d, every one of these
  operations is the textbook one on the extended reals, a broadcast reads its operand at the one coordinate it
  has, and a matrix product is the sum over the contracted axis; so the layer is the formula of the shared
  specification at every index.
-/
import proofs.«175996_j627065225439_1_alg».proof.Proof.Gen.ReferenceIdeal
import proofs.«175996_j627065225439_1_alg».proof.Proof.Spec
import proofs.«175996_j627065225439_1_alg».proof.Proof.LibPlainDot
import proofs.«175996_j627065225439_1_alg».proof.Proof.LibRowBroadcasts

noncomputable section

namespace Cert.ReferenceIdeal.RefValue

open Cert.ReferenceIdeal Idealize.ShloMosaic Idealize.ShloMosaic.ValueIdx
open Cert.ReferenceIdeal.Facts₀
open scoped BigOperators

/-- One layer of the reference over whole arrays: scale and add, first affine map, rectifier, second affine map,
    and the rectifier again unless the layer is the last. The operations and their order are the reference's. -/
def layer (relu : Bool) (sc : FVec Ideal S_ .f32) (W1 : FVec Ideal S128x256 .f32) (b1 : FVec Ideal S256 .f32)
    (W2 : FVec Ideal S256x128 .f32) (b2 : FVec Ideal S128 .f32) (h agg : FVec Ideal S102400x128 .f32) :
    FVec Ideal S102400x128 .f32 :=
  let z := addf (mulf (broadcastInDim S102400x128 ![] bcast_S_S102400x128 sc) h) agg
  let t := addf (Host.dotGeneral dot_S102400x128_S128x256_S102400x256_1_0_0_1_n_n none z W1)
    (broadcastInDim S102400x256 ![0, 1] bcast_S1x256_S102400x256_0_1 (broadcastInDim S1x256 ![1] bcast_S256_S1x256_1 b1))
  let u := maximumf t (broadcastInDim S102400x256 ![] bcast_S_S102400x256 (constant S_ .f32 0x00000000#32))
  let v := addf (Host.dotGeneral dot_S102400x256_S256x128_S102400x128_1_0_0_1_n_n none u W2)
    (broadcastInDim S102400x128 ![0, 1] bcast_S1x128_S102400x128_0_1 (broadcastInDim S1x128 ![1] bcast_S128_S1x128_1 b2))
  if relu then maximumf v (broadcastInDim S102400x128 ![] bcast_S_S102400x128 (constant S_ .f32 0x00000000#32)) else v

/-- A scalar broadcast to any shape reads, at every index, the scalar. -/
theorem bcastScalar_apply {α : Type} {t : Shape} (hb : S_.BroadcastsInDim t (![] : Fin 0 → Fin t.rank))
    (x : S_.Idx → α) (j : t.Idx) : broadcastInDim t ![] hb x j = x ix0 :=
  broadcastInDim_apply _ hb x j ix0 fun a => a.elim0

/-- A length-b vector broadcast along dimension 1 to a one-row matrix reads, at (·, q), the vector at q. -/
theorem vecRow_apply {α : Type} {b : Nat} (v : (⟨1, ![b]⟩ : Shape).Idx → α)
    (hb : (⟨1, ![b]⟩ : Shape).BroadcastsInDim ⟨2, ![1, b]⟩ ![1]) (u : Fin 1) (q : Fin b) :
    broadcastInDim ⟨2, ![1, b]⟩ ![1] hb v (ix2 u q) = v (ix1 q) :=
  broadcastInDim_apply _ hb v (ix2 u q) (ix1 q) fun ax => by
    match ax with
    | ⟨0, _⟩ =>
      show q.val = if b = 1 then 0 else q.val
      split
      · have := q.isLt; omega
      · rfl

/-- The broadcast zero the rectifiers compare against reads, at every index, the zero word's value. -/
theorem zero_apply {t : Shape} (hb : S_.BroadcastsInDim t (![] : Fin 0 → Fin t.rank)) (j : t.Idx) :
    broadcastInDim t ![] hb (constant (F := Ideal) S_ .f32 0x00000000#32) j = Cert.Spec.zeroF :=
  bcastScalar_apply hb _ j

/-- The first affine map and its rectifier at node n and hidden unit q. -/
theorem hidden_apply (z : FVec Ideal S102400x128 .f32) (W1 : FVec Ideal S128x256 .f32) (b1 : FVec Ideal S256 .f32)
    (n : Fin 102400) (q : Fin 256) :
    maximumf (addf (Host.dotGeneral dot_S102400x128_S128x256_S102400x256_1_0_0_1_n_n none z W1)
        (broadcastInDim S102400x256 ![0, 1] bcast_S1x256_S102400x256_0_1
          (broadcastInDim S1x256 ![1] bcast_S256_S1x256_1 b1)))
      (broadcastInDim S102400x256 ![] bcast_S_S102400x256 (constant S_ .f32 0x00000000#32)) (ix2 n q)
      = max ((∑ j : Fin 128, z (ix2 n j) * W1 (ix2 j q)) + b1 (ix1 q)) Cert.Spec.zeroF := by
  have hd : Host.dotGeneral dot_S102400x128_S128x256_S102400x256_1_0_0_1_n_n none z W1 (ix2 n q)
      = ∑ j : Fin 128, z (ix2 n j) * W1 (ix2 j q) :=
    Cert.Lib.PlainDot.dotGeneral_apply (a := 102400) (c := 128) (b := 256)
      dot_S102400x128_S128x256_S102400x256_1_0_0_1_n_n_wf none z W1 n q
  have hb : broadcastInDim S102400x256 ![0, 1] bcast_S1x256_S102400x256_0_1
      (broadcastInDim S1x256 ![1] bcast_S256_S1x256_1 b1) (ix2 n q) = b1 (ix1 q) :=
    (Cert.Lib.Rows.dimRow_apply (a := 102400) (b := 256) _ bcast_S1x256_S102400x256_0_1 n q).trans
      (vecRow_apply (b := 256) b1 bcast_S256_S1x256_1 0 q)
  rw [maximumf_apply, addf_apply, hd, hb, zero_apply]

/-- The second affine map at node n and feature d. -/
theorem out_apply (u : FVec Ideal S102400x256 .f32) (W2 : FVec Ideal S256x128 .f32) (b2 : FVec Ideal S128 .f32)
    (n : Fin 102400) (d : Fin 128) :
    addf (Host.dotGeneral dot_S102400x256_S256x128_S102400x128_1_0_0_1_n_n none u W2)
        (broadcastInDim S102400x128 ![0, 1] bcast_S1x128_S102400x128_0_1
          (broadcastInDim S1x128 ![1] bcast_S128_S1x128_1 b2)) (ix2 n d)
      = (∑ q : Fin 256, u (ix2 n q) * W2 (ix2 q d)) + b2 (ix1 d) := by
  have hd : Host.dotGeneral dot_S102400x256_S256x128_S102400x128_1_0_0_1_n_n none u W2 (ix2 n d)
      = ∑ q : Fin 256, u (ix2 n q) * W2 (ix2 q d) :=
    Cert.Lib.PlainDot.dotGeneral_apply (a := 102400) (c := 256) (b := 128)
      dot_S102400x256_S256x128_S102400x128_1_0_0_1_n_n_wf none u W2 n d
  have hb : broadcastInDim S102400x128 ![0, 1] bcast_S1x128_S102400x128_0_1
      (broadcastInDim S1x128 ![1] bcast_S128_S1x128_1 b2) (ix2 n d) = b2 (ix1 d) :=
    (Cert.Lib.Rows.dimRow_apply (a := 102400) (b := 128) _ bcast_S1x128_S102400x128_0_1 n d).trans
      (vecRow_apply (b := 128) b2 bcast_S128_S1x128_1 0 d)
  rw [addf_apply, hd, hb]

/-- The scaled input plus the aggregated messages at node n and feature j. -/
theorem scaled_apply (sc : FVec Ideal S_ .f32) (h agg : FVec Ideal S102400x128 .f32) (n : Fin 102400) (j : Fin 128) :
    addf (mulf (broadcastInDim S102400x128 ![] bcast_S_S102400x128 sc) h) agg (ix2 n j)
      = sc ix0 * h (ix2 n j) + agg (ix2 n j) := by
  rw [addf_apply, mulf_apply, bcastScalar_apply]

/-- The reference's layer is the specification's layer: at every node and feature the whole-array operations read as
    the formula of the specification. -/
theorem layer_eq_gin (relu : Bool) (sc : FVec Ideal S_ .f32) (W1 : FVec Ideal S128x256 .f32) (b1 : FVec Ideal S256 .f32)
    (W2 : FVec Ideal S256x128 .f32) (b2 : FVec Ideal S128 .f32) (h agg : FVec Ideal S102400x128 .f32) :
    layer relu sc W1 b1 W2 b2 h agg
      = Cert.Spec.gin relu (sc ix0) h agg W1 (fun q => b1 (ix1 q)) W2 (fun d => b2 (ix1 d)) := by
  funext i
  obtain ⟨n, d, rfl⟩ : ∃ (n : Fin 102400) (d : Fin 128), i = ix2 n d := ⟨i 0, i 1, eq_ix2 i⟩
  rw [Cert.Spec.gin_ix2]
  -- the affine part, before the last activation, on both sides
  have core : addf (Host.dotGeneral dot_S102400x256_S256x128_S102400x128_1_0_0_1_n_n none
        (maximumf (addf (Host.dotGeneral dot_S102400x128_S128x256_S102400x256_1_0_0_1_n_n none
            (addf (mulf (broadcastInDim S102400x128 ![] bcast_S_S102400x128 sc) h) agg) W1)
          (broadcastInDim S102400x256 ![0, 1] bcast_S1x256_S102400x256_0_1
            (broadcastInDim S1x256 ![1] bcast_S256_S1x256_1 b1)))
          (broadcastInDim S102400x256 ![] bcast_S_S102400x256 (constant S_ .f32 0x00000000#32))) W2)
        (broadcastInDim S102400x128 ![0, 1] bcast_S1x128_S102400x128_0_1
          (broadcastInDim S1x128 ![1] bcast_S128_S1x128_1 b2)) (ix2 n d)
      = (∑ q : Fin 256, Cert.Spec.hidden (sc ix0) h agg W1 (fun q => b1 (ix1 q)) n q * W2 (ix2 q d)) + b2 (ix1 d) := by
    rw [out_apply]
    refine congrArg (· + b2 (ix1 d)) (Finset.sum_congr rfl fun q _ => ?_)
    rw [hidden_apply]
    unfold Cert.Spec.hidden
    refine congrArg (fun s => max (s + b1 (ix1 q)) Cert.Spec.zeroF * W2 (ix2 q d)) (Finset.sum_congr rfl fun j _ => ?_)
    rw [scaled_apply]
  cases relu
  · exact core
  · show max _ _ = max _ Cert.Spec.zeroF
    rw [zero_apply]
    exact congrArg (fun y => max y Cert.Spec.zeroF) core

end Cert.ReferenceIdeal.RefValue

end
-- ==== Proof.RefDefs.lean ====
/-
  The reference, as one function of its ten argument arrays.

  The reference prepares each layer's operands from the arguments: the source and target rows of the edge list; the
  aggregation of a feature array over the edges (gather the source rows, add them into the target rows of a zero
  array); the r-th scale 1 + eps(r) as a scalar; the r-th slice of each parameter array, reshaped to a matrix or a
  vector. Five layers follow one another, each fed the previous layer's output and that output's aggregation. Then
  the bin word of every node is computed (an offset looked up by graph, from the running sum of the per-graph bin
  counts with a leading zero, plus the node's local bin), the last layer's rows are added into the rows of a zero
  array at their bin words, and the sums are divided by the number of nodes per bin clamped below at 1. Each
  definition below is one of those, spelled with the reference's own operations in its own order.
-/
import proofs.«175996_j627065225439_1_alg».proof.Proof.RefLayer

noncomputable section

namespace Cert.ReferenceIdeal.RefValue

open Cert.ReferenceIdeal Idealize.ShloMosaic Idealize.ShloMosaic.ValueIdx
open Cert.ReferenceIdeal.Facts₀

/-- The edge list's source row. -/
def src (e : IVec S2x819200 32) : IVec S819200 32 :=
  shapeCast S819200 (extractStridedSlice S1x819200 ![0, 0] e slices_S2x819200_S1x819200_0_0) shapeCasts_S1x819200_S819200
/-- The edge list's target row. -/
def dst (e : IVec S2x819200 32) : IVec S819200 32 :=
  shapeCast S819200 (extractStridedSlice S1x819200 ![1, 0] e slices_S2x819200_S1x819200_1_0) shapeCasts_S1x819200_S819200

/-- The aggregation over the edges: row `s k` of `h` (a negative word wrapped once) added into row `d k` of zeros. -/
def aggOf (s d : IVec S819200 32) (h : FVec Ideal S102400x128 .f32) : FVec Ideal S102400x128 .f32 :=
  Host.scatterAdd scatter_S102400x128_S819200x1_S819200x128_1_0_0_1
    (broadcastInDim S102400x128 ![] bcast_S_S102400x128 (constant S_ .f32 0x00000000#32))
    (broadcastInDim S819200x1 ![0] bcast_S819200_S819200x1_0 d)
    (Host.gather gather_S102400x128_S819200x1_S819200x128_1_0_n_n_0_1_1128 h
      (broadcastInDim S819200x1 ![0] bcast_S819200_S819200x1_0
        (select (cmpi .slt s (broadcastInDim S819200 ![] bcast_S_S819200 (constantI S_ 32 0#32)))
          (addi s (broadcastInDim S819200 ![] bcast_S_S819200 (constantI S_ 32 102400#32))) s)))

/-- Layer 0's scale 1 + eps, as a scalar array. -/
def sc0 (eps : FVec Ideal S5 .f32) : FVec Ideal S_ .f32 :=
  addf (constant S_ .f32 0x3F800000#32) (shapeCast S_ (extractStridedSlice S1 ![0] eps slices_S5_S1_0) shapeCasts_S1_S_)
/-- Layer 0's first matrix. -/
def w1_0 (p : FVec Ideal S5x128x256 .f32) : FVec Ideal S128x256 .f32 :=
  shapeCast S128x256 (extractStridedSlice S1x128x256 ![0, 0, 0] p slices_S5x128x256_S1x128x256_0_0_0) shapeCasts_S1x128x256_S128x256
/-- Layer 0's first bias vector. -/
def bv1_0 (p : FVec Ideal S5x256 .f32) : FVec Ideal S256 .f32 :=
  shapeCast S256 (extractStridedSlice S1x256 ![0, 0] p slices_S5x256_S1x256_0_0) shapeCasts_S1x256_S256
/-- Layer 0's second matrix. -/
def w2_0 (p : FVec Ideal S5x256x128 .f32) : FVec Ideal S256x128 .f32 :=
  shapeCast S256x128 (extractStridedSlice S1x256x128 ![0, 0, 0] p slices_S5x256x128_S1x256x128_0_0_0) shapeCasts_S1x256x128_S256x128
/-- Layer 0's second bias vector. -/
def bv2_0 (p : FVec Ideal S5x128 .f32) : FVec Ideal S128 .f32 :=
  shapeCast S128 (extractStridedSlice S1x128 ![0, 0] p slices_S5x128_S1x128_0_0) shapeCasts_S1x128_S128

/-- Layer 1's scale 1 + eps, as a scalar array. -/
def sc1 (eps : FVec Ideal S5 .f32) : FVec Ideal S_ .f32 :=
  addf (constant S_ .f32 0x3F800000#32) (shapeCast S_ (extractStridedSlice S1 ![1] eps slices_S5_S1_1) shapeCasts_S1_S_)
/-- Layer 1's first matrix. -/
def w1_1 (p : FVec Ideal S5x128x256 .f32) : FVec Ideal S128x256 .f32 :=
  shapeCast S128x256 (extractStridedSlice S1x128x256 ![1, 0, 0] p slices_S5x128x256_S1x128x256_1_0_0) shapeCasts_S1x128x256_S128x256
/-- Layer 1's first bias vector. -/
def bv1_1 (p : FVec Ideal S5x256 .f32) : FVec Ideal S256 .f32 :=
  shapeCast S256 (extractStridedSlice S1x256 ![1, 0] p slices_S5x256_S1x256_1_0) shapeCasts_S1x256_S256
/-- Layer 1's second matrix. -/
def w2_1 (p : FVec Ideal S5x256x128 .f32) : FVec Ideal S256x128 .f32 :=
  shapeCast S256x128 (extractStridedSlice S1x256x128 ![1, 0, 0] p slices_S5x256x128_S1x256x128_1_0_0) shapeCasts_S1x256x128_S256x128
/-- Layer 1's second bias vector. -/
def bv2_1 (p : FVec Ideal S5x128 .f32) : FVec Ideal S128 .f32 :=
  shapeCast S128 (extractStridedSlice S1x128 ![1, 0] p slices_S5x128_S1x128_1_0) shapeCasts_S1x128_S128

/-- Layer 2's scale 1 + eps, as a scalar array. -/
def sc2 (eps : FVec Ideal S5 .f32) : FVec Ideal S_ .f32 :=
  addf (constant S_ .f32 0x3F800000#32) (shapeCast S_ (extractStridedSlice S1 ![2] eps slices_S5_S1_2) shapeCasts_S1_S_)
/-- Layer 2's first matrix. -/
def w1_2 (p : FVec Ideal S5x128x256 .f32) : FVec Ideal S128x256 .f32 :=
  shapeCast S128x256 (extractStridedSlice S1x128x256 ![2, 0, 0] p slices_S5x128x256_S1x128x256_2_0_0) shapeCasts_S1x128x256_S128x256
/-- Layer 2's first bias vector. -/
def bv1_2 (p : FVec Ideal S5x256 .f32) : FVec Ideal S256 .f32 :=
  shapeCast S256 (extractStridedSlice S1x256 ![2, 0] p slices_S5x256_S1x256_2_0) shapeCasts_S1x256_S256
/-- Layer 2's second matrix. -/
def w2_2 (p : FVec Ideal S5x256x128 .f32) : FVec Ideal S256x128 .f32 :=
  shapeCast S256x128 (extractStridedSlice S1x256x128 ![2, 0, 0] p slices_S5x256x128_S1x256x128_2_0_0) shapeCasts_S1x256x128_S256x128
/-- Layer 2's second bias vector. -/
def bv2_2 (p : FVec Ideal S5x128 .f32) : FVec Ideal S128 .f32 :=
  shapeCast S128 (extractStridedSlice S1x128 ![2, 0] p slices_S5x128_S1x128_2_0) shapeCasts_S1x128_S128

/-- Layer 3's scale 1 + eps, as a scalar array. -/
def sc3 (eps : FVec Ideal S5 .f32) : FVec Ideal S_ .f32 :=
  addf (constant S_ .f32 0x3F800000#32) (shapeCast S_ (extractStridedSlice S1 ![3] eps slices_S5_S1_3) shapeCasts_S1_S_)
/-- Layer 3's first matrix. -/
def w1_3 (p : FVec Ideal S5x128x256 .f32) : FVec Ideal S128x256 .f32 :=
  shapeCast S128x256 (extractStridedSlice S1x128x256 ![3, 0, 0] p slices_S5x128x256_S1x128x256_3_0_0) shapeCasts_S1x128x256_S128x256
/-- Layer 3's first bias vector. -/
def bv1_3 (p : FVec Ideal S5x256 .f32) : FVec Ideal S256 .f32 :=
  shapeCast S256 (extractStridedSlice S1x256 ![3, 0] p slices_S5x256_S1x256_3_0) shapeCasts_S1x256_S256
/-- Layer 3's second matrix. -/
def w2_3 (p : FVec Ideal S5x256x128 .f32) : FVec Ideal S256x128 .f32 :=
  shapeCast S256x128 (extractStridedSlice S1x256x128 ![3, 0, 0] p slices_S5x256x128_S1x256x128_3_0_0) shapeCasts_S1x256x128_S256x128
/-- Layer 3's second bias vector. -/
def bv2_3 (p : FVec Ideal S5x128 .f32) : FVec Ideal S128 .f32 :=
  shapeCast S128 (extractStridedSlice S1x128 ![3, 0] p slices_S5x128_S1x128_3_0) shapeCasts_S1x128_S128

/-- Layer 4's scale 1 + eps, as a scalar array. -/
def sc4 (eps : FVec Ideal S5 .f32) : FVec Ideal S_ .f32 :=
  addf (constant S_ .f32 0x3F800000#32) (shapeCast S_ (extractStridedSlice S1 ![4] eps slices_S5_S1_4) shapeCasts_S1_S_)
/-- Layer 4's first matrix. -/
def w1_4 (p : FVec Ideal S5x128x256 .f32) : FVec Ideal S128x256 .f32 :=
  shapeCast S128x256 (extractStridedSlice S1x128x256 ![4, 0, 0] p slices_S5x128x256_S1x128x256_4_0_0) shapeCasts_S1x128x256_S128x256
/-- Layer 4's first bias vector. -/
def bv1_4 (p : FVec Ideal S5x256 .f32) : FVec Ideal S256 .f32 :=
  shapeCast S256 (extractStridedSlice S1x256 ![4, 0] p slices_S5x256_S1x256_4_0) shapeCasts_S1x256_S256
/-- Layer 4's second matrix. -/
def w2_4 (p : FVec Ideal S5x256x128 .f32) : FVec Ideal S256x128 .f32 :=
  shapeCast S256x128 (extractStridedSlice S1x256x128 ![4, 0, 0] p slices_S5x256x128_S1x256x128_4_0_0) shapeCasts_S1x256x128_S256x128
/-- Layer 4's second bias vector. -/
def bv2_4 (p : FVec Ideal S5x128 .f32) : FVec Ideal S128 .f32 :=
  shapeCast S128 (extractStridedSlice S1x128 ![4, 0] p slices_S5x128_S1x128_4_0) shapeCasts_S1x128_S128

/-- The bin word of every node, from the graph words, the local bins and the per-graph counts. -/
def binWords (bt sb : IVec S102400 32) (ns : IVec S64 32) : IVec S102400 32 :=
  addi (Host.gather gather_S65_S102400x1_S102400_n_0_n_n_0_1_1
      (concatenate S65 0 [⟨S1, broadcastInDim S1 ![] bcast_S_S1 (constantI S_ 32 0#32)⟩,
        ⟨S64, Host.reduceWindow IntOp.addi ![64] ![1] ![63] ![0] ns (broadcastInDim S_ ![] bcast_S_S_ (constantI S_ 32 0#32)) reduceWindows_S64_S64_w64s1p63_0 h_S_⟩] concatenates_S1_S64_S65_d0)
      (broadcastInDim S102400x1 ![0] bcast_S102400_S102400x1_0
        (select (cmpi .slt bt (broadcastInDim S102400 ![] bcast_S_S102400 (constantI S_ 32 0#32)))
          (addi bt (broadcastInDim S102400 ![] bcast_S_S102400 (constantI S_ 32 65#32))) bt))) sb

/-- The pooled sums divided by the bin counts clamped below at 1. -/
def tail (w : IVec S102400 32) (sums : FVec Ideal S1024x128 .f32) : FVec Ideal S1024x128 .f32 :=
  Host.divf sums (broadcastInDim S1024x128 ![0, 1] bcast_S1024x1_S1024x128_0_1
    (maximumf (Host.scatterAdd scatter_S1024x1_S102400x1_S102400x1_1_0_0_1
        (broadcastInDim S1024x1 ![] bcast_S_S1024x1 (constant S_ .f32 0x00000000#32))
        (broadcastInDim S102400x1 ![0] bcast_S102400_S102400x1_0 w)
        (broadcastInDim S102400x1 ![] bcast_S_S102400x1 (constant S_ .f32 0x3F800000#32)))
      (broadcastInDim S1024x1 ![] bcast_S_S1024x1 (constant S_ .f32 0x3F800000#32))))

/-- The reference's result from its ten arguments: five layers, each over the previous layer's output and its
    aggregation over the edges; the last layer's rows added into a zero array at their bin words; the division by
    the clamped bin counts. -/
def out (x : FVec Ideal S102400x128 .f32) (e : IVec S2x819200 32) (a2 a3 : IVec S102400 32) (a4 : IVec S64 32)
    (p5 : FVec Ideal S5x128x256 .f32) (p6 : FVec Ideal S5x256 .f32) (p7 : FVec Ideal S5x256x128 .f32)
    (p8 : FVec Ideal S5x128 .f32) (eps : FVec Ideal S5 .f32) : FVec Ideal S1024x128 .f32 :=
  let h1 := layer true (sc0 eps) (w1_0 p5) (bv1_0 p6) (w2_0 p7) (bv2_0 p8) x (aggOf (src e) (dst e) x)
  let h2 := layer true (sc1 eps) (w1_1 p5) (bv1_1 p6) (w2_1 p7) (bv2_1 p8) h1 (aggOf (src e) (dst e) h1)
  let h3 := layer true (sc2 eps) (w1_2 p5) (bv1_2 p6) (w2_2 p7) (bv2_2 p8) h2 (aggOf (src e) (dst e) h2)
  let h4 := layer true (sc3 eps) (w1_3 p5) (bv1_3 p6) (w2_3 p7) (bv2_3 p8) h3 (aggOf (src e) (dst e) h3)
  let h5 := layer false (sc4 eps) (w1_4 p5) (bv1_4 p6) (w2_4 p7) (bv2_4 p8) h4 (aggOf (src e) (dst e) h4)
  tail (binWords a2 a3 a4)
    (Host.scatterAdd scatter_S1024x128_S102400x1_S102400x128_1_0_0_1
      (broadcastInDim S1024x128 ![] bcast_S_S1024x128 (constant S_ .f32 0x00000000#32))
      (broadcastInDim S102400x1 ![0] bcast_S102400_S102400x1_0 (binWords a2 a3 a4)) h5)

end Cert.ReferenceIdeal.RefValue

end
-- ==== Proof.RefStretch0.lean ====
/-
  What every stretch of the reference's table keeps, and the two index rows.

  The table never writes an argument buffer, and it writes the two index rows of the edge list (the source words and
  the destination words, each a row of the edge list flattened) once, in its first four operations. So from any
  contents V, after any prefix of the table that contains those four operations, the ten arguments hold what V held
  and the two rows hold the source and destination words of V's edge list. A later stretch keeps that: it is enough
  that it leaves those twelve buffers as it found them.
-/
import proofs.«175996_j627065225439_1_alg».proof.Proof.RefOps
import proofs.«175996_j627065225439_1_alg».proof.Proof.RefDefs

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

/-- The contents W' hold, at the ten arguments and the two index rows, what W held. -/
structure Keeps (W W' : Valuation τ sig (Elt Ideal)) : Prop where
  k0 : W' (main_arg0 : DevRef τ sig) = W (main_arg0 : DevRef τ sig)
  k1 : W' (main_arg1 : DevRef τ sig) = W (main_arg1 : DevRef τ sig)
  k2 : W' (main_arg2 : DevRef τ sig) = W (main_arg2 : DevRef τ sig)
  k3 : W' (main_arg3 : DevRef τ sig) = W (main_arg3 : DevRef τ sig)
  k4 : W' (main_arg4 : DevRef τ sig) = W (main_arg4 : DevRef τ sig)
  k5 : W' (main_arg5 : DevRef τ sig) = W (main_arg5 : DevRef τ sig)
  k6 : W' (main_arg6 : DevRef τ sig) = W (main_arg6 : DevRef τ sig)
  k7 : W' (main_arg7 : DevRef τ sig) = W (main_arg7 : DevRef τ sig)
  k8 : W' (main_arg8 : DevRef τ sig) = W (main_arg8 : DevRef τ sig)
  k9 : W' (main_arg9 : DevRef τ sig) = W (main_arg9 : DevRef τ sig)
  ks : W' (main_v1 : DevRef τ sig) = W (main_v1 : DevRef τ sig)
  kd : W' (main_v3 : DevRef τ sig) = W (main_v3 : DevRef τ sig)

/-- The contents W hold V's arguments, and the source and destination words of V's edge list in the two index rows. -/
structure Inv (V W : Valuation τ sig (Elt Ideal)) : Prop where
  a0 : W (main_arg0 : DevRef τ sig) = V (main_arg0 : DevRef τ sig)
  a1 : W (main_arg1 : DevRef τ sig) = V (main_arg1 : DevRef τ sig)
  a2 : W (main_arg2 : DevRef τ sig) = V (main_arg2 : DevRef τ sig)
  a3 : W (main_arg3 : DevRef τ sig) = V (main_arg3 : DevRef τ sig)
  a4 : W (main_arg4 : DevRef τ sig) = V (main_arg4 : DevRef τ sig)
  a5 : W (main_arg5 : DevRef τ sig) = V (main_arg5 : DevRef τ sig)
  a6 : W (main_arg6 : DevRef τ sig) = V (main_arg6 : DevRef τ sig)
  a7 : W (main_arg7 : DevRef τ sig) = V (main_arg7 : DevRef τ sig)
  a8 : W (main_arg8 : DevRef τ sig) = V (main_arg8 : DevRef τ sig)
  a9 : W (main_arg9 : DevRef τ sig) = V (main_arg9 : DevRef τ sig)
  s : W (main_v1 : DevRef τ sig) = src (V (main_arg1 : DevRef τ sig))
  d : W (main_v3 : DevRef τ sig) = dst (V (main_arg1 : DevRef τ sig))

/-- A stretch that keeps the twelve buffers keeps the invariant. -/
theorem Inv.step {V W W' : Valuation τ sig (Elt Ideal)} (h : Inv V W) (k : Keeps W W') : Inv V W' :=
  ⟨k.k0.trans h.a0, k.k1.trans h.a1, k.k2.trans h.a2, k.k3.trans h.a3, k.k4.trans h.a4, k.k5.trans h.a5, k.k6.trans h.a6, k.k7.trans h.a7, k.k8.trans h.a8, k.k9.trans h.a9, k.ks.trans h.s, k.kd.trans h.d⟩

/-- Keeping composes. -/
theorem Keeps.trans {W W' W'' : Valuation τ sig (Elt Ideal)} (k : Keeps W W') (k' : Keeps W' W'') : Keeps W W'' :=
  ⟨k'.k0.trans k.k0, k'.k1.trans k.k1, k'.k2.trans k.k2, k'.k3.trans k.k3, k'.k4.trans k.k4, k'.k5.trans k.k5, k'.k6.trans k.k6, k'.k7.trans k.k7, k'.k8.trans k.k8, k'.k9.trans k.k9, k'.ks.trans k.ks, k'.kd.trans k.kd⟩

set_option maxRecDepth 8192 in
/-- The first four operations: each index row is its row of the edge list, sliced and flattened. -/
theorem inv_q0 (V : Valuation τ sig (Elt Ideal)) : Inv V (after (q0 (F := Ideal)) V) where
  a0 := by after_results_simp
  a1 := by after_results_simp
  a2 := by after_results_simp
  a3 := by after_results_simp
  a4 := by after_results_simp
  a5 := by after_results_simp
  a6 := by after_results_simp
  a7 := by after_results_simp
  a8 := by after_results_simp
  a9 := by after_results_simp
  s := by after_results_simp <;> rfl
  d := by after_results_simp <;> rfl

end Cert.ReferenceIdeal.RefValue

end
-- ==== Proof.RefStretch1.lean ====
/-
  Layer 0 of the reference's table, read back as one function of whole arrays.

  The stretch gathers the rows of the layer's input named by the source words, adds them into zeros at the rows named
  by the destination words, scales the input by one plus the layer's coefficient, adds the two, and applies the two
  affine maps with the rectifier between them and after them. Every operation reads buffers the stretch itself wrote, the
  layer's input, the two index rows or the arguments; so the layer's output is the layer function applied to the contents
  the stretch found there, and the stretch leaves the arguments and the index rows as they were.
-/
import proofs.«175996_j627065225439_1_alg».proof.Proof.RefStretch0
import proofs.«175996_j627065225439_1_alg».proof.Proof.RefLayer

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

set_option maxRecDepth 8192 in
set_option maxHeartbeats 1000000 in
/-- The stretch writes none of the ten arguments and neither index row. -/
theorem keeps_L0 (W : Valuation τ sig (Elt Ideal)) : Keeps W (after (q1 (F := Ideal)) W) where
  k0 := by after_results_simp
  k1 := by after_results_simp
  k2 := by after_results_simp
  k3 := by after_results_simp
  k4 := by after_results_simp
  k5 := by after_results_simp
  k6 := by after_results_simp
  k7 := by after_results_simp
  k8 := by after_results_simp
  k9 := by after_results_simp
  ks := by after_results_simp
  kd := by after_results_simp

set_option maxRecDepth 8192 in
set_option maxHeartbeats 1000000 in
/-- The layer's output buffer after the stretch: the layer function of what the stretch found. -/
theorem val_L0 (W : Valuation τ sig (Elt Ideal)) :
    after (q1 (F := Ideal)) W (main_v37 : DevRef τ sig)
      = layer true (sc0 (W (main_arg9 : DevRef τ sig))) (w1_0 (W (main_arg5 : DevRef τ sig))) (bv1_0 (W (main_arg6 : DevRef τ sig)))
          (w2_0 (W (main_arg7 : DevRef τ sig))) (bv2_0 (W (main_arg8 : DevRef τ sig))) (W (main_arg0 : DevRef τ sig))
          (aggOf (W (main_v1 : DevRef τ sig)) (W (main_v3 : DevRef τ sig)) (W (main_arg0 : DevRef τ sig))) := by
  after_results_simp <;> rfl

/-- The same from contents that hold V's arguments and V's index rows. -/
theorem step_L0 {V W : Valuation τ sig (Elt Ideal)} (i : Inv V W) :
    after (q1 (F := Ideal)) W (main_v37 : DevRef τ sig)
      = layer true (sc0 (V (main_arg9 : DevRef τ sig))) (w1_0 (V (main_arg5 : DevRef τ sig))) (bv1_0 (V (main_arg6 : DevRef τ sig)))
          (w2_0 (V (main_arg7 : DevRef τ sig))) (bv2_0 (V (main_arg8 : DevRef τ sig))) (V (main_arg0 : DevRef τ sig))
          (aggOf (src (V (main_arg1 : DevRef τ sig))) (dst (V (main_arg1 : DevRef τ sig))) (V (main_arg0 : DevRef τ sig))) := by
  rw [val_L0, i.a9, i.a5, i.a6, i.a7, i.a8, i.s, i.d, i.a0]

end Cert.ReferenceIdeal.RefValue

end
-- ==== Proof.RefStretch2.lean ====
/-
  Layer 1 of the reference's table, read back as one function of whole arrays.

  The stretch gathers the rows of the layer's input named by the source words, adds them into zeros at the rows named
  by the destination words, scales the input by one plus the layer's coefficient, adds the two, and applies the two
  affine maps with the rectifier between them and after them. Every operation reads buffers the stretch itself wrote, the
  layer's input, the two index rows or the arguments; so the layer's output is the layer function applied to the contents
  the stretch found there, and the stretch leaves the arguments and the index rows as they were.
-/
import proofs.«175996_j627065225439_1_alg».proof.Proof.RefStretch0
import proofs.«175996_j627065225439_1_alg».proof.Proof.RefLayer

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

set_option maxRecDepth 8192 in
set_option maxHeartbeats 1000000 in
/-- The stretch writes none of the ten arguments and neither index row. -/
theorem keeps_L1 (W : Valuation τ sig (Elt Ideal)) : Keeps W (after (q3 (F := Ideal)) (after (q2 (F := Ideal)) W)) where
  k0 := by after_results_simp
  k1 := by after_results_simp
  k2 := by after_results_simp
  k3 := by after_results_simp
  k4 := by after_results_simp
  k5 := by after_results_simp
  k6 := by after_results_simp
  k7 := by after_results_simp
  k8 := by after_results_simp
  k9 := by after_results_simp
  ks := by after_results_simp
  kd := by after_results_simp

set_option maxRecDepth 8192 in
set_option maxHeartbeats 1000000 in
/-- The layer's output buffer after the stretch: the layer function of what the stretch found. -/
theorem val_L1 (W : Valuation τ sig (Elt Ideal)) :
    after (q3 (F := Ideal)) (after (q2 (F := Ideal)) W) (main_v71 : DevRef τ sig)
      = layer true (sc1 (W (main_arg9 : DevRef τ sig))) (w1_1 (W (main_arg5 : DevRef τ sig))) (bv1_1 (W (main_arg6 : DevRef τ sig)))
          (w2_1 (W (main_arg7 : DevRef τ sig))) (bv2_1 (W (main_arg8 : DevRef τ sig))) (W (main_v37 : DevRef τ sig))
          (aggOf (W (main_v1 : DevRef τ sig)) (W (main_v3 : DevRef τ sig)) (W (main_v37 : DevRef τ sig))) := by
  after_results_simp <;> rfl

/-- The same from contents that hold V's arguments and V's index rows. -/
theorem step_L1 {V W : Valuation τ sig (Elt Ideal)} (i : Inv V W) :
    after (q3 (F := Ideal)) (after (q2 (F := Ideal)) W) (main_v71 : DevRef τ sig)
      = layer true (sc1 (V (main_arg9 : DevRef τ sig))) (w1_1 (V (main_arg5 : DevRef τ sig))) (bv1_1 (V (main_arg6 : DevRef τ sig)))
          (w2_1 (V (main_arg7 : DevRef τ sig))) (bv2_1 (V (main_arg8 : DevRef τ sig))) (W (main_v37 : DevRef τ sig))
          (aggOf (src (V (main_arg1 : DevRef τ sig))) (dst (V (main_arg1 : DevRef τ sig))) (W (main_v37 : DevRef τ sig))) := by
  rw [val_L1, i.a9, i.a5, i.a6, i.a7, i.a8, i.s, i.d]

end Cert.ReferenceIdeal.RefValue

end
-- ==== Proof.RefStretch3.lean ====
/-
  Layer 2 of the reference's table, read back as one function of whole arrays.

  The stretch gathers the rows of the layer's input named by the source words, adds them into zeros at the rows named
  by the destination words, scales the input by one plus the layer's coefficient, adds the two, and applies the two
  affine maps with the rectifier between them and after them. Every operation reads buffers the stretch itself wrote, the
  layer's input, the two index rows or the arguments; so the layer's output is the layer function applied to the contents
  the stretch found there, and the stretch leaves the arguments and the index rows as they were.
-/
import proofs.«175996_j627065225439_1_alg».proof.Proof.RefStretch0
import proofs.«175996_j627065225439_1_alg».proof.Proof.RefLayer

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

set_option maxRecDepth 8192 in
set_option maxHeartbeats 1000000 in
/-- The stretch writes none of the ten arguments and neither index row. -/
theorem keeps_L2 (W : Valuation τ sig (Elt Ideal)) : Keeps W (after (q4 (F := Ideal)) W) where
  k0 := by after_results_simp
  k1 := by after_results_simp
  k2 := by after_results_simp
  k3 := by after_results_simp
  k4 := by after_results_simp
  k5 := by after_results_simp
  k6 := by after_results_simp
  k7 := by after_results_simp
  k8 := by after_results_simp
  k9 := by after_results_simp
  ks := by after_results_simp
  kd := by after_results_simp

set_option maxRecDepth 8192 in
set_option maxHeartbeats 1000000 in
/-- The layer's output buffer after the stretch: the layer function of what the stretch found. -/
theorem val_L2 (W : Valuation τ sig (Elt Ideal)) :
    after (q4 (F := Ideal)) W (main_v105 : DevRef τ sig)
      = layer true (sc2 (W (main_arg9 : DevRef τ sig))) (w1_2 (W (main_arg5 : DevRef τ sig))) (bv1_2 (W (main_arg6 : DevRef τ sig)))
          (w2_2 (W (main_arg7 : DevRef τ sig))) (bv2_2 (W (main_arg8 : DevRef τ sig))) (W (main_v71 : DevRef τ sig))
          (aggOf (W (main_v1 : DevRef τ sig)) (W (main_v3 : DevRef τ sig)) (W (main_v71 : DevRef τ sig))) := by
  after_results_simp <;> rfl

/-- The same from contents that hold V's arguments and V's index rows. -/
theorem step_L2 {V W : Valuation τ sig (Elt Ideal)} (i : Inv V W) :
    after (q4 (F := Ideal)) W (main_v105 : DevRef τ sig)
      = layer true (sc2 (V (main_arg9 : DevRef τ sig))) (w1_2 (V (main_arg5 : DevRef τ sig))) (bv1_2 (V (main_arg6 : DevRef τ sig)))
          (w2_2 (V (main_arg7 : DevRef τ sig))) (bv2_2 (V (main_arg8 : DevRef τ sig))) (W (main_v71 : DevRef τ sig))
          (aggOf (src (V (main_arg1 : DevRef τ sig))) (dst (V (main_arg1 : DevRef τ sig))) (W (main_v71 : DevRef τ sig))) := by
  rw [val_L2, i.a9, i.a5, i.a6, i.a7, i.a8, i.s, i.d]

end Cert.ReferenceIdeal.RefValue

end
-- ==== Proof.RefStretch4.lean ====
/-
  Layer 3 of the reference's table, read back as one function of whole arrays.

  The stretch gathers the rows of the layer's input named by the source words, adds them into zeros at the rows named
  by the destination words, scales the input by one plus the layer's coefficient, adds the two, and applies the two
  affine maps with the rectifier between them and after them. Every operation reads buffers the stretch itself wrote, the
  layer's input, the two index rows or the arguments; so the layer's output is the layer function applied to the contents
  the stretch found there, and the stretch leaves the arguments and the index rows as they were.
-/
import proofs.«175996_j627065225439_1_alg».proof.Proof.RefStretch0
import proofs.«175996_j627065225439_1_alg».proof.Proof.RefLayer

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

set_option maxRecDepth 8192 in
set_option maxHeartbeats 1000000 in
/-- The stretch writes none of the ten arguments and neither index row. -/
theorem keeps_L3 (W : Valuation τ sig (Elt Ideal)) : Keeps W (after (q6 (F := Ideal)) (after (q5 (F := Ideal)) W)) where
  k0 := by after_results_simp
  k1 := by after_results_simp
  k2 := by after_results_simp
  k3 := by after_results_simp
  k4 := by after_results_simp
  k5 := by after_results_simp
  k6 := by after_results_simp
  k7 := by after_results_simp
  k8 := by after_results_simp
  k9 := by after_results_simp
  ks := by after_results_simp
  kd := by after_results_simp

set_option maxRecDepth 8192 in
set_option maxHeartbeats 1000000 in
/-- The layer's output buffer after the stretch: the layer function of what the stretch found. -/
theorem val_L3 (W : Valuation τ sig (Elt Ideal)) :
    after (q6 (F := Ideal)) (after (q5 (F := Ideal)) W) (main_v139 : DevRef τ sig)
      = layer true (sc3 (W (main_arg9 : DevRef τ sig))) (w1_3 (W (main_arg5 : DevRef τ sig))) (bv1_3 (W (main_arg6 : DevRef τ sig)))
          (w2_3 (W (main_arg7 : DevRef τ sig))) (bv2_3 (W (main_arg8 : DevRef τ sig))) (W (main_v105 : DevRef τ sig))
          (aggOf (W (main_v1 : DevRef τ sig)) (W (main_v3 : DevRef τ sig)) (W (main_v105 : DevRef τ sig))) := by
  after_results_simp <;> rfl

/-- The same from contents that hold V's arguments and V's index rows. -/
theorem step_L3 {V W : Valuation τ sig (Elt Ideal)} (i : Inv V W) :
    after (q6 (F := Ideal)) (after (q5 (F := Ideal)) W) (main_v139 : DevRef τ sig)
      = layer true (sc3 (V (main_arg9 : DevRef τ sig))) (w1_3 (V (main_arg5 : DevRef τ sig))) (bv1_3 (V (main_arg6 : DevRef τ sig)))
          (w2_3 (V (main_arg7 : DevRef τ sig))) (bv2_3 (V (main_arg8 : DevRef τ sig))) (W (main_v105 : DevRef τ sig))
          (aggOf (src (V (main_arg1 : DevRef τ sig))) (dst (V (main_arg1 : DevRef τ sig))) (W (main_v105 : DevRef τ sig))) := by
  rw [val_L3, i.a9, i.a5, i.a6, i.a7, i.a8, i.s, i.d]

end Cert.ReferenceIdeal.RefValue

end
-- ==== Proof.RefStretch5.lean ====
/-
  Layer 4 of the reference's table, read back as one function of whole arrays.

  The stretch gathers the rows of the layer's input named by the source words, adds them into zeros at the rows named
  by the destination words, scales the input by one plus the layer's coefficient, adds the two, and applies the two
  affine maps with the rectifier between them (the last layer has no rectifier after them). Every operation reads buffers the stretch itself wrote, the
  layer's input, the two index rows or the arguments; so the layer's output is the layer function applied to the contents
  the stretch found there, and the stretch leaves the arguments and the index rows as they were.
-/
import proofs.«175996_j627065225439_1_alg».proof.Proof.RefStretch0
import proofs.«175996_j627065225439_1_alg».proof.Proof.RefLayer

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

set_option maxRecDepth 8192 in
set_option maxHeartbeats 1000000 in
/-- The stretch writes none of the ten arguments and neither index row. -/
theorem keeps_L4 (W : Valuation τ sig (Elt Ideal)) : Keeps W (after (q8 (F := Ideal)) (after (q7 (F := Ideal)) W)) where
  k0 := by after_results_simp
  k1 := by after_results_simp
  k2 := by after_results_simp
  k3 := by after_results_simp
  k4 := by after_results_simp
  k5 := by after_results_simp
  k6 := by after_results_simp
  k7 := by after_results_simp
  k8 := by after_results_simp
  k9 := by after_results_simp
  ks := by after_results_simp
  kd := by after_results_simp

set_option maxRecDepth 8192 in
set_option maxHeartbeats 1000000 in
/-- The layer's output buffer after the stretch: the layer function of what the stretch found. -/
theorem val_L4 (W : Valuation τ sig (Elt Ideal)) :
    after (q8 (F := Ideal)) (after (q7 (F := Ideal)) W) (main_v172 : DevRef τ sig)
      = layer false (sc4 (W (main_arg9 : DevRef τ sig))) (w1_4 (W (main_arg5 : DevRef τ sig))) (bv1_4 (W (main_arg6 : DevRef τ sig)))
          (w2_4 (W (main_arg7 : DevRef τ sig))) (bv2_4 (W (main_arg8 : DevRef τ sig))) (W (main_v139 : DevRef τ sig))
          (aggOf (W (main_v1 : DevRef τ sig)) (W (main_v3 : DevRef τ sig)) (W (main_v139 : DevRef τ sig))) := by
  after_results_simp <;> rfl

/-- The same from contents that hold V's arguments and V's index rows. -/
theorem step_L4 {V W : Valuation τ sig (Elt Ideal)} (i : Inv V W) :
    after (q8 (F := Ideal)) (after (q7 (F := Ideal)) W) (main_v172 : DevRef τ sig)
      = layer false (sc4 (V (main_arg9 : DevRef τ sig))) (w1_4 (V (main_arg5 : DevRef τ sig))) (bv1_4 (V (main_arg6 : DevRef τ sig)))
          (w2_4 (V (main_arg7 : DevRef τ sig))) (bv2_4 (V (main_arg8 : DevRef τ sig))) (W (main_v139 : DevRef τ sig))
          (aggOf (src (V (main_arg1 : DevRef τ sig))) (dst (V (main_arg1 : DevRef τ sig))) (W (main_v139 : DevRef τ sig))) := by
  rw [val_L4, i.a9, i.a5, i.a6, i.a7, i.a8, i.s, i.d]

end Cert.ReferenceIdeal.RefValue

end
-- ==== Proof.RefStretch6.lean ====
/-
  The pooling tail of the reference's table, read back.

  The tail turns the graph sizes into bin offsets (a running sum with a zero put in front), adds to each node's own word
  the offset of its graph, sums the last layer's rows into the bin each node's word names, counts the nodes of each bin
  the same way, and divides each bin's sums by its count, taken as one when the bin is empty.
-/
import proofs.«175996_j627065225439_1_alg».proof.Proof.RefStretch0
import proofs.«175996_j627065225439_1_alg».proof.Proof.RefLayer

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

set_option maxRecDepth 8192 in
set_option maxHeartbeats 1000000 in
/-- The tail writes none of the ten arguments and neither index row. -/
theorem keeps_T (W : Valuation τ sig (Elt Ideal)) : Keeps W (after (q9 (F := Ideal)) W) where
  k0 := by after_results_simp
  k1 := by after_results_simp
  k2 := by after_results_simp
  k3 := by after_results_simp
  k4 := by after_results_simp
  k5 := by after_results_simp
  k6 := by after_results_simp
  k7 := by after_results_simp
  k8 := by after_results_simp
  k9 := by after_results_simp
  ks := by after_results_simp
  kd := by after_results_simp

set_option maxRecDepth 8192 in
set_option maxHeartbeats 1000000 in
/-- The result buffer after the tail: the bins' sums of what the tail found in the last layer's output, divided by the
    bins' counts. -/
theorem val_T (W : Valuation τ sig (Elt Ideal)) :
    after (q9 (F := Ideal)) W (main_v194 : DevRef τ sig)
      = tail (binWords (W (main_arg2 : DevRef τ sig)) (W (main_arg3 : DevRef τ sig)) (W (main_arg4 : DevRef τ sig)))
          (Host.scatterAdd scatter_S1024x128_S102400x1_S102400x128_1_0_0_1
            (broadcastInDim S1024x128 ![] bcast_S_S1024x128 (constant S_ .f32 0x00000000#32))
            (broadcastInDim S102400x1 ![0] bcast_S102400_S102400x1_0
              (binWords (W (main_arg2 : DevRef τ sig)) (W (main_arg3 : DevRef τ sig)) (W (main_arg4 : DevRef τ sig))))
            (W (main_v172 : DevRef τ sig))) := by
  after_results_simp <;> rfl

/-- The same from contents that hold V's arguments. -/
theorem step_T {V W : Valuation τ sig (Elt Ideal)} (i : Inv V W) :
    after (q9 (F := Ideal)) W (main_v194 : DevRef τ sig)
      = tail (binWords (V (main_arg2 : DevRef τ sig)) (V (main_arg3 : DevRef τ sig)) (V (main_arg4 : DevRef τ sig)))
          (Host.scatterAdd scatter_S1024x128_S102400x1_S102400x128_1_0_0_1
            (broadcastInDim S1024x128 ![] bcast_S_S1024x128 (constant S_ .f32 0x00000000#32))
            (broadcastInDim S102400x1 ![0] bcast_S102400_S102400x1_0
              (binWords (V (main_arg2 : DevRef τ sig)) (V (main_arg3 : DevRef τ sig)) (V (main_arg4 : DevRef τ sig))))
            (W (main_v172 : DevRef τ sig))) := by
  rw [val_T, i.a2, i.a3, i.a4]

end Cert.ReferenceIdeal.RefValue

end
-- ==== Proof.RefChain.lean ====
/-
  The reference's table folded: the result buffer and the argument buffers after the whole table.

  The table's fold is the folds of its pieces in order. The first piece writes the two index rows; each layer's piece
  leaves the ten arguments and the two rows as it found them and writes the layer function of the previous layer's
  output; the last piece writes the pooled, divided result from the last layer's output. Chained, the result buffer
  holds the reference's result function of the ten arguments, and each argument buffer holds what it held at the start.
-/
import proofs.«175996_j627065225439_1_alg».proof.Proof.RefStretch0
import proofs.«175996_j627065225439_1_alg».proof.Proof.RefStretch1
import proofs.«175996_j627065225439_1_alg».proof.Proof.RefStretch2
import proofs.«175996_j627065225439_1_alg».proof.Proof.RefStretch3
import proofs.«175996_j627065225439_1_alg».proof.Proof.RefStretch4
import proofs.«175996_j627065225439_1_alg».proof.Proof.RefStretch5
import proofs.«175996_j627065225439_1_alg».proof.Proof.RefStretch6

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable (V : Valuation τ sig (Elt Ideal))

/-- The contents after the index rows. -/
abbrev C0 : Valuation τ sig (Elt Ideal) := after (q0 (F := Ideal)) V
/-- The contents after layer 0. -/
abbrev C1 : Valuation τ sig (Elt Ideal) := after (q1 (F := Ideal)) (C0 V)
/-- The contents after layer 1. -/
abbrev C2 : Valuation τ sig (Elt Ideal) := after (q3 (F := Ideal)) (after (q2 (F := Ideal)) (C1 V))
/-- The contents after layer 2. -/
abbrev C3 : Valuation τ sig (Elt Ideal) := after (q4 (F := Ideal)) (C2 V)
/-- The contents after layer 3. -/
abbrev C4 : Valuation τ sig (Elt Ideal) := after (q6 (F := Ideal)) (after (q5 (F := Ideal)) (C3 V))
/-- The contents after layer 4. -/
abbrev C5 : Valuation τ sig (Elt Ideal) := after (q8 (F := Ideal)) (after (q7 (F := Ideal)) (C4 V))
/-- The contents after the pooling tail. -/
abbrev C6 : Valuation τ sig (Elt Ideal) := after (q9 (F := Ideal)) (C5 V)

theorem inv0 : Inv V (C0 V) := inv_q0 V
theorem inv1 : Inv V (C1 V) := (inv0 V).step (keeps_L0 _)
theorem inv2 : Inv V (C2 V) := (inv1 V).step (keeps_L1 _)
theorem inv3 : Inv V (C3 V) := (inv2 V).step (keeps_L2 _)
theorem inv4 : Inv V (C4 V) := (inv3 V).step (keeps_L3 _)
theorem inv5 : Inv V (C5 V) := (inv4 V).step (keeps_L4 _)
theorem inv6 : Inv V (C6 V) := (inv5 V).step (keeps_T _)

/-- The table's fold is the last piece's fold over the chain of contents. -/
theorem after_ops_chain : after (ops (F := Ideal)) V = C6 V := after_ops V

/-- Layer 0's output as a function of the arguments. -/
abbrev H1 : FVec Ideal S102400x128 .f32 :=
  layer true (sc0 (V (main_arg9 : DevRef τ sig))) (w1_0 (V (main_arg5 : DevRef τ sig))) (bv1_0 (V (main_arg6 : DevRef τ sig)))
    (w2_0 (V (main_arg7 : DevRef τ sig))) (bv2_0 (V (main_arg8 : DevRef τ sig))) (V (main_arg0 : DevRef τ sig))
    (aggOf (src (V (main_arg1 : DevRef τ sig))) (dst (V (main_arg1 : DevRef τ sig))) (V (main_arg0 : DevRef τ sig)))
/-- Layer 1's output as a function of the arguments. -/
abbrev H2 : FVec Ideal S102400x128 .f32 :=
  layer true (sc1 (V (main_arg9 : DevRef τ sig))) (w1_1 (V (main_arg5 : DevRef τ sig))) (bv1_1 (V (main_arg6 : DevRef τ sig)))
    (w2_1 (V (main_arg7 : DevRef τ sig))) (bv2_1 (V (main_arg8 : DevRef τ sig))) (H1 V)
    (aggOf (src (V (main_arg1 : DevRef τ sig))) (dst (V (main_arg1 : DevRef τ sig))) (H1 V))
/-- Layer 2's output as a function of the arguments. -/
abbrev H3 : FVec Ideal S102400x128 .f32 :=
  layer true (sc2 (V (main_arg9 : DevRef τ sig))) (w1_2 (V (main_arg5 : DevRef τ sig))) (bv1_2 (V (main_arg6 : DevRef τ sig)))
    (w2_2 (V (main_arg7 : DevRef τ sig))) (bv2_2 (V (main_arg8 : DevRef τ sig))) (H2 V)
    (aggOf (src (V (main_arg1 : DevRef τ sig))) (dst (V (main_arg1 : DevRef τ sig))) (H2 V))
/-- Layer 3's output as a function of the arguments. -/
abbrev H4 : FVec Ideal S102400x128 .f32 :=
  layer true (sc3 (V (main_arg9 : DevRef τ sig))) (w1_3 (V (main_arg5 : DevRef τ sig))) (bv1_3 (V (main_arg6 : DevRef τ sig)))
    (w2_3 (V (main_arg7 : DevRef τ sig))) (bv2_3 (V (main_arg8 : DevRef τ sig))) (H3 V)
    (aggOf (src (V (main_arg1 : DevRef τ sig))) (dst (V (main_arg1 : DevRef τ sig))) (H3 V))
/-- Layer 4's output as a function of the arguments. -/
abbrev H5 : FVec Ideal S102400x128 .f32 :=
  layer false (sc4 (V (main_arg9 : DevRef τ sig))) (w1_4 (V (main_arg5 : DevRef τ sig))) (bv1_4 (V (main_arg6 : DevRef τ sig)))
    (w2_4 (V (main_arg7 : DevRef τ sig))) (bv2_4 (V (main_arg8 : DevRef τ sig))) (H4 V)
    (aggOf (src (V (main_arg1 : DevRef τ sig))) (dst (V (main_arg1 : DevRef τ sig))) (H4 V))

/-- After layer 0's piece its output buffer holds layer 0's output. -/
theorem val1 : C1 V (main_v37 : DevRef τ sig) = H1 V := step_L0 (inv0 V)
/-- After layer 1's piece its output buffer holds layer 1's output. -/
theorem val2 : C2 V (main_v71 : DevRef τ sig) = H2 V :=
  (step_L1 (inv1 V)).trans (by rw [val1 V])
/-- After layer 2's piece its output buffer holds layer 2's output. -/
theorem val3 : C3 V (main_v105 : DevRef τ sig) = H3 V :=
  (step_L2 (inv2 V)).trans (by rw [val2 V])
/-- After layer 3's piece its output buffer holds layer 3's output. -/
theorem val4 : C4 V (main_v139 : DevRef τ sig) = H4 V :=
  (step_L3 (inv3 V)).trans (by rw [val3 V])
/-- After layer 4's piece its output buffer holds layer 4's output. -/
theorem val5 : C5 V (main_v172 : DevRef τ sig) = H5 V :=
  (step_L4 (inv4 V)).trans (by rw [val4 V])

/-- THE RESULT BUFFER after the whole table: the reference's result function of the arguments. -/
theorem after_ops_out :
    after (ops (F := Ideal)) V (main_v194 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_ops_chain]
  refine (step_T (inv5 V)).trans ?_
  rw [val5 V]
  rfl

end Cert.ReferenceIdeal.RefValue

end
-- ==== Proof.RefRun.lean ====
/-
  The reference's run, with its result named.

  @main is its table of host operations run in order, so every weakly fair execution of it terminates with every buffer
  at the table's fold over the launch contents; the fold's result buffer is the reference's result function of the ten
  launch arguments, and its argument buffers are as launched.
-/
import proofs.«175996_j627065225439_1_alg».proof.Proof.RefOpsMain
import proofs.«175996_j627065225439_1_alg».proof.Proof.RefOpsLists
import proofs.«175996_j627065225439_1_alg».proof.Proof.RefChain

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

/-- On every device, from any memory with zero counters: every weakly fair execution of @main terminates with every
    TensorCore buffer at the fold of the table over the launch contents. -/
theorem run_ops {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- On every device, from any memory with zero counters: every weakly fair execution of the reference terminates with
    the result buffer at the result function of the launch arguments and every argument buffer as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v194)
        = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨(h c main_v194).trans (after_ops_out (launchContents m c)),
     (h c main_arg0).trans ((congrFun (after_ops_chain (launchContents m c)) _).trans (inv6 (launchContents m c)).a0),
     (h c main_arg1).trans ((congrFun (after_ops_chain (launchContents m c)) _).trans (inv6 (launchContents m c)).a1),
     (h c main_arg2).trans ((congrFun (after_ops_chain (launchContents m c)) _).trans (inv6 (launchContents m c)).a2),
     (h c main_arg3).trans ((congrFun (after_ops_chain (launchContents m c)) _).trans (inv6 (launchContents m c)).a3),
     (h c main_arg4).trans ((congrFun (after_ops_chain (launchContents m c)) _).trans (inv6 (launchContents m c)).a4),
     (h c main_arg5).trans ((congrFun (after_ops_chain (launchContents m c)) _).trans (inv6 (launchContents m c)).a5),
     (h c main_arg6).trans ((congrFun (after_ops_chain (launchContents m c)) _).trans (inv6 (launchContents m c)).a6),
     (h c main_arg7).trans ((congrFun (after_ops_chain (launchContents m c)) _).trans (inv6 (launchContents m c)).a7),
     (h c main_arg8).trans ((congrFun (after_ops_chain (launchContents m c)) _).trans (inv6 (launchContents m c)).a8),
     (h c main_arg9).trans ((congrFun (after_ops_chain (launchContents m c)) _).trans (inv6 (launchContents m c)).a9)⟩)
    (run_ops m ρ)

end Cert.ReferenceIdeal.RefValue

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.PoolScatter.lean ====
/-
  The reference's pooled sums: rows accumulated into bins through the column of bin words.

  The reference starts from the zero array of 1024 bins by 128 features and adds row n of the node features into the
  row named by the n-th bin word, read as a signed integer, when that integer lies in [0, 1024); a word outside the
  range adds nothing. A word names bin s < 1024 exactly when it is the 32-bit word of s, so at (s, d) the result is
  the zero entry plus the sum over the rows n whose word is s of h(n, d): the pooled sum, with no finiteness needed
  (the zero entry is the additive unit of the extended reals).
-/
import proofs.«175996_j627065225439_1_alg».proof.Proof.Spec
import proofs.«175996_j627065225439_1_alg».proof.Proof.LibGatherScatter
import Idealize.ShloMosaic.PureOps.Ideal.Laws

noncomputable section

open scoped BigOperators

namespace Cert.PoolScatter

open Idealize.ShloMosaic Idealize.ShloMosaic.ValueIdx
open Cert.Lib.GatherScatter

/-- The 32-bit word of a number below 1024, read signed, is that number. -/
theorem toInt_ofNat_small (s : Nat) (hs : s < 1024) : (BitVec.ofNat 32 s).toInt = (s : Int) := by
  rw [BitVec.toInt_eq_toNat_cond, BitVec.toNat_ofNat]
  have e : s % 2 ^ 32 = s := Nat.mod_eq_of_lt (by omega)
  rw [e, if_pos (by omega)]

/-- The n-th word names bin s for the accumulation exactly when it is the word of s. -/
theorem scatterRow_eq_some_iff {R : Nat} (idx : IVec ⟨2, ![R, 1]⟩ 32) (e : Fin R) (s : Fin 1024) :
    scatterRow 1024 idx e = some s ↔ idx (ix2 e (0 : Fin 1)) = BitVec.ofNat 32 s.val := by
  unfold scatterRow colInt
  constructor
  · intro h
    split at h
    · rename_i hr
      have h3 : ((idx (ix2 e (0 : Fin 1))).toInt).toNat = s.val := congrArg Fin.val (Option.some.inj h)
      apply BitVec.eq_of_toInt_eq
      rw [toInt_ofNat_small s.val s.isLt]
      omega
    · exact absurd h (by simp)
  · intro h
    have ht : (idx (ix2 e (0 : Fin 1))).toInt = (s.val : Int) := by rw [h]; exact toInt_ofNat_small s.val s.isLt
    have hs := s.isLt
    rw [dif_pos (by omega)]
    exact congrArg some (Fin.ext (by show ((idx (ix2 e (0 : Fin 1))).toInt).toNat = s.val; omega))

/-- THE REFERENCE'S ACCUMULATION IS THE POOLED SUM: rows of h added into the zero array through the column of bin
    words give, at bin s and feature d, the sum of h(n, d) over the rows n whose word is s. -/
theorem scatter_eq_pool (wf : ScatterDims.WF ⟨2, ![1024, 128]⟩ ⟨2, ![102400, 1]⟩ ⟨2, ![102400, 128]⟩ [1] [0] [0] 1)
    (hb : (⟨0, ![]⟩ : Shape).BroadcastsInDim ⟨2, ![1024, 128]⟩ ![])
    (h : FVec Ideal ⟨2, ![102400, 128]⟩ .f32) (idx : IVec ⟨2, ![102400, 1]⟩ 32) :
    Host.scatterAdd (rowScatterDims 1024 128 102400 wf)
        (broadcastInDim ⟨2, ![1024, 128]⟩ ![] hb (constant (F := Ideal) ⟨0, ![]⟩ .f32 0x00000000#32)) idx h
      = Cert.Spec.pool h (fun n => idx (ix2 n 0)) := by
  funext i
  obtain ⟨s, d, rfl⟩ : ∃ (s : Fin 1024) (d : Fin 128), i = ix2 s d := ⟨i 0, i 1, eq_ix2 i⟩
  rw [rowScatterAdd_apply, Cert.Spec.pool_ix2]
  have hx : broadcastInDim ⟨2, ![1024, 128]⟩ ![] hb (constant (F := Ideal) ⟨0, ![]⟩ .f32 0x00000000#32) (ix2 s d)
      = (0 : EReal) :=
    (broadcastInDim_apply _ hb _ (ix2 s d) ix0 (fun a => a.elim0)).trans Ideal.ofBits_zero_f32
  rw [hx, zero_add, Finset.sum_filter]
  unfold Cert.Spec.poolAt
  refine Finset.sum_congr rfl fun n _ => ?_
  by_cases hn : idx (ix2 n (0 : Fin 1)) = BitVec.ofNat 32 s.val
  · rw [if_pos ((scatterRow_eq_some_iff idx n s).mpr hn), if_pos hn]
  · rw [if_neg (fun hh => hn ((scatterRow_eq_some_iff idx n s).mp hh)), if_neg hn]

end Cert.PoolScatter

end
-- ==== Proof.RefNormal.lean ====
/-
  The reference's result in the shared normal form.

  Each of the five layers is the specification's layer (read index by index), its scale the scalar 1 + eps(r); the
  accumulation of the last layer's rows into a zero array through the column of bin words is the specification's
  pooled sum, the column read back as the vector of bin words. So the reference's result is the division by the
  clamped bin counts applied to the pooled sums of the specification's five-layer network.
-/
import proofs.«175996_j627065225439_1_alg».proof.Proof.RefDefs
import proofs.«175996_j627065225439_1_alg».proof.Proof.PoolScatter
import proofs.«175996_j627065225439_1_alg».proof.Proof.LibGatherScatter

noncomputable section

namespace Cert.ReferenceIdeal.RefValue

open Cert.ReferenceIdeal Idealize.ShloMosaic Idealize.ShloMosaic.ValueIdx
open Cert.ReferenceIdeal.Facts₀

/-- Layer 0's scale is 1 + eps 0. -/
theorem sc0_apply (eps : FVec Ideal S5 .f32) :
    sc0 eps ix0 = Ideal.ofBits .f32 0x3F800000#32 + eps (ix1 (0 : Fin 5)) := by
  unfold sc0
  rw [addf_apply, constant_apply]
  refine congrArg (fun y => Ideal.ofBits .f32 0x3F800000#32 + y) ?_
  refine (shapeCast_apply _ shapeCasts_S1_S_ ix0 (ix1 (0 : Fin 1)) (by rw [Shape.rowMajor_val_one]; rfl)).trans ?_
  exact extractStridedSlice_apply ![0] eps slices_S5_S1_0 (ix1 (0 : Fin 1)) (ix1 (0 : Fin 5)) (fun a => by
    match a with
    | ⟨0, _⟩ => rfl)

/-- Layer 1's scale is 1 + eps 1. -/
theorem sc1_apply (eps : FVec Ideal S5 .f32) :
    sc1 eps ix0 = Ideal.ofBits .f32 0x3F800000#32 + eps (ix1 (1 : Fin 5)) := by
  unfold sc1
  rw [addf_apply, constant_apply]
  refine congrArg (fun y => Ideal.ofBits .f32 0x3F800000#32 + y) ?_
  refine (shapeCast_apply _ shapeCasts_S1_S_ ix0 (ix1 (0 : Fin 1)) (by rw [Shape.rowMajor_val_one]; rfl)).trans ?_
  exact extractStridedSlice_apply ![1] eps slices_S5_S1_1 (ix1 (0 : Fin 1)) (ix1 (1 : Fin 5)) (fun a => by
    match a with
    | ⟨0, _⟩ => rfl)

/-- Layer 2's scale is 1 + eps 2. -/
theorem sc2_apply (eps : FVec Ideal S5 .f32) :
    sc2 eps ix0 = Ideal.ofBits .f32 0x3F800000#32 + eps (ix1 (2 : Fin 5)) := by
  unfold sc2
  rw [addf_apply, constant_apply]
  refine congrArg (fun y => Ideal.ofBits .f32 0x3F800000#32 + y) ?_
  refine (shapeCast_apply _ shapeCasts_S1_S_ ix0 (ix1 (0 : Fin 1)) (by rw [Shape.rowMajor_val_one]; rfl)).trans ?_
  exact extractStridedSlice_apply ![2] eps slices_S5_S1_2 (ix1 (0 : Fin 1)) (ix1 (2 : Fin 5)) (fun a => by
    match a with
    | ⟨0, _⟩ => rfl)

/-- Layer 3's scale is 1 + eps 3. -/
theorem sc3_apply (eps : FVec Ideal S5 .f32) :
    sc3 eps ix0 = Ideal.ofBits .f32 0x3F800000#32 + eps (ix1 (3 : Fin 5)) := by
  unfold sc3
  rw [addf_apply, constant_apply]
  refine congrArg (fun y => Ideal.ofBits .f32 0x3F800000#32 + y) ?_
  refine (shapeCast_apply _ shapeCasts_S1_S_ ix0 (ix1 (0 : Fin 1)) (by rw [Shape.rowMajor_val_one]; rfl)).trans ?_
  exact extractStridedSlice_apply ![3] eps slices_S5_S1_3 (ix1 (0 : Fin 1)) (ix1 (3 : Fin 5)) (fun a => by
    match a with
    | ⟨0, _⟩ => rfl)

/-- Layer 4's scale is 1 + eps 4. -/
theorem sc4_apply (eps : FVec Ideal S5 .f32) :
    sc4 eps ix0 = Ideal.ofBits .f32 0x3F800000#32 + eps (ix1 (4 : Fin 5)) := by
  unfold sc4
  rw [addf_apply, constant_apply]
  refine congrArg (fun y => Ideal.ofBits .f32 0x3F800000#32 + y) ?_
  refine (shapeCast_apply _ shapeCasts_S1_S_ ix0 (ix1 (0 : Fin 1)) (by rw [Shape.rowMajor_val_one]; rfl)).trans ?_
  exact extractStridedSlice_apply ![4] eps slices_S5_S1_4 (ix1 (0 : Fin 1)) (ix1 (4 : Fin 5)) (fun a => by
    match a with
    | ⟨0, _⟩ => rfl)

/-- Rows added into the zero array through any column of words: the specification's pooled sums over the column. -/
theorem pooled_col (idx : IVec S102400x1 32) (h : FVec Ideal S102400x128 .f32) :
    Host.scatterAdd scatter_S1024x128_S102400x1_S102400x128_1_0_0_1
        (broadcastInDim S1024x128 ![] bcast_S_S1024x128 (constant S_ .f32 0x00000000#32)) idx h
      = Cert.Spec.pool h (fun n => idx (ix2 n 0)) :=
  Cert.PoolScatter.scatter_eq_pool scatter_S1024x128_S102400x1_S102400x128_1_0_0_1_wf bcast_S_S1024x128 h idx

/-- Rows added into the zero array through the column of bin words: the specification's pooled sums over the words. -/
theorem pooled_eq (w : IVec S102400 32) (h : FVec Ideal S102400x128 .f32) :
    Host.scatterAdd scatter_S1024x128_S102400x1_S102400x128_1_0_0_1
        (broadcastInDim S1024x128 ![] bcast_S_S1024x128 (constant S_ .f32 0x00000000#32))
        (broadcastInDim S102400x1 ![0] bcast_S102400_S102400x1_0 w) h
      = Cert.Spec.pool h (fun n => w (ix1 n)) := by
  have hcol : (fun n : Fin 102400 => (broadcastInDim S102400x1 ![0] bcast_S102400_S102400x1_0 w) (ix2 n 0))
      = fun n => w (ix1 n) :=
    funext fun n => Cert.Lib.GatherScatter.column_apply w bcast_S102400_S102400x1_0 n 0
  rw [← hcol]
  generalize broadcastInDim S102400x1 ![0] bcast_S102400_S102400x1_0 w = idx
  exact pooled_col idx h

/-- One layer of the reference as a function of its input alone: the layer over the input and its aggregation. -/
def refStep (relu : Bool) (A : FVec Ideal S102400x128 .f32 → FVec Ideal S102400x128 .f32) (c : FVec Ideal S_ .f32)
    (W1 : FVec Ideal S128x256 .f32) (b1 : FVec Ideal S256 .f32) (W2 : FVec Ideal S256x128 .f32)
    (b2 : FVec Ideal S128 .f32) (hh : FVec Ideal S102400x128 .f32) : FVec Ideal S102400x128 .f32 :=
  layer relu c W1 b1 W2 b2 hh (A hh)

/-- One layer of the specification as a function of its input alone. -/
def specStep (relu : Bool) (A : FVec Ideal S102400x128 .f32 → FVec Ideal S102400x128 .f32) (s : EReal)
    (W1 : FVec Ideal S128x256 .f32) (b1 : FVec Ideal S256 .f32) (W2 : FVec Ideal S256x128 .f32)
    (b2 : FVec Ideal S128 .f32) (hh : FVec Ideal S102400x128 .f32) : FVec Ideal S102400x128 .f32 :=
  Cert.Spec.gin relu s hh (A hh) W1 (fun q => b1 (ix1 q)) W2 (fun d => b2 (ix1 d))

/-- A layer of the reference whose scale reads s is the specification's layer with scale s. -/
theorem refStep_eq (relu : Bool) (A : FVec Ideal S102400x128 .f32 → FVec Ideal S102400x128 .f32)
    (c : FVec Ideal S_ .f32) (W1 : FVec Ideal S128x256 .f32) (b1 : FVec Ideal S256 .f32)
    (W2 : FVec Ideal S256x128 .f32) (b2 : FVec Ideal S128 .f32) (s : EReal) (hs : c ix0 = s) :
    refStep relu A c W1 b1 W2 b2 = specStep relu A s W1 b1 W2 b2 :=
  funext fun hh => by
    unfold refStep specStep
    rw [layer_eq_gin, hs]

/-- THE REFERENCE IN NORMAL FORM: the clamped-count division of the pooled sums of the five-layer network. -/
theorem out_eq (x : FVec Ideal S102400x128 .f32) (e : IVec S2x819200 32) (a2 a3 : IVec S102400 32) (a4 : IVec S64 32)
    (p5 : FVec Ideal S5x128x256 .f32) (p6 : FVec Ideal S5x256 .f32) (p7 : FVec Ideal S5x256x128 .f32)
    (p8 : FVec Ideal S5x128 .f32) (eps : FVec Ideal S5 .f32) :
    out x e a2 a3 a4 p5 p6 p7 p8 eps
      = tail (binWords a2 a3 a4)
          (Cert.Spec.pool
            (Cert.Spec.net (aggOf (src e) (dst e)) (fun r => Ideal.ofBits .f32 0x3F800000#32 + eps (ix1 r))
              ![w1_0 p5, w1_1 p5, w1_2 p5, w1_3 p5, w1_4 p5]
              ![fun q => bv1_0 p6 (ix1 q), fun q => bv1_1 p6 (ix1 q), fun q => bv1_2 p6 (ix1 q), fun q => bv1_3 p6 (ix1 q), fun q => bv1_4 p6 (ix1 q)]
              ![w2_0 p7, w2_1 p7, w2_2 p7, w2_3 p7, w2_4 p7]
              ![fun d => bv2_0 p8 (ix1 d), fun d => bv2_1 p8 (ix1 d), fun d => bv2_2 p8 (ix1 d), fun d => bv2_3 p8 (ix1 d), fun d => bv2_4 p8 (ix1 d)]
              x)
            (fun n => binWords a2 a3 a4 (ix1 n))) := by
  -- the five layers of the reference, composed
  have hL : out x e a2 a3 a4 p5 p6 p7 p8 eps = tail (binWords a2 a3 a4) (Host.scatterAdd scatter_S1024x128_S102400x1_S102400x128_1_0_0_1
        (broadcastInDim S1024x128 ![] bcast_S_S1024x128 (constant S_ .f32 0x00000000#32))
        (broadcastInDim S102400x1 ![0] bcast_S102400_S102400x1_0 (binWords a2 a3 a4))
        (refStep false (aggOf (src e) (dst e)) (sc4 eps) (w1_4 p5) (bv1_4 p6) (w2_4 p7) (bv2_4 p8)
        (refStep true (aggOf (src e) (dst e)) (sc3 eps) (w1_3 p5) (bv1_3 p6) (w2_3 p7) (bv2_3 p8)
        (refStep true (aggOf (src e) (dst e)) (sc2 eps) (w1_2 p5) (bv1_2 p6) (w2_2 p7) (bv2_2 p8)
        (refStep true (aggOf (src e) (dst e)) (sc1 eps) (w1_1 p5) (bv1_1 p6) (w2_1 p7) (bv2_1 p8)
        (refStep true (aggOf (src e) (dst e)) (sc0 eps) (w1_0 p5) (bv1_0 p6) (w2_0 p7) (bv2_0 p8)
        x)))))) := rfl
  -- the five layers of the specification, composed
  have hR : Cert.Spec.net (aggOf (src e) (dst e)) (fun r => Ideal.ofBits .f32 0x3F800000#32 + eps (ix1 r))
              ![w1_0 p5, w1_1 p5, w1_2 p5, w1_3 p5, w1_4 p5]
              ![fun q => bv1_0 p6 (ix1 q), fun q => bv1_1 p6 (ix1 q), fun q => bv1_2 p6 (ix1 q), fun q => bv1_3 p6 (ix1 q), fun q => bv1_4 p6 (ix1 q)]
              ![w2_0 p7, w2_1 p7, w2_2 p7, w2_3 p7, w2_4 p7]
              ![fun d => bv2_0 p8 (ix1 d), fun d => bv2_1 p8 (ix1 d), fun d => bv2_2 p8 (ix1 d), fun d => bv2_3 p8 (ix1 d), fun d => bv2_4 p8 (ix1 d)]
              x
      = (specStep false (aggOf (src e) (dst e)) (Ideal.ofBits .f32 0x3F800000#32 + eps (ix1 (4 : Fin 5))) (w1_4 p5) (bv1_4 p6) (w2_4 p7) (bv2_4 p8)
        (specStep true (aggOf (src e) (dst e)) (Ideal.ofBits .f32 0x3F800000#32 + eps (ix1 (3 : Fin 5))) (w1_3 p5) (bv1_3 p6) (w2_3 p7) (bv2_3 p8)
        (specStep true (aggOf (src e) (dst e)) (Ideal.ofBits .f32 0x3F800000#32 + eps (ix1 (2 : Fin 5))) (w1_2 p5) (bv1_2 p6) (w2_2 p7) (bv2_2 p8)
        (specStep true (aggOf (src e) (dst e)) (Ideal.ofBits .f32 0x3F800000#32 + eps (ix1 (1 : Fin 5))) (w1_1 p5) (bv1_1 p6) (w2_1 p7) (bv2_1 p8)
        (specStep true (aggOf (src e) (dst e)) (Ideal.ofBits .f32 0x3F800000#32 + eps (ix1 (0 : Fin 5))) (w1_0 p5) (bv1_0 p6) (w2_0 p7) (bv2_0 p8)
        x))))) := rfl
  rw [hL, hR, refStep_eq _ _ _ _ _ _ _ _ (sc0_apply eps), refStep_eq _ _ _ _ _ _ _ _ (sc1_apply eps),
    refStep_eq _ _ _ _ _ _ _ _ (sc2_apply eps), refStep_eq _ _ _ _ _ _ _ _ (sc3_apply eps),
    refStep_eq _ _ _ _ _ _ _ _ (sc4_apply eps), pooled_eq]

end Cert.ReferenceIdeal.RefValue

end
-- ==== Proof.Bridge.lean ====
/-
  The two results are one function of the arguments.

  In normal form the reference's result and the idealized kernel's result are both the pooled output of the five-layer
  network over the clamped bin counts, with the same aggregation over the edge list, the same scales 1 + eps r, the same
  parameter slices and the same bin words: the host operations that prepare them are the same operations on both sides.
-/
import proofs.«175996_j627065225439_1_alg».proof.Proof.KOut
import proofs.«175996_j627065225439_1_alg».proof.Proof.RefNormal

set_option maxRecDepth 16384

noncomputable section

namespace Cert.Proof.Bridge

open Idealize.ShloMosaic

/-- The reference's result function is the kernel's. -/
theorem out_eq_kout (x : FVec Ideal Cert.KernelIdeal.S102400x128 .f32) (e : IVec Cert.KernelIdeal.S2x819200 32)
    (a2 a3 : IVec Cert.KernelIdeal.S102400 32) (a4 : IVec Cert.KernelIdeal.S64 32)
    (p5 : FVec Ideal Cert.KernelIdeal.S5x128x256 .f32) (p6 : FVec Ideal Cert.KernelIdeal.S5x256 .f32)
    (p7 : FVec Ideal Cert.KernelIdeal.S5x256x128 .f32) (p8 : FVec Ideal Cert.KernelIdeal.S5x128 .f32)
    (eps : FVec Ideal Cert.KernelIdeal.S5 .f32) :
    Cert.ReferenceIdeal.RefValue.out x e a2 a3 a4 p5 p6 p7 p8 eps = Cert.KernelIdeal.KValue.kout x e a2 a3 a4 p5 p6 p7 p8 eps := by
  rw [Cert.ReferenceIdeal.RefValue.out_eq, Cert.KernelIdeal.KValue.kout_eq]
  rfl

end Cert.Proof.Bridge

end
-- ==== Proof.lean ====
/-
  The certificate: a five-layer message-passing network followed by a mean-pool over bins, computed by six pallas_calls
  among host operations, against the same network written with plain array operations.

  At the exact values both programs compute, for each bin s and feature d,

      ( ∑ over the nodes n whose bin word is s of  h5(n, d) ) / max(count of such nodes, 1),

  where h5 is the fifth of five layers h ↦ act(max((1 + eps r) · h + A h) · W1 r + b1 r, 0) · W2 r + b2 r) (act the
  rectifier on all but the last), A the aggregation over the edge list. The kernel tiles the nodes 2048 rows at a time,
  rounds its matrix operands to a shorter float format (the identity at the exact values) and pools by multiplying with a
  0/1 matrix accumulated over 100 blocks of rows; the reference adds rows into bins directly. The two sums have the same
  terms — a 0/1 factor times a row is the row or zero on every extended real — in another order and grouping, and the
  extended reals' addition is commutative and associative, so no finiteness of the inputs is used.

  The three frames: the two kernels' are the generated frame certificates; the reference's is its run with the result
  dropped. The idealization rewrote no operation, so there is nothing to preserve. The value claim joins the kernel's run
  (its result read off the program's final buffer contents) with the reference's run through the common normal form.
-/
import proofs.«175996_j627065225439_1_alg».proof.Defs
import proofs.«175996_j627065225439_1_alg».proof.Proof.Gen.Kernel
import proofs.«175996_j627065225439_1_alg».proof.Proof.Gen.Kernel.Frame
import proofs.«175996_j627065225439_1_alg».proof.Proof.Gen.KernelIdeal
import proofs.«175996_j627065225439_1_alg».proof.Proof.Gen.KernelIdeal.Frame
import proofs.«175996_j627065225439_1_alg».proof.Proof.Gen.ReferenceIdeal
import proofs.«175996_j627065225439_1_alg».proof.Proof.Gen.Pre_finite_inputs
import proofs.«175996_j627065225439_1_alg».proof.Proof.KRun
import proofs.«175996_j627065225439_1_alg».proof.Proof.KChain
import proofs.«175996_j627065225439_1_alg».proof.Proof.RefRun
import proofs.«175996_j627065225439_1_alg».proof.Proof.Bridge

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both programs end at the kernel's result function of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.kout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KValue.kvalue m ρ c), (h c).2⟩)
      (Cert.KernelIdeal.KValue.run_named (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact Cert.Proof.Bridge.out_eq_kout _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
